-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x4 : Shape := ⟨2, ![200000, 4]⟩
abbrev S6400000 : Shape := ⟨1, ![6400000]⟩
abbrev S6400000x2 : Shape := ⟨2, ![6400000, 2]⟩
abbrev S2x6400000 : Shape := ⟨2, ![2, 6400000]⟩
abbrev S_ : Shape := ⟨0, ![]⟩

class Facts : Prop where
  bcast_S_S200000x4 : S_.BroadcastsInDim S200000x4 (![] : Fin 0 → Fin S200000x4.rank)
  reducesTo_S200000x4_S_d0_1 : S200000x4.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S6400000x2 : S_.BroadcastsInDim S6400000x2 (![] : Fin 0 → Fin S6400000x2.rank)
  reducesTo_S6400000x2_S_d0_1 : S6400000x2.ReducesTo [0, 1] S_

variable [Facts]

def fn_part1 {F : FTy → Type} [FloatOps F] (main_arg4 : FVec F S6400000x2 .f32) (main_v13 : IVec S_ 1) (main_v16 : IVec S6400000 1) : IVec S_ 1 :=
  let main_c_5 : IVec S_ 1 := constantI S_ 1 1#1
  let main_v17 : IVec S_ 1 := (fun x v => Host.reduce IntOp.andi x v reducesTo_S6400000_S_d0 h_S_) main_v16 main_c_5
  let main_v18 : IVec S_ 1 := andi main_v13 main_v17
  let main_v19 : FVec F S6400000x2 .f32 := Host.absf main_arg4
  let main_cst_6 : FVec F S_ .f32 := constant S_ .f32 0x7F800000#32
  let main_v20 : FVec F S6400000x2 .f32 := broadcastInDim S6400000x2 ![] bcast_S_S6400000x2 main_cst_6
  let main_v21 : IVec S6400000x2 1 := cmpf .olt main_v19 main_v20
  let main_c_7 : IVec S_ 1 := constantI S_ 1 1#1
  let main_v22 : IVec S_ 1 := (fun x v => Host.reduce IntOp.andi x v reducesTo_S6400000x2_S_d0_1 h_S_) main_v21 main_c_7
  let main_v23 : IVec S_ 1 := andi main_v18 main_v22
  main_v23

def fn {F : FTy → Type} [FloatOps F] (main_arg0 : FVec F S200000x4 .f32) (main_arg1 : FVec F S6400000 .f32) (main_arg2 : FVec F S6400000x2 .f32) (main_arg3 : FVec F S6400000 .f32) (main_arg4 : FVec F S6400000x2 .f32) (main_arg5 : IVec S2x6400000 32) : IVec S_ 1 :=
  let main_v0 : FVec F S200000x4 .f32 := Host.absf main_arg0
  let main_cst : FVec F S_ .f32 := constant S_ .f32 0x7F800000#32
  let main_v1 : FVec F S200000x4 .f32 := broadcastInDim S200000x4 ![] bcast_S_S200000x4 main_cst
  let main_v2 : IVec S200000x4 1 := cmpf .olt main_v0 main_v1
  let main_c : IVec S_ 1 := constantI S_ 1 1#1
  let main_v3 : IVec S_ 1 := (fun x v => Host.reduce IntOp.andi x v reducesTo_S200000x4_S_d0_1 h_S_) main_v2 main_c
  let main_v4 : FVec F S6400000 .f32 := Host.absf main_arg1
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S6400000x2 .f32 := Host.absf main_arg2
  let main_cst_2 : FVec F S_ .f32 := constant S_ .f32 0x7F800000#32
  let main_v10 : FVec F S6400000x2 .f32 := broadcastInDim S6400000x2 ![] bcast_S_S6400000x2 main_cst_2
  let main_v11 : IVec S6400000x2 1 := cmpf .olt main_v9 main_v10
  let main_c_3 : IVec S_ 1 := constantI S_ 1 1#1
  let main_v12 : IVec S_ 1 := (fun x v => Host.reduce IntOp.andi x v reducesTo_S6400000x2_S_d0_1 h_S_) main_v11 main_c_3
  let main_v13 : IVec S_ 1 := andi main_v8 main_v12
  let main_v14 : FVec F S6400000 .f32 := Host.absf main_arg3
  let main_cst_4 : FVec F S_ .f32 := constant S_ .f32 0x7F800000#32
  let main_v15 : FVec F S6400000 .f32 := broadcastInDim S6400000 ![] bcast_S_S6400000 main_cst_4
  let main_v16 : IVec S6400000 1 := cmpf .olt main_v14 main_v15
  fn_part1 (F := F) main_arg4 main_v13 main_v16
-- ==== Kernel.lean ====
abbrev S200000x4 : Shape := ⟨2, ![200000, 4]⟩
abbrev S6400000 : Shape := ⟨1, ![6400000]⟩
abbrev S6400000x2 : Shape := ⟨2, ![6400000, 2]⟩
abbrev S2x6400000 : Shape := ⟨2, ![2, 6400000]⟩
abbrev S1x6400000 : Shape := ⟨2, ![1, 6400000]⟩
abbrev S_ : Shape := ⟨0, ![]⟩
abbrev S6400000x1 : Shape := ⟨2, ![6400000, 1]⟩
abbrev S50000x128 : Shape := ⟨2, ![50000, 128]⟩
abbrev S50000x256 : Shape := ⟨2, ![50000, 256]⟩
abbrev S25x1x128 : Shape := ⟨3, ![25, 1, 128]⟩
abbrev S2000x128 : Shape := ⟨2, ![2000, 128]⟩
abbrev S2000x256 : Shape := ⟨2, ![2000, 256]⟩
abbrev S1x1x128 : Shape := ⟨3, ![1, 1, 128]⟩
abbrev S1x2000x256 : Shape := ⟨3, ![1, 2000, 256]⟩
abbrev S1 : Shape := ⟨1, ![1]⟩
abbrev S1x1x1 : Shape := ⟨3, ![1, 1, 1]⟩
abbrev S1x2000x128 : Shape := ⟨3, ![1, 2000, 128]⟩
abbrev S1x128 : Shape := ⟨2, ![1, 128]⟩
abbrev S25x128 : Shape := ⟨2, ![25, 128]⟩
abbrev S128 : Shape := ⟨1, ![128]⟩
abbrev S12800000 : Shape := ⟨1, ![12800000]⟩
abbrev S200000 : Shape := ⟨1, ![200000]⟩
abbrev S12800000x1 : Shape := ⟨2, ![12800000, 1]⟩
abbrev S7 : Shape := ⟨1, ![7]⟩

abbrev nBuf : Space → Nat
  | .hbm => 161
  | .vmem => 20
  | .smem => 0
  | _ => 0

abbrev hbmTy0_0 (i : Nat) : BufTy := match i % 128 with
  | 0 => ⟨S200000x4, .f32⟩
  | 1 => ⟨S6400000, .f32⟩
  | 2 => ⟨S6400000x2, .f32⟩
  | 3 => ⟨S6400000, .f32⟩
  | 4 => ⟨S6400000x2, .f32⟩
  | 5 => ⟨S2x6400000, .i32⟩
  | 6 => ⟨S1x6400000, .i32⟩
  | 7 => ⟨S6400000, .i32⟩
  | 8 => ⟨S1x6400000, .i32⟩
  | 9 => ⟨S6400000, .i32⟩
  | 10 => ⟨S_, .i32⟩
  | 11 => ⟨S6400000, .i32⟩
  | 12 => ⟨S6400000, .i1⟩
  | 13 => ⟨S_, .i32⟩
  | 14 => ⟨S6400000, .i32⟩
  | 15 => ⟨S6400000, .i32⟩
  | 16 => ⟨S6400000, .i32⟩
  | 17 => ⟨S6400000x1, .i32⟩
  | 18 => ⟨S_, .i32⟩
  | 19 => ⟨S6400000x1, .i32⟩
  | 20 => ⟨S6400000x2, .i32⟩
  | 21 => ⟨S6400000x2, .f32⟩
  | 22 => ⟨S_, .i32⟩
  | 23 => ⟨S6400000, .i32⟩
  | 24 => ⟨S6400000, .i1⟩
  | 25 => ⟨S_, .i32⟩
  | 26 => ⟨S6400000, .i32⟩
  | 27 => ⟨S6400000, .i32⟩
  | 28 => ⟨S6400000, .i32⟩
  | 29 => ⟨S6400000x1, .i32⟩
  | 30 => ⟨S_, .i32⟩
  | 31 => ⟨S6400000x1, .i32⟩
  | 32 => ⟨S6400000x2, .i32⟩
  | 33 => ⟨S6400000x2, .f32⟩
  | 34 => ⟨S6400000x1, .f32⟩
  | 35 => ⟨S6400000, .f32⟩
  | 36 => ⟨S6400000x1, .f32⟩
  | 37 => ⟨S6400000, .f32⟩
  | 38 => ⟨S6400000, .f32⟩
  | 39 => ⟨S6400000x1, .f32⟩
  | 40 => ⟨S6400000, .f32⟩
  | 41 => ⟨S6400000x1, .f32⟩
  | 42 => ⟨S6400000, .f32⟩
  | 43 => ⟨S6400000, .f32⟩
  | 44 => ⟨S6400000x1, .f32⟩
  | 45 => ⟨S6400000, .f32⟩
  | 46 => ⟨S6400000x1, .f32⟩
  | 47 => ⟨S6400000, .f32⟩
  | 48 => ⟨S50000x128, .f32⟩
  | 49 => ⟨S50000x128, .f32⟩
  | 50 => ⟨S50000x128, .f32⟩
  | 51 => ⟨S50000x128, .f32⟩
  | 52 => ⟨S50000x128, .f32⟩
  | 53 => ⟨S50000x128, .f32⟩
  | 54 => ⟨S50000x256, .f32⟩
  | 55 => ⟨S50000x256, .f32⟩
  | 56 => ⟨S50000x128, .f32⟩
  | 57 => ⟨S25x1x128, .f32⟩
  | 58 => ⟨S25x128, .f32⟩
  | 59 => ⟨S_, .f32⟩
  | 60 => ⟨S128, .f32⟩
  | 61 => ⟨S1, .f32⟩
  | 62 => ⟨S_, .f32⟩
  | 63 => ⟨S1, .f32⟩
  | 64 => ⟨S_, .f32⟩
  | 65 => ⟨S1, .f32⟩
  | 66 => ⟨S_, .f32⟩
  | 67 => ⟨S1, .f32⟩
  | 68 => ⟨S_, .f32⟩
  | 69 => ⟨S1, .f32⟩
  | 70 => ⟨S_, .f32⟩
  | 71 => ⟨S1, .f32⟩
  | 72 => ⟨S_, .f32⟩
  | 73 => ⟨S1, .f32⟩
  | 74 => ⟨S_, .f32⟩
  | 75 => ⟨S1, .f32⟩
  | 76 => ⟨S_, .f32⟩
  | 77 => ⟨S1, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S6400000, .f32⟩
  | 88 => ⟨S12800000, .i32⟩
  | 89 => ⟨S6400000, .f32⟩
  | 90 => ⟨S12800000, .f32⟩
  | 91 => ⟨S_, .f32⟩
  | 92 => ⟨S200000, .f32⟩
  | 93 => ⟨S12800000x1, .i32⟩
  | 94 => ⟨S200000, .f32⟩
  | 95 => ⟨S200000, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S200000x4, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1, .f32⟩
  | 26 => ⟨S1, .f32⟩
  | 27 => ⟨S1, .f32⟩
  | 28 => ⟨S1, .f32⟩
  | 29 => ⟨S1, .f32⟩
  | 30 => ⟨S1, .f32⟩
  | 31 => ⟨S1, .f32⟩
  | 32 => ⟨S7, .f32⟩
  | _ => ⟨S200000x4, .f32⟩

abbrev hbmTy (i : Nat) : BufTy := match i / 128 with
  | 0 => hbmTy0_0 i
  | 1 => hbmTy0_1 i
  | _ => ⟨S200000x4, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x128, .f32⟩
  | .local _ .vmem, ⟨17, _⟩ => ⟨S2000x128, .f32⟩
  | .local _ .vmem, ⟨18, _⟩ => ⟨S1x1x128, .f32⟩
  | .local _ .vmem, ⟨19, _⟩ => ⟨S1x1x128, .f32⟩
  | _, _ => ⟨S200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev main_v45 : Ref sig .tc := ⟨.hbm, 58, rfl⟩
abbrev main_cst : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_cst_11 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_14 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_15 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_16 : Ref sig .tc := ⟨.hbm, 121, rfl⟩
abbrev main_v96 : Ref sig .tc := ⟨.hbm, 122, rfl⟩
abbrev main_cst_17 : Ref sig .tc := ⟨.hbm, 123, rfl⟩
abbrev main_v97 : Ref sig .tc := ⟨.hbm, 124, rfl⟩
abbrev main_cst_18 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_19 : Ref sig .tc := ⟨.hbm, 129, rfl⟩
abbrev main_v101 : Ref sig .tc := ⟨.hbm, 130, rfl⟩
abbrev main_v102 : Ref sig .tc := ⟨.hbm, 131, rfl⟩
abbrev main_cst_20 : Ref sig .tc := ⟨.hbm, 132, rfl⟩
abbrev main_v103 : Ref sig .tc := ⟨.hbm, 133, rfl⟩
abbrev main_cst_21 : Ref sig .tc := ⟨.hbm, 134, rfl⟩
abbrev main_v104 : Ref sig .tc := ⟨.hbm, 135, rfl⟩
abbrev main_cst_22 : Ref sig .tc := ⟨.hbm, 136, rfl⟩
abbrev main_v105 : Ref sig .tc := ⟨.hbm, 137, rfl⟩
abbrev main_v106 : Ref sig .tc := ⟨.hbm, 138, rfl⟩
abbrev main_cst_23 : Ref sig .tc := ⟨.hbm, 139, rfl⟩
abbrev main_v107 : Ref sig .tc := ⟨.hbm, 140, rfl⟩
abbrev main_cst_24 : Ref sig .tc := ⟨.hbm, 141, rfl⟩
abbrev main_v108 : Ref sig .tc := ⟨.hbm, 142, rfl⟩
abbrev main_v109 : Ref sig .tc := ⟨.hbm, 143, rfl⟩
abbrev main_cst_25 : Ref sig .tc := ⟨.hbm, 144, rfl⟩
abbrev main_v110 : Ref sig .tc := ⟨.hbm, 145, rfl⟩
abbrev main_cst_26 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  concatenates_S6400000x1_S6400000x1_S6400000x2_d1 : Shape.Concatenates [S6400000x1, S6400000x1] S6400000x2 1
  slices_S6400000x2_S6400000x1_0_0 : S6400000x2.Slices ![0, 0] S6400000x1
  shapeCasts_S6400000x1_S6400000 : S6400000x1.ShapeCasts S6400000
  slices_S6400000x2_S6400000x1_0_1 : S6400000x2.Slices ![0, 1] S6400000x1
  shapeCasts_S6400000_S50000x128 : S6400000.ShapeCasts S50000x128
  shapeCasts_S6400000x2_S50000x256 : S6400000x2.ShapeCasts S50000x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  shapeCasts_S2000x256_S1x2000x256 : S2000x256.ShapeCasts S1x2000x256
  reduces_S1x2000x256_S1 : S1x2000x256.Reduces [1, 2] S1
  shapeCasts_S1_S1x1x1 : S1.ShapeCasts S1x1x1
  inpos_S1x1x1_p0_0_0 : ∀ a, (![0, 0, 0] : Fin 3 → Nat) a < S1x1x1.size a
  shapeCasts_S2000x128_S1x2000x128 : S2000x128.ShapeCasts S1x2000x128
  reduces_S1x2000x128_S1 : S1x2000x128.Reduces [1, 2] S1
  iota_S1x128_d1_w32 : S1x128.Iotas .tc 32 [1]
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S25x1x128_S25x128 : S25x1x128.ShapeCasts S25x128
  reducesTo_S25x128_S128_d0 : S25x128.ReducesTo [0] S128
  h_S_ : 0 < S_.numel
  slices_S128_S1_0 : S128.Slices ![0] S1
  shapeCasts_S1_S_ : S1.ShapeCasts S_
  slices_S128_S1_1 : S128.Slices ![1] S1
  slices_S128_S1_2 : S128.Slices ![2] S1
  slices_S128_S1_3 : S128.Slices ![3] S1
  slices_S128_S1_4 : S128.Slices ![4] S1
  slices_S128_S1_5 : S128.Slices ![5] S1
  slices_S128_S1_6 : S128.Slices ![6] S1
  slices_S128_S1_7 : S128.Slices ![7] S1
  slices_S128_S1_8 : S128.Slices ![8] S1
  shapeCasts_S50000x128_S6400000 : S50000x128.ShapeCasts S6400000
  concatenates_S6400000_S6400000_S12800000_d0 : Shape.Concatenates [S6400000, S6400000] S12800000 0
  bcast_S_S200000 : S_.BroadcastsInDim S200000 (![] : Fin 0 → Fin S200000.rank)
  bcast_S12800000_S12800000x1_0 : S12800000.BroadcastsInDim S12800000x1 (![0] : Fin 1 → Fin S12800000x1.rank)
  reducesTo_S200000_S_d0 : S200000.ReducesTo [0] S_
  bcast_S_S1 : S_.BroadcastsInDim S1 (![] : Fin 0 → Fin S1.rank)
  concatenates_S1_S1_S1_S1_S1_S1_S1_S7_d0 : Shape.Concatenates [S1, S1, S1, S1, S1, S1, S1] S7 0
  gather_S200000x4_S6400000x2_S6400000x2_1_0_n_n_01_1_12_wf : GatherDims.WF S200000x4 S6400000x2 S6400000x2 [1] [0] [] [0, 1] [] 1 ![1, 2]
  scatter_S200000_S12800000x1_S12800000_n_0_0_1_wf : ScatterDims.WF S200000 S12800000x1 S12800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S25x1x128.size a
  hwx0_9 : ∀ i : grid0.Coords, EltTy.bits .f32 = 32 ∨ (Rect.block (s := S25x1x128) S1x1x128.size (cc0_transform_9 i) (hinb0_9 i)).WholeWords (EltTy.packing .f32)

variable [Facts₀]

def gather_S200000x4_S6400000x2_S6400000x2_1_0_n_n_01_1_12 : GatherDims S200000x4 S6400000x2 S6400000x2 where
  offsetDims := [1]
  collapsedSliceDims := [0]
  operandBatchingDims := []
  startIndicesBatchingDims := []
  startIndexMap := [0, 1]
  indexVectorDim := 1
  sliceSizes := ![1, 2]
  wf := gather_S200000x4_S6400000x2_S6400000x2_1_0_n_n_01_1_12_wf
def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf

abbrev win0_0 : Pipeline.Window sig grid0 :=
  Pipeline.Window.ofSpec (Memref.whole main_v36) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v42) S2000x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v43) S2000x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v44_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v44_1) S1x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x4 : Shape := ⟨2, ![200000, 4]⟩
abbrev S6400000 : Shape := ⟨1, ![6400000]⟩
abbrev S6400000x2 : Shape := ⟨2, ![6400000, 2]⟩
abbrev S2x6400000 : Shape := ⟨2, ![2, 6400000]⟩
abbrev S1x6400000 : Shape := ⟨2, ![1, 6400000]⟩
abbrev S_ : Shape := ⟨0, ![]⟩
abbrev S6400000x1 : Shape := ⟨2, ![6400000, 1]⟩
abbrev S200000 : Shape := ⟨1, ![200000]⟩
abbrev S2 : Shape := ⟨1, ![2]⟩
abbrev S1x2 : Shape := ⟨2, ![1, 2]⟩
abbrev S1 : Shape := ⟨1, ![1]⟩
abbrev S7 : Shape := ⟨1, ![7]⟩

abbrev nBuf : Space → Nat
  | .hbm => 250
  | .vmem => 0
  | .smem => 0
  | _ => 0

abbrev hbmTy0_0 (i : Nat) : BufTy := match i % 128 with
  | 0 => ⟨S200000x4, .f32⟩
  | 1 => ⟨S6400000, .f32⟩
  | 2 => ⟨S6400000x2, .f32⟩
  | 3 => ⟨S6400000, .f32⟩
  | 4 => ⟨S6400000x2, .f32⟩
  | 5 => ⟨S2x6400000, .i32⟩
  | 6 => ⟨S1x6400000, .i32⟩
  | 7 => ⟨S6400000, .i32⟩
  | 8 => ⟨S1x6400000, .i32⟩
  | 9 => ⟨S6400000, .i32⟩
  | 10 => ⟨S6400000, .f32⟩
  | 11 => ⟨S6400000, .f32⟩
  | 12 => ⟨S_, .f32⟩
  | 13 => ⟨S6400000, .f32⟩
  | 14 => ⟨S6400000, .f32⟩
  | 15 => ⟨S_, .f32⟩
  | 16 => ⟨S6400000, .f32⟩
  | 17 => ⟨S6400000, .f32⟩
  | 18 => ⟨S6400000x1, .f32⟩
  | 19 => ⟨S6400000, .f32⟩
  | 20 => ⟨S6400000x1, .f32⟩
  | 21 => ⟨S6400000, .f32⟩
  | 22 => ⟨S6400000, .f32⟩
  | 23 => ⟨S_, .f32⟩
  | 24 => ⟨S6400000, .f32⟩
  | 25 => ⟨S6400000, .f32⟩
  | 26 => ⟨S6400000, .f32⟩
  | 27 => ⟨S6400000, .f32⟩
  | 28 => ⟨S6400000, .i1⟩
  | 29 => ⟨S6400000, .f32⟩
  | 30 => ⟨S6400000, .f32⟩
  | 31 => ⟨S6400000, .f32⟩
  | 32 => ⟨S6400000, .f32⟩
  | 33 => ⟨S6400000, .f32⟩
  | 34 => ⟨S6400000, .f32⟩
  | 35 => ⟨S6400000, .f32⟩
  | 36 => ⟨S6400000, .f32⟩
  | 37 => ⟨S6400000, .f32⟩
  | 38 => ⟨S6400000, .f32⟩
  | 39 => ⟨S_, .f32⟩
  | 40 => ⟨S6400000, .f32⟩
  | 41 => ⟨S6400000, .f32⟩
  | 42 => ⟨S6400000, .f32⟩
  | 43 => ⟨S6400000, .f32⟩
  | 44 => ⟨S_, .f32⟩
  | 45 => ⟨S6400000, .f32⟩
  | 46 => ⟨S6400000, .f32⟩
  | 47 => ⟨S6400000, .f32⟩
  | 48 => ⟨S6400000, .f32⟩
  | 49 => ⟨S6400000, .i1⟩
  | 50 => ⟨S6400000, .f32⟩
  | 51 => ⟨S6400000, .f32⟩
  | 52 => ⟨S6400000, .f32⟩
  | 53 => ⟨S6400000, .f32⟩
  | 54 => ⟨S6400000, .f32⟩
  | 55 => ⟨S6400000, .f32⟩
  | 56 => ⟨S6400000, .f32⟩
  | 57 => ⟨S6400000, .f32⟩
  | 58 => ⟨S6400000, .f32⟩
  | 59 => ⟨S6400000, .f32⟩
  | 60 => ⟨S6400000, .f32⟩
  | 61 => ⟨S6400000, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S6400000x2, .f32⟩
  | 69 => ⟨S6400000x2, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .i32⟩
  | 77 => ⟨S6400000, .i32⟩
  | 78 => ⟨S6400000, .i1⟩
  | 79 => ⟨S_, .i32⟩
  | 80 => ⟨S6400000, .i32⟩
  | 81 => ⟨S6400000, .i32⟩
  | 82 => ⟨S6400000, .i32⟩
  | 83 => ⟨S_, .i32⟩
  | 84 => ⟨S6400000, .i32⟩
  | 85 => ⟨S6400000, .i32⟩
  | 86 => ⟨S6400000x1, .i32⟩
  | 87 => ⟨S6400000x1, .i32⟩
  | 88 => ⟨S6400000x2, .i32⟩
  | 89 => ⟨S6400000, .f32⟩
  | 90 => ⟨S_, .i32⟩
  | 91 => ⟨S6400000, .i32⟩
  | 92 => ⟨S6400000, .i1⟩
  | 93 => ⟨S_, .i32⟩
  | 94 => ⟨S6400000, .i32⟩
  | 95 => ⟨S6400000, .i32⟩
  | 96 => ⟨S6400000, .i32⟩
  | 97 => ⟨S_, .i32⟩
  | 98 => ⟨S6400000, .i32⟩
  | 99 => ⟨S6400000, .i32⟩
  | 100 => ⟨S6400000x1, .i32⟩
  | 101 => ⟨S6400000x1, .i32⟩
  | 102 => ⟨S6400000x2, .i32⟩
  | 103 => ⟨S6400000, .f32⟩
  | 104 => ⟨S6400000, .f32⟩
  | 105 => ⟨S_, .i32⟩
  | 106 => ⟨S6400000, .i32⟩
  | 107 => ⟨S6400000, .i1⟩
  | 108 => ⟨S_, .i32⟩
  | 109 => ⟨S6400000, .i32⟩
  | 110 => ⟨S6400000, .i32⟩
  | 111 => ⟨S6400000, .i32⟩
  | 112 => ⟨S_, .i32⟩
  | 113 => ⟨S6400000, .i32⟩
  | 114 => ⟨S6400000, .i32⟩
  | 115 => ⟨S6400000x1, .i32⟩
  | 116 => ⟨S6400000x1, .i32⟩
  | 117 => ⟨S6400000x2, .i32⟩
  | 118 => ⟨S6400000, .f32⟩
  | 119 => ⟨S_, .i32⟩
  | 120 => ⟨S6400000, .i32⟩
  | 121 => ⟨S6400000, .i1⟩
  | 122 => ⟨S_, .i32⟩
  | 123 => ⟨S6400000, .i32⟩
  | 124 => ⟨S6400000, .i32⟩
  | 125 => ⟨S6400000, .i32⟩
  | 126 => ⟨S_, .i32⟩
  | 127 => ⟨S6400000, .i32⟩
  | _ => ⟨S200000x4, .f32⟩

abbrev hbmTy0_1 (i : Nat) : BufTy := match i % 128 with
  | 0 => ⟨S6400000, .i32⟩
  | 1 => ⟨S6400000x1, .i32⟩
  | 2 => ⟨S6400000x1, .i32⟩
  | 3 => ⟨S6400000x2, .i32⟩
  | 4 => ⟨S6400000, .f32⟩
  | 5 => ⟨S6400000, .f32⟩
  | 6 => ⟨S6400000, .f32⟩
  | 7 => ⟨S6400000, .f32⟩
  | 8 => ⟨S6400000, .f32⟩
  | 9 => ⟨S6400000, .f32⟩
  | 10 => ⟨S_, .f32⟩
  | 11 => ⟨S6400000, .f32⟩
  | 12 => ⟨S6400000, .f32⟩
  | 13 => ⟨S6400000, .f32⟩
  | 14 => ⟨S6400000, .f32⟩
  | 15 => ⟨S6400000, .f32⟩
  | 16 => ⟨S6400000, .f32⟩
  | 17 => ⟨S6400000, .f32⟩
  | 18 => ⟨S6400000, .f32⟩
  | 19 => ⟨S_, .f32⟩
  | 20 => ⟨S200000, .f32⟩
  | 21 => ⟨S6400000x1, .i32⟩
  | 22 => ⟨S200000, .f32⟩
  | 23 => ⟨S_, .f32⟩
  | 24 => ⟨S200000, .f32⟩
  | 25 => ⟨S6400000x1, .i32⟩
  | 26 => ⟨S200000, .f32⟩
  | 27 => ⟨S200000, .f32⟩
  | 28 => ⟨S200000, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S6400000x1, .f32⟩
  | 36 => ⟨S6400000x2, .f32⟩
  | 37 => ⟨S6400000x2, .f32⟩
  | 38 => ⟨S_, .f32⟩
  | 39 => ⟨S2, .f32⟩
  | 40 => ⟨S_, .f32⟩
  | 41 => ⟨S_, .f32⟩
  | 42 => ⟨S_, .f32⟩
  | 43 => ⟨S_, .f32⟩
  | 44 => ⟨S2, .f32⟩
  | 45 => ⟨S2, .f32⟩
  | 46 => ⟨S1x2, .f32⟩
  | 47 => ⟨S6400000x2, .f32⟩
  | 48 => ⟨S6400000x2, .f32⟩
  | 49 => ⟨S6400000x2, .f32⟩
  | 50 => ⟨S6400000x2, .f32⟩
  | 51 => ⟨S6400000x2, .f32⟩
  | 52 => ⟨S_, .f32⟩
  | 53 => ⟨S2, .f32⟩
  | 54 => ⟨S_, .f32⟩
  | 55 => ⟨S_, .f32⟩
  | 56 => ⟨S_, .f32⟩
  | 57 => ⟨S_, .f32⟩
  | 58 => ⟨S6400000, .f32⟩
  | 59 => ⟨S6400000, .f32⟩
  | 60 => ⟨S6400000, .f32⟩
  | 61 => ⟨S6400000, .f32⟩
  | 62 => ⟨S6400000, .f32⟩
  | 63 => ⟨S_, .i32⟩
  | 64 => ⟨S_, .f32⟩
  | 65 => ⟨S_, .f32⟩
  | 66 => ⟨S1, .f32⟩
  | 67 => ⟨S_, .f32⟩
  | 68 => ⟨S1, .f32⟩
  | 69 => ⟨S1, .f32⟩
  | 70 => ⟨S6400000, .f32⟩
  | 71 => ⟨S6400000, .f32⟩
  | 72 => ⟨S6400000, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .i1⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S1, .f32⟩
  | 115 => ⟨S1, .f32⟩
  | 116 => ⟨S1, .f32⟩
  | 117 => ⟨S1, .f32⟩
  | 118 => ⟨S1, .f32⟩
  | 119 => ⟨S1, .f32⟩
  | 120 => ⟨S1, .f32⟩
  | 121 => ⟨S7, .f32⟩
  | _ => ⟨S200000x4, .f32⟩

abbrev hbmTy (i : Nat) : BufTy := match i / 128 with
  | 0 => hbmTy0_0 i
  | 1 => hbmTy0_1 i
  | _ => ⟨S200000x4, .f32⟩

abbrev bufTy : (tb : Table) → Fin (tcTables nBuf tb) → BufTy
  | .hbm, ⟨i, _⟩ => hbmTy i
  | _, _ => ⟨S200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_2 : Ref sig .tc := ⟨.hbm, 62, rfl⟩
abbrev main_v23 : Ref sig .tc := ⟨.hbm, 63, rfl⟩
abbrev main_cst_3 : Ref sig .tc := ⟨.hbm, 64, rfl⟩
abbrev main_v24 : Ref sig .tc := ⟨.hbm, 65, rfl⟩
abbrev main_cst_4 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_5 : Ref sig .tc := ⟨.hbm, 70, rfl⟩
abbrev main_v28 : Ref sig .tc := ⟨.hbm, 71, rfl⟩
abbrev main_cst_6 : Ref sig .tc := ⟨.hbm, 72, rfl⟩
abbrev main_v29 : Ref sig .tc := ⟨.hbm, 73, rfl⟩
abbrev main_cst_7 : Ref sig .tc := ⟨.hbm, 74, rfl⟩
abbrev main_v30 : Ref sig .tc := ⟨.hbm, 75, rfl⟩
abbrev main_c : Ref sig .tc := ⟨.hbm, 76, rfl⟩
abbrev main_v31 : Ref sig .tc := ⟨.hbm, 77, rfl⟩
abbrev main_v32 : Ref sig .tc := ⟨.hbm, 78, rfl⟩
abbrev main_c_8 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_c_9 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_c_10 : Ref sig .tc := ⟨.hbm, 90, rfl⟩
abbrev main_v42 : Ref sig .tc := ⟨.hbm, 91, rfl⟩
abbrev main_v43 : Ref sig .tc := ⟨.hbm, 92, rfl⟩
abbrev main_c_11 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_c_12 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c_13 : Ref sig .tc := ⟨.hbm, 105, rfl⟩
abbrev main_v54 : Ref sig .tc := ⟨.hbm, 106, rfl⟩
abbrev main_v55 : Ref sig .tc := ⟨.hbm, 107, rfl⟩
abbrev main_c_14 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_c_15 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_c_16 : Ref sig .tc := ⟨.hbm, 119, rfl⟩
abbrev main_v65 : Ref sig .tc := ⟨.hbm, 120, rfl⟩
abbrev main_v66 : Ref sig .tc := ⟨.hbm, 121, rfl⟩
abbrev main_c_17 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_c_18 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_19 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_20 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_21 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_cst_22 : Ref sig .tc := ⟨.hbm, 157, rfl⟩
abbrev main_v97 : Ref sig .tc := ⟨.hbm, 158, rfl⟩
abbrev main_cst_23 : Ref sig .tc := ⟨.hbm, 159, rfl⟩
abbrev main_v98 : Ref sig .tc := ⟨.hbm, 160, rfl⟩
abbrev main_cst_24 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_25 : Ref sig .tc := ⟨.hbm, 166, rfl⟩
abbrev main_v103 : Ref sig .tc := ⟨.hbm, 167, rfl⟩
abbrev main_cst_26 : Ref sig .tc := ⟨.hbm, 168, rfl⟩
abbrev main_v104 : Ref sig .tc := ⟨.hbm, 169, rfl⟩
abbrev main_cst_27 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_28 : Ref sig .tc := ⟨.hbm, 180, rfl⟩
abbrev main_v114 : Ref sig .tc := ⟨.hbm, 181, rfl⟩
abbrev main_cst_29 : Ref sig .tc := ⟨.hbm, 182, rfl⟩
abbrev main_v115 : Ref sig .tc := ⟨.hbm, 183, rfl⟩
abbrev main_cst_30 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_c_31 : Ref sig .tc := ⟨.hbm, 191, rfl⟩
abbrev main_call2_cst : Ref sig .tc := ⟨.hbm, 192, rfl⟩
abbrev main_call2_v0 : Ref sig .tc := ⟨.hbm, 193, rfl⟩
abbrev main_call2_v1 : Ref sig .tc := ⟨.hbm, 194, rfl⟩
abbrev main_call2_cst_0 : Ref sig .tc := ⟨.hbm, 195, rfl⟩
abbrev main_call2_v2 : Ref sig .tc := ⟨.hbm, 196, rfl⟩
abbrev main_call2_v3 : Ref sig .tc := ⟨.hbm, 197, rfl⟩
abbrev main_call2_v4 : Ref sig .tc := ⟨.hbm, 198, rfl⟩
abbrev main_call2_v5 : Ref sig .tc := ⟨.hbm, 199, rfl⟩
abbrev main_call2_v6 : Ref sig .tc := ⟨.hbm, 200, rfl⟩
abbrev main_call2_v7 : Ref sig .tc := ⟨.hbm, 201, rfl⟩
abbrev main_call2_cst_1 : Ref sig .tc := ⟨.hbm, 202, rfl⟩
abbrev main_call2_v8 : Ref sig .tc := ⟨.hbm, 203, rfl⟩
abbrev main_call2_cst_2 : Ref sig .tc := ⟨.hbm, 204, rfl⟩
abbrev main_call2_v9 : Ref sig .tc := ⟨.hbm, 205, rfl⟩
abbrev main_call2_v10 : Ref sig .tc := ⟨.hbm, 206, rfl⟩
abbrev main_call2_cst_3 : Ref sig .tc := ⟨.hbm, 207, rfl⟩
abbrev main_call2_v11 : Ref sig .tc := ⟨.hbm, 208, rfl⟩
abbrev main_call2_cst_4 : Ref sig .tc := ⟨.hbm, 209, rfl⟩
abbrev main_call2_call0_v0 : Ref sig .tc := ⟨.hbm, 210, rfl⟩
abbrev main_v122 : Ref sig .tc := ⟨.hbm, 211, rfl⟩
abbrev main_v123 : Ref sig .tc := ⟨.hbm, 212, rfl⟩
abbrev main_cst_32 : Ref sig .tc := ⟨.hbm, 213, rfl⟩
abbrev main_v124 : Ref sig .tc := ⟨.hbm, 214, rfl⟩
abbrev main_cst_33 : Ref sig .tc := ⟨.hbm, 215, rfl⟩
abbrev main_v125 : Ref sig .tc := ⟨.hbm, 216, rfl⟩
abbrev main_cst_34 : Ref sig .tc := ⟨.hbm, 217, rfl⟩
abbrev main_v126 : Ref sig .tc := ⟨.hbm, 218, rfl⟩
abbrev main_v127 : Ref sig .tc := ⟨.hbm, 219, rfl⟩
abbrev main_cst_35 : Ref sig .tc := ⟨.hbm, 220, rfl⟩
abbrev main_v128 : Ref sig .tc := ⟨.hbm, 221, rfl⟩
abbrev main_cst_36 : Ref sig .tc := ⟨.hbm, 222, rfl⟩
abbrev main_v129 : Ref sig .tc := ⟨.hbm, 223, rfl⟩
abbrev main_cst_37 : Ref sig .tc := ⟨.hbm, 224, rfl⟩
abbrev main_v130 : Ref sig .tc := ⟨.hbm, 225, rfl⟩
abbrev main_cst_38 : Ref sig .tc := ⟨.hbm, 226, rfl⟩
abbrev main_v131 : Ref sig .tc := ⟨.hbm, 227, rfl⟩
abbrev main_v132 : Ref sig .tc := ⟨.hbm, 228, rfl⟩
abbrev main_cst_39 : Ref sig .tc := ⟨.hbm, 229, rfl⟩
abbrev main_v133 : Ref sig .tc := ⟨.hbm, 230, rfl⟩
abbrev main_cst_40 : Ref sig .tc := ⟨.hbm, 231, rfl⟩
abbrev main_v134 : Ref sig .tc := ⟨.hbm, 232, rfl⟩
abbrev main_cst_41 : Ref sig .tc := ⟨.hbm, 233, rfl⟩
abbrev main_v135 : Ref sig .tc := ⟨.hbm, 234, rfl⟩
abbrev main_cst_42 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  slices_S6400000x2_S6400000x1_0_0 : S6400000x2.Slices ![0, 0] S6400000x1
  shapeCasts_S6400000x1_S6400000 : S6400000x1.ShapeCasts S6400000
  slices_S6400000x2_S6400000x1_0_1 : S6400000x2.Slices ![0, 1] S6400000x1
  reducesTo_S6400000_S_d0 : S6400000.ReducesTo [0] S_
  h_S_ : 0 < S_.numel
  reducesTo_S6400000x2_S_d0_1 : S6400000x2.ReducesTo [0, 1] S_
  bcast_S6400000_S6400000x1_0 : S6400000.BroadcastsInDim S6400000x1 (![0] : Fin 1 → Fin S6400000x1.rank)
  concatenates_S6400000x1_S6400000x1_S6400000x2_d1 : Shape.Concatenates [S6400000x1, S6400000x1] S6400000x2 1
  bcast_S_S200000 : S_.BroadcastsInDim S200000 (![] : Fin 0 → Fin S200000.rank)
  reducesTo_S200000_S_d0 : S200000.ReducesTo [0] S_
  bcast_S6400000x1_S6400000x2_0_1 : S6400000x1.BroadcastsInDim S6400000x2 (![0, 1] : Fin 2 → Fin S6400000x2.rank)
  reducesTo_S6400000x2_S2_d0 : S6400000x2.ReducesTo [0] S2
  bcast_S_S2 : S_.BroadcastsInDim S2 (![] : Fin 0 → Fin S2.rank)
  bcast_S2_S1x2_1 : S2.BroadcastsInDim S1x2 (![1] : Fin 1 → Fin S1x2.rank)
  bcast_S1x2_S6400000x2_0_1 : S1x2.BroadcastsInDim S6400000x2 (![0, 1] : Fin 2 → Fin S6400000x2.rank)
  reducesTo_S2_S_d0 : S2.ReducesTo [0] S_
  bcast_S_S1 : S_.BroadcastsInDim S1 (![] : Fin 0 → Fin S1.rank)
  bcast_S1_S6400000_0 : S1.BroadcastsInDim S6400000 (![0] : Fin 1 → Fin S6400000.rank)
  concatenates_S1_S1_S1_S1_S1_S1_S1_S7_d0 : Shape.Concatenates [S1, S1, S1, S1, S1, S1, S1] S7 0
  gather_S200000x4_S6400000x2_S6400000_n_01_n_n_01_1_11_wf : GatherDims.WF S200000x4 S6400000x2 S6400000 [] [0, 1] [] [0, 1] [] 1 ![1, 1]
  scatter_S200000_S6400000x1_S6400000_n_0_0_1_wf : ScatterDims.WF S200000 S6400000x1 S6400000 [] [0] [0] 1

variable [Facts₀]

def gather_S200000x4_S6400000x2_S6400000_n_01_n_n_01_1_11 : GatherDims S200000x4 S6400000x2 S6400000 where
  offsetDims := []
  collapsedSliceDims := [0, 1]
  operandBatchingDims := []
  startIndicesBatchingDims := []
  startIndexMap := [0, 1]
  indexVectorDim := 1
  sliceSizes := ![1, 1]
  wf := gather_S200000x4_S6400000x2_S6400000_n_01_n_n_01_1_11_wf
def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf

class Facts : Prop extends Facts₀ where

variable [Facts]
-- ==== Proof.KFrameHost.lean ====
import proofs.«176581_j38010460570140_2_alg».proof.Proof.Gen.Kernel.Launch
import proofs.«176581_j38010460570140_2_alg».proof.Proof.Gen.Kernel.Points
import Idealize.ShloMosaic.Lib.Pipeline.FrameBody
import Idealize.ShloMosaic.Lib.Pipeline.FrameSuffix

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- Core `c`'s TensorCore buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [hostOps0, List.Forall]; repeat' constructor
set_option maxHeartbeats 4000000 in
theorem hostOps1_fresh : (hostOps1 : List (HloOp τ sig (Elt F))).Forall fun op => op.fresh = ∅ := by
  simp only [hostOps1, List.Forall]; repeat' constructor

/-- The program is the host lines before the region, the region, the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 8000000 in
/-- No line after the region writes window `w`'s array: each writes its own result buffer only. -/
theorem keeps_w (w : Fin cfg0.W) : (hostOps1 : List (HloOp τ sig (Elt F))).Forall fun op =>
    Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (keeps_w w)) op hop

/-- No host operation before the region writes `main_arg0`. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg0`: it ends as launched, whatever the proof data. -/
theorem W_arg0_of (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- No host operation before the region writes `main_arg1`. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg1`: it ends as launched, whatever the proof data. -/
theorem W_arg1_of (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No host operation before the region writes `main_arg2`. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg2`: it ends as launched, whatever the proof data. -/
theorem W_arg2_of (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- No host operation before the region writes `main_arg3`. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg3`: it ends as launched, whatever the proof data. -/
theorem W_arg3_of (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c

/-- No host operation before the region writes `main_arg4`. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg4`: it ends as launched, whatever the proof data. -/
theorem W_arg4_of (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_arg4 m c

/-- No host operation before the region writes `main_arg5`. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg5`: it ends as launched, whatever the proof data. -/
theorem W_arg5_of (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the region-entry contents and whose body leaves the block in place. -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_arg0_of m dats c),
      ((h c).2 main_arg1 (Pipeline.mem_restRefs_of main_arg1 (by decide) (by decide))).trans (W_arg1_of m dats c),
      ((h c).2 main_arg2 (Pipeline.mem_restRefs_of main_arg2 (by decide) (by decide))).trans (W_arg2_of m dats c),
      ((h c).2 main_arg3 (Pipeline.mem_restRefs_of main_arg3 (by decide) (by decide))).trans (W_arg3_of m dats c),
      ((h c).2 main_arg4 (Pipeline.mem_restRefs_of main_arg4 (by decide) (by decide))).trans (W_arg4_of m dats c),
      ((h c).2 main_arg5 (Pipeline.mem_restRefs_of main_arg5 (by decide) (by decide))).trans (W_arg5_of m dats c)⟩) h

end Cert.Kernel.HF

end
-- ==== Proof.KFrameBody.lean ====
import proofs.«176581_j38010460570140_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What the body leaves in each output block -/

/-- The whole-block rectangles the body loads and stores through. -/
abbrev rA : Rect S2000x128 := Rect.unit (s := S2000x128) ![0, 0] S2000x128.size inb_S2000x128_S2000x128_0_0
abbrev rB : Rect S2000x256 := Rect.unit (s := S2000x256) ![0, 0] S2000x256.size inb_S2000x256_S2000x256_0_0
abbrev rC : Rect S1x1x128 := Rect.unit (s := S1x1x128) ![0, 0, 0] S1x1x128.size inb_S1x1x128_S1x1x128_0_0_0

/-- What the body leaves in the first output block, from the eight input blocks: its one covering store. -/
def out8 (x0 x1 x2 x3 x4 x5 : Vec F S2000x128 .f32) (x6 x7 : Vec F S2000x256 .f32) : Vec F S2000x128 .f32 :=
  View.canon [⟨rA, k0_pay12 (k0_pay4 (View.ld x2 rA)) (k0_pay5 (View.ld x3 rA)) (k0_pay6 (View.ld x4 rA)) (k0_pay7 (View.ld x5 rA)) (k0_pay9 (View.ld x0 rA))⟩]

/-- What the body leaves in the second output block (one row of 128 partial sums), from the eight input blocks. -/
def out9 (x0 x1 x2 x3 x4 x5 : Vec F S2000x128 .f32) (x6 x7 : Vec F S2000x256 .f32) : Vec F S1x1x128 .f32 :=
  View.canon [⟨rC, k0_pay1 (k0_pay19 (k0_pay15 (k0_pay5 (View.ld x3 rA)) (k0_pay9 (View.ld x0 rA)))) (k0_pay20 (k0_pay16 (k0_pay4 (View.ld x2 rA)) (k0_pay9 (View.ld x0 rA)))) (k0_pay21 (k0_pay17 (k0_pay5 (View.ld x3 rA)) (k0_pay9 (View.ld x0 rA)))) (k0_pay22 (k0_pay13 (k0_pay6 (View.ld x4 rA)) (k0_pay7 (View.ld x5 rA)) (k0_pay9 (View.ld x0 rA)))) (k0_pay23 (k0_pay13 (k0_pay6 (View.ld x4 rA)) (k0_pay7 (View.ld x5 rA)) (k0_pay9 (View.ld x0 rA)))) (iota .tc S1x128 32 [1] iota_S1x128_d1_w32) (k0_pay24 (k0_pay8 (View.ld x6 rB) (View.ld x7 rB)) (k0_pay9 (View.ld x0 rA)) (k0_pay18 (k0_pay2 (View.ld x0 rA)) (k0_pay3 (View.ld x1 rA)) (k0_pay10 (View.ld x0 rA)))) k0_pay25 (k0_pay26 (k0_pay14 (k0_pay4 (View.ld x2 rA)) (k0_pay9 (View.ld x0 rA))))⟩]

/-- One store over the whole block covers it. -/
theorem cover8 (p0 : rA.shape.Idx → Elt F .f32) (y : S2000x128.Idx) :
    ∃ pc ∈ ([⟨rA, p0⟩] : List (View.Piece (Elt F) S2000x128 .f32)), y ∈ pc.1.set :=
  View.cover_of_tiled [⟨rA, p0⟩] S2000x128.size (by rfl) y
theorem cover9 (p0 : rC.shape.Idx → Elt F .f32) (y : S1x1x128.Idx) :
    ∃ pc ∈ ([⟨rC, p0⟩] : List (View.Piece (Elt F) S1x1x128 .f32)), y ∈ pc.1.set :=
  View.cover_of_tiled [⟨rC, p0⟩] S1x1x128.size (by rfl) y

/-! ## The body's triple -/

set_option maxHeartbeats 4000000 in
/-- The kernel body on whole staging memrefs — the inputs' at read contents `xK`, the outputs' at anything — runs to
    the continuation holding the inputs' as they were and the outputs' at `out8` / `out9` of the inputs'. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x256 .f32) (harg7 : arg7.IsWhole) (arg8 : Memref sig .tc .vmem S2000x256 .f32) (harg8 : arg8.IsWhole) (arg9 : Memref sig .tc .vmem S2000x128 .f32) (harg9 : arg9.IsWhole) (arg10 : Memref sig .tc .vmem S1x1x128 .f32) (harg10 : arg10.IsWhole)
    (x0 x1 x2 x3 x4 x5 : Vec F S2000x128 .f32) (x6 x7 : Vec F S2000x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7) ∗ owns (c : Thread nD τ) arg10 fullShare (out9 x0 x1 x2 x3 x4 x5 x6 x7)) -∗ K ⟨⟩))
      ⊢ wp frame (wpE (defs₀ (F := F)) Variants.none c none) E (cc0__edge_kernel_impl i arg1 harg1 arg2 harg2 arg3 harg3 arg4 harg4 arg5 harg5 arg6 harg6 arg7 harg7 arg8 harg8 arg9 harg9 arg10 harg10) K := by
  simp only [cc0__edge_kernel_impl_eq_skeleton]
  unfold cc0__edge_kernel_impl_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover8 _)
  iexists _; isplitr
  swap; · iexact H9
  ipureintro
  exact View.read_writes_eq_canon _ _ _ (cover9 _)

end Cert.Kernel.HF

end
-- ==== Proof.KFrame.lean ====
import proofs.«176581_j38010460570140_2_alg».proof.Proof.KFrameHost
import proofs.«176581_j38010460570140_2_alg».proof.Proof.KFrameBody

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t`
    each input's buffer at its block and each output's at `out8` / `out9` of the input blocks; the invariant the scoped
    rest and the random-number register, untouched; nothing owed; full shares. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
    | ⟨9, _⟩ => out9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

theorem W_arg0 (c : Dev nD) : Pipeline.afterTail₀ cfgs (dats m) 0 (V0 m) [Gen.hostOps1] c main_arg0 = m ((c : Thread nD τ).loc main_arg0) :=
  W_arg0_of m (dats m) c
theorem W_arg1 (c : Dev nD) : Pipeline.afterTail₀ cfgs (dats m) 0 (V0 m) [Gen.hostOps1] c main_arg1 = m ((c : Thread nD τ).loc main_arg1) :=
  W_arg1_of m (dats m) c
theorem W_arg2 (c : Dev nD) : Pipeline.afterTail₀ cfgs (dats m) 0 (V0 m) [Gen.hostOps1] c main_arg2 = m ((c : Thread nD τ).loc main_arg2) :=
  W_arg2_of m (dats m) c
theorem W_arg3 (c : Dev nD) : Pipeline.afterTail₀ cfgs (dats m) 0 (V0 m) [Gen.hostOps1] c main_arg3 = m ((c : Thread nD τ).loc main_arg3) :=
  W_arg3_of m (dats m) c
theorem W_arg4 (c : Dev nD) : Pipeline.afterTail₀ cfgs (dats m) 0 (V0 m) [Gen.hostOps1] c main_arg4 = m ((c : Thread nD τ).loc main_arg4) :=
  W_arg4_of m (dats m) c
theorem W_arg5 (c : Dev nD) : Pipeline.afterTail₀ cfgs (dats m) 0 (V0 m) [Gen.hostOps1] c main_arg5 = m ((c : Thread nD τ).loc main_arg5) :=
  W_arg5_of m (dats m) c

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCores terminates, and every final state has every array of
    the pipeline at what the library computes from the proof data and every other unscoped buffer as the lines after
    the region leave it. -/
theorem run_main : θ_run defs (onTc (τ := τ) (main (F := F))) (s₀ m ρ) (Pipeline.FramePost cfgs (dats m) 0 (Pipeline.afterTail₀ cfgs (dats m) 0 (V0 m) [Gen.hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.HF

end
-- ==== Proof.KiFrameHost.lean ====
import proofs.«176581_j38010460570140_2_alg».proof.Proof.Gen.KernelIdeal.Launch
import proofs.«176581_j38010460570140_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- Core `c`'s TensorCore buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [hostOps0, List.Forall]; repeat' constructor
set_option maxHeartbeats 4000000 in
theorem hostOps1_fresh : (hostOps1 : List (HloOp τ sig (Elt F))).Forall fun op => op.fresh = ∅ := by
  simp only [hostOps1, List.Forall]; repeat' constructor

/-- The program is the host lines before the region, the region, the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 8000000 in
/-- No line after the region writes window `w`'s array: each writes its own result buffer only. -/
theorem keeps_w (w : Fin cfg0.W) : (hostOps1 : List (HloOp τ sig (Elt F))).Forall fun op =>
    Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (keeps_w w)) op hop

/-- No host operation before the region writes `main_arg0`. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg0`: it ends as launched, whatever the proof data. -/
theorem W_arg0_of (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- No host operation before the region writes `main_arg1`. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg1`: it ends as launched, whatever the proof data. -/
theorem W_arg1_of (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No host operation before the region writes `main_arg2`. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg2`: it ends as launched, whatever the proof data. -/
theorem W_arg2_of (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- No host operation before the region writes `main_arg3`. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg3`: it ends as launched, whatever the proof data. -/
theorem W_arg3_of (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c

/-- No host operation before the region writes `main_arg4`. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg4`: it ends as launched, whatever the proof data. -/
theorem W_arg4_of (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_arg4 m c

/-- No host operation before the region writes `main_arg5`. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg5`: it ends as launched, whatever the proof data. -/
theorem W_arg5_of (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the region-entry contents and whose body leaves the block in place. -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_arg0_of m dats c),
      ((h c).2 main_arg1 (Pipeline.mem_restRefs_of main_arg1 (by decide) (by decide))).trans (W_arg1_of m dats c),
      ((h c).2 main_arg2 (Pipeline.mem_restRefs_of main_arg2 (by decide) (by decide))).trans (W_arg2_of m dats c),
      ((h c).2 main_arg3 (Pipeline.mem_restRefs_of main_arg3 (by decide) (by decide))).trans (W_arg3_of m dats c),
      ((h c).2 main_arg4 (Pipeline.mem_restRefs_of main_arg4 (by decide) (by decide))).trans (W_arg4_of m dats c),
      ((h c).2 main_arg5 (Pipeline.mem_restRefs_of main_arg5 (by decide) (by decide))).trans (W_arg5_of m dats c)⟩) h

end Cert.KernelIdeal.HF

end
-- ==== Proof.KiFrameBody.lean ====
import proofs.«176581_j38010460570140_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body leaves in each output block -/

/-- The whole-block rectangles the body loads and stores through. -/
abbrev rA : Rect S2000x128 := Rect.unit (s := S2000x128) ![0, 0] S2000x128.size inb_S2000x128_S2000x128_0_0
abbrev rB : Rect S2000x256 := Rect.unit (s := S2000x256) ![0, 0] S2000x256.size inb_S2000x256_S2000x256_0_0
abbrev rC : Rect S1x1x128 := Rect.unit (s := S1x1x128) ![0, 0, 0] S1x1x128.size inb_S1x1x128_S1x1x128_0_0_0

/-- What the body leaves in the first output block, from the eight input blocks: its one covering store. -/
def out8 (x0 x1 x2 x3 x4 x5 : Vec F S2000x128 .f32) (x6 x7 : Vec F S2000x256 .f32) : Vec F S2000x128 .f32 :=
  View.canon [⟨rA, k0_pay12 (k0_pay4 (View.ld x2 rA)) (k0_pay5 (View.ld x3 rA)) (k0_pay6 (View.ld x4 rA)) (k0_pay7 (View.ld x5 rA)) (k0_pay9 (View.ld x0 rA))⟩]

/-- What the body leaves in the second output block (one row of 128 partial sums), from the eight input blocks. -/
def out9 (x0 x1 x2 x3 x4 x5 : Vec F S2000x128 .f32) (x6 x7 : Vec F S2000x256 .f32) : Vec F S1x1x128 .f32 :=
  View.canon [⟨rC, k0_pay1 (k0_pay19 (k0_pay15 (k0_pay5 (View.ld x3 rA)) (k0_pay9 (View.ld x0 rA)))) (k0_pay20 (k0_pay16 (k0_pay4 (View.ld x2 rA)) (k0_pay9 (View.ld x0 rA)))) (k0_pay21 (k0_pay17 (k0_pay5 (View.ld x3 rA)) (k0_pay9 (View.ld x0 rA)))) (k0_pay22 (k0_pay13 (k0_pay6 (View.ld x4 rA)) (k0_pay7 (View.ld x5 rA)) (k0_pay9 (View.ld x0 rA)))) (k0_pay23 (k0_pay13 (k0_pay6 (View.ld x4 rA)) (k0_pay7 (View.ld x5 rA)) (k0_pay9 (View.ld x0 rA)))) (iota .tc S1x128 32 [1] iota_S1x128_d1_w32) (k0_pay24 (k0_pay8 (View.ld x6 rB) (View.ld x7 rB)) (k0_pay9 (View.ld x0 rA)) (k0_pay18 (k0_pay2 (View.ld x0 rA)) (k0_pay3 (View.ld x1 rA)) (k0_pay10 (View.ld x0 rA)))) k0_pay25 (k0_pay26 (k0_pay14 (k0_pay4 (View.ld x2 rA)) (k0_pay9 (View.ld x0 rA))))⟩]

/-- One store over the whole block covers it. -/
theorem cover8 (p0 : rA.shape.Idx → Elt F .f32) (y : S2000x128.Idx) :
    ∃ pc ∈ ([⟨rA, p0⟩] : List (View.Piece (Elt F) S2000x128 .f32)), y ∈ pc.1.set :=
  View.cover_of_tiled [⟨rA, p0⟩] S2000x128.size (by rfl) y
theorem cover9 (p0 : rC.shape.Idx → Elt F .f32) (y : S1x1x128.Idx) :
    ∃ pc ∈ ([⟨rC, p0⟩] : List (View.Piece (Elt F) S1x1x128 .f32)), y ∈ pc.1.set :=
  View.cover_of_tiled [⟨rC, p0⟩] S1x1x128.size (by rfl) y

/-! ## The body's triple -/

set_option maxHeartbeats 4000000 in
/-- The kernel body on whole staging memrefs — the inputs' at read contents `xK`, the outputs' at anything — runs to
    the continuation holding the inputs' as they were and the outputs' at `out8` / `out9` of the inputs'. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x256 .f32) (harg7 : arg7.IsWhole) (arg8 : Memref sig .tc .vmem S2000x256 .f32) (harg8 : arg8.IsWhole) (arg9 : Memref sig .tc .vmem S2000x128 .f32) (harg9 : arg9.IsWhole) (arg10 : Memref sig .tc .vmem S1x1x128 .f32) (harg10 : arg10.IsWhole)
    (x0 x1 x2 x3 x4 x5 : Vec F S2000x128 .f32) (x6 x7 : Vec F S2000x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7) ∗ owns (c : Thread nD τ) arg10 fullShare (out9 x0 x1 x2 x3 x4 x5 x6 x7)) -∗ K ⟨⟩))
      ⊢ wp frame (wpE (defs₀ (F := F)) Variants.none c none) E (cc0__edge_kernel_impl i arg1 harg1 arg2 harg2 arg3 harg3 arg4 harg4 arg5 harg5 arg6 harg6 arg7 harg7 arg8 harg8 arg9 harg9 arg10 harg10) K := by
  simp only [cc0__edge_kernel_impl_eq_skeleton]
  unfold cc0__edge_kernel_impl_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover8 _)
  iexists _; isplitr
  swap; · iexact H9
  ipureintro
  exact View.read_writes_eq_canon _ _ _ (cover9 _)

end Cert.KernelIdeal.HF

end
-- ==== Proof.KiFrame.lean ====
import proofs.«176581_j38010460570140_2_alg».proof.Proof.KiFrameHost
import proofs.«176581_j38010460570140_2_alg».proof.Proof.KiFrameBody

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t`
    each input's buffer at its block and each output's at `out8` / `out9` of the input blocks; the invariant the scoped
    rest and the random-number register, untouched; nothing owed; full shares. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
    | ⟨9, _⟩ => out9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

theorem W_arg0 (c : Dev nD) : Pipeline.afterTail₀ cfgs (dats m) 0 (V0 m) [Gen.hostOps1] c main_arg0 = m ((c : Thread nD τ).loc main_arg0) :=
  W_arg0_of m (dats m) c
theorem W_arg1 (c : Dev nD) : Pipeline.afterTail₀ cfgs (dats m) 0 (V0 m) [Gen.hostOps1] c main_arg1 = m ((c : Thread nD τ).loc main_arg1) :=
  W_arg1_of m (dats m) c
theorem W_arg2 (c : Dev nD) : Pipeline.afterTail₀ cfgs (dats m) 0 (V0 m) [Gen.hostOps1] c main_arg2 = m ((c : Thread nD τ).loc main_arg2) :=
  W_arg2_of m (dats m) c
theorem W_arg3 (c : Dev nD) : Pipeline.afterTail₀ cfgs (dats m) 0 (V0 m) [Gen.hostOps1] c main_arg3 = m ((c : Thread nD τ).loc main_arg3) :=
  W_arg3_of m (dats m) c
theorem W_arg4 (c : Dev nD) : Pipeline.afterTail₀ cfgs (dats m) 0 (V0 m) [Gen.hostOps1] c main_arg4 = m ((c : Thread nD τ).loc main_arg4) :=
  W_arg4_of m (dats m) c
theorem W_arg5 (c : Dev nD) : Pipeline.afterTail₀ cfgs (dats m) 0 (V0 m) [Gen.hostOps1] c main_arg5 = m ((c : Thread nD τ).loc main_arg5) :=
  W_arg5_of m (dats m) c

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCores terminates, and every final state has every array of
    the pipeline at what the library computes from the proof data and every other unscoped buffer as the lines after
    the region leave it. -/
theorem run_main : θ_run defs (onTc (τ := τ) (main (F := F))) (s₀ m ρ) (Pipeline.FramePost cfgs (dats m) 0 (Pipeline.afterTail₀ cfgs (dats m) 0 (V0 m) [Gen.hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.HF

end
-- ==== Proof.LossSpec.lean ====
/-
  The loss of a graph with 200000 nodes and 6400000 edges, as two formulas of the six argument arrays.

  Per edge e: the weight p = 1 / (1 + exp (-x)) of its logit x, the binary cross-entropy of its label against x, the
  resistance R and reactance X, the voltage differences a, b of its end nodes (rows of the node array read at the
  edge's two node indices, a negative index wrapped once and the row then clamped into the array), the voltage drop
  dist = sqrt (a² + b²), the current cur = dist / sqrt ((R + ε)² + X²), and c = cur · p, vd = dist · p.
  Seven numbers are returned: topology, parameter, KCL, KVL, radial, sparsity and their sum.  formK spells the KVL
  term through the weighted moments Σ p, Σ R p, Σ R² p and Σ vd, Σ vd²; formR spells it through the deviations from
  the means.  The node currents are a difference of two sums in formR and one sum of signed terms in formK.
-/
import Idealize.ShloMosaic.PureOps.Ideal
import Idealize.ShloMosaic.Lib.ValueIdx

noncomputable section

open scoped BigOperators

namespace LossSpec

open Idealize.ShloMosaic ValueIdx

/-- An f32 word as the extended real it denotes. -/
abbrev lit (b : BitVec 32) : EReal := Ideal.ofBits .f32 b

abbrev cE : EReal := lit 0x4AC35000#32      -- 6400000
abbrev c2E : EReal := lit 0x4B435000#32     -- 12800000
abbrev cEm1 : EReal := lit 0x4AC34FFE#32    -- 6399999
abbrev cN : EReal := lit 0x48435000#32      -- 200000
abbrev cNm1 : EReal := lit 0x48434FC0#32    -- 199999
abbrev one : EReal := lit 0x3F800000#32
abbrev two : EReal := lit 0x40000000#32
abbrev c01 : EReal := lit 0x3DCCCCCD#32     -- the f32 nearest 0.1
abbrev c001 : EReal := lit 0x3C23D70A#32    -- the f32 nearest 0.01
abbrev eps : EReal := lit 0x358637BD#32     -- the f32 nearest 1e-6

/-! ## One edge -/

def softplus (y : EReal) : EReal := max y 0 + Ideal.log1p (Ideal.exp (-(max y (-y))))
def lsig (x : EReal) : EReal := -(softplus (-x))
def bce (lab x : EReal) : EReal := -(lab * lsig x + (one - lab) * lsig (-x))
def dist (a b : EReal) : EReal := Ideal.sqrt (a * a + b * b)
def den (R X : EReal) : EReal := Ideal.sqrt ((R + eps) * (R + eps) + X * X)
def cur (a b R X : EReal) : EReal := Ideal.div (dist a b) (den R X)

/-! ## The arrays -/

abbrev SNodes : Shape := ⟨2, ![200000, 4]⟩
abbrev SEdge : Shape := ⟨1, ![6400000]⟩
abbrev SEdge2 : Shape := ⟨2, ![6400000, 2]⟩
abbrev SIdx : Shape := ⟨2, ![2, 6400000]⟩

/-- The six argument arrays. -/
structure Args where
  nf : SNodes.Idx → EReal
  lg : SEdge.Idx → EReal
  ep : SEdge2.Idx → EReal
  lb : SEdge.Idx → EReal
  tp : SEdge2.Idx → EReal
  ei : SIdx.Idx → BitVec 32

/-- The row of the node array an index word reads: a negative word has 200000 added (in 32-bit arithmetic), the
    result is read signed, a negative one as 0, and capped at 199999. -/
def row (i : BitVec 32) : Fin 200000 :=
  let j : BitVec 32 := if i.slt 0#32 then i + 200000#32 else i
  ⟨min j.toInt.toNat 199999, by omega⟩

/-- The node an index word adds into: the word read signed, when that is a node. -/
def lands (i : BitVec 32) (n : Fin 200000) : Prop := i.toInt = (n.val : Int)

instance (i : BitVec 32) (n : Fin 200000) : Decidable (lands i n) := by unfold lands; infer_instance

variable (A : Args)

def src (e : Fin 6400000) : BitVec 32 := A.ei (ix2 (0 : Fin 2) e)
def dst (e : Fin 6400000) : BitVec 32 := A.ei (ix2 (1 : Fin 2) e)
def x (e : Fin 6400000) : EReal := A.lg (ix1 e)
def p (e : Fin 6400000) : EReal := Ideal.logistic (x A e)
def R (e : Fin 6400000) : EReal := A.ep (ix2 e (0 : Fin 2))
def X (e : Fin 6400000) : EReal := A.ep (ix2 e (1 : Fin 2))
def da (e : Fin 6400000) : EReal := A.nf (ix2 (row (src A e)) (0 : Fin 4)) - A.nf (ix2 (row (dst A e)) (0 : Fin 4))
def db (e : Fin 6400000) : EReal := A.nf (ix2 (row (src A e)) (1 : Fin 4)) - A.nf (ix2 (row (dst A e)) (1 : Fin 4))
def c (e : Fin 6400000) : EReal := cur (da A e) (db A e) (R A e) (X A e) * p A e
def vd (e : Fin 6400000) : EReal := dist (da A e) (db A e) * p A e

/-! ## The sums both forms share -/

def Sbce : EReal := ∑ e : Fin 6400000, bce (A.lb (ix1 e)) (x A e)
def Ssq : EReal := ∑ e : Fin 6400000, ∑ k : Fin 2, (A.ep (ix2 e k) - A.tp (ix2 e k)) * (A.ep (ix2 e k) - A.tp (ix2 e k))
def Sp : EReal := ∑ e : Fin 6400000, p A e

/-! ## The pieces of the result both forms share -/

def mean1 (S cst : EReal) : EReal := one * Ideal.div S cst
def kcl (K : EReal) : EReal := c01 * Ideal.div K cN
def kvl (pc vc : EReal) : EReal := c01 * (pc + vc)
def radial (S : EReal) : EReal := c01 * ((one * ((S - cNm1) * (S - cNm1))) + c01 * Ideal.div S cE)
def sparsity (S : EReal) : EReal := c001 * Ideal.div S cE
def total (t q k v r s : EReal) : EReal := ((((t + q) + k) + v) + r) + s

/-- The seven results from the six terms. -/
def seven (t q k v r s : EReal) : Fin 7 → EReal := ![t, q, k, v, r, s, total t q k v r s]

/-! ## The form through moments -/

def momVar (S2 S1 S0 : EReal) : EReal :=
  let μ := Ideal.div S1 (S0 + eps)
  (S2 - (two * μ) * S1) + (μ * μ) * S0

def nodeK (n : Fin 200000) : EReal :=
  (∑ e ∈ Finset.univ.filter (fun e => lands (dst A e) n), c A e)
    + ∑ e ∈ Finset.univ.filter (fun e => lands (src A e) n), -(c A e)

def pcK : EReal :=
  Ideal.div (momVar (∑ e, (R A e * R A e) * p A e) (∑ e, R A e * p A e) (Sp A)
    + momVar (∑ e, (X A e * X A e) * p A e) (∑ e, X A e * p A e) (Sp A)) two

def vcK : EReal :=
  let m := Ideal.div (∑ e, vd A e) cE
  Ideal.div ((∑ e, vd A e * vd A e) - (cE * m) * m) cEm1

def formK : Fin 7 → EReal :=
  seven (mean1 (Sbce A) cE) (mean1 (Ssq A) c2E) (kcl (∑ n, nodeK A n * nodeK A n)) (kvl (pcK A) (vcK A))
    (radial (Sp A)) (sparsity (Sp A))

/-! ## The form through deviations -/

def devVar (P : Fin 6400000 → EReal) : EReal :=
  let μ := Ideal.div (∑ e, P e * p A e) (Sp A + eps)
  ∑ e, ((P e - μ) * (P e - μ)) * p A e

def nodeR (n : Fin 200000) : EReal :=
  (∑ e ∈ Finset.univ.filter (fun e => lands (dst A e) n), c A e)
    - ∑ e ∈ Finset.univ.filter (fun e => lands (src A e) n), c A e

def pcR : EReal := Ideal.div (devVar A (R A) + devVar A (X A)) two

def vcR : EReal :=
  let m := Ideal.div (∑ e, vd A e) cE
  Ideal.div (∑ e, (vd A e - m) * (vd A e - m)) (cE - one)

def formR : Fin 7 → EReal :=
  seven (mean1 (Sbce A) cE) (mean1 (Ssq A) c2E) (kcl (∑ n, nodeR A n * nodeR A n)) (kvl (pcR A) (vcR A))
    (radial (Sp A)) (sparsity (Sp A))

end LossSpec

end
-- ==== Proof.KSpec.lean ====
/-
  The two arrays the kernel leaves, as functions of the six argument arrays.

  The edges are laid out row-major as 50000 rows of 128; the kernel works on 25 bands of 2000 rows.  Its first result
  holds the weighted current c of every edge at the edge's place.  Its second holds, per band i, one row of 128 lanes:
  lane 0 the band's sum of the cross-entropies, lane 1 the band's sum of squared parameter differences (the pairs
  (R, X) of the band's edges laid end to end in rows of 256), lanes 2 to 8 the band's sums of p, R p, X p, R² p, X² p,
  vd and vd²; every other lane is zero.
-/
import proofs.«176581_j38010460570140_2_alg».proof.Proof.LossSpec

noncomputable section

open scoped BigOperators

namespace KSpec

open Idealize.ShloMosaic ValueIdx LossSpec

abbrev SRows : Shape := ⟨2, ![50000, 128]⟩
abbrev SRows2 : Shape := ⟨2, ![50000, 256]⟩
abbrev SBand : Shape := ⟨3, ![1, 2000, 128]⟩
abbrev SBand2 : Shape := ⟨3, ![1, 2000, 256]⟩
abbrev SLanes : Shape := ⟨3, ![25, 1, 128]⟩

/-- The edge at row r, lane l of the 50000 × 128 layout. -/
def edgeAt (r : Fin 50000) (l : Fin 128) : Fin 6400000 := ⟨r.val * 128 + l.val, by omega⟩

/-- The (edge, component) pair at row r, place q of the 50000 × 256 layout of the parameter pairs. -/
def pairAt (r : Fin 50000) (q : Fin 256) : SEdge2.Idx :=
  ix2 (⟨(r.val * 256 + q.val) / 2, by omega⟩ : Fin 6400000) (⟨(r.val * 256 + q.val) % 2, by omega⟩ : Fin 2)

/-- Row s of band i. -/
def bandRow (i : Fin 25) (s : Fin 2000) : Fin 50000 := ⟨i.val * 2000 + s.val, by omega⟩

/-- A band's sum of a per-edge quantity. -/
def bandSum (f : Fin 6400000 → EReal) (i : Fin 25) : EReal :=
  ∑ y : SBand.Idx, f (edgeAt (bandRow i ⟨(y 1).val, (y 1).isLt⟩) ⟨(y 2).val, (y 2).isLt⟩)

/-- A band's sum of squared parameter differences. -/
def bandSq (A : Args) (i : Fin 25) : EReal :=
  ∑ y : SBand2.Idx,
    (A.ep (pairAt (bandRow i ⟨(y 1).val, (y 1).isLt⟩) ⟨(y 2).val, (y 2).isLt⟩)
        - A.tp (pairAt (bandRow i ⟨(y 1).val, (y 1).isLt⟩) ⟨(y 2).val, (y 2).isLt⟩))
      * (A.ep (pairAt (bandRow i ⟨(y 1).val, (y 1).isLt⟩) ⟨(y 2).val, (y 2).isLt⟩)
        - A.tp (pairAt (bandRow i ⟨(y 1).val, (y 1).isLt⟩) ⟨(y 2).val, (y 2).isLt⟩))

/-- Lane l of band i's row of partial sums. -/
def lane (A : Args) (i : Fin 25) (l : Fin 128) : EReal :=
  if l.val = 8 then bandSum (fun e => vd A e * vd A e) i
  else if l.val = 7 then bandSum (vd A) i
  else if l.val = 6 then bandSum (fun e => (X A e * X A e) * p A e) i
  else if l.val = 5 then bandSum (fun e => (R A e * R A e) * p A e) i
  else if l.val = 4 then bandSum (fun e => X A e * p A e) i
  else if l.val = 3 then bandSum (fun e => R A e * p A e) i
  else if l.val = 2 then bandSum (p A) i
  else if l.val = 1 then bandSq A i
  else if l.val = 0 then bandSum (fun e => bce (A.lb (ix1 e)) (x A e)) i
  else 0

/-- The kernel's first result: the weighted currents at the edges' places. -/
def curp2 (A : Args) : SRows.Idx → EReal := fun j => c A (edgeAt ⟨(j 0).val, (j 0).isLt⟩ ⟨(j 1).val, (j 1).isLt⟩)

/-- The kernel's second result: the bands' rows of partial sums. -/
def sums3 (A : Args) : SLanes.Idx → EReal := fun j => lane A ⟨(j 0).val, (j 0).isLt⟩ ⟨(j 2).val, (j 2).isLt⟩

/-- The argument arrays as the 50000-row arrays the kernel's windows stage. -/
def lg2 (A : Args) : SRows.Idx → EReal := fun j => A.lg (ix1 (edgeAt ⟨(j 0).val, (j 0).isLt⟩ ⟨(j 1).val, (j 1).isLt⟩))
def lb2 (A : Args) : SRows.Idx → EReal := fun j => A.lb (ix1 (edgeAt ⟨(j 0).val, (j 0).isLt⟩ ⟨(j 1).val, (j 1).isLt⟩))
def R2 (A : Args) : SRows.Idx → EReal := fun j => R A (edgeAt ⟨(j 0).val, (j 0).isLt⟩ ⟨(j 1).val, (j 1).isLt⟩)
def X2 (A : Args) : SRows.Idx → EReal := fun j => X A (edgeAt ⟨(j 0).val, (j 0).isLt⟩ ⟨(j 1).val, (j 1).isLt⟩)
def da2 (A : Args) : SRows.Idx → EReal := fun j => da A (edgeAt ⟨(j 0).val, (j 0).isLt⟩ ⟨(j 1).val, (j 1).isLt⟩)
def db2 (A : Args) : SRows.Idx → EReal := fun j => db A (edgeAt ⟨(j 0).val, (j 0).isLt⟩ ⟨(j 1).val, (j 1).isLt⟩)
def ep2 (A : Args) : SRows2.Idx → EReal := fun j => A.ep (pairAt ⟨(j 0).val, (j 0).isLt⟩ ⟨(j 1).val, (j 1).isLt⟩)
def tp2 (A : Args) : SRows2.Idx → EReal := fun j => A.tp (pairAt ⟨(j 0).val, (j 0).isLt⟩ ⟨(j 1).val, (j 1).isLt⟩)

/-- The edges' source and destination words as arrays of 6400000. -/
def srcArr (A : Args) : SEdge.Idx → BitVec 32 := fun j => src A ⟨(j 0).val, (j 0).isLt⟩
def dstArr (A : Args) : SEdge.Idx → BitVec 32 := fun j => dst A ⟨(j 0).val, (j 0).isLt⟩

end KSpec

end
-- ==== Proof.KiValueBlocks.lean ====
import proofs.«176581_j38010460570140_2_alg».proof.Proof.KiFrame
import proofs.«176581_j38010460570140_2_alg».proof.Proof.KSpec
import Idealize.ShloMosaic.Lib.Pipeline.Value
import Idealize.ShloMosaic.Lib.ValueIdx

set_option maxRecDepth 16384

noncomputable section

open scoped BigOperators

namespace Cert.KernelIdeal.HF

open Idealize.ShloMosaic Idealize.ShloMosaic.TcCoe Idealize.SL.Sem ValueIdx
open Idealize.ShloMosaic.Pipeline (Dat)
open Cert.KernelIdeal.Gen

variable (m : (ℓ : Loc nD τ sig) → Buf (Elt Ideal) ℓ)

/-! ## The windows' index maps over the grid: point t works on band t -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)
theorem idx_9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## A block entry is the array's entry 2000 t rows further down -/

theorem iblk_at_0 (c : Dev nD) (t : Fin cfg0.N) (y : S2000x128.Idx) (k : S50000x128.Idx)
    (hk0 : (k 0).val = t.val * 2000 + (y 0).val) (hk1 : (k 1).val = (y 1).val) :
    (iblk m c 0 t : S2000x128.Idx → EReal) y = (V m c main_v36 : S50000x128.Idx → EReal) k := by
  obtain ⟨h0, h1⟩ := idx_0 t
  unfold iblk
  rw [View.read_apply]
  show V m c main_v36 _ = V m c main_v36 _
  congr 1
  funext a
  apply Fin.ext
  match a with
  | ⟨0, _⟩ => show win0_0.index t (0 : Fin 2) * 2000 + 1 * (y 0).val = (k 0).val; rw [h0, hk0]; omega
  | ⟨1, _⟩ => show win0_0.index t (1 : Fin 2) * 128 + 1 * (y 1).val = (k 1).val; rw [h1, hk1]; omega

theorem iblk_at_1 (c : Dev nD) (t : Fin cfg0.N) (y : S2000x128.Idx) (k : S50000x128.Idx)
    (hk0 : (k 0).val = t.val * 2000 + (y 0).val) (hk1 : (k 1).val = (y 1).val) :
    (iblk m c 1 t : S2000x128.Idx → EReal) y = (V m c main_v37 : S50000x128.Idx → EReal) k := by
  obtain ⟨h0, h1⟩ := idx_1 t
  unfold iblk
  rw [View.read_apply]
  show V m c main_v37 _ = V m c main_v37 _
  congr 1
  funext a
  apply Fin.ext
  match a with
  | ⟨0, _⟩ => show win0_1.index t (0 : Fin 2) * 2000 + 1 * (y 0).val = (k 0).val; rw [h0, hk0]; omega
  | ⟨1, _⟩ => show win0_1.index t (1 : Fin 2) * 128 + 1 * (y 1).val = (k 1).val; rw [h1, hk1]; omega

theorem iblk_at_2 (c : Dev nD) (t : Fin cfg0.N) (y : S2000x128.Idx) (k : S50000x128.Idx)
    (hk0 : (k 0).val = t.val * 2000 + (y 0).val) (hk1 : (k 1).val = (y 1).val) :
    (iblk m c 2 t : S2000x128.Idx → EReal) y = (V m c main_v38 : S50000x128.Idx → EReal) k := by
  obtain ⟨h0, h1⟩ := idx_2 t
  unfold iblk
  rw [View.read_apply]
  show V m c main_v38 _ = V m c main_v38 _
  congr 1
  funext a
  apply Fin.ext
  match a with
  | ⟨0, _⟩ => show win0_2.index t (0 : Fin 2) * 2000 + 1 * (y 0).val = (k 0).val; rw [h0, hk0]; omega
  | ⟨1, _⟩ => show win0_2.index t (1 : Fin 2) * 128 + 1 * (y 1).val = (k 1).val; rw [h1, hk1]; omega

theorem iblk_at_3 (c : Dev nD) (t : Fin cfg0.N) (y : S2000x128.Idx) (k : S50000x128.Idx)
    (hk0 : (k 0).val = t.val * 2000 + (y 0).val) (hk1 : (k 1).val = (y 1).val) :
    (iblk m c 3 t : S2000x128.Idx → EReal) y = (V m c main_v39 : S50000x128.Idx → EReal) k := by
  obtain ⟨h0, h1⟩ := idx_3 t
  unfold iblk
  rw [View.read_apply]
  show V m c main_v39 _ = V m c main_v39 _
  congr 1
  funext a
  apply Fin.ext
  match a with
  | ⟨0, _⟩ => show win0_3.index t (0 : Fin 2) * 2000 + 1 * (y 0).val = (k 0).val; rw [h0, hk0]; omega
  | ⟨1, _⟩ => show win0_3.index t (1 : Fin 2) * 128 + 1 * (y 1).val = (k 1).val; rw [h1, hk1]; omega

theorem iblk_at_4 (c : Dev nD) (t : Fin cfg0.N) (y : S2000x128.Idx) (k : S50000x128.Idx)
    (hk0 : (k 0).val = t.val * 2000 + (y 0).val) (hk1 : (k 1).val = (y 1).val) :
    (iblk m c 4 t : S2000x128.Idx → EReal) y = (V m c main_v40 : S50000x128.Idx → EReal) k := by
  obtain ⟨h0, h1⟩ := idx_4 t
  unfold iblk
  rw [View.read_apply]
  show V m c main_v40 _ = V m c main_v40 _
  congr 1
  funext a
  apply Fin.ext
  match a with
  | ⟨0, _⟩ => show win0_4.index t (0 : Fin 2) * 2000 + 1 * (y 0).val = (k 0).val; rw [h0, hk0]; omega
  | ⟨1, _⟩ => show win0_4.index t (1 : Fin 2) * 128 + 1 * (y 1).val = (k 1).val; rw [h1, hk1]; omega

theorem iblk_at_5 (c : Dev nD) (t : Fin cfg0.N) (y : S2000x128.Idx) (k : S50000x128.Idx)
    (hk0 : (k 0).val = t.val * 2000 + (y 0).val) (hk1 : (k 1).val = (y 1).val) :
    (iblk m c 5 t : S2000x128.Idx → EReal) y = (V m c main_v41 : S50000x128.Idx → EReal) k := by
  obtain ⟨h0, h1⟩ := idx_5 t
  unfold iblk
  rw [View.read_apply]
  show V m c main_v41 _ = V m c main_v41 _
  congr 1
  funext a
  apply Fin.ext
  match a with
  | ⟨0, _⟩ => show win0_5.index t (0 : Fin 2) * 2000 + 1 * (y 0).val = (k 0).val; rw [h0, hk0]; omega
  | ⟨1, _⟩ => show win0_5.index t (1 : Fin 2) * 128 + 1 * (y 1).val = (k 1).val; rw [h1, hk1]; omega

theorem iblk_at_6 (c : Dev nD) (t : Fin cfg0.N) (y : S2000x256.Idx) (k : S50000x256.Idx)
    (hk0 : (k 0).val = t.val * 2000 + (y 0).val) (hk1 : (k 1).val = (y 1).val) :
    (iblk m c 6 t : S2000x256.Idx → EReal) y = (V m c main_v42 : S50000x256.Idx → EReal) k := by
  obtain ⟨h0, h1⟩ := idx_6 t
  unfold iblk
  rw [View.read_apply]
  show V m c main_v42 _ = V m c main_v42 _
  congr 1
  funext a
  apply Fin.ext
  match a with
  | ⟨0, _⟩ => show win0_6.index t (0 : Fin 2) * 2000 + 1 * (y 0).val = (k 0).val; rw [h0, hk0]; omega
  | ⟨1, _⟩ => show win0_6.index t (1 : Fin 2) * 256 + 1 * (y 1).val = (k 1).val; rw [h1, hk1]; omega

theorem iblk_at_7 (c : Dev nD) (t : Fin cfg0.N) (y : S2000x256.Idx) (k : S50000x256.Idx)
    (hk0 : (k 0).val = t.val * 2000 + (y 0).val) (hk1 : (k 1).val = (y 1).val) :
    (iblk m c 7 t : S2000x256.Idx → EReal) y = (V m c main_v43 : S50000x256.Idx → EReal) k := by
  obtain ⟨h0, h1⟩ := idx_7 t
  unfold iblk
  rw [View.read_apply]
  show V m c main_v43 _ = V m c main_v43 _
  congr 1
  funext a
  apply Fin.ext
  match a with
  | ⟨0, _⟩ => show win0_7.index t (0 : Fin 2) * 2000 + 1 * (y 0).val = (k 0).val; rw [h0, hk0]; omega
  | ⟨1, _⟩ => show win0_7.index t (1 : Fin 2) * 256 + 1 * (y 1).val = (k 1).val; rw [h1, hk1]; omega

/-! ## The output blocks tile their arrays -/

theorem mem_blk8 (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v44_0).slice (win0_8.rect t)).set ↔ _
  rw [View.set_slice_whole, Rect.mem_set_unit]
  exact Iff.rfl

theorem mem_blk9 (t : Fin cfg0.N) (i : S25x1x128.Idx) :
    i ∈ ((cfg0.win 9).blk t).view.set ↔ ∀ a : Fin 3, win0_9.index t a * S1x1x128.size a ≤ (i a).val ∧ (i a).val < win0_9.index t a * S1x1x128.size a + S1x1x128.size a := by
  show i ∈ ((View.whole main_v44_1).slice (win0_9.rect t)).set ↔ _
  rw [View.set_slice_whole, Rect.mem_set_unit]
  exact Iff.rfl

/-- Row r of the first result is written by point r / 2000. -/
theorem covered8 (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  obtain ⟨h0, h1⟩ := idx_8 ⟨(i 0).val / 2000, by omega⟩
  refine ⟨⟨(i 0).val / 2000, by omega⟩, flush0_8 _, ?_⟩
  rw [mem_blk8]
  intro a
  match a with
  | ⟨0, _⟩ => show win0_8.index _ (0 : Fin 2) * 2000 ≤ (i 0).val ∧ (i 0).val < win0_8.index _ (0 : Fin 2) * 2000 + 2000; rw [h0]; show (i 0).val / 2000 * 2000 ≤ (i 0).val ∧ (i 0).val < (i 0).val / 2000 * 2000 + 2000; omega
  | ⟨1, _⟩ => show win0_8.index _ (1 : Fin 2) * 128 ≤ (i 1).val ∧ (i 1).val < win0_8.index _ (1 : Fin 2) * 128 + 128; rw [h1]; omega

/-- Band i of the second result is written by point i. -/
theorem covered9 (i : S25x1x128.Idx) : ∃ t : Fin cfg0.N, (cfg0.win 9).flush t = true ∧ i ∈ ((cfg0.win 9).blk t).view.set := by
  have hi0 : (i 0).val < 25 := (i 0).isLt
  have hi1 : (i 1).val < 1 := (i 1).isLt
  have hi2 : (i 2).val < 128 := (i 2).isLt
  have hN : cfg0.N = 25 := N_0
  obtain ⟨h0, h1, h2⟩ := idx_9 ⟨(i 0).val, by omega⟩
  refine ⟨⟨(i 0).val, by omega⟩, flush0_9 _, ?_⟩
  rw [mem_blk9]
  intro a
  match a with
  | ⟨0, _⟩ => show win0_9.index _ (0 : Fin 3) * 1 ≤ (i 0).val ∧ (i 0).val < win0_9.index _ (0 : Fin 3) * 1 + 1; rw [h0]; show (i 0).val * 1 ≤ (i 0).val ∧ (i 0).val < (i 0).val * 1 + 1; omega
  | ⟨1, _⟩ => show win0_9.index _ (1 : Fin 3) * 1 ≤ (i 1).val ∧ (i 1).val < win0_9.index _ (1 : Fin 3) * 1 + 1; rw [h1]; omega
  | ⟨2, _⟩ => show win0_9.index _ (2 : Fin 3) * 128 ≤ (i 2).val ∧ (i 2).val < win0_9.index _ (2 : Fin 3) * 128 + 128; rw [h2]; omega

end Cert.KernelIdeal.HF
end
-- ==== Proof.KiValueSums.lean ====
import proofs.«176581_j38010460570140_2_alg».proof.Proof.KiFrameBody
import proofs.«176581_j38010460570140_2_alg».proof.Proof.KSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HF

open Idealize.ShloMosaic Idealize.ShloMosaic.TcCoe Idealize.SL.Sem ValueIdx
open Idealize.ShloMosaic.Pipeline (Dat)
open Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The first output block, index by index: the current times the weight. -/
theorem out8_apply (x0 x1 x2 x3 x4 x5 : S2000x128.Idx → EReal) (x6 x7 : S2000x256.Idx → EReal) (j : S2000x128.Idx) :
    out8 (F := Ideal) x0 x1 x2 x3 x4 x5 x6 x7 j = LossSpec.cur (x4 j) (x5 j) (x2 j) (x3 j) * Ideal.logistic (x0 j) := by
  unfold out8
  rw [View.canon_unit_zero hz2]
  simp only [View.ld_unit_zero (S := S2000x128) hz2]
  unfold k0_pay12 k0_pay11 k0_pay4 k0_pay5 k0_pay6 k0_pay7 k0_pay9 k0_pay2
  simp only [shapeCast_self]
  rfl

/-- The sum of a block's entries, the block read as one band of 2000 rows of 128. -/
def sumB (f : S2000x128.Idx → EReal) : EReal := ∑ y : S1x2000x128.Idx, f (fun a => y a.succ)
/-- The same for a block of 2000 rows of 256. -/
def sumB2 (f : S2000x256.Idx → EReal) : EReal := ∑ y : S1x2000x256.Idx, f (fun a => y a.succ)

/-- A reduction of a whole block into one number, read at the one index, is the sum of the block's entries. -/
theorem laneSum (v : FVec Ideal S2000x128 .f32) (h1 : S2000x128.ShapeCasts S1x2000x128) (h2 : S1x2000x128.Reduces [1, 2] S1)
    (hφ : FKind.Formats .f32) (hacc : (0x00000000#32 : BitVec 32) = 0x00000000#32)
    (h3 : S1.ShapeCasts S1x1x1) (h4 : ∀ a, (![0, 0, 0] : Fin 3 → Nat) a < S1x1x1.size a) :
    extractAt ![0, 0, 0] (shapeCast S1x1x1 (multiReduction (F := Ideal) .add [1, 2] S1 (shapeCast S1x2000x128 v h1) 0x00000000#32 h2 hφ hacc) h3) h4
      = sumB v := by
  have hacc' : (0x00000000#32 : BitVec FTy.f32.bits) = FKind.add.neutral .f32 hφ := hacc
  show multiReduction (F := Ideal) .add [1, 2] S1 (shapeCast S1x2000x128 v h1) 0x00000000#32 h2 hφ hacc' _ = _
  rw [Ideal.multiReduction_add_total _ _ _ (by decide)]
  exact Finset.sum_congr rfl fun y _ => shapeCast_addUnit_apply ![2000, 128] v h1 y

theorem laneSum2 (v : FVec Ideal S2000x256 .f32) (h1 : S2000x256.ShapeCasts S1x2000x256) (h2 : S1x2000x256.Reduces [1, 2] S1)
    (hφ : FKind.Formats .f32) (hacc : (0x00000000#32 : BitVec 32) = 0x00000000#32)
    (h3 : S1.ShapeCasts S1x1x1) (h4 : ∀ a, (![0, 0, 0] : Fin 3 → Nat) a < S1x1x1.size a) :
    extractAt ![0, 0, 0] (shapeCast S1x1x1 (multiReduction (F := Ideal) .add [1, 2] S1 (shapeCast S1x2000x256 v h1) 0x00000000#32 h2 hφ hacc) h3) h4
      = sumB2 v := by
  have hacc' : (0x00000000#32 : BitVec FTy.f32.bits) = FKind.add.neutral .f32 hφ := hacc
  show multiReduction (F := Ideal) .add [1, 2] S1 (shapeCast S1x2000x256 v h1) 0x00000000#32 h2 hφ hacc' _ = _
  rw [Ideal.multiReduction_add_total _ _ _ (by decide)]
  exact Finset.sum_congr rfl fun y _ => shapeCast_addUnit_apply ![2000, 256] v h1 y

/-- Comparing a lane number with a literal below 128, as 32-bit words. -/
theorem lane_cmp (n k : Nat) (hn : n < 128) (hk : k < 128) :
    IntOp.cmpi .eq (BitVec.ofNat 32 n) (BitVec.ofNat 32 k) = if n = k then 1#1 else 0#1 := by
  unfold IntOp.cmpi
  by_cases h : n = k
  · subst h; simp
  · rw [if_neg h]
    have hne : BitVec.ofNat 32 n ≠ BitVec.ofNat 32 k := fun e => by
      have := congrArg BitVec.toNat e
      simp only [BitVec.toNat_ofNat] at this
      rw [Nat.mod_eq_of_lt (by omega), Nat.mod_eq_of_lt (by omega)] at this
      exact h this
    rw [show (BitVec.ofNat 32 n == BitVec.ofNat 32 k) = false from beq_eq_false_iff_ne.mpr hne]
    rfl

end Cert.KernelIdeal.HF
end
-- ==== Proof.KiValue8.lean ====
import proofs.«176581_j38010460570140_2_alg».proof.Proof.KiValueBlocks
import proofs.«176581_j38010460570140_2_alg».proof.Proof.KiValueSums

set_option maxRecDepth 16384

noncomputable section

open scoped BigOperators

namespace Cert.KernelIdeal.HF

open Idealize.ShloMosaic Idealize.ShloMosaic.TcCoe Idealize.SL.Sem ValueIdx
open Idealize.ShloMosaic.Pipeline (Dat)
open Cert.KernelIdeal.Gen

variable (m : (ℓ : Loc nD τ sig) → Buf (Elt Ideal) ℓ)

/-! ## The first result: the weighted currents at the edges' places -/

/-- What point t writes back of the first result is block t of the weighted currents. -/
theorem flushed8_eq (c : Dev nD) (A : LossSpec.Args) (h0 : (V m c main_v36 : S50000x128.Idx → EReal) = KSpec.lg2 A) (h2 : (V m c main_v38 : S50000x128.Idx → EReal) = KSpec.R2 A) (h3 : (V m c main_v39 : S50000x128.Idx → EReal) = KSpec.X2 A) (h4 : (V m c main_v40 : S50000x128.Idx → EReal) = KSpec.da2 A) (h5 : (V m c main_v41 : S50000x128.Idx → EReal) = KSpec.db2 A) (t : Fin cfg0.N) :
    (dats m 0 c).flushed 8 t = ((cfg0.win 8).blk t).view.read (Elt Ideal) (KSpec.curp2 A) := by
  show (cfg0.win 8).cut (grid0.coords t) ((dats m 0 c).after 8 t) = _
  rw [after8]
  funext j
  obtain ⟨e0, e1⟩ := idx_8 t
  have hk0 : ((((cfg0.win 8).blk t).view.emb j) 0).val = t.val * 2000 + (j 0).val := by
    show win0_8.index t (0 : Fin 2) * 2000 + 1 * (j 0).val = _; rw [e0]; omega
  have hk1 : ((((cfg0.win 8).blk t).view.emb j) 1).val = (j 1).val := by
    show win0_8.index t (1 : Fin 2) * 128 + 1 * (j 1).val = _; rw [e1]; omega
  show out8 (F := Ideal) (iblk m c 0 t) (iblk m c 1 t) (iblk m c 2 t) (iblk m c 3 t) (iblk m c 4 t) (iblk m c 5 t) (iblk m c 6 t) (iblk m c 7 t) j = KSpec.curp2 A (((cfg0.win 8).blk t).view.emb j)
  refine (out8_apply _ _ _ _ _ _ _ _ j).trans ?_
  rw [iblk_at_0 m c t j _ hk0 hk1, iblk_at_2 m c t j _ hk0 hk1, iblk_at_3 m c t j _ hk0 hk1, iblk_at_4 m c t j _ hk0 hk1,
    iblk_at_5 m c t j _ hk0 hk1, h0, h2, h3, h4, h5]
  simp only [KSpec.curp2, KSpec.da2, KSpec.db2, KSpec.R2, KSpec.X2, KSpec.lg2, LossSpec.c, LossSpec.p, LossSpec.x]

/-- The first result ends holding the weighted currents. -/
theorem final8 (c : Dev nD) (A : LossSpec.Args) (h0 : (V m c main_v36 : S50000x128.Idx → EReal) = KSpec.lg2 A) (h2 : (V m c main_v38 : S50000x128.Idx → EReal) = KSpec.R2 A) (h3 : (V m c main_v39 : S50000x128.Idx → EReal) = KSpec.X2 A) (h4 : (V m c main_v40 : S50000x128.Idx → EReal) = KSpec.da2 A) (h5 : (V m c main_v41 : S50000x128.Idx → EReal) = KSpec.db2 A) :
    (dats m 0 c).arrAt 8 cfg0.N = KSpec.curp2 A :=
  (dats m 0 c).arrAt_eq_of_cover 8 (KSpec.curp2 A) (fun t _ => flushed8_eq m c A h0 h2 h3 h4 h5 t) covered8

end Cert.KernelIdeal.HF
end
-- ==== Proof.KiValueLanes.lean ====
import proofs.«176581_j38010460570140_2_alg».proof.Proof.KiValueSums

set_option maxRecDepth 16384

noncomputable section

open scoped BigOperators

namespace Cert.KernelIdeal.HF

open Idealize.ShloMosaic Idealize.ShloMosaic.TcCoe Idealize.SL.Sem ValueIdx
open Idealize.ShloMosaic.Pipeline (Dat)
open Cert.KernelIdeal.Gen

/-! ## Vector operations read at an index -/

theorem cmpi_apply {s : Shape} {w : Nat} (p : CmpIPredicate) (x y : IVec s w) (i : s.Idx) : cmpi p x y i = IntOp.cmpi p (x i) (y i) := rfl
theorem absf_apply {s : Shape} {φ : FTy} (a : FVec Ideal s φ) (i : s.Idx) : absf a i = max (a i) (-(a i)) := rfl
theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem cmp_one_self (z : EReal) : Ideal.cmp .one z z = 0#1 := by simp [Ideal.cmp]

/-- The lane number of an index of a row of 128 lanes. -/
theorem iota_lane (l : Fin 128) : iota .tc S1x128 32 [1] iota_S1x128_d1_w32 (ix2 (0 : Fin 1) l) = BitVec.ofNat 32 l.val :=
  (iota_single_apply .tc S1x128 32 1 iota_S1x128_d1_w32 _).trans rfl

theorem sel_ite {α : Type} (c : Prop) [Decidable c] (a b : α) :
    Scalar.select (if c then 1#1 else 0#1) a b = if c then a else b := by
  split
  · exact select_one a b
  · exact select_zero a b

/-! ## The cross-entropy terms -/

/-- The softplus of minus the logit, entry by entry. -/
theorem pay10_apply (x0 : S2000x128.Idx → EReal) (j : S2000x128.Idx) :
    k0_pay10 (F := Ideal) x0 j = LossSpec.softplus (-(x0 j)) := by
  unfold k0_pay10 k0_pay2
  simp only [shapeCast_self, select_apply, cmpf_apply, addf_apply, subf_apply, maximumf_apply, broadcast_apply, absf_apply,
    exp_apply, log1p_apply, Ideal.cmpf_def, cmp_one_self, select_zero, Ideal.ofBits_def, Ideal.ofBits_zero_f32, zero_sub, sub_zero]
  rfl

/-- The cross-entropy of an entry, as the body computes it. -/
theorem pay18_sum (x0 x1 : S2000x128.Idx → EReal) (h3 : S1.ShapeCasts S1x1x1) (h4 : ∀ a, (![0, 0, 0] : Fin 3 → Nat) a < S1x1x1.size a) :
    extractAt ![0, 0, 0] (shapeCast S1x1x1 (k0_pay18 (F := Ideal) x0 x1 (k0_pay10 x0)) h3) h4
      = sumB (fun j => LossSpec.bce (x1 j) (x0 j)) := by
  unfold k0_pay18
  refine (laneSum _ _ _ _ _ _ _).trans ?_
  refine congrArg sumB (funext fun j => ?_)
  simp only [select_apply, cmpf_apply, addf_apply, subf_apply, mulf_apply, maximumf_apply, broadcast_apply, absf_apply,
    exp_apply, log1p_apply, Ideal.cmpf_def, cmp_one_self, select_zero, Ideal.ofBits_def, Ideal.ofBits_zero_f32, zero_sub, sub_zero, pay10_apply]
  rfl

/-! ## The other lane sums -/

theorem sqrt_apply {s : Shape} {φ : FTy} (a : FVec Ideal s φ) (i : s.Idx) : sqrt a i = Ideal.sqrt (a i) := rfl

theorem pay19_eq (v : FVec Ideal S2000x128 .f32) : k0_pay19 (F := Ideal) v = sumB v := by
  unfold k0_pay19; exact laneSum v _ _ _ _ _ _
theorem pay20_eq (v : FVec Ideal S2000x128 .f32) : k0_pay20 (F := Ideal) v = sumB v := by
  unfold k0_pay20; exact laneSum v _ _ _ _ _ _
theorem pay21_eq (v : FVec Ideal S2000x128 .f32) : k0_pay21 (F := Ideal) v = sumB v := by
  unfold k0_pay21; exact laneSum v _ _ _ _ _ _
theorem pay22_eq (v : FVec Ideal S2000x128 .f32) : k0_pay22 (F := Ideal) v = sumB v := by
  unfold k0_pay22; exact laneSum v _ _ _ _ _ _
theorem pay23_eq (v : FVec Ideal S2000x128 .f32) : k0_pay23 (F := Ideal) v = sumB (fun j => v j * v j) := by
  unfold k0_pay23
  refine (laneSum (mulf v v) _ _ _ _ _ _).trans ?_
  exact congrArg sumB (funext fun j => mulf_apply v v j)
theorem pay26_apply (v : FVec Ideal S2000x128 .f32) (i : S1x128.Idx) : k0_pay26 (F := Ideal) v i = sumB v := by
  unfold k0_pay26
  refine (broadcast_apply _ i).trans ?_
  exact laneSum v _ _ _ _ _ _
theorem pay8_eq (x6 x7 : FVec Ideal S2000x256 .f32) : k0_pay8 (F := Ideal) x6 x7 = sumB2 (fun j => (x6 j - x7 j) * (x6 j - x7 j)) := by
  unfold k0_pay8
  simp only [shapeCast_self]
  refine (laneSum2 (mulf (subf x6 x7) (subf x6 x7)) _ _ _ _ _ _).trans ?_
  exact congrArg sumB2 (funext fun j => by simp only [mulf_apply, subf_apply])

/-! ## The summands, entry by entry -/

theorem pay13_eq (a b p : FVec Ideal S2000x128 .f32) : k0_pay13 (F := Ideal) a b p = fun j => LossSpec.dist (a j) (b j) * p j := by
  funext j
  unfold k0_pay13 k0_pay11
  simp only [mulf_apply, addf_apply, sqrt_apply, LossSpec.dist]
theorem pay14_eq (x p : FVec Ideal S2000x128 .f32) : k0_pay14 (F := Ideal) x p = fun j => x j * p j := by
  funext j; unfold k0_pay14; simp only [mulf_apply]
theorem pay15_eq (x p : FVec Ideal S2000x128 .f32) : k0_pay15 (F := Ideal) x p = fun j => x j * p j := by
  funext j; unfold k0_pay15; simp only [mulf_apply]
theorem pay16_eq (x p : FVec Ideal S2000x128 .f32) : k0_pay16 (F := Ideal) x p = fun j => (x j * x j) * p j := by
  funext j; unfold k0_pay16; simp only [mulf_apply]
theorem pay17_eq (x p : FVec Ideal S2000x128 .f32) : k0_pay17 (F := Ideal) x p = fun j => (x j * x j) * p j := by
  funext j; unfold k0_pay17; simp only [mulf_apply]

theorem pay9_eq (x0 : S2000x128.Idx → EReal) : k0_pay9 (F := Ideal) x0 = fun j => Ideal.logistic (x0 j) := by
  unfold k0_pay9 k0_pay2
  simp only [shapeCast_self]
  rfl

/-- The sum of a block's entries, as the body computes it. -/
def blockTotal (v : FVec Ideal S2000x128 .f32) : EReal :=
  extractAt ![0, 0, 0] (shapeCast S1x1x1 (multiReduction (F := Ideal) .add [1, 2] S1 (shapeCast S1x2000x128 v shapeCasts_S2000x128_S1x2000x128) 0x00000000#32 reduces_S1x2000x128_S1 (.inl rfl) rfl) shapeCasts_S1_S1x1x1) inpos_S1x1x1_p0_0_0
theorem blockTotal_eq (v : FVec Ideal S2000x128 .f32) : blockTotal v = sumB v := by
  unfold blockTotal; exact laneSum v _ _ _ _ _ _

/-- The one entry of a vector of one entry. -/
def headOf (v : FVec Ideal S1 .f32) : EReal :=
  extractAt ![0, 0, 0] (shapeCast S1x1x1 v shapeCasts_S1_S1x1x1) inpos_S1x1x1_p0_0_0
theorem headOf_pay18 (x0 x1 : S2000x128.Idx → EReal) :
    headOf (k0_pay18 (F := Ideal) x0 x1 (k0_pay10 x0)) = sumB (fun j => LossSpec.bce (x1 j) (x0 j)) := by
  unfold headOf; exact pay18_sum x0 x1 _ _

/-- The row of lanes 0, 1, 2 as one chain of selections on the lane number. -/
theorem pay24_fn (v21 : EReal) (v22 : FVec Ideal S2000x128 .f32) (v88 : FVec Ideal S1 .f32) :
    k0_pay24 (F := Ideal) v21 v22 v88
      = select (cmpi .eq (iota .tc S1x128 32 [1] iota_S1x128_d1_w32) (broadcast S1x128 2#32)) (broadcast S1x128 (blockTotal v22))
          (select (cmpi .eq (iota .tc S1x128 32 [1] iota_S1x128_d1_w32) (broadcast S1x128 1#32)) (broadcast S1x128 v21)
            (select (cmpi .eq (iota .tc S1x128 32 [1] iota_S1x128_d1_w32) (broadcast S1x128 0#32)) (broadcast S1x128 (headOf v88))
              (broadcast S1x128 (Ideal.ofBits .f32 0x00000000#32)))) := by
  unfold k0_pay24 blockTotal headOf
  rfl

/-- Lanes 0, 1, 2 of the row of partial sums: the cross-entropies, the squared parameter differences, the weights. -/
theorem pay24_apply (v21 : EReal) (v22 : FVec Ideal S2000x128 .f32) (x0 x1 : S2000x128.Idx → EReal) (l : Fin 128) :
    k0_pay24 (F := Ideal) v21 v22 (k0_pay18 x0 x1 (k0_pay10 x0)) (ix2 (0 : Fin 1) l)
      = if l.val = 2 then sumB v22 else if l.val = 1 then v21
        else if l.val = 0 then sumB (fun j => LossSpec.bce (x1 j) (x0 j)) else 0 := by
  have hl' : l.val < 128 := l.isLt
  rw [pay24_fn]
  simp only [select_apply, broadcast_apply, cmpi_apply]
  rw [iota_lane]
  simp only [lane_cmp l.val 2 hl' (by decide), lane_cmp l.val 1 hl' (by decide),
    lane_cmp l.val 0 hl' (by decide), sel_ite, Ideal.ofBits_zero_f32, blockTotal_eq, headOf_pay18]

theorem pay25_apply (l : Fin 128) : k0_pay25 (ix2 (0 : Fin 1) l) = if l.val = 3 then 1#1 else 0#1 := by
  have hl' : l.val < 128 := l.isLt
  unfold k0_pay25
  simp only [broadcast_apply, cmpi_apply]
  rw [iota_lane]
  exact lane_cmp l.val 3 hl' (by decide)

/-! ## The second output block, lane by lane -/

/-- Lane l of the row of partial sums the body leaves, from the eight input blocks. -/
def laneV (x0 x1 x2 x3 x4 x5 : S2000x128.Idx → EReal) (x6 x7 : S2000x256.Idx → EReal) (l : Fin 128) : EReal :=
  if l.val = 8 then sumB (fun j => (LossSpec.dist (x4 j) (x5 j) * Ideal.logistic (x0 j)) * (LossSpec.dist (x4 j) (x5 j) * Ideal.logistic (x0 j)))
  else if l.val = 7 then sumB (fun j => LossSpec.dist (x4 j) (x5 j) * Ideal.logistic (x0 j))
  else if l.val = 6 then sumB (fun j => (x3 j * x3 j) * Ideal.logistic (x0 j))
  else if l.val = 5 then sumB (fun j => (x2 j * x2 j) * Ideal.logistic (x0 j))
  else if l.val = 4 then sumB (fun j => x3 j * Ideal.logistic (x0 j))
  else if l.val = 3 then sumB (fun j => x2 j * Ideal.logistic (x0 j))
  else if l.val = 2 then sumB (fun j => Ideal.logistic (x0 j))
  else if l.val = 1 then sumB2 (fun j => (x6 j - x7 j) * (x6 j - x7 j))
  else if l.val = 0 then sumB (fun j => LossSpec.bce (x1 j) (x0 j))
  else 0

set_option maxHeartbeats 1000000 in
theorem out9_apply (x0 x1 x2 x3 x4 x5 : S2000x128.Idx → EReal) (x6 x7 : S2000x256.Idx → EReal) (j : S1x1x128.Idx) (l : Fin 128) (hl : (j 2).val = l.val) :
    out9 (F := Ideal) x0 x1 x2 x3 x4 x5 x6 x7 j = laneV x0 x1 x2 x3 x4 x5 x6 x7 l := by
  have hj0 : (j 0).val < 1 := (j 0).isLt
  have hj1 : (j 1).val < 1 := (j 1).isLt
  have hl' : l.val < 128 := l.isLt
  unfold out9
  rw [View.canon_unit_zero hz3]
  simp only [View.ld_unit_zero (S := S2000x128) hz2, View.ld_unit_zero (S := S2000x256) hz2]
  unfold k0_pay1
  refine (shapeCast_apply _ _ j (ix2 (0 : Fin 1) l) ?_).trans ?_
  · rw [Shape.rowMajor_val_two, Shape.rowMajor_val_three]
    show (0 : Nat) * 128 + l.val = ((j 0).val * 1 + (j 1).val) * 128 + (j 2).val
    omega
  simp only [k0_pay2, k0_pay3, k0_pay4, k0_pay5, k0_pay6, k0_pay7, shapeCast_self, pay9_eq]
  simp only [select_apply, broadcast_apply, cmpi_apply, pay24_apply, pay25_apply, pay19_eq, pay20_eq, pay21_eq, pay22_eq, pay23_eq,
    pay26_apply, pay8_eq, pay13_eq, pay14_eq, pay15_eq, pay16_eq, pay17_eq]
  rw [iota_lane]
  simp only [lane_cmp l.val 0 hl' (by decide), lane_cmp l.val 1 hl' (by decide), lane_cmp l.val 2 hl' (by decide), lane_cmp l.val 3 hl' (by decide), lane_cmp l.val 4 hl' (by decide), lane_cmp l.val 5 hl' (by decide), lane_cmp l.val 6 hl' (by decide), lane_cmp l.val 7 hl' (by decide), lane_cmp l.val 8 hl' (by decide), sel_ite]
  unfold laneV
  with_reducible rfl

end Cert.KernelIdeal.HF
end
-- ==== Proof.KiValue9.lean ====
import proofs.«176581_j38010460570140_2_alg».proof.Proof.KiValueBlocks
import proofs.«176581_j38010460570140_2_alg».proof.Proof.KiValueLanes

set_option maxRecDepth 16384

noncomputable section

open scoped BigOperators

namespace Cert.KernelIdeal.HF

open Idealize.ShloMosaic Idealize.ShloMosaic.TcCoe Idealize.SL.Sem ValueIdx
open Idealize.ShloMosaic.Pipeline (Dat)
open Cert.KernelIdeal.Gen

variable (m : (ℓ : Loc nD τ sig) → Buf (Elt Ideal) ℓ)

/-! ## A block's entries, read as one band, are the band's edges' quantities -/

theorem band_at_0 (c : Dev nD) (A : LossSpec.Args) (h0 : (V m c main_v36 : S50000x128.Idx → EReal) = KSpec.lg2 A) (t : Fin cfg0.N) (i : Fin 25) (hi : i.val = t.val) (y : S1x2000x128.Idx) :
    (iblk m c 0 t : S2000x128.Idx → EReal) (fun a => y a.succ) = LossSpec.x A (KSpec.edgeAt (KSpec.bandRow i ⟨(y 1).val, (y 1).isLt⟩) ⟨(y 2).val, (y 2).isLt⟩) := by
  refine (iblk_at_0 m c t (fun a => y a.succ) (ix2 (KSpec.bandRow i ⟨(y 1).val, (y 1).isLt⟩) (⟨(y 2).val, (y 2).isLt⟩ : Fin 128)) ?_ rfl).trans ?_
  · show i.val * 2000 + (y 1).val = t.val * 2000 + (y 1).val
    rw [hi]
  · rw [h0]
    simp only [KSpec.lg2, LossSpec.x]

theorem band_at_1 (c : Dev nD) (A : LossSpec.Args) (h1 : (V m c main_v37 : S50000x128.Idx → EReal) = KSpec.lb2 A) (t : Fin cfg0.N) (i : Fin 25) (hi : i.val = t.val) (y : S1x2000x128.Idx) :
    (iblk m c 1 t : S2000x128.Idx → EReal) (fun a => y a.succ) = A.lb (ix1 (KSpec.edgeAt (KSpec.bandRow i ⟨(y 1).val, (y 1).isLt⟩) ⟨(y 2).val, (y 2).isLt⟩)) := by
  refine (iblk_at_1 m c t (fun a => y a.succ) (ix2 (KSpec.bandRow i ⟨(y 1).val, (y 1).isLt⟩) (⟨(y 2).val, (y 2).isLt⟩ : Fin 128)) ?_ rfl).trans ?_
  · show i.val * 2000 + (y 1).val = t.val * 2000 + (y 1).val
    rw [hi]
  · rw [h1]
    simp only [KSpec.lb2]

theorem band_at_2 (c : Dev nD) (A : LossSpec.Args) (h2 : (V m c main_v38 : S50000x128.Idx → EReal) = KSpec.R2 A) (t : Fin cfg0.N) (i : Fin 25) (hi : i.val = t.val) (y : S1x2000x128.Idx) :
    (iblk m c 2 t : S2000x128.Idx → EReal) (fun a => y a.succ) = LossSpec.R A (KSpec.edgeAt (KSpec.bandRow i ⟨(y 1).val, (y 1).isLt⟩) ⟨(y 2).val, (y 2).isLt⟩) := by
  refine (iblk_at_2 m c t (fun a => y a.succ) (ix2 (KSpec.bandRow i ⟨(y 1).val, (y 1).isLt⟩) (⟨(y 2).val, (y 2).isLt⟩ : Fin 128)) ?_ rfl).trans ?_
  · show i.val * 2000 + (y 1).val = t.val * 2000 + (y 1).val
    rw [hi]
  · rw [h2]
    simp only [KSpec.R2]

theorem band_at_3 (c : Dev nD) (A : LossSpec.Args) (h3 : (V m c main_v39 : S50000x128.Idx → EReal) = KSpec.X2 A) (t : Fin cfg0.N) (i : Fin 25) (hi : i.val = t.val) (y : S1x2000x128.Idx) :
    (iblk m c 3 t : S2000x128.Idx → EReal) (fun a => y a.succ) = LossSpec.X A (KSpec.edgeAt (KSpec.bandRow i ⟨(y 1).val, (y 1).isLt⟩) ⟨(y 2).val, (y 2).isLt⟩) := by
  refine (iblk_at_3 m c t (fun a => y a.succ) (ix2 (KSpec.bandRow i ⟨(y 1).val, (y 1).isLt⟩) (⟨(y 2).val, (y 2).isLt⟩ : Fin 128)) ?_ rfl).trans ?_
  · show i.val * 2000 + (y 1).val = t.val * 2000 + (y 1).val
    rw [hi]
  · rw [h3]
    simp only [KSpec.X2]

theorem band_at_4 (c : Dev nD) (A : LossSpec.Args) (h4 : (V m c main_v40 : S50000x128.Idx → EReal) = KSpec.da2 A) (t : Fin cfg0.N) (i : Fin 25) (hi : i.val = t.val) (y : S1x2000x128.Idx) :
    (iblk m c 4 t : S2000x128.Idx → EReal) (fun a => y a.succ) = LossSpec.da A (KSpec.edgeAt (KSpec.bandRow i ⟨(y 1).val, (y 1).isLt⟩) ⟨(y 2).val, (y 2).isLt⟩) := by
  refine (iblk_at_4 m c t (fun a => y a.succ) (ix2 (KSpec.bandRow i ⟨(y 1).val, (y 1).isLt⟩) (⟨(y 2).val, (y 2).isLt⟩ : Fin 128)) ?_ rfl).trans ?_
  · show i.val * 2000 + (y 1).val = t.val * 2000 + (y 1).val
    rw [hi]
  · rw [h4]
    simp only [KSpec.da2]

theorem band_at_5 (c : Dev nD) (A : LossSpec.Args) (h5 : (V m c main_v41 : S50000x128.Idx → EReal) = KSpec.db2 A) (t : Fin cfg0.N) (i : Fin 25) (hi : i.val = t.val) (y : S1x2000x128.Idx) :
    (iblk m c 5 t : S2000x128.Idx → EReal) (fun a => y a.succ) = LossSpec.db A (KSpec.edgeAt (KSpec.bandRow i ⟨(y 1).val, (y 1).isLt⟩) ⟨(y 2).val, (y 2).isLt⟩) := by
  refine (iblk_at_5 m c t (fun a => y a.succ) (ix2 (KSpec.bandRow i ⟨(y 1).val, (y 1).isLt⟩) (⟨(y 2).val, (y 2).isLt⟩ : Fin 128)) ?_ rfl).trans ?_
  · show i.val * 2000 + (y 1).val = t.val * 2000 + (y 1).val
    rw [hi]
  · rw [h5]
    simp only [KSpec.db2]

theorem band_at_6 (c : Dev nD) (A : LossSpec.Args) (h6 : (V m c main_v42 : S50000x256.Idx → EReal) = KSpec.ep2 A) (t : Fin cfg0.N) (i : Fin 25) (hi : i.val = t.val) (y : S1x2000x256.Idx) :
    (iblk m c 6 t : S2000x256.Idx → EReal) (fun a => y a.succ) = A.ep (KSpec.pairAt (KSpec.bandRow i ⟨(y 1).val, (y 1).isLt⟩) ⟨(y 2).val, (y 2).isLt⟩) := by
  refine (iblk_at_6 m c t (fun a => y a.succ) (ix2 (KSpec.bandRow i ⟨(y 1).val, (y 1).isLt⟩) (⟨(y 2).val, (y 2).isLt⟩ : Fin 256)) ?_ rfl).trans ?_
  · show i.val * 2000 + (y 1).val = t.val * 2000 + (y 1).val
    rw [hi]
  · rw [h6]
    simp only [KSpec.ep2]

theorem band_at_7 (c : Dev nD) (A : LossSpec.Args) (h7 : (V m c main_v43 : S50000x256.Idx → EReal) = KSpec.tp2 A) (t : Fin cfg0.N) (i : Fin 25) (hi : i.val = t.val) (y : S1x2000x256.Idx) :
    (iblk m c 7 t : S2000x256.Idx → EReal) (fun a => y a.succ) = A.tp (KSpec.pairAt (KSpec.bandRow i ⟨(y 1).val, (y 1).isLt⟩) ⟨(y 2).val, (y 2).isLt⟩) := by
  refine (iblk_at_7 m c t (fun a => y a.succ) (ix2 (KSpec.bandRow i ⟨(y 1).val, (y 1).isLt⟩) (⟨(y 2).val, (y 2).isLt⟩ : Fin 256)) ?_ rfl).trans ?_
  · show i.val * 2000 + (y 1).val = t.val * 2000 + (y 1).val
    rw [hi]
  · rw [h7]
    simp only [KSpec.tp2]

/-! ## The second result: each band's row of partial sums -/

theorem mul_congr {a a' b b' : EReal} (h1 : a = a') (h2 : b = b') : a * b = a' * b' := by rw [h1, h2]
theorem sub_congr {a a' b b' : EReal} (h1 : a = a') (h2 : b = b') : a - b = a' - b' := by rw [h1, h2]

/-- At point t the row of partial sums over the staged blocks is band t's row. -/
theorem laneV_eq_lane (c : Dev nD) (A : LossSpec.Args) (h0 : (V m c main_v36 : S50000x128.Idx → EReal) = KSpec.lg2 A) (h1 : (V m c main_v37 : S50000x128.Idx → EReal) = KSpec.lb2 A) (h2 : (V m c main_v38 : S50000x128.Idx → EReal) = KSpec.R2 A) (h3 : (V m c main_v39 : S50000x128.Idx → EReal) = KSpec.X2 A) (h4 : (V m c main_v40 : S50000x128.Idx → EReal) = KSpec.da2 A) (h5 : (V m c main_v41 : S50000x128.Idx → EReal) = KSpec.db2 A) (h6 : (V m c main_v42 : S50000x256.Idx → EReal) = KSpec.ep2 A) (h7 : (V m c main_v43 : S50000x256.Idx → EReal) = KSpec.tp2 A) (t : Fin cfg0.N) (i : Fin 25) (hi : i.val = t.val) (l : Fin 128) :
    laneV (iblk m c 0 t) (iblk m c 1 t) (iblk m c 2 t) (iblk m c 3 t) (iblk m c 4 t) (iblk m c 5 t) (iblk m c 6 t) (iblk m c 7 t) l = KSpec.lane A i l := by
  unfold laneV KSpec.lane
  refine if_congr Iff.rfl (by
    unfold sumB KSpec.bandSum
    refine Finset.sum_congr rfl fun y _ => ?_
    dsimp only
    exact mul_congr ((mul_congr (congr (congrArg LossSpec.dist (band_at_4 m c A h4 t i hi y)) (band_at_5 m c A h5 t i hi y)) (congrArg Ideal.logistic (band_at_0 m c A h0 t i hi y))).trans (by simp only [LossSpec.vd, LossSpec.p])) ((mul_congr (congr (congrArg LossSpec.dist (band_at_4 m c A h4 t i hi y)) (band_at_5 m c A h5 t i hi y)) (congrArg Ideal.logistic (band_at_0 m c A h0 t i hi y))).trans (by simp only [LossSpec.vd, LossSpec.p])))
    (if_congr Iff.rfl (by
    unfold sumB KSpec.bandSum
    refine Finset.sum_congr rfl fun y _ => ?_
    dsimp only
    exact ((mul_congr (congr (congrArg LossSpec.dist (band_at_4 m c A h4 t i hi y)) (band_at_5 m c A h5 t i hi y)) (congrArg Ideal.logistic (band_at_0 m c A h0 t i hi y))).trans (by simp only [LossSpec.vd, LossSpec.p])))
    (if_congr Iff.rfl (by
    unfold sumB KSpec.bandSum
    refine Finset.sum_congr rfl fun y _ => ?_
    dsimp only
    exact (mul_congr (mul_congr (band_at_3 m c A h3 t i hi y) (band_at_3 m c A h3 t i hi y)) (congrArg Ideal.logistic (band_at_0 m c A h0 t i hi y))).trans (by simp only [LossSpec.p]))
    (if_congr Iff.rfl (by
    unfold sumB KSpec.bandSum
    refine Finset.sum_congr rfl fun y _ => ?_
    dsimp only
    exact (mul_congr (mul_congr (band_at_2 m c A h2 t i hi y) (band_at_2 m c A h2 t i hi y)) (congrArg Ideal.logistic (band_at_0 m c A h0 t i hi y))).trans (by simp only [LossSpec.p]))
    (if_congr Iff.rfl (by
    unfold sumB KSpec.bandSum
    refine Finset.sum_congr rfl fun y _ => ?_
    dsimp only
    exact (mul_congr (band_at_3 m c A h3 t i hi y) (congrArg Ideal.logistic (band_at_0 m c A h0 t i hi y))).trans (by simp only [LossSpec.p]))
    (if_congr Iff.rfl (by
    unfold sumB KSpec.bandSum
    refine Finset.sum_congr rfl fun y _ => ?_
    dsimp only
    exact (mul_congr (band_at_2 m c A h2 t i hi y) (congrArg Ideal.logistic (band_at_0 m c A h0 t i hi y))).trans (by simp only [LossSpec.p]))
    (if_congr Iff.rfl (by
    unfold sumB KSpec.bandSum
    refine Finset.sum_congr rfl fun y _ => ?_
    dsimp only
    exact (congrArg Ideal.logistic (band_at_0 m c A h0 t i hi y)).trans (by simp only [LossSpec.p]))
    (if_congr Iff.rfl (by
      unfold sumB2 KSpec.bandSq
      refine Finset.sum_congr rfl fun y _ => ?_
      dsimp only
      exact mul_congr (sub_congr (band_at_6 m c A h6 t i hi y) (band_at_7 m c A h7 t i hi y)) (sub_congr (band_at_6 m c A h6 t i hi y) (band_at_7 m c A h7 t i hi y)))
    (if_congr Iff.rfl (by
    unfold sumB KSpec.bandSum
    refine Finset.sum_congr rfl fun y _ => ?_
    dsimp only
    exact congr (congrArg LossSpec.bce (band_at_1 m c A h1 t i hi y)) (band_at_0 m c A h0 t i hi y)) rfl))))))))

/-- What point t writes back of the second result is band t's row of partial sums. -/
theorem flushed9_eq (c : Dev nD) (A : LossSpec.Args) (h0 : (V m c main_v36 : S50000x128.Idx → EReal) = KSpec.lg2 A) (h1 : (V m c main_v37 : S50000x128.Idx → EReal) = KSpec.lb2 A) (h2 : (V m c main_v38 : S50000x128.Idx → EReal) = KSpec.R2 A) (h3 : (V m c main_v39 : S50000x128.Idx → EReal) = KSpec.X2 A) (h4 : (V m c main_v40 : S50000x128.Idx → EReal) = KSpec.da2 A) (h5 : (V m c main_v41 : S50000x128.Idx → EReal) = KSpec.db2 A) (h6 : (V m c main_v42 : S50000x256.Idx → EReal) = KSpec.ep2 A) (h7 : (V m c main_v43 : S50000x256.Idx → EReal) = KSpec.tp2 A) (t : Fin cfg0.N) :
    (dats m 0 c).flushed 9 t = ((cfg0.win 9).blk t).view.read (Elt Ideal) (KSpec.sums3 A) := by
  show (cfg0.win 9).cut (grid0.coords t) ((dats m 0 c).after 9 t) = _
  rw [after9]
  funext j
  obtain ⟨e0, e1, e2⟩ := idx_9 t
  have hN : cfg0.N = 25 := N_0
  have ht : t.val < 25 := by have := t.isLt; omega
  have hj0 : (j 0).val < 1 := (j 0).isLt
  have hj2 : (j 2).val < 128 := (j 2).isLt
  have hk0 : ((((cfg0.win 9).blk t).view.emb j) 0).val = t.val := by
    show win0_9.index t (0 : Fin 3) * 1 + 1 * (j 0).val = _; rw [e0]; omega
  have hk2 : ((((cfg0.win 9).blk t).view.emb j) 2).val = (j 2).val := by
    show win0_9.index t (2 : Fin 3) * 128 + 1 * (j 2).val = _; rw [e2]; omega
  show out9 (F := Ideal) (iblk m c 0 t) (iblk m c 1 t) (iblk m c 2 t) (iblk m c 3 t) (iblk m c 4 t) (iblk m c 5 t) (iblk m c 6 t) (iblk m c 7 t) j = KSpec.sums3 A (((cfg0.win 9).blk t).view.emb j)
  refine (out9_apply _ _ _ _ _ _ _ _ j ⟨(j 2).val, hj2⟩ rfl).trans ?_
  refine (laneV_eq_lane m c A h0 h1 h2 h3 h4 h5 h6 h7 t ⟨t.val, ht⟩ rfl _).trans ?_
  unfold KSpec.sums3
  congr 1
  · exact Fin.ext hk0.symm
  · exact Fin.ext hk2.symm

/-- The second result ends holding the bands' rows of partial sums. -/
theorem final9 (c : Dev nD) (A : LossSpec.Args) (h0 : (V m c main_v36 : S50000x128.Idx → EReal) = KSpec.lg2 A) (h1 : (V m c main_v37 : S50000x128.Idx → EReal) = KSpec.lb2 A) (h2 : (V m c main_v38 : S50000x128.Idx → EReal) = KSpec.R2 A) (h3 : (V m c main_v39 : S50000x128.Idx → EReal) = KSpec.X2 A) (h4 : (V m c main_v40 : S50000x128.Idx → EReal) = KSpec.da2 A) (h5 : (V m c main_v41 : S50000x128.Idx → EReal) = KSpec.db2 A) (h6 : (V m c main_v42 : S50000x256.Idx → EReal) = KSpec.ep2 A) (h7 : (V m c main_v43 : S50000x256.Idx → EReal) = KSpec.tp2 A) :
    (dats m 0 c).arrAt 9 cfg0.N = KSpec.sums3 A :=
  (dats m 0 c).arrAt_eq_of_cover 9 (KSpec.sums3 A) (fun t _ => flushed9_eq m c A h0 h1 h2 h3 h4 h5 h6 h7 t) covered9

end Cert.KernelIdeal.HF
end
-- ==== Proof.LibAfterStep.lean ====
/-
  Reading a straight line of host operations one operation at a time.

  A line of operations in single-assignment form (each buffer written by one operation, every operand written before
  the operation that reads it) leaves in the buffer an operation writes the operation's function of what the line
  leaves in its operands.  "Written" is a list of references, one per operation, so that "no later operation writes r"
  is a membership test on a list of references.  The line is cut at the operation's position: the operations after it
  keep its result and its operands, and the operation itself computes the result from the contents before it.
-/
import Idealize.ShloMosaic.Lib.StableHlo.Run

noncomputable section

namespace AfterStep

open Idealize.ShloMosaic Idealize.ShloMosaic.StableHlo Idealize.ShloMosaic.TcCoe

variable {τ : Topo} {sig : RefSig} {Val : EltTy → Type}

/-- Operation by operation, the line writes at most the listed reference. -/
def Writes (ops : List (HloOp τ sig Val)) (Wl : List (Ref sig .tc)) : Prop :=
  List.Forall₂ (fun op r => op.writes ⊆ {(Proc.devRef .tc r : DevRef τ sig)}) ops Wl

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The tail of a line from position k writes only the listed references from position k on. -/
theorem Writes.drop {ops : List (HloOp τ sig Val)} {Wl : List (Ref sig .tc)} (h : Writes ops Wl) (k : Nat) :
    Writes (ops.drop k) (Wl.drop k) := by
  induction h generalizing k with
  | nil => rw [List.drop_nil, List.drop_nil]; exact List.Forall₂.nil
  | cons hab hrest ih =>
    cases k with
    | zero => exact List.Forall₂.cons hab hrest
    | succ k => exact ih k

/-- A reference no listed write names keeps its contents through the line. -/
theorem keep {ops : List (HloOp τ sig Val)} {Wl : List (Ref sig .tc)} (h : Writes ops Wl) (r : Ref sig .tc)
    (hr : r ∉ Wl) (V : Valuation τ sig Val) : after ops V (Proc.devRef .tc r) = V (Proc.devRef .tc r) := by
  induction h generalizing V with
  | nil => rfl
  | @cons op w ops' Wl' hab _ ih =>
    rw [after_cons, ih (fun hm => hr (List.mem_cons_of_mem _ hm))]
    refine op.result_of_not_mem V fun hm => hr ?_
    have := Finset.mem_singleton.mp (hab hm)
    rw [Proc.devRef_injective _ this]
    exact List.mem_cons_self

/-- The line cut at position k. -/
theorem after_cut (ops : List (HloOp τ sig Val)) (k : Nat) (op : HloOp τ sig Val) (hk : ops[k]? = some op)
    (V : Valuation τ sig Val) : after ops V = after (ops.drop (k + 1)) (op.result (after (ops.take k) V)) := by
  have hlt : k < ops.length := by
    rcases Nat.lt_or_ge k ops.length with h | h
    · exact h
    · rw [List.getElem?_eq_none h] at hk; cases hk
  have hop : ops[k] = op := by
    rw [List.getElem?_eq_getElem hlt] at hk; exact Option.some.inj hk
  conv_lhs => rw [← List.take_append_drop k ops, List.drop_eq_getElem_cons hlt, hop]
  rw [after_append, after_cons]

/-- What the line leaves in a reference written at position k and not after. -/
theorem written {ops : List (HloOp τ sig Val)} {Wl : List (Ref sig .tc)} (h : Writes ops Wl) (k : Nat)
    (op : HloOp τ sig Val) (hk : ops[k]? = some op) (y : Ref sig .tc) (hy : y ∉ Wl.drop (k + 1))
    (V : Valuation τ sig Val) :
    after ops V (Proc.devRef .tc y) = op.result (after (ops.take k) V) (Proc.devRef .tc y) := by
  rw [after_cut ops k op hk V, keep (h.drop (k + 1)) y hy]

/-- What the line leaves in a reference not written from position k on: what it held before position k. -/
theorem read {ops : List (HloOp τ sig Val)} {Wl : List (Ref sig .tc)} (h : Writes ops Wl) (k : Nat)
    (a : Ref sig .tc) (ha : a ∉ Wl.drop k) (V : Valuation τ sig Val) :
    after ops V (Proc.devRef .tc a) = after (ops.take k) V (Proc.devRef .tc a) := by
  conv_lhs => rw [← List.take_append_drop k ops]
  rw [after_append, keep (h.drop k) a ha]

variable {ops : List (HloOp τ sig Val)} {Wl : List (Ref sig .tc)}

theorem nullary_at (h : Writes ops Wl) (k : Nat) {y : Ref sig .tc} {v : y.ty.Contents Val} {hy}
    (hk : ops[k]? = some (nullary y v hy)) (h1 : y ∉ Wl.drop (k + 1)) (V : Valuation τ sig Val) :
    after ops V (Proc.devRef .tc y) = v := by
  rw [written h k _ hk y h1, nullary_result]

theorem unary_at (h : Writes ops Wl) (k : Nat) {x y : Ref sig .tc} {f : x.ty.Contents Val → y.ty.Contents Val} {hx hy}
    (hk : ops[k]? = some (unary x y f hx hy)) (h1 : y ∉ Wl.drop (k + 1)) (h2 : x ∉ Wl.drop k)
    (V : Valuation τ sig Val) :
    after ops V (Proc.devRef .tc y) = f (after ops V (Proc.devRef .tc x)) := by
  rw [written h k _ hk y h1, read h k x h2, unary_result]

theorem binary_at (h : Writes ops Wl) (k : Nat) {a b y : Ref sig .tc}
    {f : a.ty.Contents Val → b.ty.Contents Val → y.ty.Contents Val} {ha hb hy}
    (hk : ops[k]? = some (binary a b y f ha hb hy)) (h1 : y ∉ Wl.drop (k + 1)) (h2 : a ∉ Wl.drop k)
    (h3 : b ∉ Wl.drop k) (V : Valuation τ sig Val) :
    after ops V (Proc.devRef .tc y) = f (after ops V (Proc.devRef .tc a)) (after ops V (Proc.devRef .tc b)) := by
  rw [written h k _ hk y h1, read h k a h2, read h k b h3, binary_result]

theorem ternary_at (h : Writes ops Wl) (k : Nat) {c a b y : Ref sig .tc}
    {f : c.ty.Contents Val → a.ty.Contents Val → b.ty.Contents Val → y.ty.Contents Val} {hc ha hb hy}
    (hk : ops[k]? = some (ternary c a b y f hc ha hb hy)) (h1 : y ∉ Wl.drop (k + 1)) (h2 : c ∉ Wl.drop k)
    (h3 : a ∉ Wl.drop k) (h4 : b ∉ Wl.drop k) (V : Valuation τ sig Val) :
    after ops V (Proc.devRef .tc y)
      = f (after ops V (Proc.devRef .tc c)) (after ops V (Proc.devRef .tc a)) (after ops V (Proc.devRef .tc b)) := by
  rw [written h k _ hk y h1, read h k c h2, read h k a h3, read h k b h4, ternary_result]

theorem reshape_at (h : Writes ops Wl) (k : Nat) {x y : Ref sig .tc} {he : x.ty.elt = y.ty.elt}
    {hn : x.ty.shape.ShapeCasts y.ty.shape} {hx hy}
    (hk : ops[k]? = some (reshape x y he hn hx hy)) (h1 : y ∉ Wl.drop (k + 1)) (h2 : x ∉ Wl.drop k)
    (V : Valuation τ sig Val) :
    after ops V (Proc.devRef .tc y) = fun i => he ▸ shapeCast y.ty.shape (after ops V (Proc.devRef .tc x)) hn i := by
  rw [written h k _ hk y h1, read h k x h2, reshape_result]

theorem nary_at (h : Writes ops Wl) (k : Nat) {n : Nat} {xs : Fin n → Ref sig .tc} {y : Ref sig .tc}
    {f : ((j : Fin n) → (xs j).ty.Contents Val) → y.ty.Contents Val} {hxs hy}
    (hk : ops[k]? = some (nary xs y f hxs hy)) (h1 : y ∉ Wl.drop (k + 1)) (h2 : ∀ j, xs j ∉ Wl.drop k)
    (V : Valuation τ sig Val) :
    after ops V (Proc.devRef .tc y) = f (fun j => after ops V (Proc.devRef .tc (xs j))) := by
  rw [written h k _ hk y h1, nary_result]
  exact congrArg f (funext fun j => (read h k (xs j) (h2 j) V).symm)

end AfterStep

end
-- ==== Proof.KPreSteps.lean ====
/-
  The host line hostOps0, operation by operation: the list of the buffers it writes, in order, and for every
  operation the equation "what the line leaves in the operation's result is the operation's function of what the line
  leaves in its operands" (single assignment: no later operation writes the result or an operand).
-/
import proofs.«176581_j38010460570140_2_alg».proof.Proof.Gen.KernelIdeal.Launch
import proofs.«176581_j38010460570140_2_alg».proof.Proof.LibAfterStep

set_option maxRecDepth 16384

noncomputable section

namespace Cert.KernelIdeal.HV

open Idealize.ShloMosaic Idealize.ShloMosaic.TcCoe Idealize.SL.Sem Idealize.ShloMosaic.StableHlo
open Cert.KernelIdeal Cert.KernelIdeal.Gen

variable {F : FTy → Type} [FloatOps F]

/-- The buffers the line writes, in order. -/
abbrev hW : List (Ref sig .tc) := [main_v0, main_v1, main_v2, main_v3, main_c, main_v4, main_v5, main_c_0, main_v6, main_v7, main_v8, main_v9, main_c_1, main_v10, main_v11, main_v12, main_c_2, main_v13, main_v14, main_c_3, main_v15, main_v16, main_v17, main_v18, main_c_4, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43]

set_option maxHeartbeats 4000000 in
theorem hWrites : AfterStep.Writes (hostOps0 : List (HloOp τ sig (Elt F))) hW := by
  unfold AfterStep.Writes
  simp only [hostOps0, hW, List.forall₂_cons, List.Forall₂.nil, and_true, nullary_writes, unary_writes, binary_writes, ternary_writes, reshape_writes, nary_writes, Finset.Subset.refl, and_self]

/-- main_v0 -/
def h0 (V : Valuation τ sig (Elt F)) := AfterStep.unary_at (hWrites (F := F)) 0 rfl (by decide) (by decide) V
/-- main_v1 -/
def h1 (V : Valuation τ sig (Elt F)) := AfterStep.reshape_at (hWrites (F := F)) 1 rfl (by decide) (by decide) V
/-- main_v2 -/
def h2 (V : Valuation τ sig (Elt F)) := AfterStep.unary_at (hWrites (F := F)) 2 rfl (by decide) (by decide) V
/-- main_v3 -/
def h3 (V : Valuation τ sig (Elt F)) := AfterStep.reshape_at (hWrites (F := F)) 3 rfl (by decide) (by decide) V
/-- main_c -/
def h4 (V : Valuation τ sig (Elt F)) := AfterStep.nullary_at (hWrites (F := F)) 4 rfl (by decide)  V
/-- main_v4 -/
def h5 (V : Valuation τ sig (Elt F)) := AfterStep.unary_at (hWrites (F := F)) 5 rfl (by decide) (by decide) V
/-- main_v5 -/
def h6 (V : Valuation τ sig (Elt F)) := AfterStep.binary_at (hWrites (F := F)) 6 rfl (by decide) (by decide) (by decide) V
/-- main_c_0 -/
def h7 (V : Valuation τ sig (Elt F)) := AfterStep.nullary_at (hWrites (F := F)) 7 rfl (by decide)  V
/-- main_v6 -/
def h8 (V : Valuation τ sig (Elt F)) := AfterStep.unary_at (hWrites (F := F)) 8 rfl (by decide) (by decide) V
/-- main_v7 -/
def h9 (V : Valuation τ sig (Elt F)) := AfterStep.binary_at (hWrites (F := F)) 9 rfl (by decide) (by decide) (by decide) V
/-- main_v8 -/
def h10 (V : Valuation τ sig (Elt F)) := AfterStep.ternary_at (hWrites (F := F)) 10 rfl (by decide) (by decide) (by decide) (by decide) V
/-- main_v9 -/
def h11 (V : Valuation τ sig (Elt F)) := AfterStep.unary_at (hWrites (F := F)) 11 rfl (by decide) (by decide) V
/-- main_c_1 -/
def h12 (V : Valuation τ sig (Elt F)) := AfterStep.nullary_at (hWrites (F := F)) 12 rfl (by decide)  V
/-- main_v10 -/
def h13 (V : Valuation τ sig (Elt F)) := AfterStep.unary_at (hWrites (F := F)) 13 rfl (by decide) (by decide) V
/-- main_v11 -/
def h14 (V : Valuation τ sig (Elt F)) := AfterStep.binary_at (hWrites (F := F)) 14 rfl (by decide) (by decide) (by decide) V
/-- main_v12 -/
def h15 (V : Valuation τ sig (Elt F)) := AfterStep.binary_at (hWrites (F := F)) 15 rfl (by decide) (by decide) (by decide) V
/-- main_c_2 -/
def h16 (V : Valuation τ sig (Elt F)) := AfterStep.nullary_at (hWrites (F := F)) 16 rfl (by decide)  V
/-- main_v13 -/
def h17 (V : Valuation τ sig (Elt F)) := AfterStep.unary_at (hWrites (F := F)) 17 rfl (by decide) (by decide) V
/-- main_v14 -/
def h18 (V : Valuation τ sig (Elt F)) := AfterStep.binary_at (hWrites (F := F)) 18 rfl (by decide) (by decide) (by decide) V
/-- main_c_3 -/
def h19 (V : Valuation τ sig (Elt F)) := AfterStep.nullary_at (hWrites (F := F)) 19 rfl (by decide)  V
/-- main_v15 -/
def h20 (V : Valuation τ sig (Elt F)) := AfterStep.unary_at (hWrites (F := F)) 20 rfl (by decide) (by decide) V
/-- main_v16 -/
def h21 (V : Valuation τ sig (Elt F)) := AfterStep.binary_at (hWrites (F := F)) 21 rfl (by decide) (by decide) (by decide) V
/-- main_v17 -/
def h22 (V : Valuation τ sig (Elt F)) := AfterStep.ternary_at (hWrites (F := F)) 22 rfl (by decide) (by decide) (by decide) (by decide) V
/-- main_v18 -/
def h23 (V : Valuation τ sig (Elt F)) := AfterStep.unary_at (hWrites (F := F)) 23 rfl (by decide) (by decide) V
/-- main_c_4 -/
def h24 (V : Valuation τ sig (Elt F)) := AfterStep.nullary_at (hWrites (F := F)) 24 rfl (by decide)  V
/-- main_v19 -/
def h25 (V : Valuation τ sig (Elt F)) := AfterStep.unary_at (hWrites (F := F)) 25 rfl (by decide) (by decide) V
/-- main_v20 -/
def h26 (V : Valuation τ sig (Elt F)) := AfterStep.binary_at (hWrites (F := F)) 26 rfl (by decide) (by decide) (by decide) V
/-- main_v21 -/
def h27 (V : Valuation τ sig (Elt F)) := AfterStep.binary_at (hWrites (F := F)) 27 rfl (by decide) (by decide) (by decide) V
/-- main_v22 -/
def h28 (V : Valuation τ sig (Elt F)) := AfterStep.unary_at (hWrites (F := F)) 28 rfl (by decide) (by decide) V
/-- main_v23 -/
def h29 (V : Valuation τ sig (Elt F)) := AfterStep.reshape_at (hWrites (F := F)) 29 rfl (by decide) (by decide) V
/-- main_v24 -/
def h30 (V : Valuation τ sig (Elt F)) := AfterStep.unary_at (hWrites (F := F)) 30 rfl (by decide) (by decide) V
/-- main_v25 -/
def h31 (V : Valuation τ sig (Elt F)) := AfterStep.reshape_at (hWrites (F := F)) 31 rfl (by decide) (by decide) V
/-- main_v26 -/
def h32 (V : Valuation τ sig (Elt F)) := AfterStep.binary_at (hWrites (F := F)) 32 rfl (by decide) (by decide) (by decide) V
/-- main_v27 -/
def h33 (V : Valuation τ sig (Elt F)) := AfterStep.unary_at (hWrites (F := F)) 33 rfl (by decide) (by decide) V
/-- main_v28 -/
def h34 (V : Valuation τ sig (Elt F)) := AfterStep.reshape_at (hWrites (F := F)) 34 rfl (by decide) (by decide) V
/-- main_v29 -/
def h35 (V : Valuation τ sig (Elt F)) := AfterStep.unary_at (hWrites (F := F)) 35 rfl (by decide) (by decide) V
/-- main_v30 -/
def h36 (V : Valuation τ sig (Elt F)) := AfterStep.reshape_at (hWrites (F := F)) 36 rfl (by decide) (by decide) V
/-- main_v31 -/
def h37 (V : Valuation τ sig (Elt F)) := AfterStep.binary_at (hWrites (F := F)) 37 rfl (by decide) (by decide) (by decide) V
/-- main_v32 -/
def h38 (V : Valuation τ sig (Elt F)) := AfterStep.unary_at (hWrites (F := F)) 38 rfl (by decide) (by decide) V
/-- main_v33 -/
def h39 (V : Valuation τ sig (Elt F)) := AfterStep.reshape_at (hWrites (F := F)) 39 rfl (by decide) (by decide) V
/-- main_v34 -/
def h40 (V : Valuation τ sig (Elt F)) := AfterStep.unary_at (hWrites (F := F)) 40 rfl (by decide) (by decide) V
/-- main_v35 -/
def h41 (V : Valuation τ sig (Elt F)) := AfterStep.reshape_at (hWrites (F := F)) 41 rfl (by decide) (by decide) V
/-- main_v36 -/
def h42 (V : Valuation τ sig (Elt F)) := AfterStep.reshape_at (hWrites (F := F)) 42 rfl (by decide) (by decide) V
/-- main_v37 -/
def h43 (V : Valuation τ sig (Elt F)) := AfterStep.reshape_at (hWrites (F := F)) 43 rfl (by decide) (by decide) V
/-- main_v38 -/
def h44 (V : Valuation τ sig (Elt F)) := AfterStep.reshape_at (hWrites (F := F)) 44 rfl (by decide) (by decide) V
/-- main_v39 -/
def h45 (V : Valuation τ sig (Elt F)) := AfterStep.reshape_at (hWrites (F := F)) 45 rfl (by decide) (by decide) V
/-- main_v40 -/
def h46 (V : Valuation τ sig (Elt F)) := AfterStep.reshape_at (hWrites (F := F)) 46 rfl (by decide) (by decide) V
/-- main_v41 -/
def h47 (V : Valuation τ sig (Elt F)) := AfterStep.reshape_at (hWrites (F := F)) 47 rfl (by decide) (by decide) V
/-- main_v42 -/
def h48 (V : Valuation τ sig (Elt F)) := AfterStep.reshape_at (hWrites (F := F)) 48 rfl (by decide) (by decide) V
/-- main_v43 -/
def h49 (V : Valuation τ sig (Elt F)) := AfterStep.reshape_at (hWrites (F := F)) 49 rfl (by decide) (by decide) V

end Cert.KernelIdeal.HV

end
-- ==== Proof.LibGatherPairs.lean ====
/-
  The gather of a window of a row, the row and the window's first column both named by the start indices.

  The start indices are an m × 2 array of words: for every e a row number and a column number.  The result's row e
  is the operand's row "the row word read signed, a negative one as 0, capped at n − 1", from the column "the column
  word read the same way, capped at q − w" on, w entries wide.  Stated for the literal record and for any record
  with these fields.
-/
import Idealize.ShloMosaic.Lib.ValueIdx
import Idealize.ShloMosaic.PureOps.Ideal.Laws

noncomputable section

namespace GatherPairs

open Idealize.ShloMosaic Idealize.ShloMosaic.ValueIdx

variable {α : Type} {n m q w wd : ℕ}

/-- The dimension numbers as a literal record over given conditions. -/
abbrev pairDims (n m q w : ℕ)
    (wf : GatherDims.WF ⟨2, ![n, q]⟩ ⟨2, ![m, 2]⟩ ⟨2, ![m, w]⟩ [1] [0] [] [0, 1] [] 1 ![1, w]) :
    GatherDims ⟨2, ![n, q]⟩ ⟨2, ![m, 2]⟩ ⟨2, ![m, w]⟩ where
  offsetDims := [1]
  collapsedSliceDims := [0]
  operandBatchingDims := []
  startIndicesBatchingDims := []
  startIndexMap := [0, 1]
  indexVectorDim := 1
  sliceSizes := ![1, w]
  wf := wf

theorem pairDims_apply (hn : 0 < n) (hw : w ≤ q)
    (wf : GatherDims.WF ⟨2, ![n, q]⟩ ⟨2, ![m, 2]⟩ ⟨2, ![m, w]⟩ [1] [0] [] [0, 1] [] 1 ![1, w])
    (x : (⟨2, ![n, q]⟩ : Shape).Idx → α) (idx : IVec (⟨2, ![m, 2]⟩ : Shape) wd) (e : Fin m) (c : Fin w) :
    Host.gather (pairDims n m q w wf) x idx (ix2 e c)
      = x (ix2 ⟨min (idx (ix2 e (0 : Fin 2))).toInt.toNat (n - 1), by omega⟩
            ⟨min (idx (ix2 e (1 : Fin 2))).toInt.toNat (q - w) + c.val, by have := c.isLt; omega⟩) := by
  unfold Host.gather
  congr 1
  funext a
  refine Fin.ext ?_
  match a with
  | ⟨0, _⟩ =>
    show (pairDims n m q w wf).start (ix2 e c) idx 0 + (pairDims n m q w wf).batchCoord (ix2 e c) 0
      + (pairDims n m q w wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pairDims n m q w wf).startIndexMap from List.mem_cons_self)]
    have hsi : (pairDims n m q w wf).siIdx (ix2 e c) ⟨List.idxOf (0 : Fin 2) (pairDims n m q w wf).startIndexMap,
        List.idxOf_lt_length_iff.2 List.mem_cons_self⟩ = ix2 e (0 : Fin 2) := by
      funext b; refine Fin.ext ?_
      match b with
      | ⟨0, _⟩ => rfl
      | ⟨1, _⟩ => rfl
    rw [hsi]
    rfl
  | ⟨1, _⟩ =>
    show (pairDims n m q w wf).start (ix2 e c) idx 1 + (pairDims n m q w wf).batchCoord (ix2 e c) 1
      + (pairDims n m q w wf).offCoord (ix2 e c) 1 = _
    rw [GatherDims.batchCoord_eq_zero _ _ _ List.not_mem_nil]
    have h1 : (1 : Fin 2) ∈ (pairDims n m q w wf).startIndexMap := List.mem_cons_of_mem _ List.mem_cons_self
    have hst : (pairDims n m q w wf).start (ix2 e c) idx 1 = min (idx (ix2 e (1 : Fin 2))).toInt.toNat (q - w) := by
      unfold GatherDims.start
      rw [dif_pos h1]
      have hsi : (pairDims n m q w wf).siIdx (ix2 e c) ⟨List.idxOf (1 : Fin 2) (pairDims n m q w wf).startIndexMap,
          List.idxOf_lt_length_iff.2 h1⟩ = ix2 e (1 : Fin 2) := by
        funext b; refine Fin.ext ?_
        match b with
        | ⟨0, _⟩ => rfl
        | ⟨1, _⟩ => rfl
      rw [hsi]
      rfl
    have hoff : (pairDims n m q w wf).offCoord (ix2 e c) 1 = c.val := by
      unfold GatherDims.offCoord
      rw [dif_pos ((GatherDims.mem_sKept _ _).mpr
        ⟨(show (1 : Fin 2) ∉ ([0] : List (Fin 2)) by decide), List.not_mem_nil⟩)]
      rfl
    rw [hst, hoff, Nat.add_zero]

/-- THE GATHER READ AT (e, c), for any record with these fields. -/
theorem gather_pairs_apply
    (gd : GatherDims (⟨2, ![n, q]⟩ : Shape) (⟨2, ![m, 2]⟩ : Shape) (⟨2, ![m, w]⟩ : Shape))
    (ho : gd.offsetDims = [1]) (hc : gd.collapsedSliceDims = [0]) (hob : gd.operandBatchingDims = [])
    (hsb : gd.startIndicesBatchingDims = []) (hm : gd.startIndexMap = [0, 1]) (hv : gd.indexVectorDim = 1)
    (hs : gd.sliceSizes = ![1, w]) (hn : 0 < n) (hw : w ≤ q)
    (x : (⟨2, ![n, q]⟩ : Shape).Idx → α) (idx : IVec (⟨2, ![m, 2]⟩ : Shape) wd) (e : Fin m) (c : Fin w) :
    Host.gather gd x idx (ix2 e c)
      = x (ix2 ⟨min (idx (ix2 e (0 : Fin 2))).toInt.toNat (n - 1), by omega⟩
            ⟨min (idx (ix2 e (1 : Fin 2))).toInt.toNat (q - w) + c.val, by have := c.isLt; omega⟩) := by
  obtain ⟨od, cs, ob, sb, sm, iv, ss, wf⟩ := gd
  dsimp only at ho hc hob hsb hm hv hs
  subst ho hc hob hsb hm hv hs
  exact pairDims_apply hn hw wf x idx e c

end GatherPairs

end
-- ==== Proof.KPrefix.lean ====
/-
  What the host lines before the kernel leave in the arrays the kernel's windows stage, read entry by entry: the
  logits, labels, resistances, reactances laid out as 50000 rows of 128 (row r, lane l holds edge 128 r + l), and the
  two arrays of parameter pairs laid out as 50000 rows of 256 (place q of row r holds component (256 r + q) mod 2 of edge
  (256 r + q) / 2); the edges' source and destination words.
-/
import proofs.«176581_j38010460570140_2_alg».proof.Proof.KPreSteps
import proofs.«176581_j38010460570140_2_alg».proof.Proof.KSpec
import Idealize.ShloMosaic.Lib.Pipeline.Value
import Idealize.ShloMosaic.Lib.ValueIdx
import proofs.«176581_j38010460570140_2_alg».proof.Proof.LibGatherPairs

set_option maxRecDepth 16384

noncomputable section

namespace Cert.KernelIdeal.HV

open Idealize.ShloMosaic Idealize.ShloMosaic.TcCoe Idealize.SL.Sem Idealize.ShloMosaic.StableHlo
open Idealize.ShloMosaic.ValueIdx
open Cert.KernelIdeal Cert.KernelIdeal.Gen

/-- The six argument arrays as a valuation holds them. -/
def argsOfU (U : Valuation τ sig (Elt Ideal)) : LossSpec.Args where
  nf := U (Proc.devRef .tc main_arg0)
  lg := U (Proc.devRef .tc main_arg1)
  ep := U (Proc.devRef .tc main_arg2)
  lb := U (Proc.devRef .tc main_arg3)
  tp := U (Proc.devRef .tc main_arg4)
  ei := U (Proc.devRef .tc main_arg5)

variable (U : Valuation τ sig (Elt Ideal))

/-- No host line before the kernel writes an argument array. -/
theorem pre_arg0 : after (hostOps0 (F := Ideal)) U (Proc.devRef .tc main_arg0) = U (Proc.devRef .tc main_arg0) :=
  AfterStep.keep hWrites main_arg0 (by decide) U
theorem pre_arg1 : after (hostOps0 (F := Ideal)) U (Proc.devRef .tc main_arg1) = U (Proc.devRef .tc main_arg1) :=
  AfterStep.keep hWrites main_arg1 (by decide) U
theorem pre_arg2 : after (hostOps0 (F := Ideal)) U (Proc.devRef .tc main_arg2) = U (Proc.devRef .tc main_arg2) :=
  AfterStep.keep hWrites main_arg2 (by decide) U
theorem pre_arg3 : after (hostOps0 (F := Ideal)) U (Proc.devRef .tc main_arg3) = U (Proc.devRef .tc main_arg3) :=
  AfterStep.keep hWrites main_arg3 (by decide) U
theorem pre_arg4 : after (hostOps0 (F := Ideal)) U (Proc.devRef .tc main_arg4) = U (Proc.devRef .tc main_arg4) :=
  AfterStep.keep hWrites main_arg4 (by decide) U
theorem pre_arg5 : after (hostOps0 (F := Ideal)) U (Proc.devRef .tc main_arg5) = U (Proc.devRef .tc main_arg5) :=
  AfterStep.keep hWrites main_arg5 (by decide) U

/-- A vector of 6400000 laid out as 50000 rows of 128: row r, lane l is entry 128 r + l. -/
theorem rows_of_vec {α : Type} (v : S6400000.Idx → α) (h : S6400000.ShapeCasts S50000x128) (j : S50000x128.Idx) :
    shapeCast S50000x128 v h j
      = v (ix1 (KSpec.edgeAt ⟨(j 0).val, (j 0).isLt⟩ ⟨(j 1).val, (j 1).isLt⟩)) := by
  refine shapeCast_apply v h j _ ?_
  rw [Shape.rowMajor_val_one, Shape.rowMajor_val_two]
  rfl

/-- An array of 6400000 pairs laid out as 50000 rows of 256. -/
theorem rows_of_pairs {α : Type} (v : S6400000x2.Idx → α) (h : S6400000x2.ShapeCasts S50000x256) (j : S50000x256.Idx) :
    shapeCast S50000x256 v h j = v (KSpec.pairAt ⟨(j 0).val, (j 0).isLt⟩ ⟨(j 1).val, (j 1).isLt⟩) := by
  refine shapeCast_apply v h j _ ?_
  rw [Shape.rowMajor_val_two, Shape.rowMajor_val_two]
  show (((j 0).val * 256 + (j 1).val) / 2) * 2 + ((j 0).val * 256 + (j 1).val) % 2 = (j 0).val * 256 + (j 1).val
  omega

theorem pre_v36 : after (hostOps0 (F := Ideal)) U (Proc.devRef .tc main_v36) = KSpec.lg2 (argsOfU U) := by
  rw [h42 U, pre_arg1]
  funext j
  exact rows_of_vec _ _ j

theorem pre_v37 : after (hostOps0 (F := Ideal)) U (Proc.devRef .tc main_v37) = KSpec.lb2 (argsOfU U) := by
  rw [h43 U, pre_arg3]
  funext j
  exact rows_of_vec _ _ j

theorem pre_v42 : after (hostOps0 (F := Ideal)) U (Proc.devRef .tc main_v42) = KSpec.ep2 (argsOfU U) := by
  rw [h48 U, pre_arg2]
  funext j
  exact rows_of_pairs _ _ j

theorem pre_v43 : after (hostOps0 (F := Ideal)) U (Proc.devRef .tc main_v43) = KSpec.tp2 (argsOfU U) := by
  rw [h49 U, pre_arg4]
  funext j
  exact rows_of_pairs _ _ j

/-! ## Columns of an array of pairs, and the rows of the index array -/

/-- Component k of the pairs, as a vector of 6400000: the slice of column k, then the unit axis dropped. -/
theorem col_of_pairs {α : Type} (v : S6400000x2.Idx → α) (k : Fin 2) (hs : S6400000x2.Slices ![0, k.val] S6400000x1)
    (hc : S6400000x1.ShapeCasts S6400000) (e : Fin 6400000) :
    shapeCast S6400000 (extractStridedSlice S6400000x1 ![0, k.val] v hs) hc (ix1 e) = v (ix2 e k) := by
  rw [shapeCast_apply _ hc (ix1 e) (ix2 e (0 : Fin 1)) (by rw [Shape.rowMajor_val_two, Shape.rowMajor_val_one]; show e.val * 1 + 0 = e.val; omega)]
  refine extractStridedSlice_apply _ v hs _ _ fun a => ?_
  match a with
  | ⟨0, _⟩ => exact (Nat.zero_add _).symm
  | ⟨1, _⟩ => rfl

/-- Row k of the 2 × 6400000 index array, as a vector of 6400000. -/
theorem row_of_idx {α : Type} (v : S2x6400000.Idx → α) (k : Fin 2) (hs : S2x6400000.Slices ![k.val, 0] S1x6400000)
    (hc : S1x6400000.ShapeCasts S6400000) (e : Fin 6400000) :
    shapeCast S6400000 (extractStridedSlice S1x6400000 ![k.val, 0] v hs) hc (ix1 e) = v (ix2 k e) := by
  rw [shapeCast_apply _ hc (ix1 e) (ix2 (0 : Fin 1) e) (by rw [Shape.rowMajor_val_two, Shape.rowMajor_val_one]; simp)]
  refine extractStridedSlice_apply _ v hs _ _ fun a => ?_
  match a with
  | ⟨0, _⟩ => rfl
  | ⟨1, _⟩ => exact (Nat.zero_add _).symm

theorem pre_v1 : after (hostOps0 (F := Ideal)) U (Proc.devRef .tc main_v1) = KSpec.srcArr (argsOfU U) := by
  rw [h1 U, h0 U, pre_arg5]
  funext j
  rw [eq_ix1 j]
  exact row_of_idx _ (0 : Fin 2) _ _ (j 0)

theorem pre_v3 : after (hostOps0 (F := Ideal)) U (Proc.devRef .tc main_v3) = KSpec.dstArr (argsOfU U) := by
  rw [h3 U, h2 U, pre_arg5]
  funext j
  rw [eq_ix1 j]
  exact row_of_idx _ (1 : Fin 2) _ _ (j 0)

theorem pre_v33 (e : Fin 6400000) :
    after (hostOps0 (F := Ideal)) U (Proc.devRef .tc main_v33) (ix1 e) = LossSpec.R (argsOfU U) e := by
  rw [h39 U, h38 U, pre_arg2]
  exact col_of_pairs _ (0 : Fin 2) _ _ e

theorem pre_v35 (e : Fin 6400000) :
    after (hostOps0 (F := Ideal)) U (Proc.devRef .tc main_v35) (ix1 e) = LossSpec.X (argsOfU U) e := by
  rw [h41 U, h40 U, pre_arg2]
  exact col_of_pairs _ (1 : Fin 2) _ _ e

theorem pre_v38 : after (hostOps0 (F := Ideal)) U (Proc.devRef .tc main_v38) = KSpec.R2 (argsOfU U) := by
  rw [h44 U]
  funext j
  exact (rows_of_vec _ _ j).trans (pre_v33 U _)

theorem pre_v39 : after (hostOps0 (F := Ideal)) U (Proc.devRef .tc main_v39) = KSpec.X2 (argsOfU U) := by
  rw [h45 U]
  funext j
  exact (rows_of_vec _ _ j).trans (pre_v35 U _)

/-! ## The gathered node rows -/

/-- A negative index word wrapped once by the number of nodes, as the host lines compute it at one entry. -/
theorem wrap_elem (i : BitVec 32) :
    Scalar.select (IntOp.cmpi .slt i 0#32) (IntOp.addi i 200000#32) i = if i.slt 0#32 then i + 200000#32 else i := by
  unfold Scalar.select IntOp.cmpi IntOp.addi
  cases h : i.slt 0#32 <;> simp

/-- The start indices of a gather: column 0 holds the wrapped word, column 1 holds zero. -/
theorem starts_col0 (v8 : S6400000.Idx → BitVec 32) (z : S6400000x1.Idx → BitVec 32)
    (hb : S6400000.BroadcastsInDim S6400000x1 ![0]) (hc : Shape.Concatenates [S6400000x1, S6400000x1] S6400000x2 1)
    (e : Fin 6400000) :
    concatenate S6400000x2 1 [⟨S6400000x1, broadcastInDim S6400000x1 ![0] hb v8⟩, ⟨S6400000x1, z⟩] hc (ix2 e (0 : Fin 2))
      = v8 (ix1 e) := by
  rw [concatenate_pair_apply_left (s₁ := S6400000x1) (s₂ := S6400000x1) (1 : Fin 2) (broadcastInDim S6400000x1 ![0] hb v8) z hc
    (ix2 e (0 : Fin 2)) rfl (ix2 e (0 : Fin 1) : S6400000x1.Idx)
    (fun b => by match b with | ⟨0, _⟩ => rfl | ⟨1, _⟩ => rfl)]
  refine broadcastInDim_apply _ hb v8 _ (ix1 e) fun a => ?_
  match a with
  | ⟨0, _⟩ => rfl

theorem starts_col1 (y : S6400000x1.Idx → BitVec 32) (z : S6400000x1.Idx → BitVec 32)
    (hc : Shape.Concatenates [S6400000x1, S6400000x1] S6400000x2 1) (e : Fin 6400000) :
    concatenate S6400000x2 1 [⟨S6400000x1, y⟩, ⟨S6400000x1, z⟩] hc (ix2 e (1 : Fin 2)) = z (ix2 e (0 : Fin 1)) := by
  refine concatenate_pair_apply_right (s₁ := S6400000x1) (s₂ := S6400000x1) (1 : Fin 2) y z hc (ix2 e (1 : Fin 2)) rfl rfl
    (ix2 e (0 : Fin 1) : S6400000x1.Idx) (fun b hb => ?_) rfl
  match b with
  | ⟨0, _⟩ => rfl
  | ⟨1, _⟩ => exact absurd rfl hb

/-- The row a start word reads, through the gather's own clamp. -/
theorem row_eq (i : BitVec 32) (h : min (if i.slt 0#32 then i + 200000#32 else i).toInt.toNat (200000 - 1) < 200000) :
    (⟨min (if i.slt 0#32 then i + 200000#32 else i).toInt.toNat (200000 - 1), h⟩ : Fin 200000) = LossSpec.row i := rfl

/-- The wrapped source words. -/
theorem pre_v8 (e : Fin 6400000) :
    after (hostOps0 (F := Ideal)) U (Proc.devRef .tc main_v8) (ix1 e)
      = (if (LossSpec.src (argsOfU U) e).slt 0#32 then LossSpec.src (argsOfU U) e + 200000#32 else LossSpec.src (argsOfU U) e) := by
  rw [h10 U, h6 U, h9 U, h5 U, h8 U, h4 U, h7 U, pre_v1]
  exact wrap_elem _

/-- The wrapped destination words. -/
theorem pre_v17 (e : Fin 6400000) :
    after (hostOps0 (F := Ideal)) U (Proc.devRef .tc main_v17) (ix1 e)
      = (if (LossSpec.dst (argsOfU U) e).slt 0#32 then LossSpec.dst (argsOfU U) e + 200000#32 else LossSpec.dst (argsOfU U) e) := by
  rw [h22 U, h18 U, h21 U, h17 U, h20 U, h16 U, h19 U, pre_v3]
  exact wrap_elem _

/-- The gather of two columns of a node row, over any operand and start indices. -/
theorem gather_nf {α : Type} (x : S200000x4.Idx → α) (idx : S6400000x2.Idx → BitVec 32) (e : Fin 6400000) (k : Fin 2) :
    Host.gather gather_S200000x4_S6400000x2_S6400000x2_1_0_n_n_01_1_12 x idx (ix2 e k)
      = x (ix2 (⟨min (idx (ix2 e (0 : Fin 2))).toInt.toNat (200000 - 1), by omega⟩ : Fin 200000)
            (⟨min (idx (ix2 e (1 : Fin 2))).toInt.toNat (4 - 2) + k.val, by have := k.isLt; omega⟩ : Fin 4)) :=
  GatherPairs.gather_pairs_apply _ rfl rfl rfl rfl rfl rfl rfl (by decide) (by decide) x idx e k

/-- The same with the start indices known: column 0 a wrapped word, column 1 zero. -/
theorem gather_nf_row {α : Type} (x : S200000x4.Idx → α) (idx : S6400000x2.Idx → BitVec 32) (e : Fin 6400000) (k : Fin 2)
    (i : BitVec 32) (h0 : idx (ix2 e (0 : Fin 2)) = (if i.slt 0#32 then i + 200000#32 else i))
    (h1 : idx (ix2 e (1 : Fin 2)) = 0#32) :
    Host.gather gather_S200000x4_S6400000x2_S6400000x2_1_0_n_n_01_1_12 x idx (ix2 e k)
      = x (ix2 (LossSpec.row i) (⟨k.val, by omega⟩ : Fin 4)) := by
  rw [gather_nf]
  refine congrArg x (congrArg₂ ix2 (Fin.ext ?_) (Fin.ext ?_))
  · show min (idx (ix2 e (0 : Fin 2))).toInt.toNat (200000 - 1) = (LossSpec.row i).val
    rw [h0]; rfl
  · show min (idx (ix2 e (1 : Fin 2))).toInt.toNat (4 - 2) + k.val = k.val
    rw [h1]; simp

/-- The two leading columns of the source node's row. -/
theorem pre_v12 (e : Fin 6400000) (k : Fin 2) :
    after (hostOps0 (F := Ideal)) U (Proc.devRef .tc main_v12) (ix2 e k)
      = (argsOfU U).nf (ix2 (LossSpec.row (LossSpec.src (argsOfU U) e)) (⟨k.val, by omega⟩ : Fin 4)) := by
  rw [h15 U, pre_arg0, h14 U, h11 U, h13 U, h12 U]
  exact gather_nf_row _ _ e k _ ((starts_col0 _ _ _ _ e).trans (pre_v8 U e)) (starts_col1 _ _ _ e)

/-- The two leading columns of the destination node's row. -/
theorem pre_v21 (e : Fin 6400000) (k : Fin 2) :
    after (hostOps0 (F := Ideal)) U (Proc.devRef .tc main_v21) (ix2 e k)
      = (argsOfU U).nf (ix2 (LossSpec.row (LossSpec.dst (argsOfU U) e)) (⟨k.val, by omega⟩ : Fin 4)) := by
  rw [h27 U, pre_arg0, h26 U, h23 U, h25 U, h24 U]
  exact gather_nf_row _ _ e k _ ((starts_col0 _ _ _ _ e).trans (pre_v17 U e)) (starts_col1 _ _ _ e)

theorem pre_v26 (e : Fin 6400000) :
    after (hostOps0 (F := Ideal)) U (Proc.devRef .tc main_v26) (ix1 e) = LossSpec.da (argsOfU U) e := by
  rw [h32 U, h29 U, h28 U, h31 U, h30 U]
  refine (congrArg₂ (· - ·) (col_of_pairs _ (0 : Fin 2) _ _ e) (col_of_pairs _ (0 : Fin 2) _ _ e)).trans ?_
  rw [pre_v12, pre_v21]
  rfl

theorem pre_v31 (e : Fin 6400000) :
    after (hostOps0 (F := Ideal)) U (Proc.devRef .tc main_v31) (ix1 e) = LossSpec.db (argsOfU U) e := by
  rw [h37 U, h34 U, h33 U, h36 U, h35 U]
  refine (congrArg₂ (· - ·) (col_of_pairs _ (1 : Fin 2) _ _ e) (col_of_pairs _ (1 : Fin 2) _ _ e)).trans ?_
  rw [pre_v12, pre_v21]
  rfl

theorem pre_v40 : after (hostOps0 (F := Ideal)) U (Proc.devRef .tc main_v40) = KSpec.da2 (argsOfU U) := by
  rw [h46 U]
  funext j
  exact (rows_of_vec _ _ j).trans (pre_v26 U _)

theorem pre_v41 : after (hostOps0 (F := Ideal)) U (Proc.devRef .tc main_v41) = KSpec.db2 (argsOfU U) := by
  rw [h47 U]
  funext j
  exact (rows_of_vec _ _ j).trans (pre_v31 U _)

end Cert.KernelIdeal.HV

end
-- ==== Proof.KTailSteps.lean ====
/-
  The host line hostOps1, operation by operation: the list of the buffers it writes, in order, and for every
  operation the equation "what the line leaves in the operation's result is the operation's function of what the line
  leaves in its operands" (single assignment: no later operation writes the result or an operand).
-/
import proofs.«176581_j38010460570140_2_alg».proof.Proof.Gen.KernelIdeal.Launch
import proofs.«176581_j38010460570140_2_alg».proof.Proof.LibAfterStep

set_option maxRecDepth 16384

noncomputable section

namespace Cert.KernelIdeal.HV

open Idealize.ShloMosaic Idealize.ShloMosaic.TcCoe Idealize.SL.Sem Idealize.ShloMosaic.StableHlo
open Cert.KernelIdeal Cert.KernelIdeal.Gen

variable {F : FTy → Type} [FloatOps F]

/-- The buffers the line writes, in order. -/
abbrev tW : List (Ref sig .tc) := [main_v45, main_cst, main_v46, main_v47, main_v48, main_v49, main_v50, main_v51, main_v52, main_v53, main_v54, main_v55, main_v56, main_v57, main_v58, main_v59, main_v60, main_v61, main_v62, main_v63, main_v64, main_cst_5, main_v65, main_cst_6, main_v66, main_cst_7, main_v67, main_cst_8, main_v68, main_v69, main_v70, main_v71, main_v72, main_cst_9, main_v73, main_v74, main_v75, main_v76, main_cst_10, main_v77, main_cst_11, main_v78, main_cst_12, main_v79, main_cst_13, main_v80, main_v81, main_v82, main_cst_14, main_v83, main_v84, main_v85, main_v86, main_v87, main_v88, main_cst_15, main_v89, main_v90, main_v91, main_v92, main_v93, main_v94, main_v95, main_cst_16, main_v96, main_cst_17, main_v97, main_cst_18, main_v98, main_v99, main_v100, main_cst_19, main_v101, main_v102, main_cst_20, main_v103, main_cst_21, main_v104, main_cst_22, main_v105, main_v106, main_cst_23, main_v107, main_cst_24, main_v108, main_v109, main_cst_25, main_v110, main_cst_26, main_v111, main_v112, main_v113, main_v114, main_v115, main_v116, main_v117, main_v118, main_v119, main_v120, main_v121, main_v122, main_v123, main_v124]

set_option maxHeartbeats 4000000 in
theorem tWrites : AfterStep.Writes (hostOps1 : List (HloOp τ sig (Elt F))) tW := by
  unfold AfterStep.Writes
  simp only [hostOps1, tW, List.forall₂_cons, List.Forall₂.nil, and_true, nullary_writes, unary_writes, binary_writes, ternary_writes, reshape_writes, nary_writes, Finset.Subset.refl, and_self]

/-- main_v45 -/
def t0 (V : Valuation τ sig (Elt F)) := AfterStep.reshape_at (tWrites (F := F)) 0 rfl (by decide) (by decide) V
/-- main_cst -/
def t1 (V : Valuation τ sig (Elt F)) := AfterStep.nullary_at (tWrites (F := F)) 1 rfl (by decide)  V
/-- main_v46 -/
def t2 (V : Valuation τ sig (Elt F)) := AfterStep.binary_at (tWrites (F := F)) 2 rfl (by decide) (by decide) (by decide) V
/-- main_v47 -/
def t3 (V : Valuation τ sig (Elt F)) := AfterStep.unary_at (tWrites (F := F)) 3 rfl (by decide) (by decide) V
/-- main_v48 -/
def t4 (V : Valuation τ sig (Elt F)) := AfterStep.reshape_at (tWrites (F := F)) 4 rfl (by decide) (by decide) V
/-- main_v49 -/
def t5 (V : Valuation τ sig (Elt F)) := AfterStep.unary_at (tWrites (F := F)) 5 rfl (by decide) (by decide) V
/-- main_v50 -/
def t6 (V : Valuation τ sig (Elt F)) := AfterStep.reshape_at (tWrites (F := F)) 6 rfl (by decide) (by decide) V
/-- main_v51 -/
def t7 (V : Valuation τ sig (Elt F)) := AfterStep.unary_at (tWrites (F := F)) 7 rfl (by decide) (by decide) V
/-- main_v52 -/
def t8 (V : Valuation τ sig (Elt F)) := AfterStep.reshape_at (tWrites (F := F)) 8 rfl (by decide) (by decide) V
/-- main_v53 -/
def t9 (V : Valuation τ sig (Elt F)) := AfterStep.unary_at (tWrites (F := F)) 9 rfl (by decide) (by decide) V
/-- main_v54 -/
def t10 (V : Valuation τ sig (Elt F)) := AfterStep.reshape_at (tWrites (F := F)) 10 rfl (by decide) (by decide) V
/-- main_v55 -/
def t11 (V : Valuation τ sig (Elt F)) := AfterStep.unary_at (tWrites (F := F)) 11 rfl (by decide) (by decide) V
/-- main_v56 -/
def t12 (V : Valuation τ sig (Elt F)) := AfterStep.reshape_at (tWrites (F := F)) 12 rfl (by decide) (by decide) V
/-- main_v57 -/
def t13 (V : Valuation τ sig (Elt F)) := AfterStep.unary_at (tWrites (F := F)) 13 rfl (by decide) (by decide) V
/-- main_v58 -/
def t14 (V : Valuation τ sig (Elt F)) := AfterStep.reshape_at (tWrites (F := F)) 14 rfl (by decide) (by decide) V
/-- main_v59 -/
def t15 (V : Valuation τ sig (Elt F)) := AfterStep.unary_at (tWrites (F := F)) 15 rfl (by decide) (by decide) V
/-- main_v60 -/
def t16 (V : Valuation τ sig (Elt F)) := AfterStep.reshape_at (tWrites (F := F)) 16 rfl (by decide) (by decide) V
/-- main_v61 -/
def t17 (V : Valuation τ sig (Elt F)) := AfterStep.unary_at (tWrites (F := F)) 17 rfl (by decide) (by decide) V
/-- main_v62 -/
def t18 (V : Valuation τ sig (Elt F)) := AfterStep.reshape_at (tWrites (F := F)) 18 rfl (by decide) (by decide) V
/-- main_v63 -/
def t19 (V : Valuation τ sig (Elt F)) := AfterStep.unary_at (tWrites (F := F)) 19 rfl (by decide) (by decide) V
/-- main_v64 -/
def t20 (V : Valuation τ sig (Elt F)) := AfterStep.reshape_at (tWrites (F := F)) 20 rfl (by decide) (by decide) V
/-- main_cst_5 -/
def t21 (V : Valuation τ sig (Elt F)) := AfterStep.nullary_at (tWrites (F := F)) 21 rfl (by decide)  V
/-- main_v65 -/
def t22 (V : Valuation τ sig (Elt F)) := AfterStep.binary_at (tWrites (F := F)) 22 rfl (by decide) (by decide) (by decide) V
/-- main_cst_6 -/
def t23 (V : Valuation τ sig (Elt F)) := AfterStep.nullary_at (tWrites (F := F)) 23 rfl (by decide)  V
/-- main_v66 -/
def t24 (V : Valuation τ sig (Elt F)) := AfterStep.binary_at (tWrites (F := F)) 24 rfl (by decide) (by decide) (by decide) V
/-- main_cst_7 -/
def t25 (V : Valuation τ sig (Elt F)) := AfterStep.nullary_at (tWrites (F := F)) 25 rfl (by decide)  V
/-- main_v67 -/
def t26 (V : Valuation τ sig (Elt F)) := AfterStep.binary_at (tWrites (F := F)) 26 rfl (by decide) (by decide) (by decide) V
/-- main_cst_8 -/
def t27 (V : Valuation τ sig (Elt F)) := AfterStep.nullary_at (tWrites (F := F)) 27 rfl (by decide)  V
/-- main_v68 -/
def t28 (V : Valuation τ sig (Elt F)) := AfterStep.binary_at (tWrites (F := F)) 28 rfl (by decide) (by decide) (by decide) V
/-- main_v69 -/
def t29 (V : Valuation τ sig (Elt F)) := AfterStep.reshape_at (tWrites (F := F)) 29 rfl (by decide) (by decide) V
/-- main_v70 -/
def t30 (V : Valuation τ sig (Elt F)) := AfterStep.binary_at (tWrites (F := F)) 30 rfl (by decide) (by decide) (by decide) V
/-- main_v71 -/
def t31 (V : Valuation τ sig (Elt F)) := AfterStep.unary_at (tWrites (F := F)) 31 rfl (by decide) (by decide) V
/-- main_v72 -/
def t32 (V : Valuation τ sig (Elt F)) := AfterStep.binary_at (tWrites (F := F)) 32 rfl (by decide) (by decide) (by decide) V
/-- main_cst_9 -/
def t33 (V : Valuation τ sig (Elt F)) := AfterStep.nullary_at (tWrites (F := F)) 33 rfl (by decide)  V
/-- main_v73 -/
def t34 (V : Valuation τ sig (Elt F)) := AfterStep.unary_at (tWrites (F := F)) 34 rfl (by decide) (by decide) V
/-- main_v74 -/
def t35 (V : Valuation τ sig (Elt F)) := AfterStep.unary_at (tWrites (F := F)) 35 rfl (by decide) (by decide) V
/-- main_v75 -/
def t36 (V : Valuation τ sig (Elt F)) := AfterStep.ternary_at (tWrites (F := F)) 36 rfl (by decide) (by decide) (by decide) (by decide) V
/-- main_v76 -/
def t37 (V : Valuation τ sig (Elt F)) := AfterStep.binary_at (tWrites (F := F)) 37 rfl (by decide) (by decide) (by decide) V
/-- main_cst_10 -/
def t38 (V : Valuation τ sig (Elt F)) := AfterStep.nullary_at (tWrites (F := F)) 38 rfl (by decide)  V
/-- main_v77 -/
def t39 (V : Valuation τ sig (Elt F)) := AfterStep.binary_at (tWrites (F := F)) 39 rfl (by decide) (by decide) (by decide) V
/-- main_cst_11 -/
def t40 (V : Valuation τ sig (Elt F)) := AfterStep.nullary_at (tWrites (F := F)) 40 rfl (by decide)  V
/-- main_v78 -/
def t41 (V : Valuation τ sig (Elt F)) := AfterStep.binary_at (tWrites (F := F)) 41 rfl (by decide) (by decide) (by decide) V
/-- main_cst_12 -/
def t42 (V : Valuation τ sig (Elt F)) := AfterStep.nullary_at (tWrites (F := F)) 42 rfl (by decide)  V
/-- main_v79 -/
def t43 (V : Valuation τ sig (Elt F)) := AfterStep.binary_at (tWrites (F := F)) 43 rfl (by decide) (by decide) (by decide) V
/-- main_cst_13 -/
def t44 (V : Valuation τ sig (Elt F)) := AfterStep.nullary_at (tWrites (F := F)) 44 rfl (by decide)  V
/-- main_v80 -/
def t45 (V : Valuation τ sig (Elt F)) := AfterStep.binary_at (tWrites (F := F)) 45 rfl (by decide) (by decide) (by decide) V
/-- main_v81 -/
def t46 (V : Valuation τ sig (Elt F)) := AfterStep.binary_at (tWrites (F := F)) 46 rfl (by decide) (by decide) (by decide) V
/-- main_v82 -/
def t47 (V : Valuation τ sig (Elt F)) := AfterStep.binary_at (tWrites (F := F)) 47 rfl (by decide) (by decide) (by decide) V
/-- main_cst_14 -/
def t48 (V : Valuation τ sig (Elt F)) := AfterStep.nullary_at (tWrites (F := F)) 48 rfl (by decide)  V
/-- main_v83 -/
def t49 (V : Valuation τ sig (Elt F)) := AfterStep.binary_at (tWrites (F := F)) 49 rfl (by decide) (by decide) (by decide) V
/-- main_v84 -/
def t50 (V : Valuation τ sig (Elt F)) := AfterStep.binary_at (tWrites (F := F)) 50 rfl (by decide) (by decide) (by decide) V
/-- main_v85 -/
def t51 (V : Valuation τ sig (Elt F)) := AfterStep.binary_at (tWrites (F := F)) 51 rfl (by decide) (by decide) (by decide) V
/-- main_v86 -/
def t52 (V : Valuation τ sig (Elt F)) := AfterStep.binary_at (tWrites (F := F)) 52 rfl (by decide) (by decide) (by decide) V
/-- main_v87 -/
def t53 (V : Valuation τ sig (Elt F)) := AfterStep.binary_at (tWrites (F := F)) 53 rfl (by decide) (by decide) (by decide) V
/-- main_v88 -/
def t54 (V : Valuation τ sig (Elt F)) := AfterStep.binary_at (tWrites (F := F)) 54 rfl (by decide) (by decide) (by decide) V
/-- main_cst_15 -/
def t55 (V : Valuation τ sig (Elt F)) := AfterStep.nullary_at (tWrites (F := F)) 55 rfl (by decide)  V
/-- main_v89 -/
def t56 (V : Valuation τ sig (Elt F)) := AfterStep.binary_at (tWrites (F := F)) 56 rfl (by decide) (by decide) (by decide) V
/-- main_v90 -/
def t57 (V : Valuation τ sig (Elt F)) := AfterStep.binary_at (tWrites (F := F)) 57 rfl (by decide) (by decide) (by decide) V
/-- main_v91 -/
def t58 (V : Valuation τ sig (Elt F)) := AfterStep.binary_at (tWrites (F := F)) 58 rfl (by decide) (by decide) (by decide) V
/-- main_v92 -/
def t59 (V : Valuation τ sig (Elt F)) := AfterStep.binary_at (tWrites (F := F)) 59 rfl (by decide) (by decide) (by decide) V
/-- main_v93 -/
def t60 (V : Valuation τ sig (Elt F)) := AfterStep.binary_at (tWrites (F := F)) 60 rfl (by decide) (by decide) (by decide) V
/-- main_v94 -/
def t61 (V : Valuation τ sig (Elt F)) := AfterStep.binary_at (tWrites (F := F)) 61 rfl (by decide) (by decide) (by decide) V
/-- main_v95 -/
def t62 (V : Valuation τ sig (Elt F)) := AfterStep.binary_at (tWrites (F := F)) 62 rfl (by decide) (by decide) (by decide) V
/-- main_cst_16 -/
def t63 (V : Valuation τ sig (Elt F)) := AfterStep.nullary_at (tWrites (F := F)) 63 rfl (by decide)  V
/-- main_v96 -/
def t64 (V : Valuation τ sig (Elt F)) := AfterStep.binary_at (tWrites (F := F)) 64 rfl (by decide) (by decide) (by decide) V
/-- main_cst_17 -/
def t65 (V : Valuation τ sig (Elt F)) := AfterStep.nullary_at (tWrites (F := F)) 65 rfl (by decide)  V
/-- main_v97 -/
def t66 (V : Valuation τ sig (Elt F)) := AfterStep.binary_at (tWrites (F := F)) 66 rfl (by decide) (by decide) (by decide) V
/-- main_cst_18 -/
def t67 (V : Valuation τ sig (Elt F)) := AfterStep.nullary_at (tWrites (F := F)) 67 rfl (by decide)  V
/-- main_v98 -/
def t68 (V : Valuation τ sig (Elt F)) := AfterStep.binary_at (tWrites (F := F)) 68 rfl (by decide) (by decide) (by decide) V
/-- main_v99 -/
def t69 (V : Valuation τ sig (Elt F)) := AfterStep.binary_at (tWrites (F := F)) 69 rfl (by decide) (by decide) (by decide) V
/-- main_v100 -/
def t70 (V : Valuation τ sig (Elt F)) := AfterStep.binary_at (tWrites (F := F)) 70 rfl (by decide) (by decide) (by decide) V
/-- main_cst_19 -/
def t71 (V : Valuation τ sig (Elt F)) := AfterStep.nullary_at (tWrites (F := F)) 71 rfl (by decide)  V
/-- main_v101 -/
def t72 (V : Valuation τ sig (Elt F)) := AfterStep.binary_at (tWrites (F := F)) 72 rfl (by decide) (by decide) (by decide) V
/-- main_v102 -/
def t73 (V : Valuation τ sig (Elt F)) := AfterStep.binary_at (tWrites (F := F)) 73 rfl (by decide) (by decide) (by decide) V
/-- main_cst_20 -/
def t74 (V : Valuation τ sig (Elt F)) := AfterStep.nullary_at (tWrites (F := F)) 74 rfl (by decide)  V
/-- main_v103 -/
def t75 (V : Valuation τ sig (Elt F)) := AfterStep.binary_at (tWrites (F := F)) 75 rfl (by decide) (by decide) (by decide) V
/-- main_cst_21 -/
def t76 (V : Valuation τ sig (Elt F)) := AfterStep.nullary_at (tWrites (F := F)) 76 rfl (by decide)  V
/-- main_v104 -/
def t77 (V : Valuation τ sig (Elt F)) := AfterStep.binary_at (tWrites (F := F)) 77 rfl (by decide) (by decide) (by decide) V
/-- main_cst_22 -/
def t78 (V : Valuation τ sig (Elt F)) := AfterStep.nullary_at (tWrites (F := F)) 78 rfl (by decide)  V
/-- main_v105 -/
def t79 (V : Valuation τ sig (Elt F)) := AfterStep.binary_at (tWrites (F := F)) 79 rfl (by decide) (by decide) (by decide) V
/-- main_v106 -/
def t80 (V : Valuation τ sig (Elt F)) := AfterStep.binary_at (tWrites (F := F)) 80 rfl (by decide) (by decide) (by decide) V
/-- main_cst_23 -/
def t81 (V : Valuation τ sig (Elt F)) := AfterStep.nullary_at (tWrites (F := F)) 81 rfl (by decide)  V
/-- main_v107 -/
def t82 (V : Valuation τ sig (Elt F)) := AfterStep.binary_at (tWrites (F := F)) 82 rfl (by decide) (by decide) (by decide) V
/-- main_cst_24 -/
def t83 (V : Valuation τ sig (Elt F)) := AfterStep.nullary_at (tWrites (F := F)) 83 rfl (by decide)  V
/-- main_v108 -/
def t84 (V : Valuation τ sig (Elt F)) := AfterStep.binary_at (tWrites (F := F)) 84 rfl (by decide) (by decide) (by decide) V
/-- main_v109 -/
def t85 (V : Valuation τ sig (Elt F)) := AfterStep.binary_at (tWrites (F := F)) 85 rfl (by decide) (by decide) (by decide) V
/-- main_cst_25 -/
def t86 (V : Valuation τ sig (Elt F)) := AfterStep.nullary_at (tWrites (F := F)) 86 rfl (by decide)  V
/-- main_v110 -/
def t87 (V : Valuation τ sig (Elt F)) := AfterStep.binary_at (tWrites (F := F)) 87 rfl (by decide) (by decide) (by decide) V
/-- main_cst_26 -/
def t88 (V : Valuation τ sig (Elt F)) := AfterStep.nullary_at (tWrites (F := F)) 88 rfl (by decide)  V
/-- main_v111 -/
def t89 (V : Valuation τ sig (Elt F)) := AfterStep.binary_at (tWrites (F := F)) 89 rfl (by decide) (by decide) (by decide) V
/-- main_v112 -/
def t90 (V : Valuation τ sig (Elt F)) := AfterStep.binary_at (tWrites (F := F)) 90 rfl (by decide) (by decide) (by decide) V
/-- main_v113 -/
def t91 (V : Valuation τ sig (Elt F)) := AfterStep.binary_at (tWrites (F := F)) 91 rfl (by decide) (by decide) (by decide) V
/-- main_v114 -/
def t92 (V : Valuation τ sig (Elt F)) := AfterStep.binary_at (tWrites (F := F)) 92 rfl (by decide) (by decide) (by decide) V
/-- main_v115 -/
def t93 (V : Valuation τ sig (Elt F)) := AfterStep.binary_at (tWrites (F := F)) 93 rfl (by decide) (by decide) (by decide) V
/-- main_v116 -/
def t94 (V : Valuation τ sig (Elt F)) := AfterStep.binary_at (tWrites (F := F)) 94 rfl (by decide) (by decide) (by decide) V
/-- main_v117 -/
def t95 (V : Valuation τ sig (Elt F)) := AfterStep.unary_at (tWrites (F := F)) 95 rfl (by decide) (by decide) V
/-- main_v118 -/
def t96 (V : Valuation τ sig (Elt F)) := AfterStep.unary_at (tWrites (F := F)) 96 rfl (by decide) (by decide) V
/-- main_v119 -/
def t97 (V : Valuation τ sig (Elt F)) := AfterStep.unary_at (tWrites (F := F)) 97 rfl (by decide) (by decide) V
/-- main_v120 -/
def t98 (V : Valuation τ sig (Elt F)) := AfterStep.unary_at (tWrites (F := F)) 98 rfl (by decide) (by decide) V
/-- main_v121 -/
def t99 (V : Valuation τ sig (Elt F)) := AfterStep.unary_at (tWrites (F := F)) 99 rfl (by decide) (by decide) V
/-- main_v122 -/
def t100 (V : Valuation τ sig (Elt F)) := AfterStep.unary_at (tWrites (F := F)) 100 rfl (by decide) (by decide) V
/-- main_v123 -/
def t101 (V : Valuation τ sig (Elt F)) := AfterStep.unary_at (tWrites (F := F)) 101 rfl (by decide) (by decide) V
/-- main_v124 -/
def t102 (V : Valuation τ sig (Elt F)) := AfterStep.nary_at (tWrites (F := F)) 102 rfl (by decide) (by decide) V

end Cert.KernelIdeal.HV

end
-- ==== Proof.LibVecScatter.lean ====
/-
  An accumulating scatter of a vector of m updates into a vector of n entries, the targets given by an m × 1 array of
  words.

  Update j lands on entry i exactly when its word, read signed, is i: the start of the one-entry window is the word
  itself, not clamped, the window has no coordinate of its own, and a word outside 0 … n − 1 drops the update.  So
  entry i of the result is entry i of the operand plus the sum of the updates whose word is i.  Stated for the literal
  record and for any record with these fields.
-/
import Idealize.ShloMosaic.Lib.ValueIdx
import Idealize.ShloMosaic.PureOps.Ideal.Laws

noncomputable section

open scoped BigOperators

namespace VecScatter

open Idealize.ShloMosaic Idealize.ShloMosaic.ValueIdx

variable {n m wd : ℕ}

/-- A rank-1 index set is its coordinate range. -/
def idxEquiv1 {k : ℕ} : (⟨1, ![k]⟩ : Shape).Idx ≃ Fin k where
  toFun y := y 0
  invFun j := ix1 j
  left_inv y := (eq_ix1 y).symm
  right_inv _ := rfl

/-- The dimension numbers as a literal record over given conditions. -/
abbrev vecDims (n m : ℕ) (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

/-- Start plus window coordinate of update j on the operand's one axis is j's word read signed. -/
theorem vecDims_start_window (wf : ScatterDims.WF ⟨1, ![n]⟩ ⟨2, ![m, 1]⟩ ⟨1, ![m]⟩ [] [0] [0] 1)
    (idx : IVec (⟨2, ![m, 1]⟩ : Shape) wd) (j : Fin m) (a : Fin 1) :
    (vecDims n m wf).start (ix1 j) idx a + (vecDims n m wf).window (ix1 j) a = (idx (ix2 j (0 : Fin 1))).toInt := by
  match a with
  | ⟨0, _⟩ =>
    have hw : (vecDims n m wf).window (ix1 j) 0 = 0 := by
      unfold ScatterDims.window
      rw [dif_neg (fun h => by
        have h2 := (List.mem_filter.1 h).2
        simp at h2)]
    have hs : (vecDims n m wf).start (ix1 j) idx 0 = (idx (ix2 j (0 : Fin 1))).toInt := by
      unfold ScatterDims.start
      rw [dif_pos (show (0 : Fin 1) ∈ (vecDims n m wf).scatterDimsToOperandDims from List.mem_cons_self)]
      have hsi : (vecDims n m wf).siIdx (ix1 j) ⟨List.idxOf (0 : Fin 1) (vecDims n m wf).scatterDimsToOperandDims,
          List.idxOf_lt_length_iff.2 List.mem_cons_self⟩ = ix2 j (0 : Fin 1) := by
        funext b; refine Fin.ext ?_
        match b with
        | ⟨0, _⟩ => rfl
        | ⟨1, _⟩ => rfl
      rw [hsi]
    show (vecDims n m wf).start (ix1 j) idx 0 + ((vecDims n m wf).window (ix1 j) 0 : ℕ) = _
    rw [hw, hs]; simp

/-- Update j lands on entry i exactly when its word read signed is i: the literal record. -/
theorem vecDims_resultIdx (wf : ScatterDims.WF ⟨1, ![n]⟩ ⟨2, ![m, 1]⟩ ⟨1, ![m]⟩ [] [0] [0] 1)
    (idx : IVec (⟨2, ![m, 1]⟩ : Shape) wd) (j : Fin m) (i : Fin n) :
    (vecDims n m wf).resultIdx? (ix1 j) idx = some (ix1 i) ↔ (idx (ix2 j (0 : Fin 1))).toInt = (i.val : Int) := by
  have hsw := vecDims_start_window wf idx j
  have hi := i.isLt
  unfold ScatterDims.resultIdx?
  constructor
  · intro h
    split at h
    · rename_i hc
      have h0 := congrArg Fin.val (congrFun (Option.some.inj h) 0)
      have hc0 := hc 0
      rw [hsw 0] at hc0
      change ((vecDims n m wf).start (ix1 j) idx 0 + ((vecDims n m wf).window (ix1 j) 0 : ℕ)).toNat = i.val at h0
      rw [hsw 0] at h0
      omega
    · cases h
  · intro h
    have hc : ∀ a : Fin 1, 0 ≤ (vecDims n m wf).start (ix1 j) idx a + ((vecDims n m wf).window (ix1 j) a : ℕ)
        ∧ (vecDims n m wf).start (ix1 j) idx a + ((vecDims n m wf).window (ix1 j) a : ℕ)
          < ((⟨1, ![n]⟩ : Shape).size a : ℕ) := by
      intro a
      rw [hsw a]
      match a with
      | ⟨0, _⟩ =>
        refine ⟨by omega, ?_⟩
        show (idx (ix2 j (0 : Fin 1))).toInt < (n : Int)
        omega
    rw [dif_pos hc]
    congr 1
    funext a
    match a with
    | ⟨0, _⟩ =>
      refine Fin.ext ?_
      show ((vecDims n m wf).start (ix1 j) idx 0 + ((vecDims n m wf).window (ix1 j) 0 : ℕ)).toNat = i.val
      rw [hsw 0]; omega

/-- UPDATE j LANDS ON ENTRY i EXACTLY WHEN ITS WORD READ SIGNED IS i, for any record with these fields. -/
theorem resultIdx_vec (d : ScatterDims (⟨1, ![n]⟩ : Shape) (⟨2, ![m, 1]⟩ : Shape) (⟨1, ![m]⟩ : Shape))
    (hu : d.updateWindowDims = []) (hi : d.insertedWindowDims = [0]) (hs : d.scatterDimsToOperandDims = [0])
    (hv : d.indexVectorDim = 1) (idx : IVec (⟨2, ![m, 1]⟩ : Shape) wd) (j : Fin m) (i : Fin n) :
    d.resultIdx? (ix1 j) idx = some (ix1 i) ↔ (idx (ix2 j (0 : Fin 1))).toInt = (i.val : Int) := by
  obtain ⟨uw, iw, sd, iv, wf⟩ := d
  dsimp only at hu hi hs hv
  subst hu hi hs hv
  exact vecDims_resultIdx wf idx j i

/-- ENTRY i OF THE ACCUMULATING SCATTER: the operand's entry plus the sum of the updates whose word is i. -/
theorem scatterAdd_vec_apply (d : ScatterDims (⟨1, ![n]⟩ : Shape) (⟨2, ![m, 1]⟩ : Shape) (⟨1, ![m]⟩ : Shape))
    (hu : d.updateWindowDims = []) (hi : d.insertedWindowDims = [0]) (hs : d.scatterDimsToOperandDims = [0])
    (hv : d.indexVectorDim = 1) (x : (⟨1, ![n]⟩ : Shape).Idx → EReal) (idx : IVec (⟨2, ![m, 1]⟩ : Shape) wd)
    (upd : (⟨1, ![m]⟩ : Shape).Idx → EReal) (i : Fin n) :
    Ideal.hostScatterAdd d x idx upd (ix1 i)
      = x (ix1 i) + ∑ j ∈ Finset.univ.filter (fun j : Fin m => (idx (ix2 j (0 : Fin 1))).toInt = (i.val : Int)),
          upd (ix1 j) := by
  unfold Ideal.hostScatterAdd
  congr 1
  rw [Finset.sum_filter, Finset.sum_filter]
  refine Fintype.sum_equiv idxEquiv1 _ _ fun y => ?_
  obtain ⟨j, rfl⟩ : ∃ j, y = ix1 j := ⟨y 0, eq_ix1 y⟩
  exact if_congr (resultIdx_vec d hu hi hs hv idx j i) rfl rfl

end VecScatter

end
-- ==== Proof.KTailScatter.lean ====
/-
  The node currents the host lines after the kernel compute.

  The weighted currents of the 6400000 edges, read off the kernel's first result as one vector, are laid end to end
  with their negatives (12800000 updates); the destination words are laid end to end with the source words
  (12800000 targets); the updates are added into a vector of 200000 zeros at their targets.  Entry n of the result is
  the sum of the currents of the edges whose destination word is n plus the sum of the negated currents of the edges
  whose source word is n.
-/
import proofs.«176581_j38010460570140_2_alg».proof.Proof.KTailSteps
import proofs.«176581_j38010460570140_2_alg».proof.Proof.KSpec
import proofs.«176581_j38010460570140_2_alg».proof.Proof.LossSpec
import proofs.«176581_j38010460570140_2_alg».proof.Proof.LibVecScatter
import Idealize.ShloMosaic.Lib.Pipeline.Value
import Idealize.ShloMosaic.Lib.ValueIdx

set_option maxRecDepth 16384

noncomputable section

open scoped BigOperators

namespace Cert.KernelIdeal.HV

open Idealize.ShloMosaic Idealize.ShloMosaic.TcCoe Idealize.SL.Sem Idealize.ShloMosaic.StableHlo
open Idealize.ShloMosaic.ValueIdx
open Cert.KernelIdeal Cert.KernelIdeal.Gen

/-- Place e of the first half of 12800000 places. -/
abbrev lo (e : Fin 6400000) : Fin 12800000 := ⟨e.val, by omega⟩
/-- Place e of the second half. -/
abbrev hi (e : Fin 6400000) : Fin 12800000 := ⟨6400000 + e.val, by omega⟩

/-- A filtered sum over 12800000 places is the filtered sum over the first half plus that over the second. -/
theorem sum_filter_halves {M : Type*} [AddCommMonoid M] (P : Fin 12800000 → Prop) [DecidablePred P]
    (u : Fin 12800000 → M) :
    ∑ j ∈ Finset.univ.filter P, u j
      = (∑ e ∈ Finset.univ.filter (fun e : Fin 6400000 => P (lo e)), u (lo e))
        + ∑ e ∈ Finset.univ.filter (fun e : Fin 6400000 => P (hi e)), u (hi e) := by
  rw [Finset.sum_filter, Finset.sum_filter, Finset.sum_filter]
  exact Fin.sum_univ_add (a := 6400000) (b := 6400000) (fun j => if P j then u j else 0)

/-- 50000 rows of 128 read as one vector: entry e is lane e mod 128 of row e div 128. -/
theorem vec_of_rows {α : Type} (v : S50000x128.Idx → α) (h : S50000x128.ShapeCasts S6400000) (e : Fin 6400000) :
    shapeCast S6400000 v h (ix1 e)
      = v (ix2 (⟨e.val / 128, by omega⟩ : Fin 50000) (⟨e.val % 128, by omega⟩ : Fin 128)) := by
  refine shapeCast_apply v h _ _ ?_
  rw [Shape.rowMajor_val_one, Shape.rowMajor_val_two]
  show (e.val / 128) * 128 + e.val % 128 = e.val
  omega

/-- Two vectors of 6400000 laid end to end, read in the first half. -/
theorem cat_lo {α : Type} (x y : S6400000.Idx → α) (hc : Shape.Concatenates [S6400000, S6400000] S12800000 0)
    (e : Fin 6400000) :
    concatenate S12800000 0 [⟨S6400000, x⟩, ⟨S6400000, y⟩] hc (ix1 (lo e)) = x (ix1 e) := by
  refine concatenate_pair_apply_left (t := S12800000) (0 : Fin 1) x y hc (ix1 (lo e)) rfl (ix1 e) fun b => ?_
  match b with
  | ⟨0, _⟩ => rfl

/-- Two vectors of 6400000 laid end to end, read in the second half. -/
theorem cat_hi {α : Type} (x y : S6400000.Idx → α) (hc : Shape.Concatenates [S6400000, S6400000] S12800000 0)
    (e : Fin 6400000) :
    concatenate S12800000 0 [⟨S6400000, x⟩, ⟨S6400000, y⟩] hc (ix1 (hi e)) = y (ix1 e) := by
  refine concatenate_pair_apply_right (t := S12800000) (0 : Fin 1) x y hc (ix1 (hi e)) rfl rfl (ix1 e) (fun b hb => ?_) ?_
  · match b with
    | ⟨0, _⟩ => exact absurd rfl hb
  · show e.val + 6400000 = 6400000 + e.val
    omega

/-- A vector of 12800000 as a one-column array. -/
theorem col_of_vec {α : Type} (v : S12800000.Idx → α) (hb : S12800000.BroadcastsInDim S12800000x1 ![0])
    (j : Fin 12800000) : broadcastInDim S12800000x1 ![0] hb v (ix2 j (0 : Fin 1)) = v (ix1 j) := by
  refine broadcastInDim_apply _ hb v _ (ix1 j) fun a => ?_
  match a with
  | ⟨0, _⟩ => rfl

/-- On the extended reals the host's accumulating scatter is the exact one. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

variable (W : Valuation τ sig (Elt Ideal)) (A : LossSpec.Args)

/-- The weighted current of edge e, off the kernel's first result read as one vector. -/
theorem tail_v69 (h0 : W (Proc.devRef .tc main_v44_0) = KSpec.curp2 A) (e : Fin 6400000) :
    after (hostOps1 (F := Ideal)) W (Proc.devRef .tc main_v69) (ix1 e) = LossSpec.c A e := by
  rw [t29 W, AfterStep.keep tWrites main_v44_0 (by decide) W, h0]
  refine (vec_of_rows _ _ e).trans ?_
  show LossSpec.c A (KSpec.edgeAt _ _) = LossSpec.c A e
  refine congrArg (LossSpec.c A) (Fin.ext ?_)
  show (e.val / 128) * 128 + e.val % 128 = e.val
  omega

/-- The targets: the destination words, then the source words. -/
theorem tail_v70_lo (hd : W (Proc.devRef .tc main_v3) = KSpec.dstArr A) (e : Fin 6400000) :
    after (hostOps1 (F := Ideal)) W (Proc.devRef .tc main_v70) (ix1 (lo e)) = LossSpec.dst A e := by
  rw [t30 W, cat_lo, AfterStep.keep tWrites main_v3 (by decide) W, hd]
  rfl

theorem tail_v70_hi (hs : W (Proc.devRef .tc main_v1) = KSpec.srcArr A) (e : Fin 6400000) :
    after (hostOps1 (F := Ideal)) W (Proc.devRef .tc main_v70) (ix1 (hi e)) = LossSpec.src A e := by
  rw [t30 W, cat_hi, AfterStep.keep tWrites main_v1 (by decide) W, hs]
  rfl

/-- The updates: the currents, then their negatives. -/
theorem tail_v72_lo (h0 : W (Proc.devRef .tc main_v44_0) = KSpec.curp2 A) (e : Fin 6400000) :
    after (hostOps1 (F := Ideal)) W (Proc.devRef .tc main_v72) (ix1 (lo e)) = LossSpec.c A e := by
  rw [t32 W, cat_lo, tail_v69 W A h0]

theorem tail_v72_hi (h0 : W (Proc.devRef .tc main_v44_0) = KSpec.curp2 A) (e : Fin 6400000) :
    after (hostOps1 (F := Ideal)) W (Proc.devRef .tc main_v72) (ix1 (hi e)) = (-(LossSpec.c A e) : EReal) := by
  rw [t32 W, cat_hi, t31 W]
  exact congrArg (fun z : EReal => -z) (tail_v69 W A h0 e)

/-- The vector added into is zero. -/
theorem tail_v73 (n : Fin 200000) :
    after (hostOps1 (F := Ideal)) W (Proc.devRef .tc main_v73) (ix1 n) = (0 : EReal) := by
  rw [t34 W, t33 W]
  rw [broadcastInDim_apply _ _ _ (ix1 n) ix0 (fun a => a.elim0)]
  exact Ideal.ofBits_zero_f32

/-- The targets as a one-column array. -/
theorem tail_v74 (j : Fin 12800000) :
    after (hostOps1 (F := Ideal)) W (Proc.devRef .tc main_v74) (ix2 j (0 : Fin 1))
      = after (hostOps1 (F := Ideal)) W (Proc.devRef .tc main_v70) (ix1 j) := by
  rw [t35 W]
  exact col_of_vec _ _ j

/-- ENTRY n OF THE SCATTERED CURRENTS is the node current of n. -/
theorem tail_v75 (h0 : W (Proc.devRef .tc main_v44_0) = KSpec.curp2 A)
    (hs : W (Proc.devRef .tc main_v1) = KSpec.srcArr A) (hd : W (Proc.devRef .tc main_v3) = KSpec.dstArr A)
    (n : Fin 200000) :
    after (hostOps1 (F := Ideal)) W (Proc.devRef .tc main_v75) (ix1 n) = LossSpec.nodeK A n := by
  rw [t36 W, scatterAdd_ideal]
  rw [VecScatter.scatterAdd_vec_apply scatter_S200000_S12800000x1_S12800000_n_0_0_1 rfl rfl rfl rfl, tail_v73, zero_add,
    sum_filter_halves]
  unfold LossSpec.nodeK
  refine congrArg₂ (fun a b : EReal => a + b) ?_ ?_
  · refine Finset.sum_congr (Finset.filter_congr fun e _ => ?_) fun e _ => tail_v72_lo W A h0 e
    rw [tail_v74, tail_v70_lo W A hd]
    exact Iff.rfl
  · refine Finset.sum_congr (Finset.filter_congr fun e _ => ?_) fun e _ => tail_v72_hi W A h0 e
    rw [tail_v74, tail_v70_hi W A hs]
    exact Iff.rfl

end Cert.KernelIdeal.HV

end
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.KRegroup.lean ====
/-
  The sum over all 6400000 edges, and over all 12800000 (edge, component) pairs, cut into the 25 bands of 2000 rows.

  Place k of the row-major layout of 25 bands of 2000 rows of B lanes is (i · 2000 + s) · B + l for exactly one band
  i, row s and lane l, so a sum over the places is the triple sum.  With B = 128 the places are the edges; with
  B = 256 place k is component k mod 2 of edge k div 2.
-/
import proofs.«176581_j38010460570140_2_alg».proof.Proof.KSpec
import proofs.«176581_j38010460570140_2_alg».proof.Proof.LossSpec
import proofs.«176581_j38010460570140_2_alg».proof.Proof.LibTiles

noncomputable section

open scoped BigOperators

namespace KSpec

open Idealize.ShloMosaic ValueIdx LossSpec

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A function on the first n naturals, continued by zero. -/
def ext0 {n : Nat} (f : Fin n → EReal) (k : ℕ) : EReal := if h : k < n then f ⟨k, h⟩ else 0

theorem ext0_val {n : Nat} (f : Fin n → EReal) (e : Fin n) : ext0 f e.val = f e := dif_pos e.isLt

/-- The sum of the continuation over the first n naturals is the sum of the function. -/
theorem sum_ext0 {n m : Nat} (h : m = n) (f : Fin n → EReal) : ∑ k : Fin m, ext0 f k.val = ∑ e, f e := by
  subst h
  exact Finset.sum_congr rfl fun e _ => ext0_val f e

/-- T · S · B consecutive places as T bands of S rows of B lanes. -/
theorem sum_tiles3 {M : Type*} [AddCommMonoid M] (T S B : ℕ) (g : ℕ → M) :
    ∑ i : Fin T, ∑ s : Fin S, ∑ l : Fin B, g ((i.val * S + s.val) * B + l.val)
      = ∑ k : Fin (T * (S * B)), g k.val := by
  rw [← Tiles.sum_tiles T (S * B) g]
  refine Finset.sum_congr rfl fun i _ => ?_
  rw [← Tiles.sum_tiles S B (fun k => g (i.val * (S * B) + k))]
  refine Finset.sum_congr rfl fun s _ => Finset.sum_congr rfl fun l _ => congrArg g ?_
  ring

/-- A band's sum as the double sum over its rows and lanes. -/
theorem bandSum_eq (f : Fin 6400000 → EReal) (i : Fin 25) :
    bandSum f i = ∑ s : Fin 2000, ∑ l : Fin 128, ext0 f ((i.val * 2000 + s.val) * 128 + l.val) := by
  unfold bandSum
  rw [sum_idx3, Fin.sum_univ_one]
  refine Finset.sum_congr rfl fun s _ => Finset.sum_congr rfl fun l _ => ?_
  exact (ext0_val f (edgeAt (bandRow i s) l)).symm

/-- The bands' sums of a per-edge quantity add up to its sum over all edges. -/
theorem band_total (f : Fin 6400000 → EReal) : ∑ i : Fin 25, bandSum f i = ∑ e, f e := by
  simp only [bandSum_eq]
  rw [sum_tiles3 25 2000 128 (ext0 f)]
  exact sum_ext0 (by norm_num) f

/-- A quantity of the (edge, component) pairs at place k of their end-to-end layout. -/
def atPlace (H : SEdge2.Idx → EReal) (k : Fin 12800000) : EReal :=
  H (ix2 (⟨k.val / 2, by omega⟩ : Fin 6400000) (⟨k.val % 2, by omega⟩ : Fin 2))

/-- Place 2 e + k holds component k of edge e. -/
theorem atPlace_pair (H : SEdge2.Idx → EReal) (e : Fin 6400000) (k : Fin 2) (h : e.val * 2 + k.val < 12800000) :
    atPlace H ⟨e.val * 2 + k.val, h⟩ = H (ix2 e k) := by
  have hk := k.isLt
  exact congrArg H (congrArg₂ ix2 (Fin.ext (by show (e.val * 2 + k.val) / 2 = e.val; omega))
    (Fin.ext (by show (e.val * 2 + k.val) % 2 = k.val; omega)))

/-- The sum over all pairs, edge by edge, is the sum over the places. -/
theorem sum_pairs (H : SEdge2.Idx → EReal) :
    ∑ e : Fin 6400000, ∑ k : Fin 2, H (ix2 e k) = ∑ j : Fin 12800000, atPlace H j := by
  rw [← sum_ext0 (m := 6400000 * 2) (by norm_num) (atPlace H), ← Tiles.sum_tiles 6400000 2 (ext0 (atPlace H))]
  refine Finset.sum_congr rfl fun e _ => Finset.sum_congr rfl fun k _ => ?_
  have h : e.val * 2 + k.val < 12800000 := by have := e.isLt; have := k.isLt; omega
  rw [ext0, dif_pos h, atPlace_pair]

/-- A band's sum of a quantity of the pairs as the double sum over its rows and places. -/
theorem bandPairs_eq (H : SEdge2.Idx → EReal) (i : Fin 25) :
    (∑ y : SBand2.Idx, H (pairAt (bandRow i ⟨(y 1).val, (y 1).isLt⟩) ⟨(y 2).val, (y 2).isLt⟩))
      = ∑ s : Fin 2000, ∑ q : Fin 256, ext0 (atPlace H) ((i.val * 2000 + s.val) * 256 + q.val) := by
  rw [sum_idx3, Fin.sum_univ_one]
  refine Finset.sum_congr rfl fun s _ => Finset.sum_congr rfl fun q _ => ?_
  have h : (i.val * 2000 + s.val) * 256 + q.val < 12800000 := by
    have := i.isLt; have := s.isLt; have := q.isLt; omega
  rw [ext0, dif_pos h]
  rfl

/-- The bands' sums of squared parameter differences add up to the sum over all edges and components. -/
theorem bandSq_total (A : LossSpec.Args) : ∑ i : Fin 25, bandSq A i = LossSpec.Ssq A := by
  have hb : ∀ i : Fin 25, bandSq A i
      = ∑ s : Fin 2000, ∑ q : Fin 256,
          ext0 (atPlace fun j => (A.ep j - A.tp j) * (A.ep j - A.tp j)) ((i.val * 2000 + s.val) * 256 + q.val) :=
    fun i => bandPairs_eq (fun j => (A.ep j - A.tp j) * (A.ep j - A.tp j)) i
  simp only [hb]
  rw [sum_tiles3 25 2000 256, sum_ext0 (by norm_num)]
  exact (sum_pairs fun j => (A.ep j - A.tp j) * (A.ep j - A.tp j)).symm

end KSpec

end
-- ==== Proof.LossPack.lean ====
/-
  The seven results laid out as an array of seven entries.
-/
import proofs.«176581_j38010460570140_2_alg».proof.Proof.LossSpec

noncomputable section

namespace LossSpec

open Idealize.ShloMosaic

/-- Entry j of the result array is the j-th result. -/
def pack7 (f : Fin 7 → EReal) : (⟨1, ![7]⟩ : Shape).Idx → EReal := fun j => f (j 0)

end LossSpec

end
-- ==== Proof.LibColSum.lean ====
/-
  Reading a host column sum and a unit-axis cast at coordinates, on the extended reals, over generic extents.

  A host sum of an n × k array along axis 0, started from the zero pattern, is at column c the sum over the rows r of
  the entry (r, c) ("colSum_host"; "lift0" names the index the reduction puts back).  An [a, 1, b] array cast to
  [a, b] reads, at (i, j), the operand at (i, 0, j) ("cast_a1b_ab").
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace BnRead

open Idealize.ShloMosaic Idealize.ShloMosaic.ValueIdx

/-- Index (r, c) is the reduced index c with the coordinate r put back on axis 0. -/
theorem lift0 {n k : ℕ} (h : (⟨2, ![n, k]⟩ : Shape).Reduces [0] (⟨1, ![k]⟩ : Shape)) (c : Fin k)
    (l : Fin ((⟨2, ![n, k]⟩ : Shape).size 0)) : h.lift (ix1 c) l = ix2 (⟨l.val, l.isLt⟩ : Fin n) c :=
  funext fun ax => Fin.ext (by match ax with | ⟨0, _⟩ => rfl | ⟨1, _⟩ => rfl)

/-- The host's sum down a column, from zero. -/
theorem colSum_host {n k : ℕ} (y : FVec Ideal (⟨2, ![n, k]⟩ : Shape) .f32)
    (hR' : (⟨2, ![n, k]⟩ : Shape).ReducesTo [0] (⟨1, ![k]⟩ : Shape))
    (hR : (⟨2, ![n, k]⟩ : Shape).Reduces [0] (⟨1, ![k]⟩ : Shape)) (hu : 0 < (⟨0, ![]⟩ : Shape).numel) (c : Fin k) :
    Host.reduceAdd y (constant (F := Ideal) (⟨0, ![]⟩ : Shape) .f32 0x00000000#32) hR' hu (ix1 c) = ∑ r : Fin n, y (ix2 r c) := by
  simp only [Host.reduceAdd, Ideal.hostReduceAdd_def]
  rw [Ideal.hostReduceAdd_single hR' hR, constant_apply, Ideal.ofBits_zero_f32, zero_add]
  exact Finset.sum_congr rfl fun l _ => congrArg y (lift0 hR c l)

/-- An [a, 1, b] array cast to [a, b] reads, at (i, j), the operand at (i, 0, j). -/
theorem cast_a1b_ab {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h (ix2 i j) (ix3 i (0 : Fin 1) j) (by
    rw [Shape.rowMajor_val_three, Shape.rowMajor_val_two]
    show (i.val * 1 + 0) * b + j.val = i.val * b + j.val
    rw [Nat.mul_one, Nat.add_zero])

end BnRead

end
-- ==== Proof.KTail.lean ====
/-
  The host lines after the kernel, read at F := Ideal: from the kernel's two results — the weighted currents at the
  edges' places and the 25 rows of partial sums — and the edges' source and destination words, the seven results.

  The rows of partial sums are added over the 25 bands; lanes 0 … 8 of the total are the nine sums over all edges
  (a band's sum over its 2000 × 128 edges, added over the bands, is the sum over all edges).  The six terms are
  then scalar arithmetic on them, the node currents coming from the accumulating scatter.
-/
import proofs.«176581_j38010460570140_2_alg».proof.Proof.KTailSteps
import proofs.«176581_j38010460570140_2_alg».proof.Proof.KSpec
import proofs.«176581_j38010460570140_2_alg».proof.Proof.KRegroup
import proofs.«176581_j38010460570140_2_alg».proof.Proof.LossPack
import proofs.«176581_j38010460570140_2_alg».proof.Proof.LibColSum
import proofs.«176581_j38010460570140_2_alg».proof.Proof.LibVecScatter
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HV

open Idealize.ShloMosaic Idealize.ShloMosaic.TcCoe Idealize.SL.Sem Idealize.ShloMosaic.StableHlo
open Idealize.ShloMosaic.ValueIdx
open Cert.KernelIdeal Cert.KernelIdeal.Gen

variable (W : Valuation τ sig (Elt Ideal)) (A : LossSpec.Args)

/-- Lane k of the 128 totals, as a rank-0 array: the slice of one lane, its unit axis dropped. -/
theorem scalar_of_lane {α : Type} (v : S128.Idx → α) (k : Fin 128) (hs : S128.Slices ![k.val] S1) (hc : S1.ShapeCasts S_) :
    shapeCast S_ (extractStridedSlice S1 ![k.val] v hs) hc ix0 = v (ix1 k) := by
  rw [shapeCast_apply _ hc ix0 (ix1 (0 : Fin 1)) (by rw [Shape.rowMajor_val_one]; rfl)]
  refine extractStridedSlice_apply _ v hs _ _ fun a => ?_
  match a with
  | ⟨0, _⟩ => rfl

/-- The 25 rows of partial sums added up: lane k of the total is the sum over the bands of lane k. -/
theorem tail_v46 (h1 : W (Proc.devRef .tc main_v44_1) = KSpec.sums3 A) (k : Fin 128) :
    after (hostOps1 (F := Ideal)) W (Proc.devRef .tc main_v46) (ix1 k) = ∑ i : Fin 25, KSpec.lane A i k := by
  rw [t2 W, t0 W, t1 W, AfterStep.keep tWrites main_v44_1 (by decide) W, h1]
  refine (BnRead.colSum_host _ _ (by decide) _ k).trans ?_
  refine Finset.sum_congr rfl fun i _ => ?_
  exact BnRead.cast_a1b_ab _ _ i k

/-! ## The nine sums over all edges -/

theorem sum0 (h1 : W (Proc.devRef .tc main_v44_1) = KSpec.sums3 A) :
    after (hostOps1 (F := Ideal)) W (Proc.devRef .tc main_v48) ix0 = LossSpec.Sbce A := by
  rw [t4 W, t3 W]
  refine (scalar_of_lane _ (0 : Fin 128) _ _).trans ?_
  rw [tail_v46 W A h1]
  exact (Finset.sum_congr rfl fun i _ => (rfl : KSpec.lane A i (0 : Fin 128) = KSpec.bandSum (fun e => LossSpec.bce (A.lb (ix1 e)) (LossSpec.x A e)) i)).trans (KSpec.band_total (fun e => LossSpec.bce (A.lb (ix1 e)) (LossSpec.x A e)))

theorem sum2 (h1 : W (Proc.devRef .tc main_v44_1) = KSpec.sums3 A) :
    after (hostOps1 (F := Ideal)) W (Proc.devRef .tc main_v52) ix0 = LossSpec.Sp A := by
  rw [t8 W, t7 W]
  refine (scalar_of_lane _ (2 : Fin 128) _ _).trans ?_
  rw [tail_v46 W A h1]
  exact (Finset.sum_congr rfl fun i _ => (rfl : KSpec.lane A i (2 : Fin 128) = KSpec.bandSum (LossSpec.p A) i)).trans (KSpec.band_total (LossSpec.p A))

theorem sum3 (h1 : W (Proc.devRef .tc main_v44_1) = KSpec.sums3 A) :
    after (hostOps1 (F := Ideal)) W (Proc.devRef .tc main_v54) ix0 = ∑ e, LossSpec.R A e * LossSpec.p A e := by
  rw [t10 W, t9 W]
  refine (scalar_of_lane _ (3 : Fin 128) _ _).trans ?_
  rw [tail_v46 W A h1]
  exact (Finset.sum_congr rfl fun i _ => (rfl : KSpec.lane A i (3 : Fin 128) = KSpec.bandSum (fun e => LossSpec.R A e * LossSpec.p A e) i)).trans (KSpec.band_total (fun e => LossSpec.R A e * LossSpec.p A e))

theorem sum4 (h1 : W (Proc.devRef .tc main_v44_1) = KSpec.sums3 A) :
    after (hostOps1 (F := Ideal)) W (Proc.devRef .tc main_v56) ix0 = ∑ e, LossSpec.X A e * LossSpec.p A e := by
  rw [t12 W, t11 W]
  refine (scalar_of_lane _ (4 : Fin 128) _ _).trans ?_
  rw [tail_v46 W A h1]
  exact (Finset.sum_congr rfl fun i _ => (rfl : KSpec.lane A i (4 : Fin 128) = KSpec.bandSum (fun e => LossSpec.X A e * LossSpec.p A e) i)).trans (KSpec.band_total (fun e => LossSpec.X A e * LossSpec.p A e))

theorem sum5 (h1 : W (Proc.devRef .tc main_v44_1) = KSpec.sums3 A) :
    after (hostOps1 (F := Ideal)) W (Proc.devRef .tc main_v58) ix0 = ∑ e, (LossSpec.R A e * LossSpec.R A e) * LossSpec.p A e := by
  rw [t14 W, t13 W]
  refine (scalar_of_lane _ (5 : Fin 128) _ _).trans ?_
  rw [tail_v46 W A h1]
  exact (Finset.sum_congr rfl fun i _ => (rfl : KSpec.lane A i (5 : Fin 128) = KSpec.bandSum (fun e => (LossSpec.R A e * LossSpec.R A e) * LossSpec.p A e) i)).trans (KSpec.band_total (fun e => (LossSpec.R A e * LossSpec.R A e) * LossSpec.p A e))

theorem sum6 (h1 : W (Proc.devRef .tc main_v44_1) = KSpec.sums3 A) :
    after (hostOps1 (F := Ideal)) W (Proc.devRef .tc main_v60) ix0 = ∑ e, (LossSpec.X A e * LossSpec.X A e) * LossSpec.p A e := by
  rw [t16 W, t15 W]
  refine (scalar_of_lane _ (6 : Fin 128) _ _).trans ?_
  rw [tail_v46 W A h1]
  exact (Finset.sum_congr rfl fun i _ => (rfl : KSpec.lane A i (6 : Fin 128) = KSpec.bandSum (fun e => (LossSpec.X A e * LossSpec.X A e) * LossSpec.p A e) i)).trans (KSpec.band_total (fun e => (LossSpec.X A e * LossSpec.X A e) * LossSpec.p A e))

theorem sum7 (h1 : W (Proc.devRef .tc main_v44_1) = KSpec.sums3 A) :
    after (hostOps1 (F := Ideal)) W (Proc.devRef .tc main_v62) ix0 = ∑ e, LossSpec.vd A e := by
  rw [t18 W, t17 W]
  refine (scalar_of_lane _ (7 : Fin 128) _ _).trans ?_
  rw [tail_v46 W A h1]
  exact (Finset.sum_congr rfl fun i _ => (rfl : KSpec.lane A i (7 : Fin 128) = KSpec.bandSum (LossSpec.vd A) i)).trans (KSpec.band_total (LossSpec.vd A))

theorem sum8 (h1 : W (Proc.devRef .tc main_v44_1) = KSpec.sums3 A) :
    after (hostOps1 (F := Ideal)) W (Proc.devRef .tc main_v64) ix0 = ∑ e, LossSpec.vd A e * LossSpec.vd A e := by
  rw [t20 W, t19 W]
  refine (scalar_of_lane _ (8 : Fin 128) _ _).trans ?_
  rw [tail_v46 W A h1]
  exact (Finset.sum_congr rfl fun i _ => (rfl : KSpec.lane A i (8 : Fin 128) = KSpec.bandSum (fun e => LossSpec.vd A e * LossSpec.vd A e) i)).trans (KSpec.band_total (fun e => LossSpec.vd A e * LossSpec.vd A e))

theorem sum1 (h1 : W (Proc.devRef .tc main_v44_1) = KSpec.sums3 A) :
    after (hostOps1 (F := Ideal)) W (Proc.devRef .tc main_v50) ix0 = LossSpec.Ssq A := by
  rw [t6 W, t5 W]
  refine (scalar_of_lane _ (1 : Fin 128) _ _).trans ?_
  rw [tail_v46 W A h1]
  exact (Finset.sum_congr rfl fun i _ => (rfl : KSpec.lane A i (1 : Fin 128) = KSpec.bandSq A i)).trans (KSpec.bandSq_total A)

end Cert.KernelIdeal.HV

end
-- ==== Proof.KTail1.lean ====
/-
  The topology, parameter and KCL terms from the sums, as the host lines after the kernel compute them.
-/
import proofs.«176581_j38010460570140_2_alg».proof.Proof.KTail

set_option maxRecDepth 16384

noncomputable section

open scoped BigOperators

namespace Cert.KernelIdeal.HV

open Idealize.ShloMosaic Idealize.ShloMosaic.TcCoe Idealize.SL.Sem Idealize.ShloMosaic.StableHlo
open Idealize.ShloMosaic.ValueIdx
open Cert.KernelIdeal Cert.KernelIdeal.Gen

variable (W : Valuation τ sig (Elt Ideal)) (A : LossSpec.Args)

/-! ## The six terms -/

theorem hdivf_apply (a b : S_.Idx → EReal) (i : S_.Idx) :
    (Host.divf (F := Ideal) (φ := .f32) a b) i = Ideal.div (a i) (b i) := rfl

theorem cst_apply (b : BitVec 32) (i : S_.Idx) : constant (F := Ideal) S_ .f32 b i = LossSpec.lit b := rfl

/-- A host sum of a vector of 200000 from zero, as a sum over the nodes. -/
theorem total_nodes (y : S200000.Idx → EReal) (hR : S200000.ReducesTo [0] S_) (hu : 0 < S_.numel) :
    Host.reduceAdd y (constant (F := Ideal) S_ .f32 0x00000000#32) hR hu ix0 = ∑ n : Fin 200000, y (ix1 n) := by
  simp only [Host.reduceAdd, Ideal.hostReduceAdd_def]
  rw [Ideal.hostReduceAdd_total hR (fun b => b.elim0), constant_apply, Ideal.ofBits_zero_f32, zero_add]
  exact ((VecScatter.idxEquiv1 (k := 200000)).symm.sum_comp y).symm

/-- The host sum of the squares of a vector of 200000 whose entries are known. -/
theorem node_sum (v : S200000.Idx → EReal) (f : Fin 200000 → EReal) (hv : ∀ n, v (ix1 n) = f n)
    (hR : S200000.ReducesTo [0] S_) (hu : 0 < S_.numel) :
    Host.reduceAdd (mulf (F := Ideal) (φ := .f32) v v) (constant (F := Ideal) S_ .f32 0x00000000#32) hR hu ix0
      = ∑ n, f n * f n := by
  rw [total_nodes]
  exact Finset.sum_congr rfl fun n _ => by rw [mulf_apply, hv n]

theorem term_t (h1 : W (Proc.devRef .tc main_v44_1) = KSpec.sums3 A) :
    after (hostOps1 (F := Ideal)) W (Proc.devRef .tc main_v66) ix0 = LossSpec.mean1 (LossSpec.Sbce A) LossSpec.cE := by
  simp only [t24 W, t23 W, t22 W, t21 W]
  simp only [mulf_apply, hdivf_apply, cst_apply, sum0 W A h1]
  unfold LossSpec.mean1
  with_reducible rfl

theorem term_q (h1 : W (Proc.devRef .tc main_v44_1) = KSpec.sums3 A) :
    after (hostOps1 (F := Ideal)) W (Proc.devRef .tc main_v68) ix0 = LossSpec.mean1 (LossSpec.Ssq A) LossSpec.c2E := by
  simp only [t28 W, t27 W, t26 W, t25 W]
  simp only [mulf_apply, hdivf_apply, cst_apply, sum1 W A h1]
  unfold LossSpec.mean1
  with_reducible rfl

theorem term_k (h75 : ∀ n : Fin 200000, after (hostOps1 (F := Ideal)) W (Proc.devRef .tc main_v75) (ix1 n) = LossSpec.nodeK A n) :
    after (hostOps1 (F := Ideal)) W (Proc.devRef .tc main_v79) ix0
      = LossSpec.kcl (∑ n, LossSpec.nodeK A n * LossSpec.nodeK A n) := by
  simp only [t43 W, t42 W, t41 W, t40 W, t39 W, t38 W, t37 W]
  rw [mulf_apply, hdivf_apply, cst_apply, cst_apply, node_sum _ _ h75]
  unfold LossSpec.kcl
  with_reducible rfl

end Cert.KernelIdeal.HV

end
-- ==== Proof.KTail2.lean ====
/-
  The KVL, radial and sparsity terms from the nine sums, as the host lines after the kernel compute them.
-/
import proofs.«176581_j38010460570140_2_alg».proof.Proof.KTail1

set_option maxRecDepth 16384

noncomputable section

open scoped BigOperators

namespace Cert.KernelIdeal.HV

open Idealize.ShloMosaic Idealize.ShloMosaic.TcCoe Idealize.SL.Sem Idealize.ShloMosaic.StableHlo
open Idealize.ShloMosaic.ValueIdx
open Cert.KernelIdeal Cert.KernelIdeal.Gen

variable (W : Valuation τ sig (Elt Ideal)) (A : LossSpec.Args)

theorem term_v (h1 : W (Proc.devRef .tc main_v44_1) = KSpec.sums3 A) :
    after (hostOps1 (F := Ideal)) W (Proc.devRef .tc main_v103) ix0 = LossSpec.kvl (LossSpec.pcK A) (LossSpec.vcK A) := by
  simp only [t75 W, t74 W, t73 W, t64 W, t63 W, t62 W, t54 W, t61 W, t51 W, t53 W, t50 W, t52 W, t49 W, t48 W, t46 W,
    t58 W, t60 W, t57 W, t59 W, t56 W, t55 W, t47 W, t45 W, t44 W, t72 W, t71 W, t70 W, t69 W, t68 W, t67 W, t66 W, t65 W]
  simp only [mulf_apply, addf_apply, subf_apply, hdivf_apply, cst_apply, sum2 W A h1, sum3 W A h1, sum4 W A h1,
    sum5 W A h1, sum6 W A h1, sum7 W A h1, sum8 W A h1]
  unfold LossSpec.kvl LossSpec.pcK LossSpec.vcK LossSpec.momVar
  with_reducible rfl

theorem term_r (h1 : W (Proc.devRef .tc main_v44_1) = KSpec.sums3 A) :
    after (hostOps1 (F := Ideal)) W (Proc.devRef .tc main_v110) ix0 = LossSpec.radial (LossSpec.Sp A) := by
  simp only [t87 W, t86 W, t85 W, t82 W, t81 W, t80 W, t79 W, t78 W, t84 W, t83 W, t77 W, t76 W]
  simp only [mulf_apply, addf_apply, subf_apply, hdivf_apply, cst_apply, sum2 W A h1]
  unfold LossSpec.radial
  with_reducible rfl

theorem term_s (h1 : W (Proc.devRef .tc main_v44_1) = KSpec.sums3 A) :
    after (hostOps1 (F := Ideal)) W (Proc.devRef .tc main_v111) ix0 = LossSpec.sparsity (LossSpec.Sp A) := by
  simp only [t89 W, t88 W, t77 W, t76 W]
  simp only [mulf_apply, hdivf_apply, cst_apply, sum2 W A h1]
  unfold LossSpec.sparsity
  with_reducible rfl

end Cert.KernelIdeal.HV

end
-- ==== Proof.KTail3.lean ====
/-
  The seven results: the six terms and their sum, laid end to end.
-/
import proofs.«176581_j38010460570140_2_alg».proof.Proof.KTail2

set_option maxRecDepth 16384

noncomputable section

open scoped BigOperators

namespace Cert.KernelIdeal.HV

open Idealize.ShloMosaic Idealize.ShloMosaic.TcCoe Idealize.SL.Sem Idealize.ShloMosaic.StableHlo
open Idealize.ShloMosaic.ValueIdx
open Cert.KernelIdeal Cert.KernelIdeal.Gen

variable (W : Valuation τ sig (Elt Ideal)) (A : LossSpec.Args)

/-- A rank-0 array stretched to one entry. -/
theorem one_of_scalar (u : S_.Idx → EReal) (hb : S_.BroadcastsInDim S1 ![]) :
    broadcastInDim S1 ![] hb u (ix1 (0 : Fin 1)) = u ix0 :=
  broadcastInDim_apply _ hb u _ ix0 fun a => a.elim0

/-- Piece k of seven one-entry arrays laid end to end is entry k. -/
theorem seven_piece (xs : List ((s : Shape) × (s.Idx → EReal))) (h : Shape.Concatenates (xs.map (·.1)) S7 0)
    (k : Nat) (hk7 : k < 7) (hk : k < xs.length) (uk : S1.Idx → EReal) (hxk : xs[k] = ⟨S1, uk⟩)
    (hpre : (((xs.take k).map (·.1)).map fun s => if h : s.rank = S7.rank then s.size ((0 : Fin S7.rank).cast h.symm) else 0).sum = k) :
    concatenate S7 0 xs h (ix1 (⟨k, hk7⟩ : Fin 7)) = uk (ix1 (0 : Fin 1)) := by
  refine concatenate_apply_piece (t := S7) (0 : Fin S7.rank) xs h (ix1 (⟨k, hk7⟩ : Fin 7)) k hk S1 uk hxk rfl k hpre
    (ix1 (0 : Fin 1)) (fun b hb => ?_) rfl
  exact absurd (Fin.ext (by have h1 : b.val < 1 := b.isLt; show b.val = 0; omega)) hb

/-- Seven one-entry arrays laid end to end, read at entry q. -/
theorem seven_concat (u0 u1 u2 u3 u4 u5 u6 : S1.Idx → EReal)
    (h : Shape.Concatenates [S1, S1, S1, S1, S1, S1, S1] S7 0) (q : Fin 7) :
    concatenate S7 0 [⟨S1, u0⟩, ⟨S1, u1⟩, ⟨S1, u2⟩, ⟨S1, u3⟩, ⟨S1, u4⟩, ⟨S1, u5⟩, ⟨S1, u6⟩] h (ix1 q)
      = ![u0 (ix1 0), u1 (ix1 0), u2 (ix1 0), u3 (ix1 0), u4 (ix1 0), u5 (ix1 0), u6 (ix1 0)] q := by
  match q with
  | ⟨0, _⟩ => exact seven_piece [⟨S1, u0⟩, ⟨S1, u1⟩, ⟨S1, u2⟩, ⟨S1, u3⟩, ⟨S1, u4⟩, ⟨S1, u5⟩, ⟨S1, u6⟩] h 0 _ (by show 0 < 7; omega) u0 rfl rfl
  | ⟨1, _⟩ => exact seven_piece [⟨S1, u0⟩, ⟨S1, u1⟩, ⟨S1, u2⟩, ⟨S1, u3⟩, ⟨S1, u4⟩, ⟨S1, u5⟩, ⟨S1, u6⟩] h 1 _ (by show 1 < 7; omega) u1 rfl rfl
  | ⟨2, _⟩ => exact seven_piece [⟨S1, u0⟩, ⟨S1, u1⟩, ⟨S1, u2⟩, ⟨S1, u3⟩, ⟨S1, u4⟩, ⟨S1, u5⟩, ⟨S1, u6⟩] h 2 _ (by show 2 < 7; omega) u2 rfl rfl
  | ⟨3, _⟩ => exact seven_piece [⟨S1, u0⟩, ⟨S1, u1⟩, ⟨S1, u2⟩, ⟨S1, u3⟩, ⟨S1, u4⟩, ⟨S1, u5⟩, ⟨S1, u6⟩] h 3 _ (by show 3 < 7; omega) u3 rfl rfl
  | ⟨4, _⟩ => exact seven_piece [⟨S1, u0⟩, ⟨S1, u1⟩, ⟨S1, u2⟩, ⟨S1, u3⟩, ⟨S1, u4⟩, ⟨S1, u5⟩, ⟨S1, u6⟩] h 4 _ (by show 4 < 7; omega) u4 rfl rfl
  | ⟨5, _⟩ => exact seven_piece [⟨S1, u0⟩, ⟨S1, u1⟩, ⟨S1, u2⟩, ⟨S1, u3⟩, ⟨S1, u4⟩, ⟨S1, u5⟩, ⟨S1, u6⟩] h 5 _ (by show 5 < 7; omega) u5 rfl rfl
  | ⟨6, _⟩ => exact seven_piece [⟨S1, u0⟩, ⟨S1, u1⟩, ⟨S1, u2⟩, ⟨S1, u3⟩, ⟨S1, u4⟩, ⟨S1, u5⟩, ⟨S1, u6⟩] h 6 _ (by show 6 < 7; omega) u6 rfl rfl

/-- The sum of the six terms. -/
theorem term_total (h1 : W (Proc.devRef .tc main_v44_1) = KSpec.sums3 A)
    (h75 : ∀ n : Fin 200000, after (hostOps1 (F := Ideal)) W (Proc.devRef .tc main_v75) (ix1 n) = LossSpec.nodeK A n) :
    after (hostOps1 (F := Ideal)) W (Proc.devRef .tc main_v116) ix0
      = LossSpec.total (LossSpec.mean1 (LossSpec.Sbce A) LossSpec.cE) (LossSpec.mean1 (LossSpec.Ssq A) LossSpec.c2E)
          (LossSpec.kcl (∑ n, LossSpec.nodeK A n * LossSpec.nodeK A n)) (LossSpec.kvl (LossSpec.pcK A) (LossSpec.vcK A))
          (LossSpec.radial (LossSpec.Sp A)) (LossSpec.sparsity (LossSpec.Sp A)) := by
  simp only [t94 W, t93 W, t92 W, t91 W, t90 W]
  simp only [addf_apply, term_t W A h1, term_q W A h1, term_k W A h75, term_v W A h1, term_r W A h1, term_s W A h1]
  unfold LossSpec.total
  with_reducible rfl

/-- The seven one-entry arrays, each holding one result. -/
theorem ent0 (h1 : W (Proc.devRef .tc main_v44_1) = KSpec.sums3 A) :
    after (hostOps1 (F := Ideal)) W (Proc.devRef .tc main_v117) (ix1 (0 : Fin 1))
      = LossSpec.mean1 (LossSpec.Sbce A) LossSpec.cE := by
  rw [t95 W, one_of_scalar, term_t W A h1]
theorem ent1 (h1 : W (Proc.devRef .tc main_v44_1) = KSpec.sums3 A) :
    after (hostOps1 (F := Ideal)) W (Proc.devRef .tc main_v118) (ix1 (0 : Fin 1))
      = LossSpec.mean1 (LossSpec.Ssq A) LossSpec.c2E := by
  rw [t96 W, one_of_scalar, term_q W A h1]
theorem ent2 (h75 : ∀ n : Fin 200000, after (hostOps1 (F := Ideal)) W (Proc.devRef .tc main_v75) (ix1 n) = LossSpec.nodeK A n) :
    after (hostOps1 (F := Ideal)) W (Proc.devRef .tc main_v119) (ix1 (0 : Fin 1))
      = LossSpec.kcl (∑ n, LossSpec.nodeK A n * LossSpec.nodeK A n) := by
  rw [t97 W, one_of_scalar, term_k W A h75]
theorem ent3 (h1 : W (Proc.devRef .tc main_v44_1) = KSpec.sums3 A) :
    after (hostOps1 (F := Ideal)) W (Proc.devRef .tc main_v120) (ix1 (0 : Fin 1))
      = LossSpec.kvl (LossSpec.pcK A) (LossSpec.vcK A) := by
  rw [t98 W, one_of_scalar, term_v W A h1]
theorem ent4 (h1 : W (Proc.devRef .tc main_v44_1) = KSpec.sums3 A) :
    after (hostOps1 (F := Ideal)) W (Proc.devRef .tc main_v121) (ix1 (0 : Fin 1)) = LossSpec.radial (LossSpec.Sp A) := by
  rw [t99 W, one_of_scalar, term_r W A h1]
theorem ent5 (h1 : W (Proc.devRef .tc main_v44_1) = KSpec.sums3 A) :
    after (hostOps1 (F := Ideal)) W (Proc.devRef .tc main_v122) (ix1 (0 : Fin 1)) = LossSpec.sparsity (LossSpec.Sp A) := by
  rw [t100 W, one_of_scalar, term_s W A h1]
theorem ent6 (h1 : W (Proc.devRef .tc main_v44_1) = KSpec.sums3 A)
    (h75 : ∀ n : Fin 200000, after (hostOps1 (F := Ideal)) W (Proc.devRef .tc main_v75) (ix1 n) = LossSpec.nodeK A n) :
    after (hostOps1 (F := Ideal)) W (Proc.devRef .tc main_v123) (ix1 (0 : Fin 1))
      = LossSpec.total (LossSpec.mean1 (LossSpec.Sbce A) LossSpec.cE) (LossSpec.mean1 (LossSpec.Ssq A) LossSpec.c2E)
          (LossSpec.kcl (∑ n, LossSpec.nodeK A n * LossSpec.nodeK A n)) (LossSpec.kvl (LossSpec.pcK A) (LossSpec.vcK A))
          (LossSpec.radial (LossSpec.Sp A)) (LossSpec.sparsity (LossSpec.Sp A)) := by
  rw [t101 W, one_of_scalar, term_total W A h1 h75]

/-- Entry q of the result array is the q-th result. -/
theorem tail_entry (h1 : W (Proc.devRef .tc main_v44_1) = KSpec.sums3 A)
    (h75 : ∀ n : Fin 200000, after (hostOps1 (F := Ideal)) W (Proc.devRef .tc main_v75) (ix1 n) = LossSpec.nodeK A n)
    (q : Fin 7) :
    after (hostOps1 (F := Ideal)) W (Proc.devRef .tc main_v124) (ix1 q) = LossSpec.formK A q := by
  rw [t102 W]
  refine (seven_concat _ _ _ _ _ _ _ _ q).trans ?_
  dsimp only [Matrix.cons_val]
  rw [ent0 W A h1, ent1 W A h1, ent2 W A h75, ent3 W A h1, ent4 W A h1, ent5 W A h1, ent6 W A h1 h75]
  unfold LossSpec.formK LossSpec.seven
  with_reducible rfl

/-- THE HOST LINES AFTER THE KERNEL: from the kernel's two results and the edges' words, the seven results. -/
theorem tail_value (h1 : W (Proc.devRef .tc main_v44_1) = KSpec.sums3 A)
    (h75 : ∀ n : Fin 200000, after (hostOps1 (F := Ideal)) W (Proc.devRef .tc main_v75) (ix1 n) = LossSpec.nodeK A n) :
    after (hostOps1 (F := Ideal)) W (Proc.devRef .tc main_v124) = LossSpec.pack7 (LossSpec.formK A) := by
  funext j
  rw [eq_ix1 j]
  exact tail_entry W A h1 h75 (j 0)

end Cert.KernelIdeal.HV

end
-- ==== Proof.KValue.lean ====
/-
  The kernel program's run with its result named: the seven results are the loss formula through moments, of the six
  argument arrays as launched, provided the kernel's two result arrays are the weighted currents and the bands' rows of
  partial sums.
-/
import proofs.«176581_j38010460570140_2_alg».proof.Proof.KiFrame
import proofs.«176581_j38010460570140_2_alg».proof.Proof.KPrefix
import proofs.«176581_j38010460570140_2_alg».proof.Proof.KTailScatter
import proofs.«176581_j38010460570140_2_alg».proof.Proof.KTail3

set_option maxRecDepth 16384

noncomputable section

namespace Cert.KernelIdeal.HV

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ)

/-- The six argument arrays as launched on core c. -/
def argsK (c : Dev nD) : LossSpec.Args := argsOfU (fun b => m (c, b))

/-- A list of one list, flattened. -/
theorem flat1 {α : Type*} (l : List α) : List.flatten [l] = l := by
  simp only [List.flatten_cons, List.flatten_nil, List.append_nil]

/-- What the region finds in a buffer is what the host lines before it leave there. -/
theorem V_eq (c : Dev nD) (b : Ref sig .tc) :
    HF.V m c b = after (hostOps0 (F := Ideal)) (fun b => m (c, b)) (Proc.devRef .tc b) := by
  unfold HF.V HF.V0
  rw [flat1]

theorem V_v36 (c : Dev nD) : (HF.V m c main_v36 : S50000x128.Idx → EReal) = KSpec.lg2 (argsK m c) :=
  (V_eq m c main_v36).trans (pre_v36 _)
theorem V_v37 (c : Dev nD) : (HF.V m c main_v37 : S50000x128.Idx → EReal) = KSpec.lb2 (argsK m c) :=
  (V_eq m c main_v37).trans (pre_v37 _)
theorem V_v38 (c : Dev nD) : (HF.V m c main_v38 : S50000x128.Idx → EReal) = KSpec.R2 (argsK m c) :=
  (V_eq m c main_v38).trans (pre_v38 _)
theorem V_v39 (c : Dev nD) : (HF.V m c main_v39 : S50000x128.Idx → EReal) = KSpec.X2 (argsK m c) :=
  (V_eq m c main_v39).trans (pre_v39 _)
theorem V_v40 (c : Dev nD) : (HF.V m c main_v40 : S50000x128.Idx → EReal) = KSpec.da2 (argsK m c) :=
  (V_eq m c main_v40).trans (pre_v40 _)
theorem V_v41 (c : Dev nD) : (HF.V m c main_v41 : S50000x128.Idx → EReal) = KSpec.db2 (argsK m c) :=
  (V_eq m c main_v41).trans (pre_v41 _)
theorem V_v42 (c : Dev nD) : (HF.V m c main_v42 : S50000x256.Idx → EReal) = KSpec.ep2 (argsK m c) :=
  (V_eq m c main_v42).trans (pre_v42 _)
theorem V_v43 (c : Dev nD) : (HF.V m c main_v43 : S50000x256.Idx → EReal) = KSpec.tp2 (argsK m c) :=
  (V_eq m c main_v43).trans (pre_v43 _)

/-- The buffers as the kernel leaves them on core c: its arrays at what the proof data compute, every other buffer as
    the region found it. -/
def Wk (c : Dev nD) : Valuation τ sig (Elt Ideal) :=
  Pipeline.withArrays (cfgs 0).spec c (HF.V0 m c) fun w => (HF.dats m 0 c).arrAt w (cfgs 0).N

theorem afterTail_eq (c : Dev nD) (b : Ref sig .tc) :
    Pipeline.afterTail₀ cfgs (HF.dats m) 0 (HF.V0 m) [hostOps1] c b
      = after (hostOps1 (F := Ideal)) (Wk m c) (Proc.devRef .tc b) := by
  unfold Pipeline.afterTail₀ Wk
  rw [flat1]

theorem Wk_v44_0 (c : Dev nD) (hf8 : (HF.dats m 0 c).arrAt 8 cfg0.N = KSpec.curp2 (argsK m c)) :
    Wk m c (Proc.devRef .tc main_v44_0) = KSpec.curp2 (argsK m c) :=
  (Pipeline.withArrays_arr spec0 launch0.win.arr_inj c _ _ 8).trans hf8

theorem Wk_v44_1 (c : Dev nD) (hf9 : (HF.dats m 0 c).arrAt 9 cfg0.N = KSpec.sums3 (argsK m c)) :
    Wk m c (Proc.devRef .tc main_v44_1) = KSpec.sums3 (argsK m c) :=
  (Pipeline.withArrays_arr spec0 launch0.win.arr_inj c _ _ 9).trans hf9

theorem Wk_v1 (c : Dev nD) : Wk m c (Proc.devRef .tc main_v1) = KSpec.srcArr (argsK m c) := by
  unfold Wk
  rw [Pipeline.withArrays_of_ne _ c (HF.V0 m c) _ main_v1 (by exact (by decide : ∀ w, Pipeline.arrRef spec0 w ≠ main_v1))]
  exact (V_eq m c main_v1).trans (pre_v1 _)

theorem Wk_v3 (c : Dev nD) : Wk m c (Proc.devRef .tc main_v3) = KSpec.dstArr (argsK m c) := by
  unfold Wk
  rw [Pipeline.withArrays_of_ne _ c (HF.V0 m c) _ main_v3 (by exact (by decide : ∀ w, Pipeline.arrRef spec0 w ≠ main_v3))]
  exact (V_eq m c main_v3).trans (pre_v3 _)

/-- THE KERNEL PROGRAM'S RESULT on core c, from the kernel's two result arrays. -/
theorem kernel_value (c : Dev nD) (hf8 : (HF.dats m 0 c).arrAt 8 cfg0.N = KSpec.curp2 (argsK m c))
    (hf9 : (HF.dats m 0 c).arrAt 9 cfg0.N = KSpec.sums3 (argsK m c)) :
    Pipeline.afterTail₀ cfgs (HF.dats m) 0 (HF.V0 m) [hostOps1] c main_v124
      = LossSpec.pack7 (LossSpec.formK (argsK m c)) := by
  rw [afterTail_eq]
  exact tail_value (Wk m c) (argsK m c) (Wk_v44_1 m c hf9)
    (fun n => tail_v75 (Wk m c) (argsK m c) (Wk_v44_0 m c hf8) (Wk_v1 m c) (Wk_v3 m c) n)

/-- THE KERNEL PROGRAM'S RUN: it terminates with the seven results in its result buffer and the argument arrays as
    launched. -/
theorem kernel_run (ρ : Dev nD → PrngReg)
    (hf8 : ∀ c, (HF.dats m 0 c).arrAt 8 cfg0.N = KSpec.curp2 (argsK m c))
    (hf9 : ∀ c, (HF.dats m 0 c).arrAt 9 cfg0.N = KSpec.sums3 (argsK m c)) :
    θ_run defs (onTc (τ := τ) (main (F := Ideal))) ⟨m, fun _ => 0, ρ⟩ (fun r => ∀ c : Dev nD,
      r.2.mem ((c.tc : Thread nD τ).loc main_v124) = LossSpec.pack7 (LossSpec.formK (argsK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v124 (Pipeline.mem_restRefs_of main_v124 (by decide) (by decide))).trans (kernel_value m c (hf8 c) (hf9 c)),
      ((h c).2 main_arg0 (Pipeline.mem_restRefs_of main_arg0 (by decide) (by decide))).trans (HF.W_arg0 m c),
      ((h c).2 main_arg1 (Pipeline.mem_restRefs_of main_arg1 (by decide) (by decide))).trans (HF.W_arg1 m c),
      ((h c).2 main_arg2 (Pipeline.mem_restRefs_of main_arg2 (by decide) (by decide))).trans (HF.W_arg2 m c),
      ((h c).2 main_arg3 (Pipeline.mem_restRefs_of main_arg3 (by decide) (by decide))).trans (HF.W_arg3 m c),
      ((h c).2 main_arg4 (Pipeline.mem_restRefs_of main_arg4 (by decide) (by decide))).trans (HF.W_arg4 m c),
      ((h c).2 main_arg5 (Pipeline.mem_restRefs_of main_arg5 (by decide) (by decide))).trans (HF.W_arg5 m c)⟩)
    (HF.run_main m ρ)

end Cert.KernelIdeal.HV

end
-- ==== Proof.RefRunBase.lean ====
/- What the reference's run is assembled from, besides the library's: the fold of a line of operations over a
   concatenation, and the fact kept of each operation for the frame — it writes one buffer, and that buffer is none of the
   program's six arguments (the first six references of the signature). -/
import proofs.«176581_j38010460570140_2_alg».proof.Proof.Gen.ReferenceIdeal
import Idealize.ShloMosaic.Lib.StableHlo.Run
import Idealize.ShloMosaic.Lib.Pipeline.Regions

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second's fold over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- An operation that writes none of the six argument buffers (the references of index below six). -/
def KeepsArgs (op : HloOp τ sig (Elt F)) : Prop :=
  ∀ r : Ref sig .tc, r.idx.val < 6 → (Proc.devRef (τ := τ) .tc r) ∉ op.writes

/-- An operation whose one written buffer has index six or more keeps the arguments: distinct references are
    distinct device buffers. -/
theorem keepsArgs {op : HloOp τ sig (Elt F)} (y : Ref sig .tc) (hw : op.writes = {Proc.devRef .tc y})
    (hy : 6 ≤ y.idx.val) : KeepsArgs op := by
  intro r hr hmem
  rw [hw, Finset.mem_singleton] at hmem
  have h := Proc.devRef_injective _ hmem
  subst h
  omega

end Cert.ReferenceIdeal.HRun

end
-- ==== Proof.RefRun0.lean ====
/- The operations of window 0 of the reference's @main (its statements in order, each module-local function's body
   written out at its call over that call's buffers), and what the run and the frame need of them: every operation
   touches TensorCore references only, determines its result, and writes a buffer that is no argument. -/
import proofs.«176581_j38010460570140_2_alg».proof.Proof.RefRunBase

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 0: 90 operations, in order. -/
abbrev ops0 : List (HloOp τ sig (Elt F)) :=
  ( StableHlo.unary main_arg5 main_v0 ((extractStridedSlice S1x6400000 ![0, 0] · slices_S2x6400000_S1x6400000_0_0) : (⟨S2x6400000, .i32⟩ : BufTy).Contents (Elt F) → (⟨S1x6400000, .i32⟩ : BufTy).Contents (Elt F))
  :: StableHlo.reshape main_v0 main_v1 rfl shapeCasts_S1x6400000_S6400000
  :: StableHlo.unary main_arg5 main_v2 ((extractStridedSlice S1x6400000 ![1, 0] · slices_S2x6400000_S1x6400000_1_0) : (⟨S2x6400000, .i32⟩ : BufTy).Contents (Elt F) → (⟨S1x6400000, .i32⟩ : BufTy).Contents (Elt F))
  :: StableHlo.reshape main_v2 main_v3 rfl shapeCasts_S1x6400000_S6400000
  :: StableHlo.unary main_arg1 main_v4 (Host.negf : (⟨S6400000, .f32⟩ : BufTy).Contents (Elt F) → (⟨S6400000, .f32⟩ : BufTy).Contents (Elt F))
  :: StableHlo.unary main_v4 main_v5 (Host.exp : (⟨S6400000, .f32⟩ : BufTy).Contents (Elt F) → (⟨S6400000, .f32⟩ : BufTy).Contents (Elt F))
  :: StableHlo.nullary main_cst (constant S_ .f32 0x3F800000#32)
  :: StableHlo.unary main_cst main_v6 (broadcastInDim S6400000 ![] bcast_S_S6400000 : (⟨S_, .f32⟩ : BufTy).Contents (Elt F) → (⟨S6400000, .f32⟩ : BufTy).Contents (Elt F))
  :: StableHlo.binary main_v6 main_v5 main_v7 (addf : (⟨S6400000, .f32⟩ : BufTy).Contents (Elt F) → (⟨S6400000, .f32⟩ : BufTy).Contents (Elt F) → (⟨S6400000, .f32⟩ : BufTy).Contents (Elt F))
  :: StableHlo.nullary main_cst_0 (constant S_ .f32 0x3F800000#32)
  :: StableHlo.unary main_cst_0 main_v8 (broadcastInDim S6400000 ![] bcast_S_S6400000 : (⟨S_, .f32⟩ : BufTy).Contents (Elt F) → (⟨S6400000, .f32⟩ : BufTy).Contents (Elt F))
  :: StableHlo.binary main_v8 main_v7 main_v9 (Host.divf : (⟨S6400000, .f32⟩ : BufTy).Contents (Elt F) → (⟨S6400000, .f32⟩ : BufTy).Contents (Elt F) → (⟨S6400000, .f32⟩ : BufTy).Contents (Elt F))
  :: StableHlo.unary main_arg2 main_v10 ((extractStridedSlice S6400000x1 ![0, 0] · slices_S6400000x2_S6400000x1_0_0) : (⟨S6400000x2, .f32⟩ : BufTy).Contents (Elt F) → (⟨S6400000x1, .f32⟩ : BufTy).Contents (Elt F))
  :: StableHlo.reshape main_v10 main_v11 rfl shapeCasts_S6400000x1_S6400000
  :: StableHlo.unary main_arg2 main_v12 ((extractStridedSlice S6400000x1 ![0, 1] · slices_S6400000x2_S6400000x1_0_1) : (⟨S6400000x2, .f32⟩ : BufTy).Contents (Elt F) → (⟨S6400000x1, .f32⟩ : BufTy).Contents (Elt F))
  :: StableHlo.reshape main_v12 main_v13 rfl shapeCasts_S6400000x1_S6400000
  :: StableHlo.TRef.unary (.of main_arg1 : StableHlo.TRef sig ⟨S6400000, .f32⟩) main_call0.v0 Host.negf
  :: StableHlo.TRef.nullary main_call0.call0.cst (constant S_ .f32 0x00000000#32)
  :: StableHlo.TRef.unary main_call0.call0.cst main_call0.call0.v0 (broadcastInDim S6400000 ![] bcast_S_S6400000)
  :: StableHlo.TRef.binary main_call0.v0 main_call0.call0.v0 main_call0.call0.v1 maximumf
  :: StableHlo.TRef.unary main_call0.call0.cst main_call0.call0.v2 (broadcastInDim S6400000 ![] bcast_S_S6400000)
  :: StableHlo.TRef.binary main_call0.v0 main_call0.call0.v2 main_call0.call0.v3 subf
  :: StableHlo.TRef.binary main_call0.call0.v3 main_call0.call0.v3 main_call0.call0.v4 (cmpf .une)
  :: StableHlo.TRef.unary main_call0.call0.cst main_call0.call0.v5 (broadcastInDim S6400000 ![] bcast_S_S6400000)
  :: StableHlo.TRef.binary main_call0.v0 main_call0.call0.v5 main_call0.call0.v6 addf
  :: StableHlo.TRef.unary main_call0.call0.v3 main_call0.call0.v7 Host.absf
  :: StableHlo.TRef.unary main_call0.call0.v7 main_call0.call0.v8 Host.negf
  :: StableHlo.TRef.unary main_call0.call0.v8 main_call0.call0.v9 Host.exp
  :: StableHlo.TRef.unary main_call0.call0.v9 main_call0.call0.v10 Host.log1p
  :: StableHlo.TRef.binary main_call0.call0.v1 main_call0.call0.v10 main_call0.call0.v11 addf
  :: StableHlo.TRef.ternary main_call0.call0.v4 main_call0.call0.v6 main_call0.call0.v11 main_call0.call0.v12 select
  :: StableHlo.TRef.unary main_call0.call0.v12 main_call0.v2 Host.negf
  :: StableHlo.binary main_arg3 main_v14 main_v15 (mulf : (⟨S6400000, .f32⟩ : BufTy).Contents (Elt F) → (⟨S6400000, .f32⟩ : BufTy).Contents (Elt F) → (⟨S6400000, .f32⟩ : BufTy).Contents (Elt F))
  :: StableHlo.nullary main_cst_1 (constant S_ .f32 0x3F800000#32)
  :: StableHlo.unary main_cst_1 main_v16 (broadcastInDim S6400000 ![] bcast_S_S6400000 : (⟨S_, .f32⟩ : BufTy).Contents (Elt F) → (⟨S6400000, .f32⟩ : BufTy).Contents (Elt F))
  :: StableHlo.binary main_v16 main_arg3 main_v17 (subf : (⟨S6400000, .f32⟩ : BufTy).Contents (Elt F) → (⟨S6400000, .f32⟩ : BufTy).Contents (Elt F) → (⟨S6400000, .f32⟩ : BufTy).Contents (Elt F))
  :: StableHlo.unary main_arg1 main_v18 (Host.negf : (⟨S6400000, .f32⟩ : BufTy).Contents (Elt F) → (⟨S6400000, .f32⟩ : BufTy).Contents (Elt F))
  :: StableHlo.TRef.unary (.of main_v18 : StableHlo.TRef sig ⟨S6400000, .f32⟩) main_call1.v0 Host.negf
  :: StableHlo.TRef.nullary main_call1.call0.cst (constant S_ .f32 0x00000000#32)
  :: StableHlo.TRef.unary main_call1.call0.cst main_call1.call0.v0 (broadcastInDim S6400000 ![] bcast_S_S6400000)
  :: StableHlo.TRef.binary main_call1.v0 main_call1.call0.v0 main_call1.call0.v1 maximumf
  :: StableHlo.TRef.unary main_call1.call0.cst main_call1.call0.v2 (broadcastInDim S6400000 ![] bcast_S_S6400000)
  :: StableHlo.TRef.binary main_call1.v0 main_call1.call0.v2 main_call1.call0.v3 subf
  :: StableHlo.TRef.binary main_call1.call0.v3 main_call1.call0.v3 main_call1.call0.v4 (cmpf .une)
  :: StableHlo.TRef.unary main_call1.call0.cst main_call1.call0.v5 (broadcastInDim S6400000 ![] bcast_S_S6400000)
  :: StableHlo.TRef.binary main_call1.v0 main_call1.call0.v5 main_call1.call0.v6 addf
  :: StableHlo.TRef.unary main_call1.call0.v3 main_call1.call0.v7 Host.absf
  :: StableHlo.TRef.unary main_call1.call0.v7 main_call1.call0.v8 Host.negf
  :: StableHlo.TRef.unary main_call1.call0.v8 main_call1.call0.v9 Host.exp
  :: StableHlo.TRef.unary main_call1.call0.v9 main_call1.call0.v10 Host.log1p
  :: StableHlo.TRef.binary main_call1.call0.v1 main_call1.call0.v10 main_call1.call0.v11 addf
  :: StableHlo.TRef.ternary main_call1.call0.v4 main_call1.call0.v6 main_call1.call0.v11 main_call1.call0.v12 select
  :: StableHlo.TRef.unary main_call1.call0.v12 main_call1.v2 Host.negf
  :: StableHlo.binary main_v17 main_v19 main_v20 (mulf : (⟨S6400000, .f32⟩ : BufTy).Contents (Elt F) → (⟨S6400000, .f32⟩ : BufTy).Contents (Elt F) → (⟨S6400000, .f32⟩ : BufTy).Contents (Elt F))
  :: StableHlo.binary main_v15 main_v20 main_v21 (addf : (⟨S6400000, .f32⟩ : BufTy).Contents (Elt F) → (⟨S6400000, .f32⟩ : BufTy).Contents (Elt F) → (⟨S6400000, .f32⟩ : BufTy).Contents (Elt F))
  :: StableHlo.unary main_v21 main_v22 (Host.negf : (⟨S6400000, .f32⟩ : BufTy).Contents (Elt F) → (⟨S6400000, .f32⟩ : BufTy).Contents (Elt F))
  :: StableHlo.nullary main_cst_2 (constant S_ .f32 0x00000000#32)
  :: StableHlo.binary main_v22 main_cst_2 main_v23 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))
  :: StableHlo.nullary main_cst_3 (constant S_ .f32 0x4AC35000#32)
  :: StableHlo.binary main_v23 main_cst_3 main_v24 (Host.divf : (⟨S_, .f32⟩ : BufTy).Contents (Elt F) → (⟨S_, .f32⟩ : BufTy).Contents (Elt F) → (⟨S_, .f32⟩ : BufTy).Contents (Elt F))
  :: StableHlo.nullary main_cst_4 (constant S_ .f32 0x3F800000#32)
  :: StableHlo.binary main_cst_4 main_v24 main_v25 (mulf : (⟨S_, .f32⟩ : BufTy).Contents (Elt F) → (⟨S_, .f32⟩ : BufTy).Contents (Elt F) → (⟨S_, .f32⟩ : BufTy).Contents (Elt F))
  :: StableHlo.binary main_arg2 main_arg4 main_v26 (subf : (⟨S6400000x2, .f32⟩ : BufTy).Contents (Elt F) → (⟨S6400000x2, .f32⟩ : BufTy).Contents (Elt F) → (⟨S6400000x2, .f32⟩ : BufTy).Contents (Elt F))
  :: StableHlo.binary main_v26 main_v26 main_v27 (mulf : (⟨S6400000x2, .f32⟩ : BufTy).Contents (Elt F) → (⟨S6400000x2, .f32⟩ : BufTy).Contents (Elt F) → (⟨S6400000x2, .f32⟩ : BufTy).Contents (Elt F))
  :: StableHlo.nullary main_cst_5 (constant S_ .f32 0x00000000#32)
  :: StableHlo.binary main_v27 main_cst_5 main_v28 ((fun x v => Host.reduceAdd x v reducesTo_S6400000x2_S_d0_1 h_S_) : (⟨S6400000x2, .f32⟩ : BufTy).Contents (Elt F) → (⟨S_, .f32⟩ : BufTy).Contents (Elt F) → (⟨S_, .f32⟩ : BufTy).Contents (Elt F))
  :: StableHlo.nullary main_cst_6 (constant S_ .f32 0x4B435000#32)
  :: StableHlo.binary main_v28 main_cst_6 main_v29 (Host.divf : (⟨S_, .f32⟩ : BufTy).Contents (Elt F) → (⟨S_, .f32⟩ : BufTy).Contents (Elt F) → (⟨S_, .f32⟩ : BufTy).Contents (Elt F))
  :: StableHlo.nullary main_cst_7 (constant S_ .f32 0x3F800000#32)
  :: StableHlo.binary main_cst_7 main_v29 main_v30 (mulf : (⟨S_, .f32⟩ : BufTy).Contents (Elt F) → (⟨S_, .f32⟩ : BufTy).Contents (Elt F) → (⟨S_, .f32⟩ : BufTy).Contents (Elt F))
  :: StableHlo.nullary main_c (constantI S_ 32 0#32)
  :: StableHlo.unary main_c main_v31 (broadcastInDim S6400000 ![] bcast_S_S6400000 : (⟨S_, .i32⟩ : BufTy).Contents (Elt F) → (⟨S6400000, .i32⟩ : BufTy).Contents (Elt F))
  :: StableHlo.binary main_v1 main_v31 main_v32 (cmpi .slt : (⟨S6400000, .i32⟩ : BufTy).Contents (Elt F) → (⟨S6400000, .i32⟩ : BufTy).Contents (Elt F) → (⟨S6400000, .i1⟩ : BufTy).Contents (Elt F))
  :: StableHlo.nullary main_c_8 (constantI S_ 32 200000#32)
  :: StableHlo.unary main_c_8 main_v33 (broadcastInDim S6400000 ![] bcast_S_S6400000 : (⟨S_, .i32⟩ : BufTy).Contents (Elt F) → (⟨S6400000, .i32⟩ : BufTy).Contents (Elt F))
  :: StableHlo.binary main_v1 main_v33 main_v34 (addi : (⟨S6400000, .i32⟩ : BufTy).Contents (Elt F) → (⟨S6400000, .i32⟩ : BufTy).Contents (Elt F) → (⟨S6400000, .i32⟩ : BufTy).Contents (Elt F))
  :: StableHlo.ternary main_v32 main_v34 main_v1 main_v35 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F))
  :: StableHlo.nullary main_c_9 (constantI S_ 32 0#32)
  :: StableHlo.unary main_c_9 main_v36 (broadcastInDim S6400000 ![] bcast_S_S6400000 : (⟨S_, .i32⟩ : BufTy).Contents (Elt F) → (⟨S6400000, .i32⟩ : BufTy).Contents (Elt F))
  :: StableHlo.unary main_v36 main_v37 (id : (⟨S6400000, .i32⟩ : BufTy).Contents (Elt F) → (⟨S6400000, .i32⟩ : BufTy).Contents (Elt F))
  :: StableHlo.unary main_v35 main_v38 (broadcastInDim S6400000x1 ![0] bcast_S6400000_S6400000x1_0 : (⟨S6400000, .i32⟩ : BufTy).Contents (Elt F) → (⟨S6400000x1, .i32⟩ : BufTy).Contents (Elt F))
  :: StableHlo.unary main_v37 main_v39 (broadcastInDim S6400000x1 ![0] bcast_S6400000_S6400000x1_0 : (⟨S6400000, .i32⟩ : BufTy).Contents (Elt F) → (⟨S6400000x1, .i32⟩ : BufTy).Contents (Elt F))
  :: StableHlo.binary main_v38 main_v39 main_v40 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F))
  :: StableHlo.binary main_arg0 main_v40 main_v41 ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F))
  :: StableHlo.nullary main_c_10 (constantI S_ 32 0#32)
  :: StableHlo.unary main_c_10 main_v42 (broadcastInDim S6400000 ![] bcast_S_S6400000 : (⟨S_, .i32⟩ : BufTy).Contents (Elt F) → (⟨S6400000, .i32⟩ : BufTy).Contents (Elt F))
  :: StableHlo.binary main_v3 main_v42 main_v43 (cmpi .slt : (⟨S6400000, .i32⟩ : BufTy).Contents (Elt F) → (⟨S6400000, .i32⟩ : BufTy).Contents (Elt F) → (⟨S6400000, .i1⟩ : BufTy).Contents (Elt F))
  :: StableHlo.nullary main_c_11 (constantI S_ 32 200000#32)
  :: StableHlo.unary main_c_11 main_v44 (broadcastInDim S6400000 ![] bcast_S_S6400000 : (⟨S_, .i32⟩ : BufTy).Contents (Elt F) → (⟨S6400000, .i32⟩ : BufTy).Contents (Elt F))
  :: StableHlo.binary main_v3 main_v44 main_v45 (addi : (⟨S6400000, .i32⟩ : BufTy).Contents (Elt F) → (⟨S6400000, .i32⟩ : BufTy).Contents (Elt F) → (⟨S6400000, .i32⟩ : BufTy).Contents (Elt F))
  :: [] )

set_option maxHeartbeats 40000000 in
/-- Each touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub ..⟩

set_option maxHeartbeats 40000000 in
/-- Each determines the contents it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in
/-- Each writes one buffer, a value of the program and no argument of it. -/
theorem ops0_keeps : (ops0 : List (HloOp τ sig (Elt F))).Forall KeepsArgs :=
  ⟨keepsArgs main_v0 rfl (by decide),
   keepsArgs main_v1 rfl (by decide),
   keepsArgs main_v2 rfl (by decide),
   keepsArgs main_v3 rfl (by decide),
   keepsArgs main_v4 rfl (by decide),
   keepsArgs main_v5 rfl (by decide),
   keepsArgs main_cst rfl (by decide),
   keepsArgs main_v6 rfl (by decide),
   keepsArgs main_v7 rfl (by decide),
   keepsArgs main_cst_0 rfl (by decide),
   keepsArgs main_v8 rfl (by decide),
   keepsArgs main_v9 rfl (by decide),
   keepsArgs main_v10 rfl (by decide),
   keepsArgs main_v11 rfl (by decide),
   keepsArgs main_v12 rfl (by decide),
   keepsArgs main_v13 rfl (by decide),
   keepsArgs main_call0.v0.ref rfl (by decide),
   keepsArgs main_call0.call0.cst.ref rfl (by decide),
   keepsArgs main_call0.call0.v0.ref rfl (by decide),
   keepsArgs main_call0.call0.v1.ref rfl (by decide),
   keepsArgs main_call0.call0.v2.ref rfl (by decide),
   keepsArgs main_call0.call0.v3.ref rfl (by decide),
   keepsArgs main_call0.call0.v4.ref rfl (by decide),
   keepsArgs main_call0.call0.v5.ref rfl (by decide),
   keepsArgs main_call0.call0.v6.ref rfl (by decide),
   keepsArgs main_call0.call0.v7.ref rfl (by decide),
   keepsArgs main_call0.call0.v8.ref rfl (by decide),
   keepsArgs main_call0.call0.v9.ref rfl (by decide),
   keepsArgs main_call0.call0.v10.ref rfl (by decide),
   keepsArgs main_call0.call0.v11.ref rfl (by decide),
   keepsArgs main_call0.call0.v12.ref rfl (by decide),
   keepsArgs main_call0.v2.ref rfl (by decide),
   keepsArgs main_v15 rfl (by decide),
   keepsArgs main_cst_1 rfl (by decide),
   keepsArgs main_v16 rfl (by decide),
   keepsArgs main_v17 rfl (by decide),
   keepsArgs main_v18 rfl (by decide),
   keepsArgs main_call1.v0.ref rfl (by decide),
   keepsArgs main_call1.call0.cst.ref rfl (by decide),
   keepsArgs main_call1.call0.v0.ref rfl (by decide),
   keepsArgs main_call1.call0.v1.ref rfl (by decide),
   keepsArgs main_call1.call0.v2.ref rfl (by decide),
   keepsArgs main_call1.call0.v3.ref rfl (by decide),
   keepsArgs main_call1.call0.v4.ref rfl (by decide),
   keepsArgs main_call1.call0.v5.ref rfl (by decide),
   keepsArgs main_call1.call0.v6.ref rfl (by decide),
   keepsArgs main_call1.call0.v7.ref rfl (by decide),
   keepsArgs main_call1.call0.v8.ref rfl (by decide),
   keepsArgs main_call1.call0.v9.ref rfl (by decide),
   keepsArgs main_call1.call0.v10.ref rfl (by decide),
   keepsArgs main_call1.call0.v11.ref rfl (by decide),
   keepsArgs main_call1.call0.v12.ref rfl (by decide),
   keepsArgs main_call1.v2.ref rfl (by decide),
   keepsArgs main_v20 rfl (by decide),
   keepsArgs main_v21 rfl (by decide),
   keepsArgs main_v22 rfl (by decide),
   keepsArgs main_cst_2 rfl (by decide),
   keepsArgs main_v23 rfl (by decide),
   keepsArgs main_cst_3 rfl (by decide),
   keepsArgs main_v24 rfl (by decide),
   keepsArgs main_cst_4 rfl (by decide),
   keepsArgs main_v25 rfl (by decide),
   keepsArgs main_v26 rfl (by decide),
   keepsArgs main_v27 rfl (by decide),
   keepsArgs main_cst_5 rfl (by decide),
   keepsArgs main_v28 rfl (by decide),
   keepsArgs main_cst_6 rfl (by decide),
   keepsArgs main_v29 rfl (by decide),
   keepsArgs main_cst_7 rfl (by decide),
   keepsArgs main_v30 rfl (by decide),
   keepsArgs main_c rfl (by decide),
   keepsArgs main_v31 rfl (by decide),
   keepsArgs main_v32 rfl (by decide),
   keepsArgs main_c_8 rfl (by decide),
   keepsArgs main_v33 rfl (by decide),
   keepsArgs main_v34 rfl (by decide),
   keepsArgs main_v35 rfl (by decide),
   keepsArgs main_c_9 rfl (by decide),
   keepsArgs main_v36 rfl (by decide),
   keepsArgs main_v37 rfl (by decide),
   keepsArgs main_v38 rfl (by decide),
   keepsArgs main_v39 rfl (by decide),
   keepsArgs main_v40 rfl (by decide),
   keepsArgs main_v41 rfl (by decide),
   keepsArgs main_c_10 rfl (by decide),
   keepsArgs main_v42 rfl (by decide),
   keepsArgs main_v43 rfl (by decide),
   keepsArgs main_c_11 rfl (by decide),
   keepsArgs main_v44 rfl (by decide),
   keepsArgs main_v45 rfl (by decide)⟩

/-- The window followed by anything is its operations followed by the same (its last statement stands in tail
    position, so the window itself is the line without the closing return): both sides unfold to one chain of steps. -/
theorem part0_eq (c : Dev nD) (q : Prog (TpuEff nD τ sig (Elt F) (Pipeline.Sig Λ₀ (Fin 0) fun p => (pcfgs (F := F) p).Adm) .tc) PUnit) :
    (main_part0 (F := F) c >>= fun _ => q) = (seq ops0 >>= fun _ => q) := by
  chain_rfl

end Cert.ReferenceIdeal.HRun

end
-- ==== Proof.RefRun1.lean ====
/- The operations of window 1 of the reference's @main (its statements in order, each module-local function's body
   written out at its call over that call's buffers), and what the run and the frame need of them: every operation
   touches TensorCore references only, determines its result, and writes a buffer that is no argument. -/
import proofs.«176581_j38010460570140_2_alg».proof.Proof.RefRunBase

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 1: 60 operations, in order. -/
abbrev ops1 : List (HloOp τ sig (Elt F)) :=
  ( StableHlo.ternary main_v43 main_v45 main_v3 main_v46 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F))
  :: StableHlo.nullary main_c_12 (constantI S_ 32 0#32)
  :: StableHlo.unary main_c_12 main_v47 (broadcastInDim S6400000 ![] bcast_S_S6400000 : (⟨S_, .i32⟩ : BufTy).Contents (Elt F) → (⟨S6400000, .i32⟩ : BufTy).Contents (Elt F))
  :: StableHlo.unary main_v47 main_v48 (id : (⟨S6400000, .i32⟩ : BufTy).Contents (Elt F) → (⟨S6400000, .i32⟩ : BufTy).Contents (Elt F))
  :: StableHlo.unary main_v46 main_v49 (broadcastInDim S6400000x1 ![0] bcast_S6400000_S6400000x1_0 : (⟨S6400000, .i32⟩ : BufTy).Contents (Elt F) → (⟨S6400000x1, .i32⟩ : BufTy).Contents (Elt F))
  :: StableHlo.unary main_v48 main_v50 (broadcastInDim S6400000x1 ![0] bcast_S6400000_S6400000x1_0 : (⟨S6400000, .i32⟩ : BufTy).Contents (Elt F) → (⟨S6400000x1, .i32⟩ : BufTy).Contents (Elt F))
  :: StableHlo.binary main_v49 main_v50 main_v51 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F))
  :: StableHlo.binary main_arg0 main_v51 main_v52 ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F))
  :: StableHlo.binary main_v41 main_v52 main_v53 (subf : (⟨S6400000, .f32⟩ : BufTy).Contents (Elt F) → (⟨S6400000, .f32⟩ : BufTy).Contents (Elt F) → (⟨S6400000, .f32⟩ : BufTy).Contents (Elt F))
  :: StableHlo.nullary main_c_13 (constantI S_ 32 0#32)
  :: StableHlo.unary main_c_13 main_v54 (broadcastInDim S6400000 ![] bcast_S_S6400000 : (⟨S_, .i32⟩ : BufTy).Contents (Elt F) → (⟨S6400000, .i32⟩ : BufTy).Contents (Elt F))
  :: StableHlo.binary main_v1 main_v54 main_v55 (cmpi .slt : (⟨S6400000, .i32⟩ : BufTy).Contents (Elt F) → (⟨S6400000, .i32⟩ : BufTy).Contents (Elt F) → (⟨S6400000, .i1⟩ : BufTy).Contents (Elt F))
  :: StableHlo.nullary main_c_14 (constantI S_ 32 200000#32)
  :: StableHlo.unary main_c_14 main_v56 (broadcastInDim S6400000 ![] bcast_S_S6400000 : (⟨S_, .i32⟩ : BufTy).Contents (Elt F) → (⟨S6400000, .i32⟩ : BufTy).Contents (Elt F))
  :: StableHlo.binary main_v1 main_v56 main_v57 (addi : (⟨S6400000, .i32⟩ : BufTy).Contents (Elt F) → (⟨S6400000, .i32⟩ : BufTy).Contents (Elt F) → (⟨S6400000, .i32⟩ : BufTy).Contents (Elt F))
  :: StableHlo.ternary main_v55 main_v57 main_v1 main_v58 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F))
  :: StableHlo.nullary main_c_15 (constantI S_ 32 1#32)
  :: StableHlo.unary main_c_15 main_v59 (broadcastInDim S6400000 ![] bcast_S_S6400000 : (⟨S_, .i32⟩ : BufTy).Contents (Elt F) → (⟨S6400000, .i32⟩ : BufTy).Contents (Elt F))
  :: StableHlo.unary main_v59 main_v60 (id : (⟨S6400000, .i32⟩ : BufTy).Contents (Elt F) → (⟨S6400000, .i32⟩ : BufTy).Contents (Elt F))
  :: StableHlo.unary main_v58 main_v61 (broadcastInDim S6400000x1 ![0] bcast_S6400000_S6400000x1_0 : (⟨S6400000, .i32⟩ : BufTy).Contents (Elt F) → (⟨S6400000x1, .i32⟩ : BufTy).Contents (Elt F))
  :: StableHlo.unary main_v60 main_v62 (broadcastInDim S6400000x1 ![0] bcast_S6400000_S6400000x1_0 : (⟨S6400000, .i32⟩ : BufTy).Contents (Elt F) → (⟨S6400000x1, .i32⟩ : BufTy).Contents (Elt F))
  :: StableHlo.binary main_v61 main_v62 main_v63 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F))
  :: StableHlo.binary main_arg0 main_v63 main_v64 ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F))
  :: StableHlo.nullary main_c_16 (constantI S_ 32 0#32)
  :: StableHlo.unary main_c_16 main_v65 (broadcastInDim S6400000 ![] bcast_S_S6400000 : (⟨S_, .i32⟩ : BufTy).Contents (Elt F) → (⟨S6400000, .i32⟩ : BufTy).Contents (Elt F))
  :: StableHlo.binary main_v3 main_v65 main_v66 (cmpi .slt : (⟨S6400000, .i32⟩ : BufTy).Contents (Elt F) → (⟨S6400000, .i32⟩ : BufTy).Contents (Elt F) → (⟨S6400000, .i1⟩ : BufTy).Contents (Elt F))
  :: StableHlo.nullary main_c_17 (constantI S_ 32 200000#32)
  :: StableHlo.unary main_c_17 main_v67 (broadcastInDim S6400000 ![] bcast_S_S6400000 : (⟨S_, .i32⟩ : BufTy).Contents (Elt F) → (⟨S6400000, .i32⟩ : BufTy).Contents (Elt F))
  :: StableHlo.binary main_v3 main_v67 main_v68 (addi : (⟨S6400000, .i32⟩ : BufTy).Contents (Elt F) → (⟨S6400000, .i32⟩ : BufTy).Contents (Elt F) → (⟨S6400000, .i32⟩ : BufTy).Contents (Elt F))
  :: StableHlo.ternary main_v66 main_v68 main_v3 main_v69 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F))
  :: StableHlo.nullary main_c_18 (constantI S_ 32 1#32)
  :: StableHlo.unary main_c_18 main_v70 (broadcastInDim S6400000 ![] bcast_S_S6400000 : (⟨S_, .i32⟩ : BufTy).Contents (Elt F) → (⟨S6400000, .i32⟩ : BufTy).Contents (Elt F))
  :: StableHlo.unary main_v70 main_v71 (id : (⟨S6400000, .i32⟩ : BufTy).Contents (Elt F) → (⟨S6400000, .i32⟩ : BufTy).Contents (Elt F))
  :: StableHlo.unary main_v69 main_v72 (broadcastInDim S6400000x1 ![0] bcast_S6400000_S6400000x1_0 : (⟨S6400000, .i32⟩ : BufTy).Contents (Elt F) → (⟨S6400000x1, .i32⟩ : BufTy).Contents (Elt F))
  :: StableHlo.unary main_v71 main_v73 (broadcastInDim S6400000x1 ![0] bcast_S6400000_S6400000x1_0 : (⟨S6400000, .i32⟩ : BufTy).Contents (Elt F) → (⟨S6400000x1, .i32⟩ : BufTy).Contents (Elt F))
  :: StableHlo.binary main_v72 main_v73 main_v74 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F))
  :: StableHlo.binary main_arg0 main_v74 main_v75 ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F))
  :: StableHlo.binary main_v64 main_v75 main_v76 (subf : (⟨S6400000, .f32⟩ : BufTy).Contents (Elt F) → (⟨S6400000, .f32⟩ : BufTy).Contents (Elt F) → (⟨S6400000, .f32⟩ : BufTy).Contents (Elt F))
  :: StableHlo.binary main_v53 main_v53 main_v77 (mulf : (⟨S6400000, .f32⟩ : BufTy).Contents (Elt F) → (⟨S6400000, .f32⟩ : BufTy).Contents (Elt F) → (⟨S6400000, .f32⟩ : BufTy).Contents (Elt F))
  :: StableHlo.binary main_v76 main_v76 main_v78 (mulf : (⟨S6400000, .f32⟩ : BufTy).Contents (Elt F) → (⟨S6400000, .f32⟩ : BufTy).Contents (Elt F) → (⟨S6400000, .f32⟩ : BufTy).Contents (Elt F))
  :: StableHlo.binary main_v77 main_v78 main_v79 (addf : (⟨S6400000, .f32⟩ : BufTy).Contents (Elt F) → (⟨S6400000, .f32⟩ : BufTy).Contents (Elt F) → (⟨S6400000, .f32⟩ : BufTy).Contents (Elt F))
  :: StableHlo.unary main_v79 main_v80 (Host.sqrt : (⟨S6400000, .f32⟩ : BufTy).Contents (Elt F) → (⟨S6400000, .f32⟩ : BufTy).Contents (Elt F))
  :: StableHlo.nullary main_cst_19 (constant S_ .f32 0x358637BD#32)
  :: StableHlo.unary main_cst_19 main_v81 (broadcastInDim S6400000 ![] bcast_S_S6400000 : (⟨S_, .f32⟩ : BufTy).Contents (Elt F) → (⟨S6400000, .f32⟩ : BufTy).Contents (Elt F))
  :: StableHlo.binary main_v11 main_v81 main_v82 (addf : (⟨S6400000, .f32⟩ : BufTy).Contents (Elt F) → (⟨S6400000, .f32⟩ : BufTy).Contents (Elt F) → (⟨S6400000, .f32⟩ : BufTy).Contents (Elt F))
  :: StableHlo.binary main_v82 main_v82 main_v83 (mulf : (⟨S6400000, .f32⟩ : BufTy).Contents (Elt F) → (⟨S6400000, .f32⟩ : BufTy).Contents (Elt F) → (⟨S6400000, .f32⟩ : BufTy).Contents (Elt F))
  :: StableHlo.binary main_v13 main_v13 main_v84 (mulf : (⟨S6400000, .f32⟩ : BufTy).Contents (Elt F) → (⟨S6400000, .f32⟩ : BufTy).Contents (Elt F) → (⟨S6400000, .f32⟩ : BufTy).Contents (Elt F))
  :: StableHlo.binary main_v83 main_v84 main_v85 (addf : (⟨S6400000, .f32⟩ : BufTy).Contents (Elt F) → (⟨S6400000, .f32⟩ : BufTy).Contents (Elt F) → (⟨S6400000, .f32⟩ : BufTy).Contents (Elt F))
  :: StableHlo.unary main_v85 main_v86 (Host.sqrt : (⟨S6400000, .f32⟩ : BufTy).Contents (Elt F) → (⟨S6400000, .f32⟩ : BufTy).Contents (Elt F))
  :: StableHlo.binary main_v80 main_v86 main_v87 (Host.divf : (⟨S6400000, .f32⟩ : BufTy).Contents (Elt F) → (⟨S6400000, .f32⟩ : BufTy).Contents (Elt F) → (⟨S6400000, .f32⟩ : BufTy).Contents (Elt F))
  :: StableHlo.binary main_v87 main_v9 main_v88 (mulf : (⟨S6400000, .f32⟩ : BufTy).Contents (Elt F) → (⟨S6400000, .f32⟩ : BufTy).Contents (Elt F) → (⟨S6400000, .f32⟩ : BufTy).Contents (Elt F))
  :: StableHlo.nullary main_cst_20 (constant S_ .f32 0x00000000#32)
  :: StableHlo.unary main_cst_20 main_v89 (broadcastInDim S200000 ![] bcast_S_S200000 : (⟨S_, .f32⟩ : BufTy).Contents (Elt F) → (⟨S200000, .f32⟩ : BufTy).Contents (Elt F))
  :: StableHlo.unary main_v3 main_v90 (broadcastInDim S6400000x1 ![0] bcast_S6400000_S6400000x1_0 : (⟨S6400000, .i32⟩ : BufTy).Contents (Elt F) → (⟨S6400000x1, .i32⟩ : BufTy).Contents (Elt F))
  :: StableHlo.ternary main_v89 main_v90 main_v88 main_v91 ((fun x i u => Host.scatterAdd scatter_S200000_S6400000x1_S6400000_n_0_0_1 x i u) : (⟨S200000, .f32⟩ : BufTy).Contents (Elt F) → (⟨S6400000x1, .i32⟩ : BufTy).Contents (Elt F) → (⟨S6400000, .f32⟩ : BufTy).Contents (Elt F) → (⟨S200000, .f32⟩ : BufTy).Contents (Elt F))
  :: StableHlo.nullary main_cst_21 (constant S_ .f32 0x00000000#32)
  :: StableHlo.unary main_cst_21 main_v92 (broadcastInDim S200000 ![] bcast_S_S200000 : (⟨S_, .f32⟩ : BufTy).Contents (Elt F) → (⟨S200000, .f32⟩ : BufTy).Contents (Elt F))
  :: StableHlo.unary main_v1 main_v93 (broadcastInDim S6400000x1 ![0] bcast_S6400000_S6400000x1_0 : (⟨S6400000, .i32⟩ : BufTy).Contents (Elt F) → (⟨S6400000x1, .i32⟩ : BufTy).Contents (Elt F))
  :: StableHlo.ternary main_v92 main_v93 main_v88 main_v94 ((fun x i u => Host.scatterAdd scatter_S200000_S6400000x1_S6400000_n_0_0_1 x i u) : (⟨S200000, .f32⟩ : BufTy).Contents (Elt F) → (⟨S6400000x1, .i32⟩ : BufTy).Contents (Elt F) → (⟨S6400000, .f32⟩ : BufTy).Contents (Elt F) → (⟨S200000, .f32⟩ : BufTy).Contents (Elt F))
  :: StableHlo.binary main_v91 main_v94 main_v95 (subf : (⟨S200000, .f32⟩ : BufTy).Contents (Elt F) → (⟨S200000, .f32⟩ : BufTy).Contents (Elt F) → (⟨S200000, .f32⟩ : BufTy).Contents (Elt F))
  :: [] )

set_option maxHeartbeats 40000000 in
/-- Each touches TensorCore references only. -/
theorem ops1_sub : (ops1 : List (HloOp τ sig (Elt F))).Forall fun op => op.bufs ⊆ tcRefs τ sig :=
  ⟨ternary_bufs_sub .., nullary_bufs_sub .., unary_bufs_sub .., unary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., binary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., binary_bufs_sub .., nullary_bufs_sub .., unary_bufs_sub .., unary_bufs_sub .., ternary_bufs_sub .., nullary_bufs_sub .., unary_bufs_sub .., unary_bufs_sub .., ternary_bufs_sub .., binary_bufs_sub ..⟩

set_option maxHeartbeats 40000000 in
/-- Each determines the contents it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in
/-- Each writes one buffer, a value of the program and no argument of it. -/
theorem ops1_keeps : (ops1 : List (HloOp τ sig (Elt F))).Forall KeepsArgs :=
  ⟨keepsArgs main_v46 rfl (by decide),
   keepsArgs main_c_12 rfl (by decide),
   keepsArgs main_v47 rfl (by decide),
   keepsArgs main_v48 rfl (by decide),
   keepsArgs main_v49 rfl (by decide),
   keepsArgs main_v50 rfl (by decide),
   keepsArgs main_v51 rfl (by decide),
   keepsArgs main_v52 rfl (by decide),
   keepsArgs main_v53 rfl (by decide),
   keepsArgs main_c_13 rfl (by decide),
   keepsArgs main_v54 rfl (by decide),
   keepsArgs main_v55 rfl (by decide),
   keepsArgs main_c_14 rfl (by decide),
   keepsArgs main_v56 rfl (by decide),
   keepsArgs main_v57 rfl (by decide),
   keepsArgs main_v58 rfl (by decide),
   keepsArgs main_c_15 rfl (by decide),
   keepsArgs main_v59 rfl (by decide),
   keepsArgs main_v60 rfl (by decide),
   keepsArgs main_v61 rfl (by decide),
   keepsArgs main_v62 rfl (by decide),
   keepsArgs main_v63 rfl (by decide),
   keepsArgs main_v64 rfl (by decide),
   keepsArgs main_c_16 rfl (by decide),
   keepsArgs main_v65 rfl (by decide),
   keepsArgs main_v66 rfl (by decide),
   keepsArgs main_c_17 rfl (by decide),
   keepsArgs main_v67 rfl (by decide),
   keepsArgs main_v68 rfl (by decide),
   keepsArgs main_v69 rfl (by decide),
   keepsArgs main_c_18 rfl (by decide),
   keepsArgs main_v70 rfl (by decide),
   keepsArgs main_v71 rfl (by decide),
   keepsArgs main_v72 rfl (by decide),
   keepsArgs main_v73 rfl (by decide),
   keepsArgs main_v74 rfl (by decide),
   keepsArgs main_v75 rfl (by decide),
   keepsArgs main_v76 rfl (by decide),
   keepsArgs main_v77 rfl (by decide),
   keepsArgs main_v78 rfl (by decide),
   keepsArgs main_v79 rfl (by decide),
   keepsArgs main_v80 rfl (by decide),
   keepsArgs main_cst_19 rfl (by decide),
   keepsArgs main_v81 rfl (by decide),
   keepsArgs main_v82 rfl (by decide),
   keepsArgs main_v83 rfl (by decide),
   keepsArgs main_v84 rfl (by decide),
   keepsArgs main_v85 rfl (by decide),
   keepsArgs main_v86 rfl (by decide),
   keepsArgs main_v87 rfl (by decide),
   keepsArgs main_v88 rfl (by decide),
   keepsArgs main_cst_20 rfl (by decide),
   keepsArgs main_v89 rfl (by decide),
   keepsArgs main_v90 rfl (by decide),
   keepsArgs main_v91 rfl (by decide),
   keepsArgs main_cst_21 rfl (by decide),
   keepsArgs main_v92 rfl (by decide),
   keepsArgs main_v93 rfl (by decide),
   keepsArgs main_v94 rfl (by decide),
   keepsArgs main_v95 rfl (by decide)⟩

/-- The window followed by anything is its operations followed by the same (its last statement stands in tail
    position, so the window itself is the line without the closing return): both sides unfold to one chain of steps. -/
theorem part1_eq (c : Dev nD) (q : Prog (TpuEff nD τ sig (Elt F) (Pipeline.Sig Λ₀ (Fin 0) fun p => (pcfgs (F := F) p).Adm) .tc) PUnit) :
    (main_part1 (F := F) c >>= fun _ => q) = (seq ops1 >>= fun _ => q) := by
  chain_rfl

end Cert.ReferenceIdeal.HRun

end
-- ==== Proof.RefRun2.lean ====
/- The operations of window 2 of the reference's @main (its statements in order, each module-local function's body
   written out at its call over that call's buffers), and what the run and the frame need of them: every operation
   touches TensorCore references only, determines its result, and writes a buffer that is no argument. -/
import proofs.«176581_j38010460570140_2_alg».proof.Proof.RefRunBase

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 2: 79 operations, in order. -/
abbrev ops2 : List (HloOp τ sig (Elt F)) :=
  ( StableHlo.binary main_v95 main_v95 main_v96 (mulf : (⟨S200000, .f32⟩ : BufTy).Contents (Elt F) → (⟨S200000, .f32⟩ : BufTy).Contents (Elt F) → (⟨S200000, .f32⟩ : BufTy).Contents (Elt F))
  :: StableHlo.nullary main_cst_22 (constant S_ .f32 0x00000000#32)
  :: StableHlo.binary main_v96 main_cst_22 main_v97 ((fun x v => Host.reduceAdd x v reducesTo_S200000_S_d0 h_S_) : (⟨S200000, .f32⟩ : BufTy).Contents (Elt F) → (⟨S_, .f32⟩ : BufTy).Contents (Elt F) → (⟨S_, .f32⟩ : BufTy).Contents (Elt F))
  :: StableHlo.nullary main_cst_23 (constant S_ .f32 0x48435000#32)
  :: StableHlo.binary main_v97 main_cst_23 main_v98 (Host.divf : (⟨S_, .f32⟩ : BufTy).Contents (Elt F) → (⟨S_, .f32⟩ : BufTy).Contents (Elt F) → (⟨S_, .f32⟩ : BufTy).Contents (Elt F))
  :: StableHlo.nullary main_cst_24 (constant S_ .f32 0x3DCCCCCD#32)
  :: StableHlo.binary main_cst_24 main_v98 main_v99 (mulf : (⟨S_, .f32⟩ : BufTy).Contents (Elt F) → (⟨S_, .f32⟩ : BufTy).Contents (Elt F) → (⟨S_, .f32⟩ : BufTy).Contents (Elt F))
  :: StableHlo.unary main_v9 main_v100 (broadcastInDim S6400000x1 ![0] bcast_S6400000_S6400000x1_0 : (⟨S6400000, .f32⟩ : BufTy).Contents (Elt F) → (⟨S6400000x1, .f32⟩ : BufTy).Contents (Elt F))
  :: StableHlo.unary main_v100 main_v101 (broadcastInDim S6400000x2 ![0, 1] bcast_S6400000x1_S6400000x2_0_1 : (⟨S6400000x1, .f32⟩ : BufTy).Contents (Elt F) → (⟨S6400000x2, .f32⟩ : BufTy).Contents (Elt F))
  :: StableHlo.binary main_arg2 main_v101 main_v102 (mulf : (⟨S6400000x2, .f32⟩ : BufTy).Contents (Elt F) → (⟨S6400000x2, .f32⟩ : BufTy).Contents (Elt F) → (⟨S6400000x2, .f32⟩ : BufTy).Contents (Elt F))
  :: StableHlo.nullary main_cst_25 (constant S_ .f32 0x00000000#32)
  :: StableHlo.binary main_v102 main_cst_25 main_v103 ((fun x v => Host.reduceAdd x v reducesTo_S6400000x2_S2_d0 h_S_) : (⟨S6400000x2, .f32⟩ : BufTy).Contents (Elt F) → (⟨S_, .f32⟩ : BufTy).Contents (Elt F) → (⟨S2, .f32⟩ : BufTy).Contents (Elt F))
  :: StableHlo.nullary main_cst_26 (constant S_ .f32 0x00000000#32)
  :: StableHlo.binary main_v9 main_cst_26 main_v104 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))
  :: StableHlo.nullary main_cst_27 (constant S_ .f32 0x358637BD#32)
  :: StableHlo.binary main_v104 main_cst_27 main_v105 (addf : (⟨S_, .f32⟩ : BufTy).Contents (Elt F) → (⟨S_, .f32⟩ : BufTy).Contents (Elt F) → (⟨S_, .f32⟩ : BufTy).Contents (Elt F))
  :: StableHlo.unary main_v105 main_v106 (broadcastInDim S2 ![] bcast_S_S2 : (⟨S_, .f32⟩ : BufTy).Contents (Elt F) → (⟨S2, .f32⟩ : BufTy).Contents (Elt F))
  :: StableHlo.binary main_v103 main_v106 main_v107 (Host.divf : (⟨S2, .f32⟩ : BufTy).Contents (Elt F) → (⟨S2, .f32⟩ : BufTy).Contents (Elt F) → (⟨S2, .f32⟩ : BufTy).Contents (Elt F))
  :: StableHlo.unary main_v107 main_v108 (broadcastInDim S1x2 ![1] bcast_S2_S1x2_1 : (⟨S2, .f32⟩ : BufTy).Contents (Elt F) → (⟨S1x2, .f32⟩ : BufTy).Contents (Elt F))
  :: StableHlo.unary main_v108 main_v109 (broadcastInDim S6400000x2 ![0, 1] bcast_S1x2_S6400000x2_0_1 : (⟨S1x2, .f32⟩ : BufTy).Contents (Elt F) → (⟨S6400000x2, .f32⟩ : BufTy).Contents (Elt F))
  :: StableHlo.binary main_arg2 main_v109 main_v110 (subf : (⟨S6400000x2, .f32⟩ : BufTy).Contents (Elt F) → (⟨S6400000x2, .f32⟩ : BufTy).Contents (Elt F) → (⟨S6400000x2, .f32⟩ : BufTy).Contents (Elt F))
  :: StableHlo.binary main_v110 main_v110 main_v111 (mulf : (⟨S6400000x2, .f32⟩ : BufTy).Contents (Elt F) → (⟨S6400000x2, .f32⟩ : BufTy).Contents (Elt F) → (⟨S6400000x2, .f32⟩ : BufTy).Contents (Elt F))
  :: StableHlo.unary main_v100 main_v112 (broadcastInDim S6400000x2 ![0, 1] bcast_S6400000x1_S6400000x2_0_1 : (⟨S6400000x1, .f32⟩ : BufTy).Contents (Elt F) → (⟨S6400000x2, .f32⟩ : BufTy).Contents (Elt F))
  :: StableHlo.binary main_v111 main_v112 main_v113 (mulf : (⟨S6400000x2, .f32⟩ : BufTy).Contents (Elt F) → (⟨S6400000x2, .f32⟩ : BufTy).Contents (Elt F) → (⟨S6400000x2, .f32⟩ : BufTy).Contents (Elt F))
  :: StableHlo.nullary main_cst_28 (constant S_ .f32 0x00000000#32)
  :: StableHlo.binary main_v113 main_cst_28 main_v114 ((fun x v => Host.reduceAdd x v reducesTo_S6400000x2_S2_d0 h_S_) : (⟨S6400000x2, .f32⟩ : BufTy).Contents (Elt F) → (⟨S_, .f32⟩ : BufTy).Contents (Elt F) → (⟨S2, .f32⟩ : BufTy).Contents (Elt F))
  :: StableHlo.nullary main_cst_29 (constant S_ .f32 0x00000000#32)
  :: StableHlo.binary main_v114 main_cst_29 main_v115 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F))
  :: StableHlo.nullary main_cst_30 (constant S_ .f32 0x40000000#32)
  :: StableHlo.binary main_v115 main_cst_30 main_v116 (Host.divf : (⟨S_, .f32⟩ : BufTy).Contents (Elt F) → (⟨S_, .f32⟩ : BufTy).Contents (Elt F) → (⟨S_, .f32⟩ : BufTy).Contents (Elt F))
  :: StableHlo.binary main_v53 main_v53 main_v117 (mulf : (⟨S6400000, .f32⟩ : BufTy).Contents (Elt F) → (⟨S6400000, .f32⟩ : BufTy).Contents (Elt F) → (⟨S6400000, .f32⟩ : BufTy).Contents (Elt F))
  :: StableHlo.binary main_v76 main_v76 main_v118 (mulf : (⟨S6400000, .f32⟩ : BufTy).Contents (Elt F) → (⟨S6400000, .f32⟩ : BufTy).Contents (Elt F) → (⟨S6400000, .f32⟩ : BufTy).Contents (Elt F))
  :: StableHlo.binary main_v117 main_v118 main_v119 (addf : (⟨S6400000, .f32⟩ : BufTy).Contents (Elt F) → (⟨S6400000, .f32⟩ : BufTy).Contents (Elt F) → (⟨S6400000, .f32⟩ : BufTy).Contents (Elt F))
  :: StableHlo.unary main_v119 main_v120 (Host.sqrt : (⟨S6400000, .f32⟩ : BufTy).Contents (Elt F) → (⟨S6400000, .f32⟩ : BufTy).Contents (Elt F))
  :: StableHlo.binary main_v120 main_v9 main_v121 (mulf : (⟨S6400000, .f32⟩ : BufTy).Contents (Elt F) → (⟨S6400000, .f32⟩ : BufTy).Contents (Elt F) → (⟨S6400000, .f32⟩ : BufTy).Contents (Elt F))
  :: StableHlo.nullary main_c_31 (constantI S_ 32 1#32)
  :: StableHlo.TRef.nullary main_call2.cst (constant S_ .f32 0x00000000#32)
  :: StableHlo.TRef.binary (.of main_v121 : StableHlo.TRef sig ⟨S6400000, .f32⟩) main_call2.cst main_call2.v0 (fun x v => Host.reduceAdd x v reducesTo_S6400000_S_d0 h_S_)
  :: StableHlo.TRef.unary main_call2.v0 main_call2.v1 (broadcastInDim S1 ![] bcast_S_S1)
  :: StableHlo.TRef.nullary main_call2.cst_0 (constant S_ .f32 0x4AC35000#32)
  :: StableHlo.TRef.unary main_call2.cst_0 main_call2.v2 (broadcastInDim S1 ![] bcast_S_S1)
  :: StableHlo.TRef.binary main_call2.v1 main_call2.v2 main_call2.v3 Host.divf
  :: StableHlo.TRef.unary main_call2.v3 main_call2.v4 (broadcastInDim S6400000 ![0] bcast_S1_S6400000_0)
  :: StableHlo.TRef.binary (.of main_v121 : StableHlo.TRef sig ⟨S6400000, .f32⟩) main_call2.v4 main_call2.v5 subf
  :: StableHlo.TRef.binary main_call2.v5 main_call2.v5 main_call2.v6 mulf
  :: StableHlo.TRef.unary (.of main_c_31 : StableHlo.TRef sig ⟨S_, .i32⟩) main_call2.v7 (sitofp .f32)
  :: StableHlo.TRef.nullary main_call2.cst_1 (constant S_ .f32 0x4AC35000#32)
  :: StableHlo.TRef.binary main_call2.cst_1 main_call2.v7 main_call2.v8 subf
  :: StableHlo.TRef.nullary main_call2.cst_2 (constant S_ .f32 0x00000000#32)
  :: StableHlo.TRef.binary main_call2.v6 main_call2.cst_2 main_call2.v9 (fun x v => Host.reduceAdd x v reducesTo_S6400000_S_d0 h_S_)
  :: StableHlo.TRef.binary main_call2.v9 main_call2.v8 main_call2.v10 Host.divf
  :: StableHlo.TRef.nullary main_call2.cst_3 (constant S_ .f32 0x00000000#32)
  :: StableHlo.TRef.binary main_call2.v8 main_call2.cst_3 main_call2.v11 (cmpf .ogt)
  :: StableHlo.TRef.nullary main_call2.cst_4 (constant S_ .f32 0x7FC00000#32)
  :: StableHlo.TRef.unary main_call2.cst_4 main_call2.call0.v0 id
  :: StableHlo.TRef.ternary main_call2.v11 main_call2.v10 main_call2.call0.v0 main_call2.call0.v1 select
  :: StableHlo.binary main_v116 main_v122 main_v123 (addf : (⟨S_, .f32⟩ : BufTy).Contents (Elt F) → (⟨S_, .f32⟩ : BufTy).Contents (Elt F) → (⟨S_, .f32⟩ : BufTy).Contents (Elt F))
  :: StableHlo.nullary main_cst_32 (constant S_ .f32 0x3DCCCCCD#32)
  :: StableHlo.binary main_cst_32 main_v123 main_v124 (mulf : (⟨S_, .f32⟩ : BufTy).Contents (Elt F) → (⟨S_, .f32⟩ : BufTy).Contents (Elt F) → (⟨S_, .f32⟩ : BufTy).Contents (Elt F))
  :: StableHlo.nullary main_cst_33 (constant S_ .f32 0x00000000#32)
  :: StableHlo.binary main_v9 main_cst_33 main_v125 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))
  :: StableHlo.nullary main_cst_34 (constant S_ .f32 0x48434FC0#32)
  :: StableHlo.binary main_v125 main_cst_34 main_v126 (subf : (⟨S_, .f32⟩ : BufTy).Contents (Elt F) → (⟨S_, .f32⟩ : BufTy).Contents (Elt F) → (⟨S_, .f32⟩ : BufTy).Contents (Elt F))
  :: StableHlo.binary main_v126 main_v126 main_v127 (mulf : (⟨S_, .f32⟩ : BufTy).Contents (Elt F) → (⟨S_, .f32⟩ : BufTy).Contents (Elt F) → (⟨S_, .f32⟩ : BufTy).Contents (Elt F))
  :: StableHlo.nullary main_cst_35 (constant S_ .f32 0x3F800000#32)
  :: StableHlo.binary main_cst_35 main_v127 main_v128 (mulf : (⟨S_, .f32⟩ : BufTy).Contents (Elt F) → (⟨S_, .f32⟩ : BufTy).Contents (Elt F) → (⟨S_, .f32⟩ : BufTy).Contents (Elt F))
  :: StableHlo.nullary main_cst_36 (constant S_ .f32 0x00000000#32)
  :: StableHlo.binary main_v9 main_cst_36 main_v129 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))
  :: StableHlo.nullary main_cst_37 (constant S_ .f32 0x4AC35000#32)
  :: StableHlo.binary main_v129 main_cst_37 main_v130 (Host.divf : (⟨S_, .f32⟩ : BufTy).Contents (Elt F) → (⟨S_, .f32⟩ : BufTy).Contents (Elt F) → (⟨S_, .f32⟩ : BufTy).Contents (Elt F))
  :: StableHlo.nullary main_cst_38 (constant S_ .f32 0x3DCCCCCD#32)
  :: StableHlo.binary main_cst_38 main_v130 main_v131 (mulf : (⟨S_, .f32⟩ : BufTy).Contents (Elt F) → (⟨S_, .f32⟩ : BufTy).Contents (Elt F) → (⟨S_, .f32⟩ : BufTy).Contents (Elt F))
  :: StableHlo.binary main_v128 main_v131 main_v132 (addf : (⟨S_, .f32⟩ : BufTy).Contents (Elt F) → (⟨S_, .f32⟩ : BufTy).Contents (Elt F) → (⟨S_, .f32⟩ : BufTy).Contents (Elt F))
  :: StableHlo.nullary main_cst_39 (constant S_ .f32 0x3DCCCCCD#32)
  :: StableHlo.binary main_cst_39 main_v132 main_v133 (mulf : (⟨S_, .f32⟩ : BufTy).Contents (Elt F) → (⟨S_, .f32⟩ : BufTy).Contents (Elt F) → (⟨S_, .f32⟩ : BufTy).Contents (Elt F))
  :: StableHlo.nullary main_cst_40 (constant S_ .f32 0x00000000#32)
  :: StableHlo.binary main_v9 main_cst_40 main_v134 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))
  :: StableHlo.nullary main_cst_41 (constant S_ .f32 0x4AC35000#32)
  :: StableHlo.binary main_v134 main_cst_41 main_v135 (Host.divf : (⟨S_, .f32⟩ : BufTy).Contents (Elt F) → (⟨S_, .f32⟩ : BufTy).Contents (Elt F) → (⟨S_, .f32⟩ : BufTy).Contents (Elt F))
  :: [] )

set_option maxHeartbeats 40000000 in
/-- Each touches TensorCore references only. -/
theorem ops2_sub : (ops2 : List (HloOp τ sig (Elt F))).Forall fun op => op.bufs ⊆ tcRefs τ sig :=
  ⟨binary_bufs_sub .., nullary_bufs_sub .., binary_bufs_sub .., nullary_bufs_sub .., binary_bufs_sub .., nullary_bufs_sub .., binary_bufs_sub .., unary_bufs_sub .., unary_bufs_sub .., binary_bufs_sub .., nullary_bufs_sub .., binary_bufs_sub .., nullary_bufs_sub .., binary_bufs_sub .., nullary_bufs_sub .., binary_bufs_sub .., unary_bufs_sub .., binary_bufs_sub .., unary_bufs_sub .., unary_bufs_sub .., binary_bufs_sub .., binary_bufs_sub .., unary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., nullary_bufs_sub .., binary_bufs_sub ..⟩

set_option maxHeartbeats 40000000 in
/-- Each determines the contents it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in
/-- Each writes one buffer, a value of the program and no argument of it. -/
theorem ops2_keeps : (ops2 : List (HloOp τ sig (Elt F))).Forall KeepsArgs :=
  ⟨keepsArgs main_v96 rfl (by decide),
   keepsArgs main_cst_22 rfl (by decide),
   keepsArgs main_v97 rfl (by decide),
   keepsArgs main_cst_23 rfl (by decide),
   keepsArgs main_v98 rfl (by decide),
   keepsArgs main_cst_24 rfl (by decide),
   keepsArgs main_v99 rfl (by decide),
   keepsArgs main_v100 rfl (by decide),
   keepsArgs main_v101 rfl (by decide),
   keepsArgs main_v102 rfl (by decide),
   keepsArgs main_cst_25 rfl (by decide),
   keepsArgs main_v103 rfl (by decide),
   keepsArgs main_cst_26 rfl (by decide),
   keepsArgs main_v104 rfl (by decide),
   keepsArgs main_cst_27 rfl (by decide),
   keepsArgs main_v105 rfl (by decide),
   keepsArgs main_v106 rfl (by decide),
   keepsArgs main_v107 rfl (by decide),
   keepsArgs main_v108 rfl (by decide),
   keepsArgs main_v109 rfl (by decide),
   keepsArgs main_v110 rfl (by decide),
   keepsArgs main_v111 rfl (by decide),
   keepsArgs main_v112 rfl (by decide),
   keepsArgs main_v113 rfl (by decide),
   keepsArgs main_cst_28 rfl (by decide),
   keepsArgs main_v114 rfl (by decide),
   keepsArgs main_cst_29 rfl (by decide),
   keepsArgs main_v115 rfl (by decide),
   keepsArgs main_cst_30 rfl (by decide),
   keepsArgs main_v116 rfl (by decide),
   keepsArgs main_v117 rfl (by decide),
   keepsArgs main_v118 rfl (by decide),
   keepsArgs main_v119 rfl (by decide),
   keepsArgs main_v120 rfl (by decide),
   keepsArgs main_v121 rfl (by decide),
   keepsArgs main_c_31 rfl (by decide),
   keepsArgs main_call2.cst.ref rfl (by decide),
   keepsArgs main_call2.v0.ref rfl (by decide),
   keepsArgs main_call2.v1.ref rfl (by decide),
   keepsArgs main_call2.cst_0.ref rfl (by decide),
   keepsArgs main_call2.v2.ref rfl (by decide),
   keepsArgs main_call2.v3.ref rfl (by decide),
   keepsArgs main_call2.v4.ref rfl (by decide),
   keepsArgs main_call2.v5.ref rfl (by decide),
   keepsArgs main_call2.v6.ref rfl (by decide),
   keepsArgs main_call2.v7.ref rfl (by decide),
   keepsArgs main_call2.cst_1.ref rfl (by decide),
   keepsArgs main_call2.v8.ref rfl (by decide),
   keepsArgs main_call2.cst_2.ref rfl (by decide),
   keepsArgs main_call2.v9.ref rfl (by decide),
   keepsArgs main_call2.v10.ref rfl (by decide),
   keepsArgs main_call2.cst_3.ref rfl (by decide),
   keepsArgs main_call2.v11.ref rfl (by decide),
   keepsArgs main_call2.cst_4.ref rfl (by decide),
   keepsArgs main_call2.call0.v0.ref rfl (by decide),
   keepsArgs main_call2.call0.v1.ref rfl (by decide),
   keepsArgs main_v123 rfl (by decide),
   keepsArgs main_cst_32 rfl (by decide),
   keepsArgs main_v124 rfl (by decide),
   keepsArgs main_cst_33 rfl (by decide),
   keepsArgs main_v125 rfl (by decide),
   keepsArgs main_cst_34 rfl (by decide),
   keepsArgs main_v126 rfl (by decide),
   keepsArgs main_v127 rfl (by decide),
   keepsArgs main_cst_35 rfl (by decide),
   keepsArgs main_v128 rfl (by decide),
   keepsArgs main_cst_36 rfl (by decide),
   keepsArgs main_v129 rfl (by decide),
   keepsArgs main_cst_37 rfl (by decide),
   keepsArgs main_v130 rfl (by decide),
   keepsArgs main_cst_38 rfl (by decide),
   keepsArgs main_v131 rfl (by decide),
   keepsArgs main_v132 rfl (by decide),
   keepsArgs main_cst_39 rfl (by decide),
   keepsArgs main_v133 rfl (by decide),
   keepsArgs main_cst_40 rfl (by decide),
   keepsArgs main_v134 rfl (by decide),
   keepsArgs main_cst_41 rfl (by decide),
   keepsArgs main_v135 rfl (by decide)⟩

/-- The window followed by anything is its operations followed by the same (its last statement stands in tail
    position, so the window itself is the line without the closing return): both sides unfold to one chain of steps. -/
theorem part2_eq (c : Dev nD) (q : Prog (TpuEff nD τ sig (Elt F) (Pipeline.Sig Λ₀ (Fin 0) fun p => (pcfgs (F := F) p).Adm) .tc) PUnit) :
    (main_part2 (F := F) c >>= fun _ => q) = (seq ops2 >>= fun _ => q) := by
  chain_rfl

end Cert.ReferenceIdeal.HRun

end
-- ==== Proof.RefRun3.lean ====
/- The operations of window 3 of the reference's @main (its statements in order, each module-local function's body
   written out at its call over that call's buffers), and what the run and the frame need of them: every operation
   touches TensorCore references only, determines its result, and writes a buffer that is no argument. -/
import proofs.«176581_j38010460570140_2_alg».proof.Proof.RefRunBase

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 3: 15 operations, in order. -/
abbrev ops3 : List (HloOp τ sig (Elt F)) :=
  ( StableHlo.nullary main_cst_42 (constant S_ .f32 0x3C23D70A#32)
  :: StableHlo.binary main_cst_42 main_v135 main_v136 (mulf : (⟨S_, .f32⟩ : BufTy).Contents (Elt F) → (⟨S_, .f32⟩ : BufTy).Contents (Elt F) → (⟨S_, .f32⟩ : BufTy).Contents (Elt F))
  :: StableHlo.binary main_v25 main_v30 main_v137 (addf : (⟨S_, .f32⟩ : BufTy).Contents (Elt F) → (⟨S_, .f32⟩ : BufTy).Contents (Elt F) → (⟨S_, .f32⟩ : BufTy).Contents (Elt F))
  :: StableHlo.binary main_v137 main_v99 main_v138 (addf : (⟨S_, .f32⟩ : BufTy).Contents (Elt F) → (⟨S_, .f32⟩ : BufTy).Contents (Elt F) → (⟨S_, .f32⟩ : BufTy).Contents (Elt F))
  :: StableHlo.binary main_v138 main_v124 main_v139 (addf : (⟨S_, .f32⟩ : BufTy).Contents (Elt F) → (⟨S_, .f32⟩ : BufTy).Contents (Elt F) → (⟨S_, .f32⟩ : BufTy).Contents (Elt F))
  :: StableHlo.binary main_v139 main_v133 main_v140 (addf : (⟨S_, .f32⟩ : BufTy).Contents (Elt F) → (⟨S_, .f32⟩ : BufTy).Contents (Elt F) → (⟨S_, .f32⟩ : BufTy).Contents (Elt F))
  :: StableHlo.binary main_v140 main_v136 main_v141 (addf : (⟨S_, .f32⟩ : BufTy).Contents (Elt F) → (⟨S_, .f32⟩ : BufTy).Contents (Elt F) → (⟨S_, .f32⟩ : BufTy).Contents (Elt F))
  :: StableHlo.unary main_v25 main_v142 (broadcastInDim S1 ![] bcast_S_S1 : (⟨S_, .f32⟩ : BufTy).Contents (Elt F) → (⟨S1, .f32⟩ : BufTy).Contents (Elt F))
  :: StableHlo.unary main_v30 main_v143 (broadcastInDim S1 ![] bcast_S_S1 : (⟨S_, .f32⟩ : BufTy).Contents (Elt F) → (⟨S1, .f32⟩ : BufTy).Contents (Elt F))
  :: StableHlo.unary main_v99 main_v144 (broadcastInDim S1 ![] bcast_S_S1 : (⟨S_, .f32⟩ : BufTy).Contents (Elt F) → (⟨S1, .f32⟩ : BufTy).Contents (Elt F))
  :: StableHlo.unary main_v124 main_v145 (broadcastInDim S1 ![] bcast_S_S1 : (⟨S_, .f32⟩ : BufTy).Contents (Elt F) → (⟨S1, .f32⟩ : BufTy).Contents (Elt F))
  :: StableHlo.unary main_v133 main_v146 (broadcastInDim S1 ![] bcast_S_S1 : (⟨S_, .f32⟩ : BufTy).Contents (Elt F) → (⟨S1, .f32⟩ : BufTy).Contents (Elt F))
  :: StableHlo.unary main_v136 main_v147 (broadcastInDim S1 ![] bcast_S_S1 : (⟨S_, .f32⟩ : BufTy).Contents (Elt F) → (⟨S1, .f32⟩ : BufTy).Contents (Elt F))
  :: StableHlo.unary main_v141 main_v148 (broadcastInDim S1 ![] bcast_S_S1 : (⟨S_, .f32⟩ : BufTy).Contents (Elt F) → (⟨S1, .f32⟩ : BufTy).Contents (Elt F))
  :: StableHlo.nary ![main_v142, main_v143, main_v144, main_v145, main_v146, main_v147, main_v148] main_v149 (fun u => concatenate S7 0 [⟨S1, u 0⟩, ⟨S1, u 1⟩, ⟨S1, u 2⟩, ⟨S1, u 3⟩, ⟨S1, u 4⟩, ⟨S1, u 5⟩, ⟨S1, u 6⟩] concatenates_S1_S1_S1_S1_S1_S1_S1_S7_d0)
  :: [] )

set_option maxHeartbeats 40000000 in
/-- Each touches TensorCore references only. -/
theorem ops3_sub : (ops3 : List (HloOp τ sig (Elt F))).Forall fun op => op.bufs ⊆ tcRefs τ sig :=
  ⟨nullary_bufs_sub .., binary_bufs_sub .., binary_bufs_sub .., binary_bufs_sub .., binary_bufs_sub .., binary_bufs_sub .., binary_bufs_sub .., unary_bufs_sub .., unary_bufs_sub .., unary_bufs_sub .., unary_bufs_sub .., unary_bufs_sub .., unary_bufs_sub .., unary_bufs_sub .., nary_bufs_sub ..⟩

set_option maxHeartbeats 40000000 in
/-- Each determines the contents it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl⟩

set_option maxHeartbeats 40000000 in
/-- Each writes one buffer, a value of the program and no argument of it. -/
theorem ops3_keeps : (ops3 : List (HloOp τ sig (Elt F))).Forall KeepsArgs :=
  ⟨keepsArgs main_cst_42 rfl (by decide),
   keepsArgs main_v136 rfl (by decide),
   keepsArgs main_v137 rfl (by decide),
   keepsArgs main_v138 rfl (by decide),
   keepsArgs main_v139 rfl (by decide),
   keepsArgs main_v140 rfl (by decide),
   keepsArgs main_v141 rfl (by decide),
   keepsArgs main_v142 rfl (by decide),
   keepsArgs main_v143 rfl (by decide),
   keepsArgs main_v144 rfl (by decide),
   keepsArgs main_v145 rfl (by decide),
   keepsArgs main_v146 rfl (by decide),
   keepsArgs main_v147 rfl (by decide),
   keepsArgs main_v148 rfl (by decide),
   keepsArgs main_v149 rfl (by decide)⟩

/-- The last window is its operations and the return: both sides unfold to one chain of steps. -/
theorem part3_eq (c : Dev nD) : main_part3 (F := F) c = seq ops3 := by
  chain_rfl

end Cert.ReferenceIdeal.HRun

end
-- ==== Proof.RefRun.lean ====
/- The run of the reference program's @main: its operations as one list (the four windows' one after the other, every
   module-local function's body written out at its call), the program equal to that straight line, and from that — every
   weakly fair execution terminates, each TensorCore buffer ending at the fold of the operations' results over the launch
   contents; no operation writes an argument, so the six argument buffers end as they began. -/
import proofs.«176581_j38010460570140_2_alg».proof.Proof.RefRun0
import proofs.«176581_j38010460570140_2_alg».proof.Proof.RefRun1
import proofs.«176581_j38010460570140_2_alg».proof.Proof.RefRun2
import proofs.«176581_j38010460570140_2_alg».proof.Proof.RefRun3

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order: the four windows' lists one after the other. -/
abbrev ops : List (HloOp τ sig (Elt F)) := ops0 ++ (ops1 ++ (ops2 ++ ops3))

/-- @main runs its four windows in order; each window followed by the rest is its operations followed by the rest, and
    lines run one after the other are their concatenation run as one. -/
theorem main_eq (c : Dev nD) : main (F := F) c = seq ops := by
  show (main_part0 (F := F) c >>= fun _ => main_part1 (F := F) c >>= fun _ => main_part2 (F := F) c >>= fun _ =>
      main_part3 (F := F) c) = seq (ops0 ++ (ops1 ++ (ops2 ++ ops3)))
  rw [seq_append, seq_append, seq_append, part0_eq, part1_eq, part2_eq, part3_eq]

/-- A property every operation of each window has, every operation of @main has. -/
theorem forall_ops {p : HloOp τ sig (Elt F) → Prop} (h0 : (ops0 : List (HloOp τ sig (Elt F))).Forall p)
    (h1 : (ops1 : List (HloOp τ sig (Elt F))).Forall p) (h2 : (ops2 : List (HloOp τ sig (Elt F))).Forall p)
    (h3 : (ops3 : List (HloOp τ sig (Elt F))).Forall p) : ∀ op ∈ (ops : List (HloOp τ sig (Elt F))), p op := by
  intro op h
  rcases List.mem_append.mp h with h | h
  · exact List.forall_iff_forall_mem.mp h0 op h
  rcases List.mem_append.mp h with h | h
  · exact List.forall_iff_forall_mem.mp h1 op h
  rcases List.mem_append.mp h with h | h
  · exact List.forall_iff_forall_mem.mp h2 op h
  · exact List.forall_iff_forall_mem.mp h3 op h

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  List.forall_iff_forall_mem.mpr (forall_ops ops0_sub ops1_sub ops2_sub ops3_sub)

/-- Each operation determines the contents it writes. -/
theorem ops_fresh : ∀ op ∈ (ops : List (HloOp τ sig (Elt F))), op.fresh = ∅ :=
  forall_ops ops0_fresh ops1_fresh ops2_fresh ops3_fresh

/-- No operation writes an argument. -/
theorem ops_keeps : ∀ op ∈ (ops : List (HloOp τ sig (Elt F))), KeepsArgs op :=
  forall_ops ops0_keeps ops1_keeps ops2_keeps ops3_keeps

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- A buffer of index below six — an argument — holds after the line what it held before: no operation writes it. -/
theorem arg_kept_of (V : Valuation τ sig (Elt F)) (r : Ref sig .tc) (hr : r.idx.val < 6) :
    after ops V (r : DevRef τ sig) = V (r : DevRef τ sig) :=
  after_of_forall_not_mem ops V fun op hop => ops_keeps op hop r hr

theorem arg0_kept (V : Valuation τ sig (Elt F)) : after ops V (main_arg0 : DevRef τ sig) = V (main_arg0 : DevRef τ sig) :=
  arg_kept_of V main_arg0 (by decide)
theorem arg1_kept (V : Valuation τ sig (Elt F)) : after ops V (main_arg1 : DevRef τ sig) = V (main_arg1 : DevRef τ sig) :=
  arg_kept_of V main_arg1 (by decide)
theorem arg2_kept (V : Valuation τ sig (Elt F)) : after ops V (main_arg2 : DevRef τ sig) = V (main_arg2 : DevRef τ sig) :=
  arg_kept_of V main_arg2 (by decide)
theorem arg3_kept (V : Valuation τ sig (Elt F)) : after ops V (main_arg3 : DevRef τ sig) = V (main_arg3 : DevRef τ sig) :=
  arg_kept_of V main_arg3 (by decide)
theorem arg4_kept (V : Valuation τ sig (Elt F)) : after ops V (main_arg4 : DevRef τ sig) = V (main_arg4 : DevRef τ sig) :=
  arg_kept_of V main_arg4 (by decide)
theorem arg5_kept (V : Valuation τ sig (Elt F)) : after ops V (main_arg5 : DevRef τ sig) = V (main_arg5 : DevRef τ sig) :=
  arg_kept_of V main_arg5 (by decide)

/-- The six arguments keep their contents through the line. -/
theorem arg_kept (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig) :=
  ⟨arg0_kept V, arg1_kept V, arg2_kept V, arg3_kept V, arg4_kept V, arg5_kept V⟩

/-- The program runs — every weakly fair execution terminates, nothing faulting — and its argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_arg0).trans (arg0_kept (launchContents m c)), (h c main_arg1).trans (arg1_kept (launchContents m c)),
       (h c main_arg2).trans (arg2_kept (launchContents m c)), (h c main_arg3).trans (arg3_kept (launchContents m c)),
       (h c main_arg4).trans (arg4_kept (launchContents m c)), (h c main_arg5).trans (arg5_kept (launchContents m c))⟩)
    (run_main m ρ)

end Cert.ReferenceIdeal.HRun

end
-- ==== Proof.RefStageBase.lean ====
/- The reading of a line of operations in which every operation writes a buffer of its own, the buffers numbered in the
   order of the operations: what the line leaves in the buffer of its i-th operation is that operation's function of what
   the line leaves in its operands' buffers. -/
import proofs.«176581_j38010460570140_2_alg».proof.Proof.RefRunBase

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-! ## A line whose operations write the buffers in order -/

/-- The i-th entry of a list. -/
def nth? {α : Type} : List α → Nat → Option α
  | [], _ => none
  | a :: _, 0 => some a
  | _ :: l, i + 1 => nth? l i

/-- The operation writes exactly one buffer, the reference of index k. -/
def WritesAt (k : Nat) (op : HloOp τ sig (Elt F)) : Prop :=
  ∃ y : Ref sig .tc, op.writes = {Proc.devRef .tc y} ∧ y.idx.val = k

/-- The operations write, one each and in order, the references of index k, k + 1, …: every value of the program has
    a buffer of its own, numbered in the order of the statements. -/
def Ordered : Nat → List (HloOp τ sig (Elt F)) → Prop
  | _, [] => True
  | k, op :: l => WritesAt k op ∧ Ordered (k + 1) l

/-- An operation leaves every buffer but the one it writes. -/
theorem WritesAt.result_ne {k : Nat} {op : HloOp τ sig (Elt F)} (h : WritesAt k op) (W : Valuation τ sig (Elt F))
    (r : Ref sig .tc) (hr : r.idx.val ≠ k) : op.result W (Proc.devRef .tc r) = W (Proc.devRef .tc r) := by
  obtain ⟨y, hw, hy⟩ := h
  apply HloOp.result_of_not_mem
  rw [hw, Finset.mem_singleton]
  intro e
  have h := Proc.devRef_injective _ e
  subst h
  exact hr hy

/-- Two ordered lines one after the other are ordered. -/
theorem Ordered.append : ∀ (l₁ l₂ : List (HloOp τ sig (Elt F))) (k : Nat), Ordered k l₁ → Ordered (k + l₁.length) l₂ →
    Ordered k (l₁ ++ l₂)
  | [], _, _, _, h => h
  | a :: l₁, l₂, k, h1, h2 =>
    ⟨h1.1, Ordered.append l₁ l₂ (k + 1) h1.2 (by
      have e : k + (a :: l₁).length = k + 1 + l₁.length := by rw [List.length_cons]; omega
      rw [← e]; exact h2)⟩

/-- A line ordered from k on leaves the buffers of index below k. -/
theorem Ordered.after_lt : ∀ (l : List (HloOp τ sig (Elt F))) (k : Nat), Ordered k l → ∀ (W : Valuation τ sig (Elt F))
    (r : Ref sig .tc), r.idx.val < k → after l W (Proc.devRef .tc r) = W (Proc.devRef .tc r)
  | [], _, _, _, _, _ => rfl
  | op :: l, k, h, W, r, hr => by
    rw [after_cons, Ordered.after_lt l (k + 1) h.2 _ r (by omega), h.1.result_ne W r (by omega)]

/-- In a line ordered from k on, the buffer of index k + i holds at the end what the i-th operation writes into it,
    from the contents the operations before it leave; and a buffer of smaller index holds at the end what it holds
    when the i-th operation starts. -/
theorem Ordered.after_at : ∀ (l : List (HloOp τ sig (Elt F))) (k : Nat), Ordered k l → ∀ (i : Nat)
    (op : HloOp τ sig (Elt F)), nth? l i = some op → ∀ (V : Valuation τ sig (Elt F)),
    (∀ r : Ref sig .tc, r.idx.val = k + i →
        after l V (Proc.devRef .tc r) = op.result (after (l.take i) V) (Proc.devRef .tc r))
    ∧ (∀ r : Ref sig .tc, r.idx.val < k + i → after l V (Proc.devRef .tc r) = after (l.take i) V (Proc.devRef .tc r))
  | [], _, _, _, _, h, _ => by cases h
  | a :: l, k, hO, 0, op, h, V => by
    have e : a = op := Option.some.inj h
    subst e
    refine ⟨fun r hr => ?_, fun r hr => ?_⟩
    · rw [after_cons, List.take_zero, after_nil, Ordered.after_lt l (k + 1) hO.2 _ r (by omega)]
    · rw [after_cons, List.take_zero, after_nil, Ordered.after_lt l (k + 1) hO.2 _ r (by omega),
        hO.1.result_ne V r (by omega)]
  | a :: l, k, hO, i + 1, op, h, V => by
    have ih := Ordered.after_at l (k + 1) hO.2 i op h (a.result V)
    refine ⟨fun r hr => ?_, fun r hr => ?_⟩
    · rw [after_cons, List.take_succ_cons, after_cons]; exact ih.1 r (by omega)
    · rw [after_cons, List.take_succ_cons, after_cons]; exact ih.2 r (by omega)

section Stage

variable {l : List (HloOp τ sig (Elt F))} {k : Nat} (hO : Ordered k l) (i : Nat)
include hO

/-- The buffer of a constant holds the constant. -/
theorem stage_nullary {y : Ref sig .tc} {v : y.ty.Contents (Elt F)} {hy}
    (hop : nth? l i = some (nullary y v hy)) (hyi : y.idx.val = k + i) (V : Valuation τ sig (Elt F)) :
    after l V (Proc.devRef .tc y) = v := by
  obtain ⟨h1, _⟩ := Ordered.after_at l k hO i _ hop V
  rw [h1 y hyi, nullary_result]

/-- The buffer of a one-operand operation holds its function of what the operand's buffer holds. -/
theorem stage_unary {x y : Ref sig .tc} {f : x.ty.Contents (Elt F) → y.ty.Contents (Elt F)} {hx hy}
    (hop : nth? l i = some (unary x y f hx hy)) (hyi : y.idx.val = k + i) (hxi : x.idx.val < k + i)
    (V : Valuation τ sig (Elt F)) :
    after l V (Proc.devRef .tc y) = f (after l V (Proc.devRef .tc x)) := by
  obtain ⟨h1, h2⟩ := Ordered.after_at l k hO i _ hop V
  rw [h1 y hyi, unary_result, h2 x hxi]

/-- The same for two operands. -/
theorem stage_binary {a b y : Ref sig .tc} {f : a.ty.Contents (Elt F) → b.ty.Contents (Elt F) → y.ty.Contents (Elt F)}
    {ha hb hy} (hop : nth? l i = some (binary a b y f ha hb hy)) (hyi : y.idx.val = k + i)
    (hai : a.idx.val < k + i) (hbi : b.idx.val < k + i) (V : Valuation τ sig (Elt F)) :
    after l V (Proc.devRef .tc y) = f (after l V (Proc.devRef .tc a)) (after l V (Proc.devRef .tc b)) := by
  obtain ⟨h1, h2⟩ := Ordered.after_at l k hO i _ hop V
  rw [h1 y hyi, binary_result, h2 a hai, h2 b hbi]

/-- The same for three operands. -/
theorem stage_ternary {c a b y : Ref sig .tc}
    {f : c.ty.Contents (Elt F) → a.ty.Contents (Elt F) → b.ty.Contents (Elt F) → y.ty.Contents (Elt F)}
    {hc ha hb hy} (hop : nth? l i = some (ternary c a b y f hc ha hb hy)) (hyi : y.idx.val = k + i)
    (hci : c.idx.val < k + i) (hai : a.idx.val < k + i) (hbi : b.idx.val < k + i) (V : Valuation τ sig (Elt F)) :
    after l V (Proc.devRef .tc y)
      = f (after l V (Proc.devRef .tc c)) (after l V (Proc.devRef .tc a)) (after l V (Proc.devRef .tc b)) := by
  obtain ⟨h1, h2⟩ := Ordered.after_at l k hO i _ hop V
  rw [h1 y hyi, ternary_result, h2 c hci, h2 a hai, h2 b hbi]

/-- The buffer of a reshape holds the operand's contents read in the new shape. -/
theorem stage_reshape {x y : Ref sig .tc} {he hn hx hy}
    (hop : nth? l i = some (reshape (Val := Elt F) x y he hn hx hy)) (hyi : y.idx.val = k + i)
    (hxi : x.idx.val < k + i) (V : Valuation τ sig (Elt F)) :
    after l V (Proc.devRef .tc y) = fun j => he ▸ shapeCast y.ty.shape (after l V (Proc.devRef .tc x)) hn j := by
  obtain ⟨h1, h2⟩ := Ordered.after_at l k hO i _ hop V
  rw [h1 y hyi, reshape_result, h2 x hxi]

/-- The same for a family of operands. -/
theorem stage_nary {n : Nat} {xs : Fin n → Ref sig .tc} {y : Ref sig .tc}
    {f : ((j : Fin n) → (xs j).ty.Contents (Elt F)) → y.ty.Contents (Elt F)} {hxs hy}
    (hop : nth? l i = some (nary xs y f hxs hy)) (hyi : y.idx.val = k + i)
    (hxi : ∀ j, (xs j).idx.val < k + i) (V : Valuation τ sig (Elt F)) :
    after l V (Proc.devRef .tc y) = f (fun j => after l V (Proc.devRef .tc (xs j))) := by
  obtain ⟨h1, h2⟩ := Ordered.after_at l k hO i _ hop V
  rw [h1 y hyi, nary_result]
  exact congrArg f (funext fun j => (h2 (xs j) (hxi j)).symm)

end Stage

end Cert.ReferenceIdeal.HRun

end
-- ==== Proof.RefOrd.lean ====
/- Every operation of the reference's @main writes one buffer, and the operations write the buffers in the order of the
   signature: the k-th operation the reference of index 6 + k (the six arguments come first). -/
import proofs.«176581_j38010460570140_2_alg».proof.Proof.RefRun
import proofs.«176581_j38010460570140_2_alg».proof.Proof.RefStageBase

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
theorem ops0_ordered : Ordered 6 (ops0 : List (HloOp τ sig (Elt F))) :=
  ⟨⟨main_v0, rfl, rfl⟩,
   ⟨main_v1, rfl, rfl⟩,
   ⟨main_v2, rfl, rfl⟩,
   ⟨main_v3, rfl, rfl⟩,
   ⟨main_v4, rfl, rfl⟩,
   ⟨main_v5, rfl, rfl⟩,
   ⟨main_cst, rfl, rfl⟩,
   ⟨main_v6, rfl, rfl⟩,
   ⟨main_v7, rfl, rfl⟩,
   ⟨main_cst_0, rfl, rfl⟩,
   ⟨main_v8, rfl, rfl⟩,
   ⟨main_v9, rfl, rfl⟩,
   ⟨main_v10, rfl, rfl⟩,
   ⟨main_v11, rfl, rfl⟩,
   ⟨main_v12, rfl, rfl⟩,
   ⟨main_v13, rfl, rfl⟩,
   ⟨main_call0_v0, rfl, rfl⟩,
   ⟨main_call0_call0_cst, rfl, rfl⟩,
   ⟨main_call0_call0_v0, rfl, rfl⟩,
   ⟨main_call0_call0_v1, rfl, rfl⟩,
   ⟨main_call0_call0_v2, rfl, rfl⟩,
   ⟨main_call0_call0_v3, rfl, rfl⟩,
   ⟨main_call0_call0_v4, rfl, rfl⟩,
   ⟨main_call0_call0_v5, rfl, rfl⟩,
   ⟨main_call0_call0_v6, rfl, rfl⟩,
   ⟨main_call0_call0_v7, rfl, rfl⟩,
   ⟨main_call0_call0_v8, rfl, rfl⟩,
   ⟨main_call0_call0_v9, rfl, rfl⟩,
   ⟨main_call0_call0_v10, rfl, rfl⟩,
   ⟨main_call0_call0_v11, rfl, rfl⟩,
   ⟨main_call0_v1, rfl, rfl⟩,
   ⟨main_v14, rfl, rfl⟩,
   ⟨main_v15, rfl, rfl⟩,
   ⟨main_cst_1, rfl, rfl⟩,
   ⟨main_v16, rfl, rfl⟩,
   ⟨main_v17, rfl, rfl⟩,
   ⟨main_v18, rfl, rfl⟩,
   ⟨main_call1_v0, rfl, rfl⟩,
   ⟨main_call1_call0_cst, rfl, rfl⟩,
   ⟨main_call1_call0_v0, rfl, rfl⟩,
   ⟨main_call1_call0_v1, rfl, rfl⟩,
   ⟨main_call1_call0_v2, rfl, rfl⟩,
   ⟨main_call1_call0_v3, rfl, rfl⟩,
   ⟨main_call1_call0_v4, rfl, rfl⟩,
   ⟨main_call1_call0_v5, rfl, rfl⟩,
   ⟨main_call1_call0_v6, rfl, rfl⟩,
   ⟨main_call1_call0_v7, rfl, rfl⟩,
   ⟨main_call1_call0_v8, rfl, rfl⟩,
   ⟨main_call1_call0_v9, rfl, rfl⟩,
   ⟨main_call1_call0_v10, rfl, rfl⟩,
   ⟨main_call1_call0_v11, rfl, rfl⟩,
   ⟨main_call1_v1, rfl, rfl⟩,
   ⟨main_v19, rfl, rfl⟩,
   ⟨main_v20, rfl, rfl⟩,
   ⟨main_v21, rfl, rfl⟩,
   ⟨main_v22, rfl, rfl⟩,
   ⟨main_cst_2, rfl, rfl⟩,
   ⟨main_v23, rfl, rfl⟩,
   ⟨main_cst_3, rfl, rfl⟩,
   ⟨main_v24, rfl, rfl⟩,
   ⟨main_cst_4, rfl, rfl⟩,
   ⟨main_v25, rfl, rfl⟩,
   ⟨main_v26, rfl, rfl⟩,
   ⟨main_v27, rfl, rfl⟩,
   ⟨main_cst_5, rfl, rfl⟩,
   ⟨main_v28, rfl, rfl⟩,
   ⟨main_cst_6, rfl, rfl⟩,
   ⟨main_v29, rfl, rfl⟩,
   ⟨main_cst_7, rfl, rfl⟩,
   ⟨main_v30, rfl, rfl⟩,
   ⟨main_c, rfl, rfl⟩,
   ⟨main_v31, rfl, rfl⟩,
   ⟨main_v32, rfl, rfl⟩,
   ⟨main_c_8, rfl, rfl⟩,
   ⟨main_v33, rfl, rfl⟩,
   ⟨main_v34, rfl, rfl⟩,
   ⟨main_v35, rfl, rfl⟩,
   ⟨main_c_9, rfl, rfl⟩,
   ⟨main_v36, rfl, rfl⟩,
   ⟨main_v37, rfl, rfl⟩,
   ⟨main_v38, rfl, rfl⟩,
   ⟨main_v39, rfl, rfl⟩,
   ⟨main_v40, rfl, rfl⟩,
   ⟨main_v41, rfl, rfl⟩,
   ⟨main_c_10, rfl, rfl⟩,
   ⟨main_v42, rfl, rfl⟩,
   ⟨main_v43, rfl, rfl⟩,
   ⟨main_c_11, rfl, rfl⟩,
   ⟨main_v44, rfl, rfl⟩,
   ⟨main_v45, rfl, rfl⟩,
   trivial⟩

set_option maxHeartbeats 40000000 in
theorem ops1_ordered : Ordered 96 (ops1 : List (HloOp τ sig (Elt F))) :=
  ⟨⟨main_v46, rfl, rfl⟩,
   ⟨main_c_12, rfl, rfl⟩,
   ⟨main_v47, rfl, rfl⟩,
   ⟨main_v48, rfl, rfl⟩,
   ⟨main_v49, rfl, rfl⟩,
   ⟨main_v50, rfl, rfl⟩,
   ⟨main_v51, rfl, rfl⟩,
   ⟨main_v52, rfl, rfl⟩,
   ⟨main_v53, rfl, rfl⟩,
   ⟨main_c_13, rfl, rfl⟩,
   ⟨main_v54, rfl, rfl⟩,
   ⟨main_v55, rfl, rfl⟩,
   ⟨main_c_14, rfl, rfl⟩,
   ⟨main_v56, rfl, rfl⟩,
   ⟨main_v57, rfl, rfl⟩,
   ⟨main_v58, rfl, rfl⟩,
   ⟨main_c_15, rfl, rfl⟩,
   ⟨main_v59, rfl, rfl⟩,
   ⟨main_v60, rfl, rfl⟩,
   ⟨main_v61, rfl, rfl⟩,
   ⟨main_v62, rfl, rfl⟩,
   ⟨main_v63, rfl, rfl⟩,
   ⟨main_v64, rfl, rfl⟩,
   ⟨main_c_16, rfl, rfl⟩,
   ⟨main_v65, rfl, rfl⟩,
   ⟨main_v66, rfl, rfl⟩,
   ⟨main_c_17, rfl, rfl⟩,
   ⟨main_v67, rfl, rfl⟩,
   ⟨main_v68, rfl, rfl⟩,
   ⟨main_v69, rfl, rfl⟩,
   ⟨main_c_18, rfl, rfl⟩,
   ⟨main_v70, rfl, rfl⟩,
   ⟨main_v71, rfl, rfl⟩,
   ⟨main_v72, rfl, rfl⟩,
   ⟨main_v73, rfl, rfl⟩,
   ⟨main_v74, rfl, rfl⟩,
   ⟨main_v75, rfl, rfl⟩,
   ⟨main_v76, rfl, rfl⟩,
   ⟨main_v77, rfl, rfl⟩,
   ⟨main_v78, rfl, rfl⟩,
   ⟨main_v79, rfl, rfl⟩,
   ⟨main_v80, rfl, rfl⟩,
   ⟨main_cst_19, rfl, rfl⟩,
   ⟨main_v81, rfl, rfl⟩,
   ⟨main_v82, rfl, rfl⟩,
   ⟨main_v83, rfl, rfl⟩,
   ⟨main_v84, rfl, rfl⟩,
   ⟨main_v85, rfl, rfl⟩,
   ⟨main_v86, rfl, rfl⟩,
   ⟨main_v87, rfl, rfl⟩,
   ⟨main_v88, rfl, rfl⟩,
   ⟨main_cst_20, rfl, rfl⟩,
   ⟨main_v89, rfl, rfl⟩,
   ⟨main_v90, rfl, rfl⟩,
   ⟨main_v91, rfl, rfl⟩,
   ⟨main_cst_21, rfl, rfl⟩,
   ⟨main_v92, rfl, rfl⟩,
   ⟨main_v93, rfl, rfl⟩,
   ⟨main_v94, rfl, rfl⟩,
   ⟨main_v95, rfl, rfl⟩,
   trivial⟩

set_option maxHeartbeats 40000000 in
theorem ops2_ordered : Ordered 156 (ops2 : List (HloOp τ sig (Elt F))) :=
  ⟨⟨main_v96, rfl, rfl⟩,
   ⟨main_cst_22, rfl, rfl⟩,
   ⟨main_v97, rfl, rfl⟩,
   ⟨main_cst_23, rfl, rfl⟩,
   ⟨main_v98, rfl, rfl⟩,
   ⟨main_cst_24, rfl, rfl⟩,
   ⟨main_v99, rfl, rfl⟩,
   ⟨main_v100, rfl, rfl⟩,
   ⟨main_v101, rfl, rfl⟩,
   ⟨main_v102, rfl, rfl⟩,
   ⟨main_cst_25, rfl, rfl⟩,
   ⟨main_v103, rfl, rfl⟩,
   ⟨main_cst_26, rfl, rfl⟩,
   ⟨main_v104, rfl, rfl⟩,
   ⟨main_cst_27, rfl, rfl⟩,
   ⟨main_v105, rfl, rfl⟩,
   ⟨main_v106, rfl, rfl⟩,
   ⟨main_v107, rfl, rfl⟩,
   ⟨main_v108, rfl, rfl⟩,
   ⟨main_v109, rfl, rfl⟩,
   ⟨main_v110, rfl, rfl⟩,
   ⟨main_v111, rfl, rfl⟩,
   ⟨main_v112, rfl, rfl⟩,
   ⟨main_v113, rfl, rfl⟩,
   ⟨main_cst_28, rfl, rfl⟩,
   ⟨main_v114, rfl, rfl⟩,
   ⟨main_cst_29, rfl, rfl⟩,
   ⟨main_v115, rfl, rfl⟩,
   ⟨main_cst_30, rfl, rfl⟩,
   ⟨main_v116, rfl, rfl⟩,
   ⟨main_v117, rfl, rfl⟩,
   ⟨main_v118, rfl, rfl⟩,
   ⟨main_v119, rfl, rfl⟩,
   ⟨main_v120, rfl, rfl⟩,
   ⟨main_v121, rfl, rfl⟩,
   ⟨main_c_31, rfl, rfl⟩,
   ⟨main_call2_cst, rfl, rfl⟩,
   ⟨main_call2_v0, rfl, rfl⟩,
   ⟨main_call2_v1, rfl, rfl⟩,
   ⟨main_call2_cst_0, rfl, rfl⟩,
   ⟨main_call2_v2, rfl, rfl⟩,
   ⟨main_call2_v3, rfl, rfl⟩,
   ⟨main_call2_v4, rfl, rfl⟩,
   ⟨main_call2_v5, rfl, rfl⟩,
   ⟨main_call2_v6, rfl, rfl⟩,
   ⟨main_call2_v7, rfl, rfl⟩,
   ⟨main_call2_cst_1, rfl, rfl⟩,
   ⟨main_call2_v8, rfl, rfl⟩,
   ⟨main_call2_cst_2, rfl, rfl⟩,
   ⟨main_call2_v9, rfl, rfl⟩,
   ⟨main_call2_v10, rfl, rfl⟩,
   ⟨main_call2_cst_3, rfl, rfl⟩,
   ⟨main_call2_v11, rfl, rfl⟩,
   ⟨main_call2_cst_4, rfl, rfl⟩,
   ⟨main_call2_call0_v0, rfl, rfl⟩,
   ⟨main_v122, rfl, rfl⟩,
   ⟨main_v123, rfl, rfl⟩,
   ⟨main_cst_32, rfl, rfl⟩,
   ⟨main_v124, rfl, rfl⟩,
   ⟨main_cst_33, rfl, rfl⟩,
   ⟨main_v125, rfl, rfl⟩,
   ⟨main_cst_34, rfl, rfl⟩,
   ⟨main_v126, rfl, rfl⟩,
   ⟨main_v127, rfl, rfl⟩,
   ⟨main_cst_35, rfl, rfl⟩,
   ⟨main_v128, rfl, rfl⟩,
   ⟨main_cst_36, rfl, rfl⟩,
   ⟨main_v129, rfl, rfl⟩,
   ⟨main_cst_37, rfl, rfl⟩,
   ⟨main_v130, rfl, rfl⟩,
   ⟨main_cst_38, rfl, rfl⟩,
   ⟨main_v131, rfl, rfl⟩,
   ⟨main_v132, rfl, rfl⟩,
   ⟨main_cst_39, rfl, rfl⟩,
   ⟨main_v133, rfl, rfl⟩,
   ⟨main_cst_40, rfl, rfl⟩,
   ⟨main_v134, rfl, rfl⟩,
   ⟨main_cst_41, rfl, rfl⟩,
   ⟨main_v135, rfl, rfl⟩,
   trivial⟩

set_option maxHeartbeats 40000000 in
theorem ops3_ordered : Ordered 235 (ops3 : List (HloOp τ sig (Elt F))) :=
  ⟨⟨main_cst_42, rfl, rfl⟩,
   ⟨main_v136, rfl, rfl⟩,
   ⟨main_v137, rfl, rfl⟩,
   ⟨main_v138, rfl, rfl⟩,
   ⟨main_v139, rfl, rfl⟩,
   ⟨main_v140, rfl, rfl⟩,
   ⟨main_v141, rfl, rfl⟩,
   ⟨main_v142, rfl, rfl⟩,
   ⟨main_v143, rfl, rfl⟩,
   ⟨main_v144, rfl, rfl⟩,
   ⟨main_v145, rfl, rfl⟩,
   ⟨main_v146, rfl, rfl⟩,
   ⟨main_v147, rfl, rfl⟩,
   ⟨main_v148, rfl, rfl⟩,
   ⟨main_v149, rfl, rfl⟩,
   trivial⟩

/-- All of @main's operations write the buffers in order, from the first value's on. -/
theorem ops_ordered : Ordered 6 (ops : List (HloOp τ sig (Elt F))) :=
  Ordered.append _ _ 6 ops0_ordered (Ordered.append _ _ (6 + (ops0 : List (HloOp τ sig (Elt F))).length) ops1_ordered
    (Ordered.append _ _ (6 + (ops0 : List (HloOp τ sig (Elt F))).length + (ops1 : List (HloOp τ sig (Elt F))).length) ops2_ordered ops3_ordered))

end Cert.ReferenceIdeal.HRun

end
-- ==== Proof.RefStage0.lean ====
/- The step equations of window 0 of the reference's @main: for each operation, what the whole line leaves in its
   buffer is its function of what the line leaves in its operands' buffers. -/
import proofs.«176581_j38010460570140_2_alg».proof.Proof.RefOrd

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

theorem at_main_v0 (V : Valuation τ sig (Elt F)) :
    after ops V (main_v0 : DevRef τ sig) = ((extractStridedSlice S1x6400000 ![0, 0] · slices_S2x6400000_S1x6400000_0_0) : (⟨S2x6400000, .i32⟩ : BufTy).Contents (Elt F) → (⟨S1x6400000, .i32⟩ : BufTy).Contents (Elt F)) (after ops V (main_arg5 : DevRef τ sig)) :=
  stage_unary ops_ordered 0 (show nth? (ops : List (HloOp τ sig (Elt F))) 0 = some (StableHlo.unary main_arg5 main_v0 ((extractStridedSlice S1x6400000 ![0, 0] · slices_S2x6400000_S1x6400000_0_0) : (⟨S2x6400000, .i32⟩ : BufTy).Contents (Elt F) → (⟨S1x6400000, .i32⟩ : BufTy).Contents (Elt F))) by chain_rfl) rfl (by decide) V

theorem at_main_v1 (V : Valuation τ sig (Elt F)) :
    after ops V (main_v1 : DevRef τ sig) = shapeCast S6400000 (after ops V (main_v0 : DevRef τ sig)) shapeCasts_S1x6400000_S6400000 :=
  stage_reshape ops_ordered 1 (show nth? (ops : List (HloOp τ sig (Elt F))) 1 = some (StableHlo.reshape main_v0 main_v1 rfl shapeCasts_S1x6400000_S6400000) by chain_rfl) rfl (by decide) V

theorem at_main_v2 (V : Valuation τ sig (Elt F)) :
    after ops V (main_v2 : DevRef τ sig) = ((extractStridedSlice S1x6400000 ![1, 0] · slices_S2x6400000_S1x6400000_1_0) : (⟨S2x6400000, .i32⟩ : BufTy).Contents (Elt F) → (⟨S1x6400000, .i32⟩ : BufTy).Contents (Elt F)) (after ops V (main_arg5 : DevRef τ sig)) :=
  stage_unary ops_ordered 2 (show nth? (ops : List (HloOp τ sig (Elt F))) 2 = some (StableHlo.unary main_arg5 main_v2 ((extractStridedSlice S1x6400000 ![1, 0] · slices_S2x6400000_S1x6400000_1_0) : (⟨S2x6400000, .i32⟩ : BufTy).Contents (Elt F) → (⟨S1x6400000, .i32⟩ : BufTy).Contents (Elt F))) by chain_rfl) rfl (by decide) V

theorem at_main_v3 (V : Valuation τ sig (Elt F)) :
    after ops V (main_v3 : DevRef τ sig) = shapeCast S6400000 (after ops V (main_v2 : DevRef τ sig)) shapeCasts_S1x6400000_S6400000 :=
  stage_reshape ops_ordered 3 (show nth? (ops : List (HloOp τ sig (Elt F))) 3 = some (StableHlo.reshape main_v2 main_v3 rfl shapeCasts_S1x6400000_S6400000) by chain_rfl) rfl (by decide) V

theorem at_main_v4 (V : Valuation τ sig (Elt F)) :
    after ops V (main_v4 : DevRef τ sig) = (Host.negf : (⟨S6400000, .f32⟩ : BufTy).Contents (Elt F) → (⟨S6400000, .f32⟩ : BufTy).Contents (Elt F)) (after ops V (main_arg1 : DevRef τ sig)) :=
  stage_unary ops_ordered 4 (show nth? (ops : List (HloOp τ sig (Elt F))) 4 = some (StableHlo.unary main_arg1 main_v4 (Host.negf : (⟨S6400000, .f32⟩ : BufTy).Contents (Elt F) → (⟨S6400000, .f32⟩ : BufTy).Contents (Elt F))) by chain_rfl) rfl (by decide) V

theorem at_main_v5 (V : Valuation τ sig (Elt F)) :
    after ops V (main_v5 : DevRef τ sig) = (Host.exp : (⟨S6400000, .f32⟩ : BufTy).Contents (Elt F) → (⟨S6400000, .f32⟩ : BufTy).Contents (Elt F)) (after ops V (main_v4 : DevRef τ sig)) :=
  stage_unary ops_ordered 5 (show nth? (ops : List (HloOp τ sig (Elt F))) 5 = some (StableHlo.unary main_v4 main_v5 (Host.exp : (⟨S6400000, .f32⟩ : BufTy).Contents (Elt F) → (⟨S6400000, .f32⟩ : BufTy).Contents (Elt F))) by chain_rfl) rfl (by decide) V

theorem at_main_cst (V : Valuation τ sig (Elt F)) :
    after ops V (main_cst : DevRef τ sig) = constant S_ .f32 0x3F800000#32 :=
  stage_nullary ops_ordered 6 (show nth? (ops : List (HloOp τ sig (Elt F))) 6 = some (StableHlo.nullary main_cst (constant S_ .f32 0x3F800000#32)) by chain_rfl) rfl V

theorem at_main_v6 (V : Valuation τ sig (Elt F)) :
    after ops V (main_v6 : DevRef τ sig) = (broadcastInDim S6400000 ![] bcast_S_S6400000 : (⟨S_, .f32⟩ : BufTy).Contents (Elt F) → (⟨S6400000, .f32⟩ : BufTy).Contents (Elt F)) (after ops V (main_cst : DevRef τ sig)) :=
  stage_unary ops_ordered 7 (show nth? (ops : List (HloOp τ sig (Elt F))) 7 = some (StableHlo.unary main_cst main_v6 (broadcastInDim S6400000 ![] bcast_S_S6400000 : (⟨S_, .f32⟩ : BufTy).Contents (Elt F) → (⟨S6400000, .f32⟩ : BufTy).Contents (Elt F))) by chain_rfl) rfl (by decide) V

theorem at_main_v7 (V : Valuation τ sig (Elt F)) :
    after ops V (main_v7 : DevRef τ sig) = (addf : (⟨S6400000, .f32⟩ : BufTy).Contents (Elt F) → (⟨S6400000, .f32⟩ : BufTy).Contents (Elt F) → (⟨S6400000, .f32⟩ : BufTy).Contents (Elt F)) (after ops V (main_v6 : DevRef τ sig)) (after ops V (main_v5 : DevRef τ sig)) :=
  stage_binary ops_ordered 8 (show nth? (ops : List (HloOp τ sig (Elt F))) 8 = some (StableHlo.binary main_v6 main_v5 main_v7 (addf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_cst_0 (V : Valuation τ sig (Elt F)) :
    after ops V (main_cst_0 : DevRef τ sig) = constant S_ .f32 0x3F800000#32 :=
  stage_nullary ops_ordered 9 (show nth? (ops : List (HloOp τ sig (Elt F))) 9 = some (StableHlo.nullary main_cst_0 (constant S_ .f32 0x3F800000#32)) by chain_rfl) rfl V

theorem at_main_v8 (V : Valuation τ sig (Elt F)) :
    after ops V (main_v8 : DevRef τ sig) = (broadcastInDim S6400000 ![] bcast_S_S6400000 : (⟨S_, .f32⟩ : BufTy).Contents (Elt F) → (⟨S6400000, .f32⟩ : BufTy).Contents (Elt F)) (after ops V (main_cst_0 : DevRef τ sig)) :=
  stage_unary ops_ordered 10 (show nth? (ops : List (HloOp τ sig (Elt F))) 10 = some (StableHlo.unary main_cst_0 main_v8 (broadcastInDim S6400000 ![] bcast_S_S6400000 : (⟨S_, .f32⟩ : BufTy).Contents (Elt F) → (⟨S6400000, .f32⟩ : BufTy).Contents (Elt F))) by chain_rfl) rfl (by decide) V

theorem at_main_v9 (V : Valuation τ sig (Elt F)) :
    after ops V (main_v9 : DevRef τ sig) = (Host.divf : (⟨S6400000, .f32⟩ : BufTy).Contents (Elt F) → (⟨S6400000, .f32⟩ : BufTy).Contents (Elt F) → (⟨S6400000, .f32⟩ : BufTy).Contents (Elt F)) (after ops V (main_v8 : DevRef τ sig)) (after ops V (main_v7 : DevRef τ sig)) :=
  stage_binary ops_ordered 11 (show nth? (ops : List (HloOp τ sig (Elt F))) 11 = some (StableHlo.binary main_v8 main_v7 main_v9 (Host.divf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v10 (V : Valuation τ sig (Elt F)) :
    after ops V (main_v10 : DevRef τ sig) = ((extractStridedSlice S6400000x1 ![0, 0] · slices_S6400000x2_S6400000x1_0_0) : (⟨S6400000x2, .f32⟩ : BufTy).Contents (Elt F) → (⟨S6400000x1, .f32⟩ : BufTy).Contents (Elt F)) (after ops V (main_arg2 : DevRef τ sig)) :=
  stage_unary ops_ordered 12 (show nth? (ops : List (HloOp τ sig (Elt F))) 12 = some (StableHlo.unary main_arg2 main_v10 ((extractStridedSlice S6400000x1 ![0, 0] · slices_S6400000x2_S6400000x1_0_0) : (⟨S6400000x2, .f32⟩ : BufTy).Contents (Elt F) → (⟨S6400000x1, .f32⟩ : BufTy).Contents (Elt F))) by chain_rfl) rfl (by decide) V

theorem at_main_v11 (V : Valuation τ sig (Elt F)) :
    after ops V (main_v11 : DevRef τ sig) = shapeCast S6400000 (after ops V (main_v10 : DevRef τ sig)) shapeCasts_S6400000x1_S6400000 :=
  stage_reshape ops_ordered 13 (show nth? (ops : List (HloOp τ sig (Elt F))) 13 = some (StableHlo.reshape main_v10 main_v11 rfl shapeCasts_S6400000x1_S6400000) by chain_rfl) rfl (by decide) V

theorem at_main_v12 (V : Valuation τ sig (Elt F)) :
    after ops V (main_v12 : DevRef τ sig) = ((extractStridedSlice S6400000x1 ![0, 1] · slices_S6400000x2_S6400000x1_0_1) : (⟨S6400000x2, .f32⟩ : BufTy).Contents (Elt F) → (⟨S6400000x1, .f32⟩ : BufTy).Contents (Elt F)) (after ops V (main_arg2 : DevRef τ sig)) :=
  stage_unary ops_ordered 14 (show nth? (ops : List (HloOp τ sig (Elt F))) 14 = some (StableHlo.unary main_arg2 main_v12 ((extractStridedSlice S6400000x1 ![0, 1] · slices_S6400000x2_S6400000x1_0_1) : (⟨S6400000x2, .f32⟩ : BufTy).Contents (Elt F) → (⟨S6400000x1, .f32⟩ : BufTy).Contents (Elt F))) by chain_rfl) rfl (by decide) V

theorem at_main_v13 (V : Valuation τ sig (Elt F)) :
    after ops V (main_v13 : DevRef τ sig) = shapeCast S6400000 (after ops V (main_v12 : DevRef τ sig)) shapeCasts_S6400000x1_S6400000 :=
  stage_reshape ops_ordered 15 (show nth? (ops : List (HloOp τ sig (Elt F))) 15 = some (StableHlo.reshape main_v12 main_v13 rfl shapeCasts_S6400000x1_S6400000) by chain_rfl) rfl (by decide) V

theorem at_main_call0_v0 (V : Valuation τ sig (Elt F)) :
    after ops V (main_call0_v0 : DevRef τ sig) = (Host.negf : (⟨S6400000, .f32⟩ : BufTy).Contents (Elt F) → (⟨S6400000, .f32⟩ : BufTy).Contents (Elt F)) (after ops V (main_arg1 : DevRef τ sig)) :=
  stage_unary ops_ordered 16 (show nth? (ops : List (HloOp τ sig (Elt F))) 16 = some (StableHlo.TRef.unary (.of main_arg1 : StableHlo.TRef sig ⟨S6400000, .f32⟩) main_call0.v0 Host.negf) by chain_rfl) rfl (by decide) V

theorem at_main_call0_call0_cst (V : Valuation τ sig (Elt F)) :
    after ops V (main_call0_call0_cst : DevRef τ sig) = constant S_ .f32 0x00000000#32 :=
  stage_nullary ops_ordered 17 (show nth? (ops : List (HloOp τ sig (Elt F))) 17 = some (StableHlo.TRef.nullary main_call0.call0.cst (constant S_ .f32 0x00000000#32)) by chain_rfl) rfl V

theorem at_main_call0_call0_v0 (V : Valuation τ sig (Elt F)) :
    after ops V (main_call0_call0_v0 : DevRef τ sig) = ((broadcastInDim S6400000 ![] bcast_S_S6400000) : (⟨S_, .f32⟩ : BufTy).Contents (Elt F) → (⟨S6400000, .f32⟩ : BufTy).Contents (Elt F)) (after ops V (main_call0_call0_cst : DevRef τ sig)) :=
  stage_unary ops_ordered 18 (show nth? (ops : List (HloOp τ sig (Elt F))) 18 = some (StableHlo.TRef.unary main_call0.call0.cst main_call0.call0.v0 (broadcastInDim S6400000 ![] bcast_S_S6400000)) by chain_rfl) rfl (by decide) V

theorem at_main_call0_call0_v1 (V : Valuation τ sig (Elt F)) :
    after ops V (main_call0_call0_v1 : DevRef τ sig) = (maximumf : (⟨S6400000, .f32⟩ : BufTy).Contents (Elt F) → (⟨S6400000, .f32⟩ : BufTy).Contents (Elt F) → (⟨S6400000, .f32⟩ : BufTy).Contents (Elt F)) (after ops V (main_call0_v0 : DevRef τ sig)) (after ops V (main_call0_call0_v0 : DevRef τ sig)) :=
  stage_binary ops_ordered 19 (show nth? (ops : List (HloOp τ sig (Elt F))) 19 = some (StableHlo.TRef.binary main_call0.v0 main_call0.call0.v0 main_call0.call0.v1 maximumf) by chain_rfl) rfl (by decide) (by decide) V

theorem at_main_call0_call0_v2 (V : Valuation τ sig (Elt F)) :
    after ops V (main_call0_call0_v2 : DevRef τ sig) = ((broadcastInDim S6400000 ![] bcast_S_S6400000) : (⟨S_, .f32⟩ : BufTy).Contents (Elt F) → (⟨S6400000, .f32⟩ : BufTy).Contents (Elt F)) (after ops V (main_call0_call0_cst : DevRef τ sig)) :=
  stage_unary ops_ordered 20 (show nth? (ops : List (HloOp τ sig (Elt F))) 20 = some (StableHlo.TRef.unary main_call0.call0.cst main_call0.call0.v2 (broadcastInDim S6400000 ![] bcast_S_S6400000)) by chain_rfl) rfl (by decide) V

theorem at_main_call0_call0_v3 (V : Valuation τ sig (Elt F)) :
    after ops V (main_call0_call0_v3 : DevRef τ sig) = (subf : (⟨S6400000, .f32⟩ : BufTy).Contents (Elt F) → (⟨S6400000, .f32⟩ : BufTy).Contents (Elt F) → (⟨S6400000, .f32⟩ : BufTy).Contents (Elt F)) (after ops V (main_call0_v0 : DevRef τ sig)) (after ops V (main_call0_call0_v2 : DevRef τ sig)) :=
  stage_binary ops_ordered 21 (show nth? (ops : List (HloOp τ sig (Elt F))) 21 = some (StableHlo.TRef.binary main_call0.v0 main_call0.call0.v2 main_call0.call0.v3 subf) by chain_rfl) rfl (by decide) (by decide) V

theorem at_main_call0_call0_v4 (V : Valuation τ sig (Elt F)) :
    after ops V (main_call0_call0_v4 : DevRef τ sig) = ((cmpf .une) : (⟨S6400000, .f32⟩ : BufTy).Contents (Elt F) → (⟨S6400000, .f32⟩ : BufTy).Contents (Elt F) → (⟨S6400000, .i1⟩ : BufTy).Contents (Elt F)) (after ops V (main_call0_call0_v3 : DevRef τ sig)) (after ops V (main_call0_call0_v3 : DevRef τ sig)) :=
  stage_binary ops_ordered 22 (show nth? (ops : List (HloOp τ sig (Elt F))) 22 = some (StableHlo.TRef.binary main_call0.call0.v3 main_call0.call0.v3 main_call0.call0.v4 (cmpf .une)) by chain_rfl) rfl (by decide) (by decide) V

theorem at_main_call0_call0_v5 (V : Valuation τ sig (Elt F)) :
    after ops V (main_call0_call0_v5 : DevRef τ sig) = ((broadcastInDim S6400000 ![] bcast_S_S6400000) : (⟨S_, .f32⟩ : BufTy).Contents (Elt F) → (⟨S6400000, .f32⟩ : BufTy).Contents (Elt F)) (after ops V (main_call0_call0_cst : DevRef τ sig)) :=
  stage_unary ops_ordered 23 (show nth? (ops : List (HloOp τ sig (Elt F))) 23 = some (StableHlo.TRef.unary main_call0.call0.cst main_call0.call0.v5 (broadcastInDim S6400000 ![] bcast_S_S6400000)) by chain_rfl) rfl (by decide) V

theorem at_main_call0_call0_v6 (V : Valuation τ sig (Elt F)) :
    after ops V (main_call0_call0_v6 : DevRef τ sig) = (addf : (⟨S6400000, .f32⟩ : BufTy).Contents (Elt F) → (⟨S6400000, .f32⟩ : BufTy).Contents (Elt F) → (⟨S6400000, .f32⟩ : BufTy).Contents (Elt F)) (after ops V (main_call0_v0 : DevRef τ sig)) (after ops V (main_call0_call0_v5 : DevRef τ sig)) :=
  stage_binary ops_ordered 24 (show nth? (ops : List (HloOp τ sig (Elt F))) 24 = some (StableHlo.TRef.binary main_call0.v0 main_call0.call0.v5 main_call0.call0.v6 addf) by chain_rfl) rfl (by decide) (by decide) V

theorem at_main_call0_call0_v7 (V : Valuation τ sig (Elt F)) :
    after ops V (main_call0_call0_v7 : DevRef τ sig) = (Host.absf : (⟨S6400000, .f32⟩ : BufTy).Contents (Elt F) → (⟨S6400000, .f32⟩ : BufTy).Contents (Elt F)) (after ops V (main_call0_call0_v3 : DevRef τ sig)) :=
  stage_unary ops_ordered 25 (show nth? (ops : List (HloOp τ sig (Elt F))) 25 = some (StableHlo.TRef.unary main_call0.call0.v3 main_call0.call0.v7 Host.absf) by chain_rfl) rfl (by decide) V

theorem at_main_call0_call0_v8 (V : Valuation τ sig (Elt F)) :
    after ops V (main_call0_call0_v8 : DevRef τ sig) = (Host.negf : (⟨S6400000, .f32⟩ : BufTy).Contents (Elt F) → (⟨S6400000, .f32⟩ : BufTy).Contents (Elt F)) (after ops V (main_call0_call0_v7 : DevRef τ sig)) :=
  stage_unary ops_ordered 26 (show nth? (ops : List (HloOp τ sig (Elt F))) 26 = some (StableHlo.TRef.unary main_call0.call0.v7 main_call0.call0.v8 Host.negf) by chain_rfl) rfl (by decide) V

theorem at_main_call0_call0_v9 (V : Valuation τ sig (Elt F)) :
    after ops V (main_call0_call0_v9 : DevRef τ sig) = (Host.exp : (⟨S6400000, .f32⟩ : BufTy).Contents (Elt F) → (⟨S6400000, .f32⟩ : BufTy).Contents (Elt F)) (after ops V (main_call0_call0_v8 : DevRef τ sig)) :=
  stage_unary ops_ordered 27 (show nth? (ops : List (HloOp τ sig (Elt F))) 27 = some (StableHlo.TRef.unary main_call0.call0.v8 main_call0.call0.v9 Host.exp) by chain_rfl) rfl (by decide) V

theorem at_main_call0_call0_v10 (V : Valuation τ sig (Elt F)) :
    after ops V (main_call0_call0_v10 : DevRef τ sig) = (Host.log1p : (⟨S6400000, .f32⟩ : BufTy).Contents (Elt F) → (⟨S6400000, .f32⟩ : BufTy).Contents (Elt F)) (after ops V (main_call0_call0_v9 : DevRef τ sig)) :=
  stage_unary ops_ordered 28 (show nth? (ops : List (HloOp τ sig (Elt F))) 28 = some (StableHlo.TRef.unary main_call0.call0.v9 main_call0.call0.v10 Host.log1p) by chain_rfl) rfl (by decide) V

theorem at_main_call0_call0_v11 (V : Valuation τ sig (Elt F)) :
    after ops V (main_call0_call0_v11 : DevRef τ sig) = (addf : (⟨S6400000, .f32⟩ : BufTy).Contents (Elt F) → (⟨S6400000, .f32⟩ : BufTy).Contents (Elt F) → (⟨S6400000, .f32⟩ : BufTy).Contents (Elt F)) (after ops V (main_call0_call0_v1 : DevRef τ sig)) (after ops V (main_call0_call0_v10 : DevRef τ sig)) :=
  stage_binary ops_ordered 29 (show nth? (ops : List (HloOp τ sig (Elt F))) 29 = some (StableHlo.TRef.binary main_call0.call0.v1 main_call0.call0.v10 main_call0.call0.v11 addf) by chain_rfl) rfl (by decide) (by decide) V

theorem at_main_call0_v1 (V : Valuation τ sig (Elt F)) :
    after ops V (main_call0_v1 : DevRef τ sig) = (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)) (after ops V (main_call0_call0_v4 : DevRef τ sig)) (after ops V (main_call0_call0_v6 : DevRef τ sig)) (after ops V (main_call0_call0_v11 : DevRef τ sig)) :=
  stage_ternary ops_ordered 30 (show nth? (ops : List (HloOp τ sig (Elt F))) 30 = some (StableHlo.TRef.ternary main_call0.call0.v4 main_call0.call0.v6 main_call0.call0.v11 main_call0.call0.v12 select) by chain_rfl) rfl (by decide) (by decide) (by decide) V

theorem at_main_v14 (V : Valuation τ sig (Elt F)) :
    after ops V (main_v14 : DevRef τ sig) = (Host.negf : (⟨S6400000, .f32⟩ : BufTy).Contents (Elt F) → (⟨S6400000, .f32⟩ : BufTy).Contents (Elt F)) (after ops V (main_call0_v1 : DevRef τ sig)) :=
  stage_unary ops_ordered 31 (show nth? (ops : List (HloOp τ sig (Elt F))) 31 = some (StableHlo.TRef.unary main_call0.call0.v12 main_call0.v2 Host.negf) by chain_rfl) rfl (by decide) V

theorem at_main_v15 (V : Valuation τ sig (Elt F)) :
    after ops V (main_v15 : DevRef τ sig) = (mulf : (⟨S6400000, .f32⟩ : BufTy).Contents (Elt F) → (⟨S6400000, .f32⟩ : BufTy).Contents (Elt F) → (⟨S6400000, .f32⟩ : BufTy).Contents (Elt F)) (after ops V (main_arg3 : DevRef τ sig)) (after ops V (main_v14 : DevRef τ sig)) :=
  stage_binary ops_ordered 32 (show nth? (ops : List (HloOp τ sig (Elt F))) 32 = some (StableHlo.binary main_arg3 main_v14 main_v15 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_cst_1 (V : Valuation τ sig (Elt F)) :
    after ops V (main_cst_1 : DevRef τ sig) = constant S_ .f32 0x3F800000#32 :=
  stage_nullary ops_ordered 33 (show nth? (ops : List (HloOp τ sig (Elt F))) 33 = some (StableHlo.nullary main_cst_1 (constant S_ .f32 0x3F800000#32)) by chain_rfl) rfl V

theorem at_main_v16 (V : Valuation τ sig (Elt F)) :
    after ops V (main_v16 : DevRef τ sig) = (broadcastInDim S6400000 ![] bcast_S_S6400000 : (⟨S_, .f32⟩ : BufTy).Contents (Elt F) → (⟨S6400000, .f32⟩ : BufTy).Contents (Elt F)) (after ops V (main_cst_1 : DevRef τ sig)) :=
  stage_unary ops_ordered 34 (show nth? (ops : List (HloOp τ sig (Elt F))) 34 = some (StableHlo.unary main_cst_1 main_v16 (broadcastInDim S6400000 ![] bcast_S_S6400000 : (⟨S_, .f32⟩ : BufTy).Contents (Elt F) → (⟨S6400000, .f32⟩ : BufTy).Contents (Elt F))) by chain_rfl) rfl (by decide) V

theorem at_main_v17 (V : Valuation τ sig (Elt F)) :
    after ops V (main_v17 : DevRef τ sig) = (subf : (⟨S6400000, .f32⟩ : BufTy).Contents (Elt F) → (⟨S6400000, .f32⟩ : BufTy).Contents (Elt F) → (⟨S6400000, .f32⟩ : BufTy).Contents (Elt F)) (after ops V (main_v16 : DevRef τ sig)) (after ops V (main_arg3 : DevRef τ sig)) :=
  stage_binary ops_ordered 35 (show nth? (ops : List (HloOp τ sig (Elt F))) 35 = some (StableHlo.binary main_v16 main_arg3 main_v17 (subf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v18 (V : Valuation τ sig (Elt F)) :
    after ops V (main_v18 : DevRef τ sig) = (Host.negf : (⟨S6400000, .f32⟩ : BufTy).Contents (Elt F) → (⟨S6400000, .f32⟩ : BufTy).Contents (Elt F)) (after ops V (main_arg1 : DevRef τ sig)) :=
  stage_unary ops_ordered 36 (show nth? (ops : List (HloOp τ sig (Elt F))) 36 = some (StableHlo.unary main_arg1 main_v18 (Host.negf : (⟨S6400000, .f32⟩ : BufTy).Contents (Elt F) → (⟨S6400000, .f32⟩ : BufTy).Contents (Elt F))) by chain_rfl) rfl (by decide) V

theorem at_main_call1_v0 (V : Valuation τ sig (Elt F)) :
    after ops V (main_call1_v0 : DevRef τ sig) = (Host.negf : (⟨S6400000, .f32⟩ : BufTy).Contents (Elt F) → (⟨S6400000, .f32⟩ : BufTy).Contents (Elt F)) (after ops V (main_v18 : DevRef τ sig)) :=
  stage_unary ops_ordered 37 (show nth? (ops : List (HloOp τ sig (Elt F))) 37 = some (StableHlo.TRef.unary (.of main_v18 : StableHlo.TRef sig ⟨S6400000, .f32⟩) main_call1.v0 Host.negf) by chain_rfl) rfl (by decide) V

theorem at_main_call1_call0_cst (V : Valuation τ sig (Elt F)) :
    after ops V (main_call1_call0_cst : DevRef τ sig) = constant S_ .f32 0x00000000#32 :=
  stage_nullary ops_ordered 38 (show nth? (ops : List (HloOp τ sig (Elt F))) 38 = some (StableHlo.TRef.nullary main_call1.call0.cst (constant S_ .f32 0x00000000#32)) by chain_rfl) rfl V

theorem at_main_call1_call0_v0 (V : Valuation τ sig (Elt F)) :
    after ops V (main_call1_call0_v0 : DevRef τ sig) = ((broadcastInDim S6400000 ![] bcast_S_S6400000) : (⟨S_, .f32⟩ : BufTy).Contents (Elt F) → (⟨S6400000, .f32⟩ : BufTy).Contents (Elt F)) (after ops V (main_call1_call0_cst : DevRef τ sig)) :=
  stage_unary ops_ordered 39 (show nth? (ops : List (HloOp τ sig (Elt F))) 39 = some (StableHlo.TRef.unary main_call1.call0.cst main_call1.call0.v0 (broadcastInDim S6400000 ![] bcast_S_S6400000)) by chain_rfl) rfl (by decide) V

theorem at_main_call1_call0_v1 (V : Valuation τ sig (Elt F)) :
    after ops V (main_call1_call0_v1 : DevRef τ sig) = (maximumf : (⟨S6400000, .f32⟩ : BufTy).Contents (Elt F) → (⟨S6400000, .f32⟩ : BufTy).Contents (Elt F) → (⟨S6400000, .f32⟩ : BufTy).Contents (Elt F)) (after ops V (main_call1_v0 : DevRef τ sig)) (after ops V (main_call1_call0_v0 : DevRef τ sig)) :=
  stage_binary ops_ordered 40 (show nth? (ops : List (HloOp τ sig (Elt F))) 40 = some (StableHlo.TRef.binary main_call1.v0 main_call1.call0.v0 main_call1.call0.v1 maximumf) by chain_rfl) rfl (by decide) (by decide) V

theorem at_main_call1_call0_v2 (V : Valuation τ sig (Elt F)) :
    after ops V (main_call1_call0_v2 : DevRef τ sig) = ((broadcastInDim S6400000 ![] bcast_S_S6400000) : (⟨S_, .f32⟩ : BufTy).Contents (Elt F) → (⟨S6400000, .f32⟩ : BufTy).Contents (Elt F)) (after ops V (main_call1_call0_cst : DevRef τ sig)) :=
  stage_unary ops_ordered 41 (show nth? (ops : List (HloOp τ sig (Elt F))) 41 = some (StableHlo.TRef.unary main_call1.call0.cst main_call1.call0.v2 (broadcastInDim S6400000 ![] bcast_S_S6400000)) by chain_rfl) rfl (by decide) V

theorem at_main_call1_call0_v3 (V : Valuation τ sig (Elt F)) :
    after ops V (main_call1_call0_v3 : DevRef τ sig) = (subf : (⟨S6400000, .f32⟩ : BufTy).Contents (Elt F) → (⟨S6400000, .f32⟩ : BufTy).Contents (Elt F) → (⟨S6400000, .f32⟩ : BufTy).Contents (Elt F)) (after ops V (main_call1_v0 : DevRef τ sig)) (after ops V (main_call1_call0_v2 : DevRef τ sig)) :=
  stage_binary ops_ordered 42 (show nth? (ops : List (HloOp τ sig (Elt F))) 42 = some (StableHlo.TRef.binary main_call1.v0 main_call1.call0.v2 main_call1.call0.v3 subf) by chain_rfl) rfl (by decide) (by decide) V

theorem at_main_call1_call0_v4 (V : Valuation τ sig (Elt F)) :
    after ops V (main_call1_call0_v4 : DevRef τ sig) = ((cmpf .une) : (⟨S6400000, .f32⟩ : BufTy).Contents (Elt F) → (⟨S6400000, .f32⟩ : BufTy).Contents (Elt F) → (⟨S6400000, .i1⟩ : BufTy).Contents (Elt F)) (after ops V (main_call1_call0_v3 : DevRef τ sig)) (after ops V (main_call1_call0_v3 : DevRef τ sig)) :=
  stage_binary ops_ordered 43 (show nth? (ops : List (HloOp τ sig (Elt F))) 43 = some (StableHlo.TRef.binary main_call1.call0.v3 main_call1.call0.v3 main_call1.call0.v4 (cmpf .une)) by chain_rfl) rfl (by decide) (by decide) V

theorem at_main_call1_call0_v5 (V : Valuation τ sig (Elt F)) :
    after ops V (main_call1_call0_v5 : DevRef τ sig) = ((broadcastInDim S6400000 ![] bcast_S_S6400000) : (⟨S_, .f32⟩ : BufTy).Contents (Elt F) → (⟨S6400000, .f32⟩ : BufTy).Contents (Elt F)) (after ops V (main_call1_call0_cst : DevRef τ sig)) :=
  stage_unary ops_ordered 44 (show nth? (ops : List (HloOp τ sig (Elt F))) 44 = some (StableHlo.TRef.unary main_call1.call0.cst main_call1.call0.v5 (broadcastInDim S6400000 ![] bcast_S_S6400000)) by chain_rfl) rfl (by decide) V

theorem at_main_call1_call0_v6 (V : Valuation τ sig (Elt F)) :
    after ops V (main_call1_call0_v6 : DevRef τ sig) = (addf : (⟨S6400000, .f32⟩ : BufTy).Contents (Elt F) → (⟨S6400000, .f32⟩ : BufTy).Contents (Elt F) → (⟨S6400000, .f32⟩ : BufTy).Contents (Elt F)) (after ops V (main_call1_v0 : DevRef τ sig)) (after ops V (main_call1_call0_v5 : DevRef τ sig)) :=
  stage_binary ops_ordered 45 (show nth? (ops : List (HloOp τ sig (Elt F))) 45 = some (StableHlo.TRef.binary main_call1.v0 main_call1.call0.v5 main_call1.call0.v6 addf) by chain_rfl) rfl (by decide) (by decide) V

theorem at_main_call1_call0_v7 (V : Valuation τ sig (Elt F)) :
    after ops V (main_call1_call0_v7 : DevRef τ sig) = (Host.absf : (⟨S6400000, .f32⟩ : BufTy).Contents (Elt F) → (⟨S6400000, .f32⟩ : BufTy).Contents (Elt F)) (after ops V (main_call1_call0_v3 : DevRef τ sig)) :=
  stage_unary ops_ordered 46 (show nth? (ops : List (HloOp τ sig (Elt F))) 46 = some (StableHlo.TRef.unary main_call1.call0.v3 main_call1.call0.v7 Host.absf) by chain_rfl) rfl (by decide) V

theorem at_main_call1_call0_v8 (V : Valuation τ sig (Elt F)) :
    after ops V (main_call1_call0_v8 : DevRef τ sig) = (Host.negf : (⟨S6400000, .f32⟩ : BufTy).Contents (Elt F) → (⟨S6400000, .f32⟩ : BufTy).Contents (Elt F)) (after ops V (main_call1_call0_v7 : DevRef τ sig)) :=
  stage_unary ops_ordered 47 (show nth? (ops : List (HloOp τ sig (Elt F))) 47 = some (StableHlo.TRef.unary main_call1.call0.v7 main_call1.call0.v8 Host.negf) by chain_rfl) rfl (by decide) V

theorem at_main_call1_call0_v9 (V : Valuation τ sig (Elt F)) :
    after ops V (main_call1_call0_v9 : DevRef τ sig) = (Host.exp : (⟨S6400000, .f32⟩ : BufTy).Contents (Elt F) → (⟨S6400000, .f32⟩ : BufTy).Contents (Elt F)) (after ops V (main_call1_call0_v8 : DevRef τ sig)) :=
  stage_unary ops_ordered 48 (show nth? (ops : List (HloOp τ sig (Elt F))) 48 = some (StableHlo.TRef.unary main_call1.call0.v8 main_call1.call0.v9 Host.exp) by chain_rfl) rfl (by decide) V

theorem at_main_call1_call0_v10 (V : Valuation τ sig (Elt F)) :
    after ops V (main_call1_call0_v10 : DevRef τ sig) = (Host.log1p : (⟨S6400000, .f32⟩ : BufTy).Contents (Elt F) → (⟨S6400000, .f32⟩ : BufTy).Contents (Elt F)) (after ops V (main_call1_call0_v9 : DevRef τ sig)) :=
  stage_unary ops_ordered 49 (show nth? (ops : List (HloOp τ sig (Elt F))) 49 = some (StableHlo.TRef.unary main_call1.call0.v9 main_call1.call0.v10 Host.log1p) by chain_rfl) rfl (by decide) V

theorem at_main_call1_call0_v11 (V : Valuation τ sig (Elt F)) :
    after ops V (main_call1_call0_v11 : DevRef τ sig) = (addf : (⟨S6400000, .f32⟩ : BufTy).Contents (Elt F) → (⟨S6400000, .f32⟩ : BufTy).Contents (Elt F) → (⟨S6400000, .f32⟩ : BufTy).Contents (Elt F)) (after ops V (main_call1_call0_v1 : DevRef τ sig)) (after ops V (main_call1_call0_v10 : DevRef τ sig)) :=
  stage_binary ops_ordered 50 (show nth? (ops : List (HloOp τ sig (Elt F))) 50 = some (StableHlo.TRef.binary main_call1.call0.v1 main_call1.call0.v10 main_call1.call0.v11 addf) by chain_rfl) rfl (by decide) (by decide) V

theorem at_main_call1_v1 (V : Valuation τ sig (Elt F)) :
    after ops V (main_call1_v1 : DevRef τ sig) = (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)) (after ops V (main_call1_call0_v4 : DevRef τ sig)) (after ops V (main_call1_call0_v6 : DevRef τ sig)) (after ops V (main_call1_call0_v11 : DevRef τ sig)) :=
  stage_ternary ops_ordered 51 (show nth? (ops : List (HloOp τ sig (Elt F))) 51 = some (StableHlo.TRef.ternary main_call1.call0.v4 main_call1.call0.v6 main_call1.call0.v11 main_call1.call0.v12 select) by chain_rfl) rfl (by decide) (by decide) (by decide) V

theorem at_main_v19 (V : Valuation τ sig (Elt F)) :
    after ops V (main_v19 : DevRef τ sig) = (Host.negf : (⟨S6400000, .f32⟩ : BufTy).Contents (Elt F) → (⟨S6400000, .f32⟩ : BufTy).Contents (Elt F)) (after ops V (main_call1_v1 : DevRef τ sig)) :=
  stage_unary ops_ordered 52 (show nth? (ops : List (HloOp τ sig (Elt F))) 52 = some (StableHlo.TRef.unary main_call1.call0.v12 main_call1.v2 Host.negf) by chain_rfl) rfl (by decide) V

theorem at_main_v20 (V : Valuation τ sig (Elt F)) :
    after ops V (main_v20 : DevRef τ sig) = (mulf : (⟨S6400000, .f32⟩ : BufTy).Contents (Elt F) → (⟨S6400000, .f32⟩ : BufTy).Contents (Elt F) → (⟨S6400000, .f32⟩ : BufTy).Contents (Elt F)) (after ops V (main_v17 : DevRef τ sig)) (after ops V (main_v19 : DevRef τ sig)) :=
  stage_binary ops_ordered 53 (show nth? (ops : List (HloOp τ sig (Elt F))) 53 = some (StableHlo.binary main_v17 main_v19 main_v20 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v21 (V : Valuation τ sig (Elt F)) :
    after ops V (main_v21 : DevRef τ sig) = (addf : (⟨S6400000, .f32⟩ : BufTy).Contents (Elt F) → (⟨S6400000, .f32⟩ : BufTy).Contents (Elt F) → (⟨S6400000, .f32⟩ : BufTy).Contents (Elt F)) (after ops V (main_v15 : DevRef τ sig)) (after ops V (main_v20 : DevRef τ sig)) :=
  stage_binary ops_ordered 54 (show nth? (ops : List (HloOp τ sig (Elt F))) 54 = some (StableHlo.binary main_v15 main_v20 main_v21 (addf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v22 (V : Valuation τ sig (Elt F)) :
    after ops V (main_v22 : DevRef τ sig) = (Host.negf : (⟨S6400000, .f32⟩ : BufTy).Contents (Elt F) → (⟨S6400000, .f32⟩ : BufTy).Contents (Elt F)) (after ops V (main_v21 : DevRef τ sig)) :=
  stage_unary ops_ordered 55 (show nth? (ops : List (HloOp τ sig (Elt F))) 55 = some (StableHlo.unary main_v21 main_v22 (Host.negf : (⟨S6400000, .f32⟩ : BufTy).Contents (Elt F) → (⟨S6400000, .f32⟩ : BufTy).Contents (Elt F))) by chain_rfl) rfl (by decide) V

theorem at_main_cst_2 (V : Valuation τ sig (Elt F)) :
    after ops V (main_cst_2 : DevRef τ sig) = constant S_ .f32 0x00000000#32 :=
  stage_nullary ops_ordered 56 (show nth? (ops : List (HloOp τ sig (Elt F))) 56 = some (StableHlo.nullary main_cst_2 (constant S_ .f32 0x00000000#32)) by chain_rfl) rfl V

theorem at_main_v23 (V : Valuation τ sig (Elt F)) :
    after ops V (main_v23 : DevRef τ sig) = ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F)) (after ops V (main_v22 : DevRef τ sig)) (after ops V (main_cst_2 : DevRef τ sig)) :=
  stage_binary ops_ordered 57 (show nth? (ops : List (HloOp τ sig (Elt F))) 57 = some (StableHlo.binary main_v22 main_cst_2 main_v23 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))) by chain_rfl) rfl (by decide) (by decide) V

theorem at_main_cst_3 (V : Valuation τ sig (Elt F)) :
    after ops V (main_cst_3 : DevRef τ sig) = constant S_ .f32 0x4AC35000#32 :=
  stage_nullary ops_ordered 58 (show nth? (ops : List (HloOp τ sig (Elt F))) 58 = some (StableHlo.nullary main_cst_3 (constant S_ .f32 0x4AC35000#32)) by chain_rfl) rfl V

theorem at_main_v24 (V : Valuation τ sig (Elt F)) :
    after ops V (main_v24 : DevRef τ sig) = (Host.divf : (⟨S_, .f32⟩ : BufTy).Contents (Elt F) → (⟨S_, .f32⟩ : BufTy).Contents (Elt F) → (⟨S_, .f32⟩ : BufTy).Contents (Elt F)) (after ops V (main_v23 : DevRef τ sig)) (after ops V (main_cst_3 : DevRef τ sig)) :=
  stage_binary ops_ordered 59 (show nth? (ops : List (HloOp τ sig (Elt F))) 59 = some (StableHlo.binary main_v23 main_cst_3 main_v24 (Host.divf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_4 (V : Valuation τ sig (Elt F)) :
    after ops V (main_cst_4 : DevRef τ sig) = constant S_ .f32 0x3F800000#32 :=
  stage_nullary ops_ordered 60 (show nth? (ops : List (HloOp τ sig (Elt F))) 60 = some (StableHlo.nullary main_cst_4 (constant S_ .f32 0x3F800000#32)) by chain_rfl) rfl V

theorem at_main_v25 (V : Valuation τ sig (Elt F)) :
    after ops V (main_v25 : DevRef τ sig) = (mulf : (⟨S_, .f32⟩ : BufTy).Contents (Elt F) → (⟨S_, .f32⟩ : BufTy).Contents (Elt F) → (⟨S_, .f32⟩ : BufTy).Contents (Elt F)) (after ops V (main_cst_4 : DevRef τ sig)) (after ops V (main_v24 : DevRef τ sig)) :=
  stage_binary ops_ordered 61 (show nth? (ops : List (HloOp τ sig (Elt F))) 61 = some (StableHlo.binary main_cst_4 main_v24 main_v25 (mulf : (⟨S_, .f32⟩ : BufTy).Contents (Elt F) → (⟨S_, .f32⟩ : BufTy).Contents (Elt F) → (⟨S_, .f32⟩ : BufTy).Contents (Elt F))) by chain_rfl) rfl (by decide) (by decide) V

theorem at_main_v26 (V : Valuation τ sig (Elt F)) :
    after ops V (main_v26 : DevRef τ sig) = (subf : (⟨S6400000x2, .f32⟩ : BufTy).Contents (Elt F) → (⟨S6400000x2, .f32⟩ : BufTy).Contents (Elt F) → (⟨S6400000x2, .f32⟩ : BufTy).Contents (Elt F)) (after ops V (main_arg2 : DevRef τ sig)) (after ops V (main_arg4 : DevRef τ sig)) :=
  stage_binary ops_ordered 62 (show nth? (ops : List (HloOp τ sig (Elt F))) 62 = some (StableHlo.binary main_arg2 main_arg4 main_v26 (subf : (⟨S6400000x2, .f32⟩ : BufTy).Contents (Elt F) → (⟨S6400000x2, .f32⟩ : BufTy).Contents (Elt F) → (⟨S6400000x2, .f32⟩ : BufTy).Contents (Elt F))) by chain_rfl) rfl (by decide) (by decide) V

theorem at_main_v27 (V : Valuation τ sig (Elt F)) :
    after ops V (main_v27 : DevRef τ sig) = (mulf : (⟨S6400000x2, .f32⟩ : BufTy).Contents (Elt F) → (⟨S6400000x2, .f32⟩ : BufTy).Contents (Elt F) → (⟨S6400000x2, .f32⟩ : BufTy).Contents (Elt F)) (after ops V (main_v26 : DevRef τ sig)) (after ops V (main_v26 : DevRef τ sig)) :=
  stage_binary ops_ordered 63 (show nth? (ops : List (HloOp τ sig (Elt F))) 63 = some (StableHlo.binary main_v26 main_v26 main_v27 (mulf : (⟨S6400000x2, .f32⟩ : BufTy).Contents (Elt F) → (⟨S6400000x2, .f32⟩ : BufTy).Contents (Elt F) → (⟨S6400000x2, .f32⟩ : BufTy).Contents (Elt F))) by chain_rfl) rfl (by decide) (by decide) V

theorem at_main_cst_5 (V : Valuation τ sig (Elt F)) :
    after ops V (main_cst_5 : DevRef τ sig) = constant S_ .f32 0x00000000#32 :=
  stage_nullary ops_ordered 64 (show nth? (ops : List (HloOp τ sig (Elt F))) 64 = some (StableHlo.nullary main_cst_5 (constant S_ .f32 0x00000000#32)) by chain_rfl) rfl V

theorem at_main_v28 (V : Valuation τ sig (Elt F)) :
    after ops V (main_v28 : DevRef τ sig) = ((fun x v => Host.reduceAdd x v reducesTo_S6400000x2_S_d0_1 h_S_) : (⟨S6400000x2, .f32⟩ : BufTy).Contents (Elt F) → (⟨S_, .f32⟩ : BufTy).Contents (Elt F) → (⟨S_, .f32⟩ : BufTy).Contents (Elt F)) (after ops V (main_v27 : DevRef τ sig)) (after ops V (main_cst_5 : DevRef τ sig)) :=
  stage_binary ops_ordered 65 (show nth? (ops : List (HloOp τ sig (Elt F))) 65 = some (StableHlo.binary main_v27 main_cst_5 main_v28 ((fun x v => Host.reduceAdd x v reducesTo_S6400000x2_S_d0_1 h_S_) : (⟨S6400000x2, .f32⟩ : BufTy).Contents (Elt F) → (⟨S_, .f32⟩ : BufTy).Contents (Elt F) → (⟨S_, .f32⟩ : BufTy).Contents (Elt F))) by chain_rfl) rfl (by decide) (by decide) V

theorem at_main_cst_6 (V : Valuation τ sig (Elt F)) :
    after ops V (main_cst_6 : DevRef τ sig) = constant S_ .f32 0x4B435000#32 :=
  stage_nullary ops_ordered 66 (show nth? (ops : List (HloOp τ sig (Elt F))) 66 = some (StableHlo.nullary main_cst_6 (constant S_ .f32 0x4B435000#32)) by chain_rfl) rfl V

theorem at_main_v29 (V : Valuation τ sig (Elt F)) :
    after ops V (main_v29 : DevRef τ sig) = (Host.divf : (⟨S_, .f32⟩ : BufTy).Contents (Elt F) → (⟨S_, .f32⟩ : BufTy).Contents (Elt F) → (⟨S_, .f32⟩ : BufTy).Contents (Elt F)) (after ops V (main_v28 : DevRef τ sig)) (after ops V (main_cst_6 : DevRef τ sig)) :=
  stage_binary ops_ordered 67 (show nth? (ops : List (HloOp τ sig (Elt F))) 67 = some (StableHlo.binary main_v28 main_cst_6 main_v29 (Host.divf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_7 (V : Valuation τ sig (Elt F)) :
    after ops V (main_cst_7 : DevRef τ sig) = constant S_ .f32 0x3F800000#32 :=
  stage_nullary ops_ordered 68 (show nth? (ops : List (HloOp τ sig (Elt F))) 68 = some (StableHlo.nullary main_cst_7 (constant S_ .f32 0x3F800000#32)) by chain_rfl) rfl V

theorem at_main_v30 (V : Valuation τ sig (Elt F)) :
    after ops V (main_v30 : DevRef τ sig) = (mulf : (⟨S_, .f32⟩ : BufTy).Contents (Elt F) → (⟨S_, .f32⟩ : BufTy).Contents (Elt F) → (⟨S_, .f32⟩ : BufTy).Contents (Elt F)) (after ops V (main_cst_7 : DevRef τ sig)) (after ops V (main_v29 : DevRef τ sig)) :=
  stage_binary ops_ordered 69 (show nth? (ops : List (HloOp τ sig (Elt F))) 69 = some (StableHlo.binary main_cst_7 main_v29 main_v30 (mulf : (⟨S_, .f32⟩ : BufTy).Contents (Elt F) → (⟨S_, .f32⟩ : BufTy).Contents (Elt F) → (⟨S_, .f32⟩ : BufTy).Contents (Elt F))) by chain_rfl) rfl (by decide) (by decide) V

theorem at_main_c (V : Valuation τ sig (Elt F)) :
    after ops V (main_c : DevRef τ sig) = constantI S_ 32 0#32 :=
  stage_nullary ops_ordered 70 (show nth? (ops : List (HloOp τ sig (Elt F))) 70 = some (StableHlo.nullary main_c (constantI S_ 32 0#32)) by chain_rfl) rfl V

theorem at_main_v31 (V : Valuation τ sig (Elt F)) :
    after ops V (main_v31 : DevRef τ sig) = (broadcastInDim S6400000 ![] bcast_S_S6400000 : (⟨S_, .i32⟩ : BufTy).Contents (Elt F) → (⟨S6400000, .i32⟩ : BufTy).Contents (Elt F)) (after ops V (main_c : DevRef τ sig)) :=
  stage_unary ops_ordered 71 (show nth? (ops : List (HloOp τ sig (Elt F))) 71 = some (StableHlo.unary main_c main_v31 (broadcastInDim S6400000 ![] bcast_S_S6400000 : (⟨S_, .i32⟩ : BufTy).Contents (Elt F) → (⟨S6400000, .i32⟩ : BufTy).Contents (Elt F))) by chain_rfl) rfl (by decide) V

theorem at_main_v32 (V : Valuation τ sig (Elt F)) :
    after ops V (main_v32 : DevRef τ sig) = (cmpi .slt : (⟨S6400000, .i32⟩ : BufTy).Contents (Elt F) → (⟨S6400000, .i32⟩ : BufTy).Contents (Elt F) → (⟨S6400000, .i1⟩ : BufTy).Contents (Elt F)) (after ops V (main_v1 : DevRef τ sig)) (after ops V (main_v31 : DevRef τ sig)) :=
  stage_binary ops_ordered 72 (show nth? (ops : List (HloOp τ sig (Elt F))) 72 = some (StableHlo.binary main_v1 main_v31 main_v32 (cmpi .slt : (⟨S6400000, .i32⟩ : BufTy).Contents (Elt F) → (⟨S6400000, .i32⟩ : BufTy).Contents (Elt F) → (⟨S6400000, .i1⟩ : BufTy).Contents (Elt F))) by chain_rfl) rfl (by decide) (by decide) V

theorem at_main_c_8 (V : Valuation τ sig (Elt F)) :
    after ops V (main_c_8 : DevRef τ sig) = constantI S_ 32 200000#32 :=
  stage_nullary ops_ordered 73 (show nth? (ops : List (HloOp τ sig (Elt F))) 73 = some (StableHlo.nullary main_c_8 (constantI S_ 32 200000#32)) by chain_rfl) rfl V

theorem at_main_v33 (V : Valuation τ sig (Elt F)) :
    after ops V (main_v33 : DevRef τ sig) = (broadcastInDim S6400000 ![] bcast_S_S6400000 : (⟨S_, .i32⟩ : BufTy).Contents (Elt F) → (⟨S6400000, .i32⟩ : BufTy).Contents (Elt F)) (after ops V (main_c_8 : DevRef τ sig)) :=
  stage_unary ops_ordered 74 (show nth? (ops : List (HloOp τ sig (Elt F))) 74 = some (StableHlo.unary main_c_8 main_v33 (broadcastInDim S6400000 ![] bcast_S_S6400000 : (⟨S_, .i32⟩ : BufTy).Contents (Elt F) → (⟨S6400000, .i32⟩ : BufTy).Contents (Elt F))) by chain_rfl) rfl (by decide) V

theorem at_main_v34 (V : Valuation τ sig (Elt F)) :
    after ops V (main_v34 : DevRef τ sig) = (addi : (⟨S6400000, .i32⟩ : BufTy).Contents (Elt F) → (⟨S6400000, .i32⟩ : BufTy).Contents (Elt F) → (⟨S6400000, .i32⟩ : BufTy).Contents (Elt F)) (after ops V (main_v1 : DevRef τ sig)) (after ops V (main_v33 : DevRef τ sig)) :=
  stage_binary ops_ordered 75 (show nth? (ops : List (HloOp τ sig (Elt F))) 75 = some (StableHlo.binary main_v1 main_v33 main_v34 (addi : (⟨S6400000, .i32⟩ : BufTy).Contents (Elt F) → (⟨S6400000, .i32⟩ : BufTy).Contents (Elt F) → (⟨S6400000, .i32⟩ : BufTy).Contents (Elt F))) by chain_rfl) rfl (by decide) (by decide) V

theorem at_main_v35 (V : Valuation τ sig (Elt F)) :
    after ops V (main_v35 : DevRef τ sig) = (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)) (after ops V (main_v32 : DevRef τ sig)) (after ops V (main_v34 : DevRef τ sig)) (after ops V (main_v1 : DevRef τ sig)) :=
  stage_ternary ops_ordered 76 (show nth? (ops : List (HloOp τ sig (Elt F))) 76 = some (StableHlo.ternary main_v32 main_v34 main_v1 main_v35 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F))) by chain_rfl) rfl (by decide) (by decide) (by decide) V

theorem at_main_c_9 (V : Valuation τ sig (Elt F)) :
    after ops V (main_c_9 : DevRef τ sig) = constantI S_ 32 0#32 :=
  stage_nullary ops_ordered 77 (show nth? (ops : List (HloOp τ sig (Elt F))) 77 = some (StableHlo.nullary main_c_9 (constantI S_ 32 0#32)) by chain_rfl) rfl V

theorem at_main_v36 (V : Valuation τ sig (Elt F)) :
    after ops V (main_v36 : DevRef τ sig) = (broadcastInDim S6400000 ![] bcast_S_S6400000 : (⟨S_, .i32⟩ : BufTy).Contents (Elt F) → (⟨S6400000, .i32⟩ : BufTy).Contents (Elt F)) (after ops V (main_c_9 : DevRef τ sig)) :=
  stage_unary ops_ordered 78 (show nth? (ops : List (HloOp τ sig (Elt F))) 78 = some (StableHlo.unary main_c_9 main_v36 (broadcastInDim S6400000 ![] bcast_S_S6400000 : (⟨S_, .i32⟩ : BufTy).Contents (Elt F) → (⟨S6400000, .i32⟩ : BufTy).Contents (Elt F))) by chain_rfl) rfl (by decide) V

theorem at_main_v37 (V : Valuation τ sig (Elt F)) :
    after ops V (main_v37 : DevRef τ sig) = (id : (⟨S6400000, .i32⟩ : BufTy).Contents (Elt F) → (⟨S6400000, .i32⟩ : BufTy).Contents (Elt F)) (after ops V (main_v36 : DevRef τ sig)) :=
  stage_unary ops_ordered 79 (show nth? (ops : List (HloOp τ sig (Elt F))) 79 = some (StableHlo.unary main_v36 main_v37 (id : (⟨S6400000, .i32⟩ : BufTy).Contents (Elt F) → (⟨S6400000, .i32⟩ : BufTy).Contents (Elt F))) by chain_rfl) rfl (by decide) V

theorem at_main_v38 (V : Valuation τ sig (Elt F)) :
    after ops V (main_v38 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v35 : DevRef τ sig)) :=
  stage_unary ops_ordered 80 (show nth? (ops : List (HloOp τ sig (Elt F))) 80 = some (StableHlo.unary main_v35 main_v38 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v39 (V : Valuation τ sig (Elt F)) :
    after ops V (main_v39 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v37 : DevRef τ sig)) :=
  stage_unary ops_ordered 81 (show nth? (ops : List (HloOp τ sig (Elt F))) 81 = some (StableHlo.unary main_v37 main_v39 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v40 (V : Valuation τ sig (Elt F)) :
    after ops V (main_v40 : DevRef τ sig) = ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F)) (after ops V (main_v38 : DevRef τ sig)) (after ops V (main_v39 : DevRef τ sig)) :=
  stage_binary ops_ordered 82 (show nth? (ops : List (HloOp τ sig (Elt F))) 82 = some (StableHlo.binary main_v38 main_v39 main_v40 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F))) by chain_rfl) rfl (by decide) (by decide) V

theorem at_main_v41 (V : Valuation τ sig (Elt F)) :
    after ops V (main_v41 : DevRef τ sig) = ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F)) (after ops V (main_arg0 : DevRef τ sig)) (after ops V (main_v40 : DevRef τ sig)) :=
  stage_binary ops_ordered 83 (show nth? (ops : List (HloOp τ sig (Elt F))) 83 = some (StableHlo.binary main_arg0 main_v40 main_v41 ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F))) by chain_rfl) rfl (by decide) (by decide) V

theorem at_main_c_10 (V : Valuation τ sig (Elt F)) :
    after ops V (main_c_10 : DevRef τ sig) = constantI S_ 32 0#32 :=
  stage_nullary ops_ordered 84 (show nth? (ops : List (HloOp τ sig (Elt F))) 84 = some (StableHlo.nullary main_c_10 (constantI S_ 32 0#32)) by chain_rfl) rfl V

theorem at_main_v42 (V : Valuation τ sig (Elt F)) :
    after ops V (main_v42 : DevRef τ sig) = (broadcastInDim S6400000 ![] bcast_S_S6400000 : (⟨S_, .i32⟩ : BufTy).Contents (Elt F) → (⟨S6400000, .i32⟩ : BufTy).Contents (Elt F)) (after ops V (main_c_10 : DevRef τ sig)) :=
  stage_unary ops_ordered 85 (show nth? (ops : List (HloOp τ sig (Elt F))) 85 = some (StableHlo.unary main_c_10 main_v42 (broadcastInDim S6400000 ![] bcast_S_S6400000 : (⟨S_, .i32⟩ : BufTy).Contents (Elt F) → (⟨S6400000, .i32⟩ : BufTy).Contents (Elt F))) by chain_rfl) rfl (by decide) V

theorem at_main_v43 (V : Valuation τ sig (Elt F)) :
    after ops V (main_v43 : DevRef τ sig) = (cmpi .slt : (⟨S6400000, .i32⟩ : BufTy).Contents (Elt F) → (⟨S6400000, .i32⟩ : BufTy).Contents (Elt F) → (⟨S6400000, .i1⟩ : BufTy).Contents (Elt F)) (after ops V (main_v3 : DevRef τ sig)) (after ops V (main_v42 : DevRef τ sig)) :=
  stage_binary ops_ordered 86 (show nth? (ops : List (HloOp τ sig (Elt F))) 86 = some (StableHlo.binary main_v3 main_v42 main_v43 (cmpi .slt : (⟨S6400000, .i32⟩ : BufTy).Contents (Elt F) → (⟨S6400000, .i32⟩ : BufTy).Contents (Elt F) → (⟨S6400000, .i1⟩ : BufTy).Contents (Elt F))) by chain_rfl) rfl (by decide) (by decide) V

theorem at_main_c_11 (V : Valuation τ sig (Elt F)) :
    after ops V (main_c_11 : DevRef τ sig) = constantI S_ 32 200000#32 :=
  stage_nullary ops_ordered 87 (show nth? (ops : List (HloOp τ sig (Elt F))) 87 = some (StableHlo.nullary main_c_11 (constantI S_ 32 200000#32)) by chain_rfl) rfl V

theorem at_main_v44 (V : Valuation τ sig (Elt F)) :
    after ops V (main_v44 : DevRef τ sig) = (broadcastInDim S6400000 ![] bcast_S_S6400000 : (⟨S_, .i32⟩ : BufTy).Contents (Elt F) → (⟨S6400000, .i32⟩ : BufTy).Contents (Elt F)) (after ops V (main_c_11 : DevRef τ sig)) :=
  stage_unary ops_ordered 88 (show nth? (ops : List (HloOp τ sig (Elt F))) 88 = some (StableHlo.unary main_c_11 main_v44 (broadcastInDim S6400000 ![] bcast_S_S6400000 : (⟨S_, .i32⟩ : BufTy).Contents (Elt F) → (⟨S6400000, .i32⟩ : BufTy).Contents (Elt F))) by chain_rfl) rfl (by decide) V

theorem at_main_v45 (V : Valuation τ sig (Elt F)) :
    after ops V (main_v45 : DevRef τ sig) = (addi : (⟨S6400000, .i32⟩ : BufTy).Contents (Elt F) → (⟨S6400000, .i32⟩ : BufTy).Contents (Elt F) → (⟨S6400000, .i32⟩ : BufTy).Contents (Elt F)) (after ops V (main_v3 : DevRef τ sig)) (after ops V (main_v44 : DevRef τ sig)) :=
  stage_binary ops_ordered 89 (show nth? (ops : List (HloOp τ sig (Elt F))) 89 = some (StableHlo.binary main_v3 main_v44 main_v45 (addi : (⟨S6400000, .i32⟩ : BufTy).Contents (Elt F) → (⟨S6400000, .i32⟩ : BufTy).Contents (Elt F) → (⟨S6400000, .i32⟩ : BufTy).Contents (Elt F))) by chain_rfl) rfl (by decide) (by decide) V

end Cert.ReferenceIdeal.HRun

end
-- ==== Proof.RefStage1.lean ====
/- The step equations of window 1 of the reference's @main: for each operation, what the whole line leaves in its
   buffer is its function of what the line leaves in its operands' buffers. -/
import proofs.«176581_j38010460570140_2_alg».proof.Proof.RefOrd

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

theorem at_main_v46 (V : Valuation τ sig (Elt F)) :
    after ops V (main_v46 : DevRef τ sig) = (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)) (after ops V (main_v43 : DevRef τ sig)) (after ops V (main_v45 : DevRef τ sig)) (after ops V (main_v3 : DevRef τ sig)) :=
  stage_ternary ops_ordered 90 (show nth? (ops : List (HloOp τ sig (Elt F))) 90 = some (StableHlo.ternary main_v43 main_v45 main_v3 main_v46 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F))) by chain_rfl) rfl (by decide) (by decide) (by decide) V

theorem at_main_c_12 (V : Valuation τ sig (Elt F)) :
    after ops V (main_c_12 : DevRef τ sig) = constantI S_ 32 0#32 :=
  stage_nullary ops_ordered 91 (show nth? (ops : List (HloOp τ sig (Elt F))) 91 = some (StableHlo.nullary main_c_12 (constantI S_ 32 0#32)) by chain_rfl) rfl V

theorem at_main_v47 (V : Valuation τ sig (Elt F)) :
    after ops V (main_v47 : DevRef τ sig) = (broadcastInDim S6400000 ![] bcast_S_S6400000 : (⟨S_, .i32⟩ : BufTy).Contents (Elt F) → (⟨S6400000, .i32⟩ : BufTy).Contents (Elt F)) (after ops V (main_c_12 : DevRef τ sig)) :=
  stage_unary ops_ordered 92 (show nth? (ops : List (HloOp τ sig (Elt F))) 92 = some (StableHlo.unary main_c_12 main_v47 (broadcastInDim S6400000 ![] bcast_S_S6400000 : (⟨S_, .i32⟩ : BufTy).Contents (Elt F) → (⟨S6400000, .i32⟩ : BufTy).Contents (Elt F))) by chain_rfl) rfl (by decide) V

theorem at_main_v48 (V : Valuation τ sig (Elt F)) :
    after ops V (main_v48 : DevRef τ sig) = (id : (⟨S6400000, .i32⟩ : BufTy).Contents (Elt F) → (⟨S6400000, .i32⟩ : BufTy).Contents (Elt F)) (after ops V (main_v47 : DevRef τ sig)) :=
  stage_unary ops_ordered 93 (show nth? (ops : List (HloOp τ sig (Elt F))) 93 = some (StableHlo.unary main_v47 main_v48 (id : (⟨S6400000, .i32⟩ : BufTy).Contents (Elt F) → (⟨S6400000, .i32⟩ : BufTy).Contents (Elt F))) by chain_rfl) rfl (by decide) V

theorem at_main_v49 (V : Valuation τ sig (Elt F)) :
    after ops V (main_v49 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v46 : DevRef τ sig)) :=
  stage_unary ops_ordered 94 (show nth? (ops : List (HloOp τ sig (Elt F))) 94 = some (StableHlo.unary main_v46 main_v49 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v50 (V : Valuation τ sig (Elt F)) :
    after ops V (main_v50 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v48 : DevRef τ sig)) :=
  stage_unary ops_ordered 95 (show nth? (ops : List (HloOp τ sig (Elt F))) 95 = some (StableHlo.unary main_v48 main_v50 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v51 (V : Valuation τ sig (Elt F)) :
    after ops V (main_v51 : DevRef τ sig) = ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F)) (after ops V (main_v49 : DevRef τ sig)) (after ops V (main_v50 : DevRef τ sig)) :=
  stage_binary ops_ordered 96 (show nth? (ops : List (HloOp τ sig (Elt F))) 96 = some (StableHlo.binary main_v49 main_v50 main_v51 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F))) by chain_rfl) rfl (by decide) (by decide) V

theorem at_main_v52 (V : Valuation τ sig (Elt F)) :
    after ops V (main_v52 : DevRef τ sig) = ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F)) (after ops V (main_arg0 : DevRef τ sig)) (after ops V (main_v51 : DevRef τ sig)) :=
  stage_binary ops_ordered 97 (show nth? (ops : List (HloOp τ sig (Elt F))) 97 = some (StableHlo.binary main_arg0 main_v51 main_v52 ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F))) by chain_rfl) rfl (by decide) (by decide) V

theorem at_main_v53 (V : Valuation τ sig (Elt F)) :
    after ops V (main_v53 : DevRef τ sig) = (subf : (⟨S6400000, .f32⟩ : BufTy).Contents (Elt F) → (⟨S6400000, .f32⟩ : BufTy).Contents (Elt F) → (⟨S6400000, .f32⟩ : BufTy).Contents (Elt F)) (after ops V (main_v41 : DevRef τ sig)) (after ops V (main_v52 : DevRef τ sig)) :=
  stage_binary ops_ordered 98 (show nth? (ops : List (HloOp τ sig (Elt F))) 98 = some (StableHlo.binary main_v41 main_v52 main_v53 (subf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_c_13 (V : Valuation τ sig (Elt F)) :
    after ops V (main_c_13 : DevRef τ sig) = constantI S_ 32 0#32 :=
  stage_nullary ops_ordered 99 (show nth? (ops : List (HloOp τ sig (Elt F))) 99 = some (StableHlo.nullary main_c_13 (constantI S_ 32 0#32)) by chain_rfl) rfl V

theorem at_main_v54 (V : Valuation τ sig (Elt F)) :
    after ops V (main_v54 : DevRef τ sig) = (broadcastInDim S6400000 ![] bcast_S_S6400000 : (⟨S_, .i32⟩ : BufTy).Contents (Elt F) → (⟨S6400000, .i32⟩ : BufTy).Contents (Elt F)) (after ops V (main_c_13 : DevRef τ sig)) :=
  stage_unary ops_ordered 100 (show nth? (ops : List (HloOp τ sig (Elt F))) 100 = some (StableHlo.unary main_c_13 main_v54 (broadcastInDim S6400000 ![] bcast_S_S6400000 : (⟨S_, .i32⟩ : BufTy).Contents (Elt F) → (⟨S6400000, .i32⟩ : BufTy).Contents (Elt F))) by chain_rfl) rfl (by decide) V

theorem at_main_v55 (V : Valuation τ sig (Elt F)) :
    after ops V (main_v55 : DevRef τ sig) = (cmpi .slt : (⟨S6400000, .i32⟩ : BufTy).Contents (Elt F) → (⟨S6400000, .i32⟩ : BufTy).Contents (Elt F) → (⟨S6400000, .i1⟩ : BufTy).Contents (Elt F)) (after ops V (main_v1 : DevRef τ sig)) (after ops V (main_v54 : DevRef τ sig)) :=
  stage_binary ops_ordered 101 (show nth? (ops : List (HloOp τ sig (Elt F))) 101 = some (StableHlo.binary main_v1 main_v54 main_v55 (cmpi .slt : (⟨S6400000, .i32⟩ : BufTy).Contents (Elt F) → (⟨S6400000, .i32⟩ : BufTy).Contents (Elt F) → (⟨S6400000, .i1⟩ : BufTy).Contents (Elt F))) by chain_rfl) rfl (by decide) (by decide) V

theorem at_main_c_14 (V : Valuation τ sig (Elt F)) :
    after ops V (main_c_14 : DevRef τ sig) = constantI S_ 32 200000#32 :=
  stage_nullary ops_ordered 102 (show nth? (ops : List (HloOp τ sig (Elt F))) 102 = some (StableHlo.nullary main_c_14 (constantI S_ 32 200000#32)) by chain_rfl) rfl V

theorem at_main_v56 (V : Valuation τ sig (Elt F)) :
    after ops V (main_v56 : DevRef τ sig) = (broadcastInDim S6400000 ![] bcast_S_S6400000 : (⟨S_, .i32⟩ : BufTy).Contents (Elt F) → (⟨S6400000, .i32⟩ : BufTy).Contents (Elt F)) (after ops V (main_c_14 : DevRef τ sig)) :=
  stage_unary ops_ordered 103 (show nth? (ops : List (HloOp τ sig (Elt F))) 103 = some (StableHlo.unary main_c_14 main_v56 (broadcastInDim S6400000 ![] bcast_S_S6400000 : (⟨S_, .i32⟩ : BufTy).Contents (Elt F) → (⟨S6400000, .i32⟩ : BufTy).Contents (Elt F))) by chain_rfl) rfl (by decide) V

theorem at_main_v57 (V : Valuation τ sig (Elt F)) :
    after ops V (main_v57 : DevRef τ sig) = (addi : (⟨S6400000, .i32⟩ : BufTy).Contents (Elt F) → (⟨S6400000, .i32⟩ : BufTy).Contents (Elt F) → (⟨S6400000, .i32⟩ : BufTy).Contents (Elt F)) (after ops V (main_v1 : DevRef τ sig)) (after ops V (main_v56 : DevRef τ sig)) :=
  stage_binary ops_ordered 104 (show nth? (ops : List (HloOp τ sig (Elt F))) 104 = some (StableHlo.binary main_v1 main_v56 main_v57 (addi : (⟨S6400000, .i32⟩ : BufTy).Contents (Elt F) → (⟨S6400000, .i32⟩ : BufTy).Contents (Elt F) → (⟨S6400000, .i32⟩ : BufTy).Contents (Elt F))) by chain_rfl) rfl (by decide) (by decide) V

theorem at_main_v58 (V : Valuation τ sig (Elt F)) :
    after ops V (main_v58 : DevRef τ sig) = (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)) (after ops V (main_v55 : DevRef τ sig)) (after ops V (main_v57 : DevRef τ sig)) (after ops V (main_v1 : DevRef τ sig)) :=
  stage_ternary ops_ordered 105 (show nth? (ops : List (HloOp τ sig (Elt F))) 105 = some (StableHlo.ternary main_v55 main_v57 main_v1 main_v58 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F))) by chain_rfl) rfl (by decide) (by decide) (by decide) V

theorem at_main_c_15 (V : Valuation τ sig (Elt F)) :
    after ops V (main_c_15 : DevRef τ sig) = constantI S_ 32 1#32 :=
  stage_nullary ops_ordered 106 (show nth? (ops : List (HloOp τ sig (Elt F))) 106 = some (StableHlo.nullary main_c_15 (constantI S_ 32 1#32)) by chain_rfl) rfl V

theorem at_main_v59 (V : Valuation τ sig (Elt F)) :
    after ops V (main_v59 : DevRef τ sig) = (broadcastInDim S6400000 ![] bcast_S_S6400000 : (⟨S_, .i32⟩ : BufTy).Contents (Elt F) → (⟨S6400000, .i32⟩ : BufTy).Contents (Elt F)) (after ops V (main_c_15 : DevRef τ sig)) :=
  stage_unary ops_ordered 107 (show nth? (ops : List (HloOp τ sig (Elt F))) 107 = some (StableHlo.unary main_c_15 main_v59 (broadcastInDim S6400000 ![] bcast_S_S6400000 : (⟨S_, .i32⟩ : BufTy).Contents (Elt F) → (⟨S6400000, .i32⟩ : BufTy).Contents (Elt F))) by chain_rfl) rfl (by decide) V

theorem at_main_v60 (V : Valuation τ sig (Elt F)) :
    after ops V (main_v60 : DevRef τ sig) = (id : (⟨S6400000, .i32⟩ : BufTy).Contents (Elt F) → (⟨S6400000, .i32⟩ : BufTy).Contents (Elt F)) (after ops V (main_v59 : DevRef τ sig)) :=
  stage_unary ops_ordered 108 (show nth? (ops : List (HloOp τ sig (Elt F))) 108 = some (StableHlo.unary main_v59 main_v60 (id : (⟨S6400000, .i32⟩ : BufTy).Contents (Elt F) → (⟨S6400000, .i32⟩ : BufTy).Contents (Elt F))) by chain_rfl) rfl (by decide) V

theorem at_main_v61 (V : Valuation τ sig (Elt F)) :
    after ops V (main_v61 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v58 : DevRef τ sig)) :=
  stage_unary ops_ordered 109 (show nth? (ops : List (HloOp τ sig (Elt F))) 109 = some (StableHlo.unary main_v58 main_v61 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v62 (V : Valuation τ sig (Elt F)) :
    after ops V (main_v62 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v60 : DevRef τ sig)) :=
  stage_unary ops_ordered 110 (show nth? (ops : List (HloOp τ sig (Elt F))) 110 = some (StableHlo.unary main_v60 main_v62 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v63 (V : Valuation τ sig (Elt F)) :
    after ops V (main_v63 : DevRef τ sig) = ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F)) (after ops V (main_v61 : DevRef τ sig)) (after ops V (main_v62 : DevRef τ sig)) :=
  stage_binary ops_ordered 111 (show nth? (ops : List (HloOp τ sig (Elt F))) 111 = some (StableHlo.binary main_v61 main_v62 main_v63 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F))) by chain_rfl) rfl (by decide) (by decide) V

theorem at_main_v64 (V : Valuation τ sig (Elt F)) :
    after ops V (main_v64 : DevRef τ sig) = ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F)) (after ops V (main_arg0 : DevRef τ sig)) (after ops V (main_v63 : DevRef τ sig)) :=
  stage_binary ops_ordered 112 (show nth? (ops : List (HloOp τ sig (Elt F))) 112 = some (StableHlo.binary main_arg0 main_v63 main_v64 ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F))) by chain_rfl) rfl (by decide) (by decide) V

theorem at_main_c_16 (V : Valuation τ sig (Elt F)) :
    after ops V (main_c_16 : DevRef τ sig) = constantI S_ 32 0#32 :=
  stage_nullary ops_ordered 113 (show nth? (ops : List (HloOp τ sig (Elt F))) 113 = some (StableHlo.nullary main_c_16 (constantI S_ 32 0#32)) by chain_rfl) rfl V

theorem at_main_v65 (V : Valuation τ sig (Elt F)) :
    after ops V (main_v65 : DevRef τ sig) = (broadcastInDim S6400000 ![] bcast_S_S6400000 : (⟨S_, .i32⟩ : BufTy).Contents (Elt F) → (⟨S6400000, .i32⟩ : BufTy).Contents (Elt F)) (after ops V (main_c_16 : DevRef τ sig)) :=
  stage_unary ops_ordered 114 (show nth? (ops : List (HloOp τ sig (Elt F))) 114 = some (StableHlo.unary main_c_16 main_v65 (broadcastInDim S6400000 ![] bcast_S_S6400000 : (⟨S_, .i32⟩ : BufTy).Contents (Elt F) → (⟨S6400000, .i32⟩ : BufTy).Contents (Elt F))) by chain_rfl) rfl (by decide) V

theorem at_main_v66 (V : Valuation τ sig (Elt F)) :
    after ops V (main_v66 : DevRef τ sig) = (cmpi .slt : (⟨S6400000, .i32⟩ : BufTy).Contents (Elt F) → (⟨S6400000, .i32⟩ : BufTy).Contents (Elt F) → (⟨S6400000, .i1⟩ : BufTy).Contents (Elt F)) (after ops V (main_v3 : DevRef τ sig)) (after ops V (main_v65 : DevRef τ sig)) :=
  stage_binary ops_ordered 115 (show nth? (ops : List (HloOp τ sig (Elt F))) 115 = some (StableHlo.binary main_v3 main_v65 main_v66 (cmpi .slt : (⟨S6400000, .i32⟩ : BufTy).Contents (Elt F) → (⟨S6400000, .i32⟩ : BufTy).Contents (Elt F) → (⟨S6400000, .i1⟩ : BufTy).Contents (Elt F))) by chain_rfl) rfl (by decide) (by decide) V

theorem at_main_c_17 (V : Valuation τ sig (Elt F)) :
    after ops V (main_c_17 : DevRef τ sig) = constantI S_ 32 200000#32 :=
  stage_nullary ops_ordered 116 (show nth? (ops : List (HloOp τ sig (Elt F))) 116 = some (StableHlo.nullary main_c_17 (constantI S_ 32 200000#32)) by chain_rfl) rfl V

theorem at_main_v67 (V : Valuation τ sig (Elt F)) :
    after ops V (main_v67 : DevRef τ sig) = (broadcastInDim S6400000 ![] bcast_S_S6400000 : (⟨S_, .i32⟩ : BufTy).Contents (Elt F) → (⟨S6400000, .i32⟩ : BufTy).Contents (Elt F)) (after ops V (main_c_17 : DevRef τ sig)) :=
  stage_unary ops_ordered 117 (show nth? (ops : List (HloOp τ sig (Elt F))) 117 = some (StableHlo.unary main_c_17 main_v67 (broadcastInDim S6400000 ![] bcast_S_S6400000 : (⟨S_, .i32⟩ : BufTy).Contents (Elt F) → (⟨S6400000, .i32⟩ : BufTy).Contents (Elt F))) by chain_rfl) rfl (by decide) V

theorem at_main_v68 (V : Valuation τ sig (Elt F)) :
    after ops V (main_v68 : DevRef τ sig) = (addi : (⟨S6400000, .i32⟩ : BufTy).Contents (Elt F) → (⟨S6400000, .i32⟩ : BufTy).Contents (Elt F) → (⟨S6400000, .i32⟩ : BufTy).Contents (Elt F)) (after ops V (main_v3 : DevRef τ sig)) (after ops V (main_v67 : DevRef τ sig)) :=
  stage_binary ops_ordered 118 (show nth? (ops : List (HloOp τ sig (Elt F))) 118 = some (StableHlo.binary main_v3 main_v67 main_v68 (addi : (⟨S6400000, .i32⟩ : BufTy).Contents (Elt F) → (⟨S6400000, .i32⟩ : BufTy).Contents (Elt F) → (⟨S6400000, .i32⟩ : BufTy).Contents (Elt F))) by chain_rfl) rfl (by decide) (by decide) V

theorem at_main_v69 (V : Valuation τ sig (Elt F)) :
    after ops V (main_v69 : DevRef τ sig) = (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)) (after ops V (main_v66 : DevRef τ sig)) (after ops V (main_v68 : DevRef τ sig)) (after ops V (main_v3 : DevRef τ sig)) :=
  stage_ternary ops_ordered 119 (show nth? (ops : List (HloOp τ sig (Elt F))) 119 = some (StableHlo.ternary main_v66 main_v68 main_v3 main_v69 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F))) by chain_rfl) rfl (by decide) (by decide) (by decide) V

theorem at_main_c_18 (V : Valuation τ sig (Elt F)) :
    after ops V (main_c_18 : DevRef τ sig) = constantI S_ 32 1#32 :=
  stage_nullary ops_ordered 120 (show nth? (ops : List (HloOp τ sig (Elt F))) 120 = some (StableHlo.nullary main_c_18 (constantI S_ 32 1#32)) by chain_rfl) rfl V

theorem at_main_v70 (V : Valuation τ sig (Elt F)) :
    after ops V (main_v70 : DevRef τ sig) = (broadcastInDim S6400000 ![] bcast_S_S6400000 : (⟨S_, .i32⟩ : BufTy).Contents (Elt F) → (⟨S6400000, .i32⟩ : BufTy).Contents (Elt F)) (after ops V (main_c_18 : DevRef τ sig)) :=
  stage_unary ops_ordered 121 (show nth? (ops : List (HloOp τ sig (Elt F))) 121 = some (StableHlo.unary main_c_18 main_v70 (broadcastInDim S6400000 ![] bcast_S_S6400000 : (⟨S_, .i32⟩ : BufTy).Contents (Elt F) → (⟨S6400000, .i32⟩ : BufTy).Contents (Elt F))) by chain_rfl) rfl (by decide) V

theorem at_main_v71 (V : Valuation τ sig (Elt F)) :
    after ops V (main_v71 : DevRef τ sig) = (id : (⟨S6400000, .i32⟩ : BufTy).Contents (Elt F) → (⟨S6400000, .i32⟩ : BufTy).Contents (Elt F)) (after ops V (main_v70 : DevRef τ sig)) :=
  stage_unary ops_ordered 122 (show nth? (ops : List (HloOp τ sig (Elt F))) 122 = some (StableHlo.unary main_v70 main_v71 (id : (⟨S6400000, .i32⟩ : BufTy).Contents (Elt F) → (⟨S6400000, .i32⟩ : BufTy).Contents (Elt F))) by chain_rfl) rfl (by decide) V

theorem at_main_v72 (V : Valuation τ sig (Elt F)) :
    after ops V (main_v72 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v69 : DevRef τ sig)) :=
  stage_unary ops_ordered 123 (show nth? (ops : List (HloOp τ sig (Elt F))) 123 = some (StableHlo.unary main_v69 main_v72 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v73 (V : Valuation τ sig (Elt F)) :
    after ops V (main_v73 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v71 : DevRef τ sig)) :=
  stage_unary ops_ordered 124 (show nth? (ops : List (HloOp τ sig (Elt F))) 124 = some (StableHlo.unary main_v71 main_v73 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v74 (V : Valuation τ sig (Elt F)) :
    after ops V (main_v74 : DevRef τ sig) = ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F)) (after ops V (main_v72 : DevRef τ sig)) (after ops V (main_v73 : DevRef τ sig)) :=
  stage_binary ops_ordered 125 (show nth? (ops : List (HloOp τ sig (Elt F))) 125 = some (StableHlo.binary main_v72 main_v73 main_v74 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F))) by chain_rfl) rfl (by decide) (by decide) V

theorem at_main_v75 (V : Valuation τ sig (Elt F)) :
    after ops V (main_v75 : DevRef τ sig) = ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F)) (after ops V (main_arg0 : DevRef τ sig)) (after ops V (main_v74 : DevRef τ sig)) :=
  stage_binary ops_ordered 126 (show nth? (ops : List (HloOp τ sig (Elt F))) 126 = some (StableHlo.binary main_arg0 main_v74 main_v75 ((fun x i => Host.gather gather_S200000x4_S6400000x2_S6400000_n_01_n_n_01_1_11 x i) : (⟨S200000x4, .f32⟩ : BufTy).Contents (Elt F) → (⟨S6400000x2, .i32⟩ : BufTy).Contents (Elt F) → (⟨S6400000, .f32⟩ : BufTy).Contents (Elt F))) by chain_rfl) rfl (by decide) (by decide) V

theorem at_main_v76 (V : Valuation τ sig (Elt F)) :
    after ops V (main_v76 : DevRef τ sig) = (subf : (⟨S6400000, .f32⟩ : BufTy).Contents (Elt F) → (⟨S6400000, .f32⟩ : BufTy).Contents (Elt F) → (⟨S6400000, .f32⟩ : BufTy).Contents (Elt F)) (after ops V (main_v64 : DevRef τ sig)) (after ops V (main_v75 : DevRef τ sig)) :=
  stage_binary ops_ordered 127 (show nth? (ops : List (HloOp τ sig (Elt F))) 127 = some (StableHlo.binary main_v64 main_v75 main_v76 (subf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v77 (V : Valuation τ sig (Elt F)) :
    after ops V (main_v77 : DevRef τ sig) = (mulf : (⟨S6400000, .f32⟩ : BufTy).Contents (Elt F) → (⟨S6400000, .f32⟩ : BufTy).Contents (Elt F) → (⟨S6400000, .f32⟩ : BufTy).Contents (Elt F)) (after ops V (main_v53 : DevRef τ sig)) (after ops V (main_v53 : DevRef τ sig)) :=
  stage_binary ops_ordered 128 (show nth? (ops : List (HloOp τ sig (Elt F))) 128 = some (StableHlo.binary main_v53 main_v53 main_v77 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v78 (V : Valuation τ sig (Elt F)) :
    after ops V (main_v78 : DevRef τ sig) = (mulf : (⟨S6400000, .f32⟩ : BufTy).Contents (Elt F) → (⟨S6400000, .f32⟩ : BufTy).Contents (Elt F) → (⟨S6400000, .f32⟩ : BufTy).Contents (Elt F)) (after ops V (main_v76 : DevRef τ sig)) (after ops V (main_v76 : DevRef τ sig)) :=
  stage_binary ops_ordered 129 (show nth? (ops : List (HloOp τ sig (Elt F))) 129 = some (StableHlo.binary main_v76 main_v76 main_v78 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v79 (V : Valuation τ sig (Elt F)) :
    after ops V (main_v79 : DevRef τ sig) = (addf : (⟨S6400000, .f32⟩ : BufTy).Contents (Elt F) → (⟨S6400000, .f32⟩ : BufTy).Contents (Elt F) → (⟨S6400000, .f32⟩ : BufTy).Contents (Elt F)) (after ops V (main_v77 : DevRef τ sig)) (after ops V (main_v78 : DevRef τ sig)) :=
  stage_binary ops_ordered 130 (show nth? (ops : List (HloOp τ sig (Elt F))) 130 = some (StableHlo.binary main_v77 main_v78 main_v79 (addf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v80 (V : Valuation τ sig (Elt F)) :
    after ops V (main_v80 : DevRef τ sig) = (Host.sqrt : (⟨S6400000, .f32⟩ : BufTy).Contents (Elt F) → (⟨S6400000, .f32⟩ : BufTy).Contents (Elt F)) (after ops V (main_v79 : DevRef τ sig)) :=
  stage_unary ops_ordered 131 (show nth? (ops : List (HloOp τ sig (Elt F))) 131 = some (StableHlo.unary main_v79 main_v80 (Host.sqrt : (⟨S6400000, .f32⟩ : BufTy).Contents (Elt F) → (⟨S6400000, .f32⟩ : BufTy).Contents (Elt F))) by chain_rfl) rfl (by decide) V

theorem at_main_cst_19 (V : Valuation τ sig (Elt F)) :
    after ops V (main_cst_19 : DevRef τ sig) = constant S_ .f32 0x358637BD#32 :=
  stage_nullary ops_ordered 132 (show nth? (ops : List (HloOp τ sig (Elt F))) 132 = some (StableHlo.nullary main_cst_19 (constant S_ .f32 0x358637BD#32)) by chain_rfl) rfl V

theorem at_main_v81 (V : Valuation τ sig (Elt F)) :
    after ops V (main_v81 : DevRef τ sig) = (broadcastInDim S6400000 ![] bcast_S_S6400000 : (⟨S_, .f32⟩ : BufTy).Contents (Elt F) → (⟨S6400000, .f32⟩ : BufTy).Contents (Elt F)) (after ops V (main_cst_19 : DevRef τ sig)) :=
  stage_unary ops_ordered 133 (show nth? (ops : List (HloOp τ sig (Elt F))) 133 = some (StableHlo.unary main_cst_19 main_v81 (broadcastInDim S6400000 ![] bcast_S_S6400000 : (⟨S_, .f32⟩ : BufTy).Contents (Elt F) → (⟨S6400000, .f32⟩ : BufTy).Contents (Elt F))) by chain_rfl) rfl (by decide) V

theorem at_main_v82 (V : Valuation τ sig (Elt F)) :
    after ops V (main_v82 : DevRef τ sig) = (addf : (⟨S6400000, .f32⟩ : BufTy).Contents (Elt F) → (⟨S6400000, .f32⟩ : BufTy).Contents (Elt F) → (⟨S6400000, .f32⟩ : BufTy).Contents (Elt F)) (after ops V (main_v11 : DevRef τ sig)) (after ops V (main_v81 : DevRef τ sig)) :=
  stage_binary ops_ordered 134 (show nth? (ops : List (HloOp τ sig (Elt F))) 134 = some (StableHlo.binary main_v11 main_v81 main_v82 (addf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v83 (V : Valuation τ sig (Elt F)) :
    after ops V (main_v83 : DevRef τ sig) = (mulf : (⟨S6400000, .f32⟩ : BufTy).Contents (Elt F) → (⟨S6400000, .f32⟩ : BufTy).Contents (Elt F) → (⟨S6400000, .f32⟩ : BufTy).Contents (Elt F)) (after ops V (main_v82 : DevRef τ sig)) (after ops V (main_v82 : DevRef τ sig)) :=
  stage_binary ops_ordered 135 (show nth? (ops : List (HloOp τ sig (Elt F))) 135 = some (StableHlo.binary main_v82 main_v82 main_v83 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v84 (V : Valuation τ sig (Elt F)) :
    after ops V (main_v84 : DevRef τ sig) = (mulf : (⟨S6400000, .f32⟩ : BufTy).Contents (Elt F) → (⟨S6400000, .f32⟩ : BufTy).Contents (Elt F) → (⟨S6400000, .f32⟩ : BufTy).Contents (Elt F)) (after ops V (main_v13 : DevRef τ sig)) (after ops V (main_v13 : DevRef τ sig)) :=
  stage_binary ops_ordered 136 (show nth? (ops : List (HloOp τ sig (Elt F))) 136 = some (StableHlo.binary main_v13 main_v13 main_v84 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v85 (V : Valuation τ sig (Elt F)) :
    after ops V (main_v85 : DevRef τ sig) = (addf : (⟨S6400000, .f32⟩ : BufTy).Contents (Elt F) → (⟨S6400000, .f32⟩ : BufTy).Contents (Elt F) → (⟨S6400000, .f32⟩ : BufTy).Contents (Elt F)) (after ops V (main_v83 : DevRef τ sig)) (after ops V (main_v84 : DevRef τ sig)) :=
  stage_binary ops_ordered 137 (show nth? (ops : List (HloOp τ sig (Elt F))) 137 = some (StableHlo.binary main_v83 main_v84 main_v85 (addf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v86 (V : Valuation τ sig (Elt F)) :
    after ops V (main_v86 : DevRef τ sig) = (Host.sqrt : (⟨S6400000, .f32⟩ : BufTy).Contents (Elt F) → (⟨S6400000, .f32⟩ : BufTy).Contents (Elt F)) (after ops V (main_v85 : DevRef τ sig)) :=
  stage_unary ops_ordered 138 (show nth? (ops : List (HloOp τ sig (Elt F))) 138 = some (StableHlo.unary main_v85 main_v86 (Host.sqrt : (⟨S6400000, .f32⟩ : BufTy).Contents (Elt F) → (⟨S6400000, .f32⟩ : BufTy).Contents (Elt F))) by chain_rfl) rfl (by decide) V

theorem at_main_v87 (V : Valuation τ sig (Elt F)) :
    after ops V (main_v87 : DevRef τ sig) = (Host.divf : (⟨S6400000, .f32⟩ : BufTy).Contents (Elt F) → (⟨S6400000, .f32⟩ : BufTy).Contents (Elt F) → (⟨S6400000, .f32⟩ : BufTy).Contents (Elt F)) (after ops V (main_v80 : DevRef τ sig)) (after ops V (main_v86 : DevRef τ sig)) :=
  stage_binary ops_ordered 139 (show nth? (ops : List (HloOp τ sig (Elt F))) 139 = some (StableHlo.binary main_v80 main_v86 main_v87 (Host.divf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v88 (V : Valuation τ sig (Elt F)) :
    after ops V (main_v88 : DevRef τ sig) = (mulf : (⟨S6400000, .f32⟩ : BufTy).Contents (Elt F) → (⟨S6400000, .f32⟩ : BufTy).Contents (Elt F) → (⟨S6400000, .f32⟩ : BufTy).Contents (Elt F)) (after ops V (main_v87 : DevRef τ sig)) (after ops V (main_v9 : DevRef τ sig)) :=
  stage_binary ops_ordered 140 (show nth? (ops : List (HloOp τ sig (Elt F))) 140 = some (StableHlo.binary main_v87 main_v9 main_v88 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_cst_20 (V : Valuation τ sig (Elt F)) :
    after ops V (main_cst_20 : DevRef τ sig) = constant S_ .f32 0x00000000#32 :=
  stage_nullary ops_ordered 141 (show nth? (ops : List (HloOp τ sig (Elt F))) 141 = some (StableHlo.nullary main_cst_20 (constant S_ .f32 0x00000000#32)) by chain_rfl) rfl V

theorem at_main_v89 (V : Valuation τ sig (Elt F)) :
    after ops V (main_v89 : DevRef τ sig) = (broadcastInDim S200000 ![] bcast_S_S200000 : (⟨S_, .f32⟩ : BufTy).Contents (Elt F) → (⟨S200000, .f32⟩ : BufTy).Contents (Elt F)) (after ops V (main_cst_20 : DevRef τ sig)) :=
  stage_unary ops_ordered 142 (show nth? (ops : List (HloOp τ sig (Elt F))) 142 = some (StableHlo.unary main_cst_20 main_v89 (broadcastInDim S200000 ![] bcast_S_S200000 : (⟨S_, .f32⟩ : BufTy).Contents (Elt F) → (⟨S200000, .f32⟩ : BufTy).Contents (Elt F))) by chain_rfl) rfl (by decide) V

theorem at_main_v90 (V : Valuation τ sig (Elt F)) :
    after ops V (main_v90 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v3 : DevRef τ sig)) :=
  stage_unary ops_ordered 143 (show nth? (ops : List (HloOp τ sig (Elt F))) 143 = some (StableHlo.unary main_v3 main_v90 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v91 (V : Valuation τ sig (Elt F)) :
    after ops V (main_v91 : DevRef τ sig) = ((fun x i u => Host.scatterAdd scatter_S200000_S6400000x1_S6400000_n_0_0_1 x i u) : (⟨S200000, .f32⟩ : BufTy).Contents (Elt F) → (⟨S6400000x1, .i32⟩ : BufTy).Contents (Elt F) → (⟨S6400000, .f32⟩ : BufTy).Contents (Elt F) → (⟨S200000, .f32⟩ : BufTy).Contents (Elt F)) (after ops V (main_v89 : DevRef τ sig)) (after ops V (main_v90 : DevRef τ sig)) (after ops V (main_v88 : DevRef τ sig)) :=
  stage_ternary ops_ordered 144 (show nth? (ops : List (HloOp τ sig (Elt F))) 144 = some (StableHlo.ternary main_v89 main_v90 main_v88 main_v91 ((fun x i u => Host.scatterAdd scatter_S200000_S6400000x1_S6400000_n_0_0_1 x i u) : (⟨S200000, .f32⟩ : BufTy).Contents (Elt F) → (⟨S6400000x1, .i32⟩ : BufTy).Contents (Elt F) → (⟨S6400000, .f32⟩ : BufTy).Contents (Elt F) → (⟨S200000, .f32⟩ : BufTy).Contents (Elt F))) by chain_rfl) rfl (by decide) (by decide) (by decide) V

theorem at_main_cst_21 (V : Valuation τ sig (Elt F)) :
    after ops V (main_cst_21 : DevRef τ sig) = constant S_ .f32 0x00000000#32 :=
  stage_nullary ops_ordered 145 (show nth? (ops : List (HloOp τ sig (Elt F))) 145 = some (StableHlo.nullary main_cst_21 (constant S_ .f32 0x00000000#32)) by chain_rfl) rfl V

theorem at_main_v92 (V : Valuation τ sig (Elt F)) :
    after ops V (main_v92 : DevRef τ sig) = (broadcastInDim S200000 ![] bcast_S_S200000 : (⟨S_, .f32⟩ : BufTy).Contents (Elt F) → (⟨S200000, .f32⟩ : BufTy).Contents (Elt F)) (after ops V (main_cst_21 : DevRef τ sig)) :=
  stage_unary ops_ordered 146 (show nth? (ops : List (HloOp τ sig (Elt F))) 146 = some (StableHlo.unary main_cst_21 main_v92 (broadcastInDim S200000 ![] bcast_S_S200000 : (⟨S_, .f32⟩ : BufTy).Contents (Elt F) → (⟨S200000, .f32⟩ : BufTy).Contents (Elt F))) by chain_rfl) rfl (by decide) V

theorem at_main_v93 (V : Valuation τ sig (Elt F)) :
    after ops V (main_v93 : DevRef τ sig) = (broadcastInDim S6400000x1 ![0] bcast_S6400000_S6400000x1_0 : (⟨S6400000, .i32⟩ : BufTy).Contents (Elt F) → (⟨S6400000x1, .i32⟩ : BufTy).Contents (Elt F)) (after ops V (main_v1 : DevRef τ sig)) :=
  stage_unary ops_ordered 147 (show nth? (ops : List (HloOp τ sig (Elt F))) 147 = some (StableHlo.unary main_v1 main_v93 (broadcastInDim S6400000x1 ![0] bcast_S6400000_S6400000x1_0 : (⟨S6400000, .i32⟩ : BufTy).Contents (Elt F) → (⟨S6400000x1, .i32⟩ : BufTy).Contents (Elt F))) by chain_rfl) rfl (by decide) V

theorem at_main_v94 (V : Valuation τ sig (Elt F)) :
    after ops V (main_v94 : DevRef τ sig) = ((fun x i u => Host.scatterAdd scatter_S200000_S6400000x1_S6400000_n_0_0_1 x i u) : (⟨S200000, .f32⟩ : BufTy).Contents (Elt F) → (⟨S6400000x1, .i32⟩ : BufTy).Contents (Elt F) → (⟨S6400000, .f32⟩ : BufTy).Contents (Elt F) → (⟨S200000, .f32⟩ : BufTy).Contents (Elt F)) (after ops V (main_v92 : DevRef τ sig)) (after ops V (main_v93 : DevRef τ sig)) (after ops V (main_v88 : DevRef τ sig)) :=
  stage_ternary ops_ordered 148 (show nth? (ops : List (HloOp τ sig (Elt F))) 148 = some (StableHlo.ternary main_v92 main_v93 main_v88 main_v94 ((fun x i u => Host.scatterAdd scatter_S200000_S6400000x1_S6400000_n_0_0_1 x i u) : (⟨S200000, .f32⟩ : BufTy).Contents (Elt F) → (⟨S6400000x1, .i32⟩ : BufTy).Contents (Elt F) → (⟨S6400000, .f32⟩ : BufTy).Contents (Elt F) → (⟨S200000, .f32⟩ : BufTy).Contents (Elt F))) by chain_rfl) rfl (by decide) (by decide) (by decide) V

theorem at_main_v95 (V : Valuation τ sig (Elt F)) :
    after ops V (main_v95 : DevRef τ sig) = (subf : (⟨S200000, .f32⟩ : BufTy).Contents (Elt F) → (⟨S200000, .f32⟩ : BufTy).Contents (Elt F) → (⟨S200000, .f32⟩ : BufTy).Contents (Elt F)) (after ops V (main_v91 : DevRef τ sig)) (after ops V (main_v94 : DevRef τ sig)) :=
  stage_binary ops_ordered 149 (show nth? (ops : List (HloOp τ sig (Elt F))) 149 = some (StableHlo.binary main_v91 main_v94 main_v95 (subf : (⟨S200000, .f32⟩ : BufTy).Contents (Elt F) → (⟨S200000, .f32⟩ : BufTy).Contents (Elt F) → (⟨S200000, .f32⟩ : BufTy).Contents (Elt F))) by chain_rfl) rfl (by decide) (by decide) V

end Cert.ReferenceIdeal.HRun

end
-- ==== Proof.RefStage2.lean ====
/- The step equations of window 2 of the reference's @main: for each operation, what the whole line leaves in its
   buffer is its function of what the line leaves in its operands' buffers. -/
import proofs.«176581_j38010460570140_2_alg».proof.Proof.RefOrd

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

theorem at_main_v96 (V : Valuation τ sig (Elt F)) :
    after ops V (main_v96 : DevRef τ sig) = (mulf : (⟨S200000, .f32⟩ : BufTy).Contents (Elt F) → (⟨S200000, .f32⟩ : BufTy).Contents (Elt F) → (⟨S200000, .f32⟩ : BufTy).Contents (Elt F)) (after ops V (main_v95 : DevRef τ sig)) (after ops V (main_v95 : DevRef τ sig)) :=
  stage_binary ops_ordered 150 (show nth? (ops : List (HloOp τ sig (Elt F))) 150 = some (StableHlo.binary main_v95 main_v95 main_v96 (mulf : (⟨S200000, .f32⟩ : BufTy).Contents (Elt F) → (⟨S200000, .f32⟩ : BufTy).Contents (Elt F) → (⟨S200000, .f32⟩ : BufTy).Contents (Elt F))) by chain_rfl) rfl (by decide) (by decide) V

theorem at_main_cst_22 (V : Valuation τ sig (Elt F)) :
    after ops V (main_cst_22 : DevRef τ sig) = constant S_ .f32 0x00000000#32 :=
  stage_nullary ops_ordered 151 (show nth? (ops : List (HloOp τ sig (Elt F))) 151 = some (StableHlo.nullary main_cst_22 (constant S_ .f32 0x00000000#32)) by chain_rfl) rfl V

theorem at_main_v97 (V : Valuation τ sig (Elt F)) :
    after ops V (main_v97 : DevRef τ sig) = ((fun x v => Host.reduceAdd x v reducesTo_S200000_S_d0 h_S_) : (⟨S200000, .f32⟩ : BufTy).Contents (Elt F) → (⟨S_, .f32⟩ : BufTy).Contents (Elt F) → (⟨S_, .f32⟩ : BufTy).Contents (Elt F)) (after ops V (main_v96 : DevRef τ sig)) (after ops V (main_cst_22 : DevRef τ sig)) :=
  stage_binary ops_ordered 152 (show nth? (ops : List (HloOp τ sig (Elt F))) 152 = some (StableHlo.binary main_v96 main_cst_22 main_v97 ((fun x v => Host.reduceAdd x v reducesTo_S200000_S_d0 h_S_) : (⟨S200000, .f32⟩ : BufTy).Contents (Elt F) → (⟨S_, .f32⟩ : BufTy).Contents (Elt F) → (⟨S_, .f32⟩ : BufTy).Contents (Elt F))) by chain_rfl) rfl (by decide) (by decide) V

theorem at_main_cst_23 (V : Valuation τ sig (Elt F)) :
    after ops V (main_cst_23 : DevRef τ sig) = constant S_ .f32 0x48435000#32 :=
  stage_nullary ops_ordered 153 (show nth? (ops : List (HloOp τ sig (Elt F))) 153 = some (StableHlo.nullary main_cst_23 (constant S_ .f32 0x48435000#32)) by chain_rfl) rfl V

theorem at_main_v98 (V : Valuation τ sig (Elt F)) :
    after ops V (main_v98 : DevRef τ sig) = (Host.divf : (⟨S_, .f32⟩ : BufTy).Contents (Elt F) → (⟨S_, .f32⟩ : BufTy).Contents (Elt F) → (⟨S_, .f32⟩ : BufTy).Contents (Elt F)) (after ops V (main_v97 : DevRef τ sig)) (after ops V (main_cst_23 : DevRef τ sig)) :=
  stage_binary ops_ordered 154 (show nth? (ops : List (HloOp τ sig (Elt F))) 154 = some (StableHlo.binary main_v97 main_cst_23 main_v98 (Host.divf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_24 (V : Valuation τ sig (Elt F)) :
    after ops V (main_cst_24 : DevRef τ sig) = constant S_ .f32 0x3DCCCCCD#32 :=
  stage_nullary ops_ordered 155 (show nth? (ops : List (HloOp τ sig (Elt F))) 155 = some (StableHlo.nullary main_cst_24 (constant S_ .f32 0x3DCCCCCD#32)) by chain_rfl) rfl V

theorem at_main_v99 (V : Valuation τ sig (Elt F)) :
    after ops V (main_v99 : DevRef τ sig) = (mulf : (⟨S_, .f32⟩ : BufTy).Contents (Elt F) → (⟨S_, .f32⟩ : BufTy).Contents (Elt F) → (⟨S_, .f32⟩ : BufTy).Contents (Elt F)) (after ops V (main_cst_24 : DevRef τ sig)) (after ops V (main_v98 : DevRef τ sig)) :=
  stage_binary ops_ordered 156 (show nth? (ops : List (HloOp τ sig (Elt F))) 156 = some (StableHlo.binary main_cst_24 main_v98 main_v99 (mulf : (⟨S_, .f32⟩ : BufTy).Contents (Elt F) → (⟨S_, .f32⟩ : BufTy).Contents (Elt F) → (⟨S_, .f32⟩ : BufTy).Contents (Elt F))) by chain_rfl) rfl (by decide) (by decide) V

theorem at_main_v100 (V : Valuation τ sig (Elt F)) :
    after ops V (main_v100 : DevRef τ sig) = (broadcastInDim S6400000x1 ![0] bcast_S6400000_S6400000x1_0 : (⟨S6400000, .f32⟩ : BufTy).Contents (Elt F) → (⟨S6400000x1, .f32⟩ : BufTy).Contents (Elt F)) (after ops V (main_v9 : DevRef τ sig)) :=
  stage_unary ops_ordered 157 (show nth? (ops : List (HloOp τ sig (Elt F))) 157 = some (StableHlo.unary main_v9 main_v100 (broadcastInDim S6400000x1 ![0] bcast_S6400000_S6400000x1_0 : (⟨S6400000, .f32⟩ : BufTy).Contents (Elt F) → (⟨S6400000x1, .f32⟩ : BufTy).Contents (Elt F))) by chain_rfl) rfl (by decide) V

theorem at_main_v101 (V : Valuation τ sig (Elt F)) :
    after ops V (main_v101 : DevRef τ sig) = (broadcastInDim S6400000x2 ![0, 1] bcast_S6400000x1_S6400000x2_0_1 : (⟨S6400000x1, .f32⟩ : BufTy).Contents (Elt F) → (⟨S6400000x2, .f32⟩ : BufTy).Contents (Elt F)) (after ops V (main_v100 : DevRef τ sig)) :=
  stage_unary ops_ordered 158 (show nth? (ops : List (HloOp τ sig (Elt F))) 158 = some (StableHlo.unary main_v100 main_v101 (broadcastInDim S6400000x2 ![0, 1] bcast_S6400000x1_S6400000x2_0_1 : (⟨S6400000x1, .f32⟩ : BufTy).Contents (Elt F) → (⟨S6400000x2, .f32⟩ : BufTy).Contents (Elt F))) by chain_rfl) rfl (by decide) V

theorem at_main_v102 (V : Valuation τ sig (Elt F)) :
    after ops V (main_v102 : DevRef τ sig) = (mulf : (⟨S6400000x2, .f32⟩ : BufTy).Contents (Elt F) → (⟨S6400000x2, .f32⟩ : BufTy).Contents (Elt F) → (⟨S6400000x2, .f32⟩ : BufTy).Contents (Elt F)) (after ops V (main_arg2 : DevRef τ sig)) (after ops V (main_v101 : DevRef τ sig)) :=
  stage_binary ops_ordered 159 (show nth? (ops : List (HloOp τ sig (Elt F))) 159 = some (StableHlo.binary main_arg2 main_v101 main_v102 (mulf : (⟨S6400000x2, .f32⟩ : BufTy).Contents (Elt F) → (⟨S6400000x2, .f32⟩ : BufTy).Contents (Elt F) → (⟨S6400000x2, .f32⟩ : BufTy).Contents (Elt F))) by chain_rfl) rfl (by decide) (by decide) V

theorem at_main_cst_25 (V : Valuation τ sig (Elt F)) :
    after ops V (main_cst_25 : DevRef τ sig) = constant S_ .f32 0x00000000#32 :=
  stage_nullary ops_ordered 160 (show nth? (ops : List (HloOp τ sig (Elt F))) 160 = some (StableHlo.nullary main_cst_25 (constant S_ .f32 0x00000000#32)) by chain_rfl) rfl V

theorem at_main_v103 (V : Valuation τ sig (Elt F)) :
    after ops V (main_v103 : DevRef τ sig) = ((fun x v => Host.reduceAdd x v reducesTo_S6400000x2_S2_d0 h_S_) : (⟨S6400000x2, .f32⟩ : BufTy).Contents (Elt F) → (⟨S_, .f32⟩ : BufTy).Contents (Elt F) → (⟨S2, .f32⟩ : BufTy).Contents (Elt F)) (after ops V (main_v102 : DevRef τ sig)) (after ops V (main_cst_25 : DevRef τ sig)) :=
  stage_binary ops_ordered 161 (show nth? (ops : List (HloOp τ sig (Elt F))) 161 = some (StableHlo.binary main_v102 main_cst_25 main_v103 ((fun x v => Host.reduceAdd x v reducesTo_S6400000x2_S2_d0 h_S_) : (⟨S6400000x2, .f32⟩ : BufTy).Contents (Elt F) → (⟨S_, .f32⟩ : BufTy).Contents (Elt F) → (⟨S2, .f32⟩ : BufTy).Contents (Elt F))) by chain_rfl) rfl (by decide) (by decide) V

theorem at_main_cst_26 (V : Valuation τ sig (Elt F)) :
    after ops V (main_cst_26 : DevRef τ sig) = constant S_ .f32 0x00000000#32 :=
  stage_nullary ops_ordered 162 (show nth? (ops : List (HloOp τ sig (Elt F))) 162 = some (StableHlo.nullary main_cst_26 (constant S_ .f32 0x00000000#32)) by chain_rfl) rfl V

theorem at_main_v104 (V : Valuation τ sig (Elt F)) :
    after ops V (main_v104 : DevRef τ sig) = ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F)) (after ops V (main_v9 : DevRef τ sig)) (after ops V (main_cst_26 : DevRef τ sig)) :=
  stage_binary ops_ordered 163 (show nth? (ops : List (HloOp τ sig (Elt F))) 163 = some (StableHlo.binary main_v9 main_cst_26 main_v104 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))) by chain_rfl) rfl (by decide) (by decide) V

theorem at_main_cst_27 (V : Valuation τ sig (Elt F)) :
    after ops V (main_cst_27 : DevRef τ sig) = constant S_ .f32 0x358637BD#32 :=
  stage_nullary ops_ordered 164 (show nth? (ops : List (HloOp τ sig (Elt F))) 164 = some (StableHlo.nullary main_cst_27 (constant S_ .f32 0x358637BD#32)) by chain_rfl) rfl V

theorem at_main_v105 (V : Valuation τ sig (Elt F)) :
    after ops V (main_v105 : DevRef τ sig) = (addf : (⟨S_, .f32⟩ : BufTy).Contents (Elt F) → (⟨S_, .f32⟩ : BufTy).Contents (Elt F) → (⟨S_, .f32⟩ : BufTy).Contents (Elt F)) (after ops V (main_v104 : DevRef τ sig)) (after ops V (main_cst_27 : DevRef τ sig)) :=
  stage_binary ops_ordered 165 (show nth? (ops : List (HloOp τ sig (Elt F))) 165 = some (StableHlo.binary main_v104 main_cst_27 main_v105 (addf : (⟨S_, .f32⟩ : BufTy).Contents (Elt F) → (⟨S_, .f32⟩ : BufTy).Contents (Elt F) → (⟨S_, .f32⟩ : BufTy).Contents (Elt F))) by chain_rfl) rfl (by decide) (by decide) V

theorem at_main_v106 (V : Valuation τ sig (Elt F)) :
    after ops V (main_v106 : DevRef τ sig) = (broadcastInDim S2 ![] bcast_S_S2 : (⟨S_, .f32⟩ : BufTy).Contents (Elt F) → (⟨S2, .f32⟩ : BufTy).Contents (Elt F)) (after ops V (main_v105 : DevRef τ sig)) :=
  stage_unary ops_ordered 166 (show nth? (ops : List (HloOp τ sig (Elt F))) 166 = some (StableHlo.unary main_v105 main_v106 (broadcastInDim S2 ![] bcast_S_S2 : (⟨S_, .f32⟩ : BufTy).Contents (Elt F) → (⟨S2, .f32⟩ : BufTy).Contents (Elt F))) by chain_rfl) rfl (by decide) V

theorem at_main_v107 (V : Valuation τ sig (Elt F)) :
    after ops V (main_v107 : DevRef τ sig) = (Host.divf : (⟨S2, .f32⟩ : BufTy).Contents (Elt F) → (⟨S2, .f32⟩ : BufTy).Contents (Elt F) → (⟨S2, .f32⟩ : BufTy).Contents (Elt F)) (after ops V (main_v103 : DevRef τ sig)) (after ops V (main_v106 : DevRef τ sig)) :=
  stage_binary ops_ordered 167 (show nth? (ops : List (HloOp τ sig (Elt F))) 167 = some (StableHlo.binary main_v103 main_v106 main_v107 (Host.divf : (⟨S2, .f32⟩ : BufTy).Contents (Elt F) → (⟨S2, .f32⟩ : BufTy).Contents (Elt F) → (⟨S2, .f32⟩ : BufTy).Contents (Elt F))) by chain_rfl) rfl (by decide) (by decide) V

theorem at_main_v108 (V : Valuation τ sig (Elt F)) :
    after ops V (main_v108 : DevRef τ sig) = (broadcastInDim S1x2 ![1] bcast_S2_S1x2_1 : (⟨S2, .f32⟩ : BufTy).Contents (Elt F) → (⟨S1x2, .f32⟩ : BufTy).Contents (Elt F)) (after ops V (main_v107 : DevRef τ sig)) :=
  stage_unary ops_ordered 168 (show nth? (ops : List (HloOp τ sig (Elt F))) 168 = some (StableHlo.unary main_v107 main_v108 (broadcastInDim S1x2 ![1] bcast_S2_S1x2_1 : (⟨S2, .f32⟩ : BufTy).Contents (Elt F) → (⟨S1x2, .f32⟩ : BufTy).Contents (Elt F))) by chain_rfl) rfl (by decide) V

theorem at_main_v109 (V : Valuation τ sig (Elt F)) :
    after ops V (main_v109 : DevRef τ sig) = (broadcastInDim S6400000x2 ![0, 1] bcast_S1x2_S6400000x2_0_1 : (⟨S1x2, .f32⟩ : BufTy).Contents (Elt F) → (⟨S6400000x2, .f32⟩ : BufTy).Contents (Elt F)) (after ops V (main_v108 : DevRef τ sig)) :=
  stage_unary ops_ordered 169 (show nth? (ops : List (HloOp τ sig (Elt F))) 169 = some (StableHlo.unary main_v108 main_v109 (broadcastInDim S6400000x2 ![0, 1] bcast_S1x2_S6400000x2_0_1 : (⟨S1x2, .f32⟩ : BufTy).Contents (Elt F) → (⟨S6400000x2, .f32⟩ : BufTy).Contents (Elt F))) by chain_rfl) rfl (by decide) V

theorem at_main_v110 (V : Valuation τ sig (Elt F)) :
    after ops V (main_v110 : DevRef τ sig) = (subf : (⟨S6400000x2, .f32⟩ : BufTy).Contents (Elt F) → (⟨S6400000x2, .f32⟩ : BufTy).Contents (Elt F) → (⟨S6400000x2, .f32⟩ : BufTy).Contents (Elt F)) (after ops V (main_arg2 : DevRef τ sig)) (after ops V (main_v109 : DevRef τ sig)) :=
  stage_binary ops_ordered 170 (show nth? (ops : List (HloOp τ sig (Elt F))) 170 = some (StableHlo.binary main_arg2 main_v109 main_v110 (subf : (⟨S6400000x2, .f32⟩ : BufTy).Contents (Elt F) → (⟨S6400000x2, .f32⟩ : BufTy).Contents (Elt F) → (⟨S6400000x2, .f32⟩ : BufTy).Contents (Elt F))) by chain_rfl) rfl (by decide) (by decide) V

theorem at_main_v111 (V : Valuation τ sig (Elt F)) :
    after ops V (main_v111 : DevRef τ sig) = (mulf : (⟨S6400000x2, .f32⟩ : BufTy).Contents (Elt F) → (⟨S6400000x2, .f32⟩ : BufTy).Contents (Elt F) → (⟨S6400000x2, .f32⟩ : BufTy).Contents (Elt F)) (after ops V (main_v110 : DevRef τ sig)) (after ops V (main_v110 : DevRef τ sig)) :=
  stage_binary ops_ordered 171 (show nth? (ops : List (HloOp τ sig (Elt F))) 171 = some (StableHlo.binary main_v110 main_v110 main_v111 (mulf : (⟨S6400000x2, .f32⟩ : BufTy).Contents (Elt F) → (⟨S6400000x2, .f32⟩ : BufTy).Contents (Elt F) → (⟨S6400000x2, .f32⟩ : BufTy).Contents (Elt F))) by chain_rfl) rfl (by decide) (by decide) V

theorem at_main_v112 (V : Valuation τ sig (Elt F)) :
    after ops V (main_v112 : DevRef τ sig) = (broadcastInDim S6400000x2 ![0, 1] bcast_S6400000x1_S6400000x2_0_1 : (⟨S6400000x1, .f32⟩ : BufTy).Contents (Elt F) → (⟨S6400000x2, .f32⟩ : BufTy).Contents (Elt F)) (after ops V (main_v100 : DevRef τ sig)) :=
  stage_unary ops_ordered 172 (show nth? (ops : List (HloOp τ sig (Elt F))) 172 = some (StableHlo.unary main_v100 main_v112 (broadcastInDim S6400000x2 ![0, 1] bcast_S6400000x1_S6400000x2_0_1 : (⟨S6400000x1, .f32⟩ : BufTy).Contents (Elt F) → (⟨S6400000x2, .f32⟩ : BufTy).Contents (Elt F))) by chain_rfl) rfl (by decide) V

theorem at_main_v113 (V : Valuation τ sig (Elt F)) :
    after ops V (main_v113 : DevRef τ sig) = (mulf : (⟨S6400000x2, .f32⟩ : BufTy).Contents (Elt F) → (⟨S6400000x2, .f32⟩ : BufTy).Contents (Elt F) → (⟨S6400000x2, .f32⟩ : BufTy).Contents (Elt F)) (after ops V (main_v111 : DevRef τ sig)) (after ops V (main_v112 : DevRef τ sig)) :=
  stage_binary ops_ordered 173 (show nth? (ops : List (HloOp τ sig (Elt F))) 173 = some (StableHlo.binary main_v111 main_v112 main_v113 (mulf : (⟨S6400000x2, .f32⟩ : BufTy).Contents (Elt F) → (⟨S6400000x2, .f32⟩ : BufTy).Contents (Elt F) → (⟨S6400000x2, .f32⟩ : BufTy).Contents (Elt F))) by chain_rfl) rfl (by decide) (by decide) V

theorem at_main_cst_28 (V : Valuation τ sig (Elt F)) :
    after ops V (main_cst_28 : DevRef τ sig) = constant S_ .f32 0x00000000#32 :=
  stage_nullary ops_ordered 174 (show nth? (ops : List (HloOp τ sig (Elt F))) 174 = some (StableHlo.nullary main_cst_28 (constant S_ .f32 0x00000000#32)) by chain_rfl) rfl V

theorem at_main_v114 (V : Valuation τ sig (Elt F)) :
    after ops V (main_v114 : DevRef τ sig) = ((fun x v => Host.reduceAdd x v reducesTo_S6400000x2_S2_d0 h_S_) : (⟨S6400000x2, .f32⟩ : BufTy).Contents (Elt F) → (⟨S_, .f32⟩ : BufTy).Contents (Elt F) → (⟨S2, .f32⟩ : BufTy).Contents (Elt F)) (after ops V (main_v113 : DevRef τ sig)) (after ops V (main_cst_28 : DevRef τ sig)) :=
  stage_binary ops_ordered 175 (show nth? (ops : List (HloOp τ sig (Elt F))) 175 = some (StableHlo.binary main_v113 main_cst_28 main_v114 ((fun x v => Host.reduceAdd x v reducesTo_S6400000x2_S2_d0 h_S_) : (⟨S6400000x2, .f32⟩ : BufTy).Contents (Elt F) → (⟨S_, .f32⟩ : BufTy).Contents (Elt F) → (⟨S2, .f32⟩ : BufTy).Contents (Elt F))) by chain_rfl) rfl (by decide) (by decide) V

theorem at_main_cst_29 (V : Valuation τ sig (Elt F)) :
    after ops V (main_cst_29 : DevRef τ sig) = constant S_ .f32 0x00000000#32 :=
  stage_nullary ops_ordered 176 (show nth? (ops : List (HloOp τ sig (Elt F))) 176 = some (StableHlo.nullary main_cst_29 (constant S_ .f32 0x00000000#32)) by chain_rfl) rfl V

theorem at_main_v115 (V : Valuation τ sig (Elt F)) :
    after ops V (main_v115 : DevRef τ sig) = ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)) (after ops V (main_v114 : DevRef τ sig)) (after ops V (main_cst_29 : DevRef τ sig)) :=
  stage_binary ops_ordered 177 (show nth? (ops : List (HloOp τ sig (Elt F))) 177 = some (StableHlo.binary main_v114 main_cst_29 main_v115 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F))) by chain_rfl) rfl (by decide) (by decide) V

theorem at_main_cst_30 (V : Valuation τ sig (Elt F)) :
    after ops V (main_cst_30 : DevRef τ sig) = constant S_ .f32 0x40000000#32 :=
  stage_nullary ops_ordered 178 (show nth? (ops : List (HloOp τ sig (Elt F))) 178 = some (StableHlo.nullary main_cst_30 (constant S_ .f32 0x40000000#32)) by chain_rfl) rfl V

theorem at_main_v116 (V : Valuation τ sig (Elt F)) :
    after ops V (main_v116 : DevRef τ sig) = (Host.divf : (⟨S_, .f32⟩ : BufTy).Contents (Elt F) → (⟨S_, .f32⟩ : BufTy).Contents (Elt F) → (⟨S_, .f32⟩ : BufTy).Contents (Elt F)) (after ops V (main_v115 : DevRef τ sig)) (after ops V (main_cst_30 : DevRef τ sig)) :=
  stage_binary ops_ordered 179 (show nth? (ops : List (HloOp τ sig (Elt F))) 179 = some (StableHlo.binary main_v115 main_cst_30 main_v116 (Host.divf : (⟨S_, .f32⟩ : BufTy).Contents (Elt F) → (⟨S_, .f32⟩ : BufTy).Contents (Elt F) → (⟨S_, .f32⟩ : BufTy).Contents (Elt F))) by chain_rfl) rfl (by decide) (by decide) V

theorem at_main_v117 (V : Valuation τ sig (Elt F)) :
    after ops V (main_v117 : DevRef τ sig) = (mulf : (⟨S6400000, .f32⟩ : BufTy).Contents (Elt F) → (⟨S6400000, .f32⟩ : BufTy).Contents (Elt F) → (⟨S6400000, .f32⟩ : BufTy).Contents (Elt F)) (after ops V (main_v53 : DevRef τ sig)) (after ops V (main_v53 : DevRef τ sig)) :=
  stage_binary ops_ordered 180 (show nth? (ops : List (HloOp τ sig (Elt F))) 180 = some (StableHlo.binary main_v53 main_v53 main_v117 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v118 (V : Valuation τ sig (Elt F)) :
    after ops V (main_v118 : DevRef τ sig) = (mulf : (⟨S6400000, .f32⟩ : BufTy).Contents (Elt F) → (⟨S6400000, .f32⟩ : BufTy).Contents (Elt F) → (⟨S6400000, .f32⟩ : BufTy).Contents (Elt F)) (after ops V (main_v76 : DevRef τ sig)) (after ops V (main_v76 : DevRef τ sig)) :=
  stage_binary ops_ordered 181 (show nth? (ops : List (HloOp τ sig (Elt F))) 181 = some (StableHlo.binary main_v76 main_v76 main_v118 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v119 (V : Valuation τ sig (Elt F)) :
    after ops V (main_v119 : DevRef τ sig) = (addf : (⟨S6400000, .f32⟩ : BufTy).Contents (Elt F) → (⟨S6400000, .f32⟩ : BufTy).Contents (Elt F) → (⟨S6400000, .f32⟩ : BufTy).Contents (Elt F)) (after ops V (main_v117 : DevRef τ sig)) (after ops V (main_v118 : DevRef τ sig)) :=
  stage_binary ops_ordered 182 (show nth? (ops : List (HloOp τ sig (Elt F))) 182 = some (StableHlo.binary main_v117 main_v118 main_v119 (addf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_v120 (V : Valuation τ sig (Elt F)) :
    after ops V (main_v120 : DevRef τ sig) = (Host.sqrt : (⟨S6400000, .f32⟩ : BufTy).Contents (Elt F) → (⟨S6400000, .f32⟩ : BufTy).Contents (Elt F)) (after ops V (main_v119 : DevRef τ sig)) :=
  stage_unary ops_ordered 183 (show nth? (ops : List (HloOp τ sig (Elt F))) 183 = some (StableHlo.unary main_v119 main_v120 (Host.sqrt : (⟨S6400000, .f32⟩ : BufTy).Contents (Elt F) → (⟨S6400000, .f32⟩ : BufTy).Contents (Elt F))) by chain_rfl) rfl (by decide) V

theorem at_main_v121 (V : Valuation τ sig (Elt F)) :
    after ops V (main_v121 : DevRef τ sig) = (mulf : (⟨S6400000, .f32⟩ : BufTy).Contents (Elt F) → (⟨S6400000, .f32⟩ : BufTy).Contents (Elt F) → (⟨S6400000, .f32⟩ : BufTy).Contents (Elt F)) (after ops V (main_v120 : DevRef τ sig)) (after ops V (main_v9 : DevRef τ sig)) :=
  stage_binary ops_ordered 184 (show nth? (ops : List (HloOp τ sig (Elt F))) 184 = some (StableHlo.binary main_v120 main_v9 main_v121 (mulf : (⟨S6400000, .f32⟩ : BufTy).Contents (Elt F) → (⟨S6400000, .f32⟩ : BufTy).Contents (Elt F) → (⟨S6400000, .f32⟩ : BufTy).Contents (Elt F))) by chain_rfl) rfl (by decide) (by decide) V

theorem at_main_c_31 (V : Valuation τ sig (Elt F)) :
    after ops V (main_c_31 : DevRef τ sig) = constantI S_ 32 1#32 :=
  stage_nullary ops_ordered 185 (show nth? (ops : List (HloOp τ sig (Elt F))) 185 = some (StableHlo.nullary main_c_31 (constantI S_ 32 1#32)) by chain_rfl) rfl V

theorem at_main_call2_cst (V : Valuation τ sig (Elt F)) :
    after ops V (main_call2_cst : DevRef τ sig) = constant S_ .f32 0x00000000#32 :=
  stage_nullary ops_ordered 186 (show nth? (ops : List (HloOp τ sig (Elt F))) 186 = some (StableHlo.TRef.nullary main_call2.cst (constant S_ .f32 0x00000000#32)) by chain_rfl) rfl V

theorem at_main_call2_v0 (V : Valuation τ sig (Elt F)) :
    after ops V (main_call2_v0 : DevRef τ sig) = ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F)) (after ops V (main_v121 : DevRef τ sig)) (after ops V (main_call2_cst : DevRef τ sig)) :=
  stage_binary ops_ordered 187 (show nth? (ops : List (HloOp τ sig (Elt F))) 187 = some (StableHlo.TRef.binary (.of main_v121 : StableHlo.TRef sig ⟨S6400000, .f32⟩) main_call2.cst main_call2.v0 (fun x v => Host.reduceAdd x v reducesTo_S6400000_S_d0 h_S_)) by chain_rfl) rfl (by decide) (by decide) V

theorem at_main_call2_v1 (V : Valuation τ sig (Elt F)) :
    after ops V (main_call2_v1 : DevRef τ sig) = ((broadcastInDim S1 ![] bcast_S_S1) : (⟨S_, .f32⟩ : BufTy).Contents (Elt F) → (⟨S1, .f32⟩ : BufTy).Contents (Elt F)) (after ops V (main_call2_v0 : DevRef τ sig)) :=
  stage_unary ops_ordered 188 (show nth? (ops : List (HloOp τ sig (Elt F))) 188 = some (StableHlo.TRef.unary main_call2.v0 main_call2.v1 (broadcastInDim S1 ![] bcast_S_S1)) by chain_rfl) rfl (by decide) V

theorem at_main_call2_cst_0 (V : Valuation τ sig (Elt F)) :
    after ops V (main_call2_cst_0 : DevRef τ sig) = constant S_ .f32 0x4AC35000#32 :=
  stage_nullary ops_ordered 189 (show nth? (ops : List (HloOp τ sig (Elt F))) 189 = some (StableHlo.TRef.nullary main_call2.cst_0 (constant S_ .f32 0x4AC35000#32)) by chain_rfl) rfl V

theorem at_main_call2_v2 (V : Valuation τ sig (Elt F)) :
    after ops V (main_call2_v2 : DevRef τ sig) = ((broadcastInDim S1 ![] bcast_S_S1) : (⟨S_, .f32⟩ : BufTy).Contents (Elt F) → (⟨S1, .f32⟩ : BufTy).Contents (Elt F)) (after ops V (main_call2_cst_0 : DevRef τ sig)) :=
  stage_unary ops_ordered 190 (show nth? (ops : List (HloOp τ sig (Elt F))) 190 = some (StableHlo.TRef.unary main_call2.cst_0 main_call2.v2 (broadcastInDim S1 ![] bcast_S_S1)) by chain_rfl) rfl (by decide) V

theorem at_main_call2_v3 (V : Valuation τ sig (Elt F)) :
    after ops V (main_call2_v3 : DevRef τ sig) = (Host.divf : (⟨S1, .f32⟩ : BufTy).Contents (Elt F) → (⟨S1, .f32⟩ : BufTy).Contents (Elt F) → (⟨S1, .f32⟩ : BufTy).Contents (Elt F)) (after ops V (main_call2_v1 : DevRef τ sig)) (after ops V (main_call2_v2 : DevRef τ sig)) :=
  stage_binary ops_ordered 191 (show nth? (ops : List (HloOp τ sig (Elt F))) 191 = some (StableHlo.TRef.binary main_call2.v1 main_call2.v2 main_call2.v3 Host.divf) by chain_rfl) rfl (by decide) (by decide) V

theorem at_main_call2_v4 (V : Valuation τ sig (Elt F)) :
    after ops V (main_call2_v4 : DevRef τ sig) = ((broadcastInDim S6400000 ![0] bcast_S1_S6400000_0) : (⟨S1, .f32⟩ : BufTy).Contents (Elt F) → (⟨S6400000, .f32⟩ : BufTy).Contents (Elt F)) (after ops V (main_call2_v3 : DevRef τ sig)) :=
  stage_unary ops_ordered 192 (show nth? (ops : List (HloOp τ sig (Elt F))) 192 = some (StableHlo.TRef.unary main_call2.v3 main_call2.v4 (broadcastInDim S6400000 ![0] bcast_S1_S6400000_0)) by chain_rfl) rfl (by decide) V

theorem at_main_call2_v5 (V : Valuation τ sig (Elt F)) :
    after ops V (main_call2_v5 : DevRef τ sig) = (subf : (⟨S6400000, .f32⟩ : BufTy).Contents (Elt F) → (⟨S6400000, .f32⟩ : BufTy).Contents (Elt F) → (⟨S6400000, .f32⟩ : BufTy).Contents (Elt F)) (after ops V (main_v121 : DevRef τ sig)) (after ops V (main_call2_v4 : DevRef τ sig)) :=
  stage_binary ops_ordered 193 (show nth? (ops : List (HloOp τ sig (Elt F))) 193 = some (StableHlo.TRef.binary (.of main_v121 : StableHlo.TRef sig ⟨S6400000, .f32⟩) main_call2.v4 main_call2.v5 subf) by chain_rfl) rfl (by decide) (by decide) V

theorem at_main_call2_v6 (V : Valuation τ sig (Elt F)) :
    after ops V (main_call2_v6 : DevRef τ sig) = (mulf : (⟨S6400000, .f32⟩ : BufTy).Contents (Elt F) → (⟨S6400000, .f32⟩ : BufTy).Contents (Elt F) → (⟨S6400000, .f32⟩ : BufTy).Contents (Elt F)) (after ops V (main_call2_v5 : DevRef τ sig)) (after ops V (main_call2_v5 : DevRef τ sig)) :=
  stage_binary ops_ordered 194 (show nth? (ops : List (HloOp τ sig (Elt F))) 194 = some (StableHlo.TRef.binary main_call2.v5 main_call2.v5 main_call2.v6 mulf) by chain_rfl) rfl (by decide) (by decide) V

theorem at_main_call2_v7 (V : Valuation τ sig (Elt F)) :
    after ops V (main_call2_v7 : DevRef τ sig) = ((sitofp .f32) : (⟨S_, .i32⟩ : BufTy).Contents (Elt F) → (⟨S_, .f32⟩ : BufTy).Contents (Elt F)) (after ops V (main_c_31 : DevRef τ sig)) :=
  stage_unary ops_ordered 195 (show nth? (ops : List (HloOp τ sig (Elt F))) 195 = some (StableHlo.TRef.unary (.of main_c_31 : StableHlo.TRef sig ⟨S_, .i32⟩) main_call2.v7 (sitofp .f32)) by chain_rfl) rfl (by decide) V

theorem at_main_call2_cst_1 (V : Valuation τ sig (Elt F)) :
    after ops V (main_call2_cst_1 : DevRef τ sig) = constant S_ .f32 0x4AC35000#32 :=
  stage_nullary ops_ordered 196 (show nth? (ops : List (HloOp τ sig (Elt F))) 196 = some (StableHlo.TRef.nullary main_call2.cst_1 (constant S_ .f32 0x4AC35000#32)) by chain_rfl) rfl V

theorem at_main_call2_v8 (V : Valuation τ sig (Elt F)) :
    after ops V (main_call2_v8 : DevRef τ sig) = (subf : (⟨S_, .f32⟩ : BufTy).Contents (Elt F) → (⟨S_, .f32⟩ : BufTy).Contents (Elt F) → (⟨S_, .f32⟩ : BufTy).Contents (Elt F)) (after ops V (main_call2_cst_1 : DevRef τ sig)) (after ops V (main_call2_v7 : DevRef τ sig)) :=
  stage_binary ops_ordered 197 (show nth? (ops : List (HloOp τ sig (Elt F))) 197 = some (StableHlo.TRef.binary main_call2.cst_1 main_call2.v7 main_call2.v8 subf) by chain_rfl) rfl (by decide) (by decide) V

theorem at_main_call2_cst_2 (V : Valuation τ sig (Elt F)) :
    after ops V (main_call2_cst_2 : DevRef τ sig) = constant S_ .f32 0x00000000#32 :=
  stage_nullary ops_ordered 198 (show nth? (ops : List (HloOp τ sig (Elt F))) 198 = some (StableHlo.TRef.nullary main_call2.cst_2 (constant S_ .f32 0x00000000#32)) by chain_rfl) rfl V

theorem at_main_call2_v9 (V : Valuation τ sig (Elt F)) :
    after ops V (main_call2_v9 : DevRef τ sig) = ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F)) (after ops V (main_call2_v6 : DevRef τ sig)) (after ops V (main_call2_cst_2 : DevRef τ sig)) :=
  stage_binary ops_ordered 199 (show nth? (ops : List (HloOp τ sig (Elt F))) 199 = some (StableHlo.TRef.binary main_call2.v6 main_call2.cst_2 main_call2.v9 (fun x v => Host.reduceAdd x v reducesTo_S6400000_S_d0 h_S_)) by chain_rfl) rfl (by decide) (by decide) V

theorem at_main_call2_v10 (V : Valuation τ sig (Elt F)) :
    after ops V (main_call2_v10 : DevRef τ sig) = (Host.divf : (⟨S_, .f32⟩ : BufTy).Contents (Elt F) → (⟨S_, .f32⟩ : BufTy).Contents (Elt F) → (⟨S_, .f32⟩ : BufTy).Contents (Elt F)) (after ops V (main_call2_v9 : DevRef τ sig)) (after ops V (main_call2_v8 : DevRef τ sig)) :=
  stage_binary ops_ordered 200 (show nth? (ops : List (HloOp τ sig (Elt F))) 200 = some (StableHlo.TRef.binary main_call2.v9 main_call2.v8 main_call2.v10 Host.divf) by chain_rfl) rfl (by decide) (by decide) V

theorem at_main_call2_cst_3 (V : Valuation τ sig (Elt F)) :
    after ops V (main_call2_cst_3 : DevRef τ sig) = constant S_ .f32 0x00000000#32 :=
  stage_nullary ops_ordered 201 (show nth? (ops : List (HloOp τ sig (Elt F))) 201 = some (StableHlo.TRef.nullary main_call2.cst_3 (constant S_ .f32 0x00000000#32)) by chain_rfl) rfl V

theorem at_main_call2_v11 (V : Valuation τ sig (Elt F)) :
    after ops V (main_call2_v11 : DevRef τ sig) = ((cmpf .ogt) : (⟨S_, .f32⟩ : BufTy).Contents (Elt F) → (⟨S_, .f32⟩ : BufTy).Contents (Elt F) → (⟨S_, .i1⟩ : BufTy).Contents (Elt F)) (after ops V (main_call2_v8 : DevRef τ sig)) (after ops V (main_call2_cst_3 : DevRef τ sig)) :=
  stage_binary ops_ordered 202 (show nth? (ops : List (HloOp τ sig (Elt F))) 202 = some (StableHlo.TRef.binary main_call2.v8 main_call2.cst_3 main_call2.v11 (cmpf .ogt)) by chain_rfl) rfl (by decide) (by decide) V

theorem at_main_call2_cst_4 (V : Valuation τ sig (Elt F)) :
    after ops V (main_call2_cst_4 : DevRef τ sig) = constant S_ .f32 0x7FC00000#32 :=
  stage_nullary ops_ordered 203 (show nth? (ops : List (HloOp τ sig (Elt F))) 203 = some (StableHlo.TRef.nullary main_call2.cst_4 (constant S_ .f32 0x7FC00000#32)) by chain_rfl) rfl V

theorem at_main_call2_call0_v0 (V : Valuation τ sig (Elt F)) :
    after ops V (main_call2_call0_v0 : DevRef τ sig) = (id : (⟨S_, .f32⟩ : BufTy).Contents (Elt F) → (⟨S_, .f32⟩ : BufTy).Contents (Elt F)) (after ops V (main_call2_cst_4 : DevRef τ sig)) :=
  stage_unary ops_ordered 204 (show nth? (ops : List (HloOp τ sig (Elt F))) 204 = some (StableHlo.TRef.unary main_call2.cst_4 main_call2.call0.v0 id) by chain_rfl) rfl (by decide) V

theorem at_main_v122 (V : Valuation τ sig (Elt F)) :
    after ops V (main_v122 : DevRef τ sig) = (select : (⟨S_, .i1⟩ : BufTy).Contents (Elt F) → (⟨S_, .f32⟩ : BufTy).Contents (Elt F) → (⟨S_, .f32⟩ : BufTy).Contents (Elt F) → (⟨S_, .f32⟩ : BufTy).Contents (Elt F)) (after ops V (main_call2_v11 : DevRef τ sig)) (after ops V (main_call2_v10 : DevRef τ sig)) (after ops V (main_call2_call0_v0 : DevRef τ sig)) :=
  stage_ternary ops_ordered 205 (show nth? (ops : List (HloOp τ sig (Elt F))) 205 = some (StableHlo.TRef.ternary main_call2.v11 main_call2.v10 main_call2.call0.v0 main_call2.call0.v1 select) by chain_rfl) rfl (by decide) (by decide) (by decide) V

theorem at_main_v123 (V : Valuation τ sig (Elt F)) :
    after ops V (main_v123 : DevRef τ sig) = (addf : (⟨S_, .f32⟩ : BufTy).Contents (Elt F) → (⟨S_, .f32⟩ : BufTy).Contents (Elt F) → (⟨S_, .f32⟩ : BufTy).Contents (Elt F)) (after ops V (main_v116 : DevRef τ sig)) (after ops V (main_v122 : DevRef τ sig)) :=
  stage_binary ops_ordered 206 (show nth? (ops : List (HloOp τ sig (Elt F))) 206 = some (StableHlo.binary main_v116 main_v122 main_v123 (addf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_32 (V : Valuation τ sig (Elt F)) :
    after ops V (main_cst_32 : DevRef τ sig) = constant S_ .f32 0x3DCCCCCD#32 :=
  stage_nullary ops_ordered 207 (show nth? (ops : List (HloOp τ sig (Elt F))) 207 = some (StableHlo.nullary main_cst_32 (constant S_ .f32 0x3DCCCCCD#32)) by chain_rfl) rfl V

theorem at_main_v124 (V : Valuation τ sig (Elt F)) :
    after ops V (main_v124 : DevRef τ sig) = (mulf : (⟨S_, .f32⟩ : BufTy).Contents (Elt F) → (⟨S_, .f32⟩ : BufTy).Contents (Elt F) → (⟨S_, .f32⟩ : BufTy).Contents (Elt F)) (after ops V (main_cst_32 : DevRef τ sig)) (after ops V (main_v123 : DevRef τ sig)) :=
  stage_binary ops_ordered 208 (show nth? (ops : List (HloOp τ sig (Elt F))) 208 = some (StableHlo.binary main_cst_32 main_v123 main_v124 (mulf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_33 (V : Valuation τ sig (Elt F)) :
    after ops V (main_cst_33 : DevRef τ sig) = constant S_ .f32 0x00000000#32 :=
  stage_nullary ops_ordered 209 (show nth? (ops : List (HloOp τ sig (Elt F))) 209 = some (StableHlo.nullary main_cst_33 (constant S_ .f32 0x00000000#32)) by chain_rfl) rfl V

theorem at_main_v125 (V : Valuation τ sig (Elt F)) :
    after ops V (main_v125 : DevRef τ sig) = ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F)) (after ops V (main_v9 : DevRef τ sig)) (after ops V (main_cst_33 : DevRef τ sig)) :=
  stage_binary ops_ordered 210 (show nth? (ops : List (HloOp τ sig (Elt F))) 210 = some (StableHlo.binary main_v9 main_cst_33 main_v125 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))) by chain_rfl) rfl (by decide) (by decide) V

theorem at_main_cst_34 (V : Valuation τ sig (Elt F)) :
    after ops V (main_cst_34 : DevRef τ sig) = constant S_ .f32 0x48434FC0#32 :=
  stage_nullary ops_ordered 211 (show nth? (ops : List (HloOp τ sig (Elt F))) 211 = some (StableHlo.nullary main_cst_34 (constant S_ .f32 0x48434FC0#32)) by chain_rfl) rfl V

theorem at_main_v126 (V : Valuation τ sig (Elt F)) :
    after ops V (main_v126 : DevRef τ sig) = (subf : (⟨S_, .f32⟩ : BufTy).Contents (Elt F) → (⟨S_, .f32⟩ : BufTy).Contents (Elt F) → (⟨S_, .f32⟩ : BufTy).Contents (Elt F)) (after ops V (main_v125 : DevRef τ sig)) (after ops V (main_cst_34 : DevRef τ sig)) :=
  stage_binary ops_ordered 212 (show nth? (ops : List (HloOp τ sig (Elt F))) 212 = some (StableHlo.binary main_v125 main_cst_34 main_v126 (subf : (⟨S_, .f32⟩ : BufTy).Contents (Elt F) → (⟨S_, .f32⟩ : BufTy).Contents (Elt F) → (⟨S_, .f32⟩ : BufTy).Contents (Elt F))) by chain_rfl) rfl (by decide) (by decide) V

theorem at_main_v127 (V : Valuation τ sig (Elt F)) :
    after ops V (main_v127 : DevRef τ sig) = (mulf : (⟨S_, .f32⟩ : BufTy).Contents (Elt F) → (⟨S_, .f32⟩ : BufTy).Contents (Elt F) → (⟨S_, .f32⟩ : BufTy).Contents (Elt F)) (after ops V (main_v126 : DevRef τ sig)) (after ops V (main_v126 : DevRef τ sig)) :=
  stage_binary ops_ordered 213 (show nth? (ops : List (HloOp τ sig (Elt F))) 213 = some (StableHlo.binary main_v126 main_v126 main_v127 (mulf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_35 (V : Valuation τ sig (Elt F)) :
    after ops V (main_cst_35 : DevRef τ sig) = constant S_ .f32 0x3F800000#32 :=
  stage_nullary ops_ordered 214 (show nth? (ops : List (HloOp τ sig (Elt F))) 214 = some (StableHlo.nullary main_cst_35 (constant S_ .f32 0x3F800000#32)) by chain_rfl) rfl V

theorem at_main_v128 (V : Valuation τ sig (Elt F)) :
    after ops V (main_v128 : DevRef τ sig) = (mulf : (⟨S_, .f32⟩ : BufTy).Contents (Elt F) → (⟨S_, .f32⟩ : BufTy).Contents (Elt F) → (⟨S_, .f32⟩ : BufTy).Contents (Elt F)) (after ops V (main_cst_35 : DevRef τ sig)) (after ops V (main_v127 : DevRef τ sig)) :=
  stage_binary ops_ordered 215 (show nth? (ops : List (HloOp τ sig (Elt F))) 215 = some (StableHlo.binary main_cst_35 main_v127 main_v128 (mulf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_36 (V : Valuation τ sig (Elt F)) :
    after ops V (main_cst_36 : DevRef τ sig) = constant S_ .f32 0x00000000#32 :=
  stage_nullary ops_ordered 216 (show nth? (ops : List (HloOp τ sig (Elt F))) 216 = some (StableHlo.nullary main_cst_36 (constant S_ .f32 0x00000000#32)) by chain_rfl) rfl V

theorem at_main_v129 (V : Valuation τ sig (Elt F)) :
    after ops V (main_v129 : DevRef τ sig) = ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F)) (after ops V (main_v9 : DevRef τ sig)) (after ops V (main_cst_36 : DevRef τ sig)) :=
  stage_binary ops_ordered 217 (show nth? (ops : List (HloOp τ sig (Elt F))) 217 = some (StableHlo.binary main_v9 main_cst_36 main_v129 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))) by chain_rfl) rfl (by decide) (by decide) V

theorem at_main_cst_37 (V : Valuation τ sig (Elt F)) :
    after ops V (main_cst_37 : DevRef τ sig) = constant S_ .f32 0x4AC35000#32 :=
  stage_nullary ops_ordered 218 (show nth? (ops : List (HloOp τ sig (Elt F))) 218 = some (StableHlo.nullary main_cst_37 (constant S_ .f32 0x4AC35000#32)) by chain_rfl) rfl V

theorem at_main_v130 (V : Valuation τ sig (Elt F)) :
    after ops V (main_v130 : DevRef τ sig) = (Host.divf : (⟨S_, .f32⟩ : BufTy).Contents (Elt F) → (⟨S_, .f32⟩ : BufTy).Contents (Elt F) → (⟨S_, .f32⟩ : BufTy).Contents (Elt F)) (after ops V (main_v129 : DevRef τ sig)) (after ops V (main_cst_37 : DevRef τ sig)) :=
  stage_binary ops_ordered 219 (show nth? (ops : List (HloOp τ sig (Elt F))) 219 = some (StableHlo.binary main_v129 main_cst_37 main_v130 (Host.divf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_38 (V : Valuation τ sig (Elt F)) :
    after ops V (main_cst_38 : DevRef τ sig) = constant S_ .f32 0x3DCCCCCD#32 :=
  stage_nullary ops_ordered 220 (show nth? (ops : List (HloOp τ sig (Elt F))) 220 = some (StableHlo.nullary main_cst_38 (constant S_ .f32 0x3DCCCCCD#32)) by chain_rfl) rfl V

theorem at_main_v131 (V : Valuation τ sig (Elt F)) :
    after ops V (main_v131 : DevRef τ sig) = (mulf : (⟨S_, .f32⟩ : BufTy).Contents (Elt F) → (⟨S_, .f32⟩ : BufTy).Contents (Elt F) → (⟨S_, .f32⟩ : BufTy).Contents (Elt F)) (after ops V (main_cst_38 : DevRef τ sig)) (after ops V (main_v130 : DevRef τ sig)) :=
  stage_binary ops_ordered 221 (show nth? (ops : List (HloOp τ sig (Elt F))) 221 = some (StableHlo.binary main_cst_38 main_v130 main_v131 (mulf : (⟨S_, .f32⟩ : BufTy).Contents (Elt F) → (⟨S_, .f32⟩ : BufTy).Contents (Elt F) → (⟨S_, .f32⟩ : BufTy).Contents (Elt F))) by chain_rfl) rfl (by decide) (by decide) V

theorem at_main_v132 (V : Valuation τ sig (Elt F)) :
    after ops V (main_v132 : DevRef τ sig) = (addf : (⟨S_, .f32⟩ : BufTy).Contents (Elt F) → (⟨S_, .f32⟩ : BufTy).Contents (Elt F) → (⟨S_, .f32⟩ : BufTy).Contents (Elt F)) (after ops V (main_v128 : DevRef τ sig)) (after ops V (main_v131 : DevRef τ sig)) :=
  stage_binary ops_ordered 222 (show nth? (ops : List (HloOp τ sig (Elt F))) 222 = some (StableHlo.binary main_v128 main_v131 main_v132 (addf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_39 (V : Valuation τ sig (Elt F)) :
    after ops V (main_cst_39 : DevRef τ sig) = constant S_ .f32 0x3DCCCCCD#32 :=
  stage_nullary ops_ordered 223 (show nth? (ops : List (HloOp τ sig (Elt F))) 223 = some (StableHlo.nullary main_cst_39 (constant S_ .f32 0x3DCCCCCD#32)) by chain_rfl) rfl V

theorem at_main_v133 (V : Valuation τ sig (Elt F)) :
    after ops V (main_v133 : DevRef τ sig) = (mulf : (⟨S_, .f32⟩ : BufTy).Contents (Elt F) → (⟨S_, .f32⟩ : BufTy).Contents (Elt F) → (⟨S_, .f32⟩ : BufTy).Contents (Elt F)) (after ops V (main_cst_39 : DevRef τ sig)) (after ops V (main_v132 : DevRef τ sig)) :=
  stage_binary ops_ordered 224 (show nth? (ops : List (HloOp τ sig (Elt F))) 224 = some (StableHlo.binary main_cst_39 main_v132 main_v133 (mulf : (⟨S_, .f32⟩ : BufTy).Contents (Elt F) → (⟨S_, .f32⟩ : BufTy).Contents (Elt F) → (⟨S_, .f32⟩ : BufTy).Contents (Elt F))) by chain_rfl) rfl (by decide) (by decide) V

theorem at_main_cst_40 (V : Valuation τ sig (Elt F)) :
    after ops V (main_cst_40 : DevRef τ sig) = constant S_ .f32 0x00000000#32 :=
  stage_nullary ops_ordered 225 (show nth? (ops : List (HloOp τ sig (Elt F))) 225 = some (StableHlo.nullary main_cst_40 (constant S_ .f32 0x00000000#32)) by chain_rfl) rfl V

theorem at_main_v134 (V : Valuation τ sig (Elt F)) :
    after ops V (main_v134 : DevRef τ sig) = ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F)) (after ops V (main_v9 : DevRef τ sig)) (after ops V (main_cst_40 : DevRef τ sig)) :=
  stage_binary ops_ordered 226 (show nth? (ops : List (HloOp τ sig (Elt F))) 226 = some (StableHlo.binary main_v9 main_cst_40 main_v134 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F))) by chain_rfl) rfl (by decide) (by decide) V

theorem at_main_cst_41 (V : Valuation τ sig (Elt F)) :
    after ops V (main_cst_41 : DevRef τ sig) = constant S_ .f32 0x4AC35000#32 :=
  stage_nullary ops_ordered 227 (show nth? (ops : List (HloOp τ sig (Elt F))) 227 = some (StableHlo.nullary main_cst_41 (constant S_ .f32 0x4AC35000#32)) by chain_rfl) rfl V

theorem at_main_v135 (V : Valuation τ sig (Elt F)) :
    after ops V (main_v135 : DevRef τ sig) = (Host.divf : (⟨S_, .f32⟩ : BufTy).Contents (Elt F) → (⟨S_, .f32⟩ : BufTy).Contents (Elt F) → (⟨S_, .f32⟩ : BufTy).Contents (Elt F)) (after ops V (main_v134 : DevRef τ sig)) (after ops V (main_cst_41 : DevRef τ sig)) :=
  stage_binary ops_ordered 228 (show nth? (ops : List (HloOp τ sig (Elt F))) 228 = some (StableHlo.binary main_v134 main_cst_41 main_v135 (Host.divf : (⟨S_, .f32⟩ : BufTy).Contents (Elt F) → (⟨S_, .f32⟩ : BufTy).Contents (Elt F) → (⟨S_, .f32⟩ : BufTy).Contents (Elt F))) by chain_rfl) rfl (by decide) (by decide) V

end Cert.ReferenceIdeal.HRun

end
-- ==== Proof.RefStage3.lean ====
/- The step equations of window 3 of the reference's @main: for each operation, what the whole line leaves in its
   buffer is its function of what the line leaves in its operands' buffers. -/
import proofs.«176581_j38010460570140_2_alg».proof.Proof.RefOrd

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

theorem at_main_cst_42 (V : Valuation τ sig (Elt F)) :
    after ops V (main_cst_42 : DevRef τ sig) = constant S_ .f32 0x3C23D70A#32 :=
  stage_nullary ops_ordered 229 (show nth? (ops : List (HloOp τ sig (Elt F))) 229 = some (StableHlo.nullary main_cst_42 (constant S_ .f32 0x3C23D70A#32)) by chain_rfl) rfl V

theorem at_main_v136 (V : Valuation τ sig (Elt F)) :
    after ops V (main_v136 : DevRef τ sig) = (mulf : (⟨S_, .f32⟩ : BufTy).Contents (Elt F) → (⟨S_, .f32⟩ : BufTy).Contents (Elt F) → (⟨S_, .f32⟩ : BufTy).Contents (Elt F)) (after ops V (main_cst_42 : DevRef τ sig)) (after ops V (main_v135 : DevRef τ sig)) :=
  stage_binary ops_ordered 230 (show nth? (ops : List (HloOp τ sig (Elt F))) 230 = some (StableHlo.binary main_cst_42 main_v135 main_v136 (mulf : (⟨S_, .f32⟩ : BufTy).Contents (Elt F) → (⟨S_, .f32⟩ : BufTy).Contents (Elt F) → (⟨S_, .f32⟩ : BufTy).Contents (Elt F))) by chain_rfl) rfl (by decide) (by decide) V

theorem at_main_v137 (V : Valuation τ sig (Elt F)) :
    after ops V (main_v137 : DevRef τ sig) = (addf : (⟨S_, .f32⟩ : BufTy).Contents (Elt F) → (⟨S_, .f32⟩ : BufTy).Contents (Elt F) → (⟨S_, .f32⟩ : BufTy).Contents (Elt F)) (after ops V (main_v25 : DevRef τ sig)) (after ops V (main_v30 : DevRef τ sig)) :=
  stage_binary ops_ordered 231 (show nth? (ops : List (HloOp τ sig (Elt F))) 231 = some (StableHlo.binary main_v25 main_v30 main_v137 (addf : (⟨S_, .f32⟩ : BufTy).Contents (Elt F) → (⟨S_, .f32⟩ : BufTy).Contents (Elt F) → (⟨S_, .f32⟩ : BufTy).Contents (Elt F))) by chain_rfl) rfl (by decide) (by decide) V

theorem at_main_v138 (V : Valuation τ sig (Elt F)) :
    after ops V (main_v138 : DevRef τ sig) = (addf : (⟨S_, .f32⟩ : BufTy).Contents (Elt F) → (⟨S_, .f32⟩ : BufTy).Contents (Elt F) → (⟨S_, .f32⟩ : BufTy).Contents (Elt F)) (after ops V (main_v137 : DevRef τ sig)) (after ops V (main_v99 : DevRef τ sig)) :=
  stage_binary ops_ordered 232 (show nth? (ops : List (HloOp τ sig (Elt F))) 232 = some (StableHlo.binary main_v137 main_v99 main_v138 (addf : (⟨S_, .f32⟩ : BufTy).Contents (Elt F) → (⟨S_, .f32⟩ : BufTy).Contents (Elt F) → (⟨S_, .f32⟩ : BufTy).Contents (Elt F))) by chain_rfl) rfl (by decide) (by decide) V

theorem at_main_v139 (V : Valuation τ sig (Elt F)) :
    after ops V (main_v139 : DevRef τ sig) = (addf : (⟨S_, .f32⟩ : BufTy).Contents (Elt F) → (⟨S_, .f32⟩ : BufTy).Contents (Elt F) → (⟨S_, .f32⟩ : BufTy).Contents (Elt F)) (after ops V (main_v138 : DevRef τ sig)) (after ops V (main_v124 : DevRef τ sig)) :=
  stage_binary ops_ordered 233 (show nth? (ops : List (HloOp τ sig (Elt F))) 233 = some (StableHlo.binary main_v138 main_v124 main_v139 (addf : (⟨S_, .f32⟩ : BufTy).Contents (Elt F) → (⟨S_, .f32⟩ : BufTy).Contents (Elt F) → (⟨S_, .f32⟩ : BufTy).Contents (Elt F))) by chain_rfl) rfl (by decide) (by decide) V

theorem at_main_v140 (V : Valuation τ sig (Elt F)) :
    after ops V (main_v140 : DevRef τ sig) = (addf : (⟨S_, .f32⟩ : BufTy).Contents (Elt F) → (⟨S_, .f32⟩ : BufTy).Contents (Elt F) → (⟨S_, .f32⟩ : BufTy).Contents (Elt F)) (after ops V (main_v139 : DevRef τ sig)) (after ops V (main_v133 : DevRef τ sig)) :=
  stage_binary ops_ordered 234 (show nth? (ops : List (HloOp τ sig (Elt F))) 234 = some (StableHlo.binary main_v139 main_v133 main_v140 (addf : (⟨S_, .f32⟩ : BufTy).Contents (Elt F) → (⟨S_, .f32⟩ : BufTy).Contents (Elt F) → (⟨S_, .f32⟩ : BufTy).Contents (Elt F))) by chain_rfl) rfl (by decide) (by decide) V

theorem at_main_v141 (V : Valuation τ sig (Elt F)) :
    after ops V (main_v141 : DevRef τ sig) = (addf : (⟨S_, .f32⟩ : BufTy).Contents (Elt F) → (⟨S_, .f32⟩ : BufTy).Contents (Elt F) → (⟨S_, .f32⟩ : BufTy).Contents (Elt F)) (after ops V (main_v140 : DevRef τ sig)) (after ops V (main_v136 : DevRef τ sig)) :=
  stage_binary ops_ordered 235 (show nth? (ops : List (HloOp τ sig (Elt F))) 235 = some (StableHlo.binary main_v140 main_v136 main_v141 (addf : (⟨S_, .f32⟩ : BufTy).Contents (Elt F) → (⟨S_, .f32⟩ : BufTy).Contents (Elt F) → (⟨S_, .f32⟩ : BufTy).Contents (Elt F))) by chain_rfl) rfl (by decide) (by decide) V

theorem at_main_v142 (V : Valuation τ sig (Elt F)) :
    after ops V (main_v142 : DevRef τ sig) = (broadcastInDim S1 ![] bcast_S_S1 : (⟨S_, .f32⟩ : BufTy).Contents (Elt F) → (⟨S1, .f32⟩ : BufTy).Contents (Elt F)) (after ops V (main_v25 : DevRef τ sig)) :=
  stage_unary ops_ordered 236 (show nth? (ops : List (HloOp τ sig (Elt F))) 236 = some (StableHlo.unary main_v25 main_v142 (broadcastInDim S1 ![] bcast_S_S1 : (⟨S_, .f32⟩ : BufTy).Contents (Elt F) → (⟨S1, .f32⟩ : BufTy).Contents (Elt F))) by chain_rfl) rfl (by decide) V

theorem at_main_v143 (V : Valuation τ sig (Elt F)) :
    after ops V (main_v143 : DevRef τ sig) = (broadcastInDim S1 ![] bcast_S_S1 : (⟨S_, .f32⟩ : BufTy).Contents (Elt F) → (⟨S1, .f32⟩ : BufTy).Contents (Elt F)) (after ops V (main_v30 : DevRef τ sig)) :=
  stage_unary ops_ordered 237 (show nth? (ops : List (HloOp τ sig (Elt F))) 237 = some (StableHlo.unary main_v30 main_v143 (broadcastInDim S1 ![] bcast_S_S1 : (⟨S_, .f32⟩ : BufTy).Contents (Elt F) → (⟨S1, .f32⟩ : BufTy).Contents (Elt F))) by chain_rfl) rfl (by decide) V

theorem at_main_v144 (V : Valuation τ sig (Elt F)) :
    after ops V (main_v144 : DevRef τ sig) = (broadcastInDim S1 ![] bcast_S_S1 : (⟨S_, .f32⟩ : BufTy).Contents (Elt F) → (⟨S1, .f32⟩ : BufTy).Contents (Elt F)) (after ops V (main_v99 : DevRef τ sig)) :=
  stage_unary ops_ordered 238 (show nth? (ops : List (HloOp τ sig (Elt F))) 238 = some (StableHlo.unary main_v99 main_v144 (broadcastInDim S1 ![] bcast_S_S1 : (⟨S_, .f32⟩ : BufTy).Contents (Elt F) → (⟨S1, .f32⟩ : BufTy).Contents (Elt F))) by chain_rfl) rfl (by decide) V

theorem at_main_v145 (V : Valuation τ sig (Elt F)) :
    after ops V (main_v145 : DevRef τ sig) = (broadcastInDim S1 ![] bcast_S_S1 : (⟨S_, .f32⟩ : BufTy).Contents (Elt F) → (⟨S1, .f32⟩ : BufTy).Contents (Elt F)) (after ops V (main_v124 : DevRef τ sig)) :=
  stage_unary ops_ordered 239 (show nth? (ops : List (HloOp τ sig (Elt F))) 239 = some (StableHlo.unary main_v124 main_v145 (broadcastInDim S1 ![] bcast_S_S1 : (⟨S_, .f32⟩ : BufTy).Contents (Elt F) → (⟨S1, .f32⟩ : BufTy).Contents (Elt F))) by chain_rfl) rfl (by decide) V

theorem at_main_v146 (V : Valuation τ sig (Elt F)) :
    after ops V (main_v146 : DevRef τ sig) = (broadcastInDim S1 ![] bcast_S_S1 : (⟨S_, .f32⟩ : BufTy).Contents (Elt F) → (⟨S1, .f32⟩ : BufTy).Contents (Elt F)) (after ops V (main_v133 : DevRef τ sig)) :=
  stage_unary ops_ordered 240 (show nth? (ops : List (HloOp τ sig (Elt F))) 240 = some (StableHlo.unary main_v133 main_v146 (broadcastInDim S1 ![] bcast_S_S1 : (⟨S_, .f32⟩ : BufTy).Contents (Elt F) → (⟨S1, .f32⟩ : BufTy).Contents (Elt F))) by chain_rfl) rfl (by decide) V

theorem at_main_v147 (V : Valuation τ sig (Elt F)) :
    after ops V (main_v147 : DevRef τ sig) = (broadcastInDim S1 ![] bcast_S_S1 : (⟨S_, .f32⟩ : BufTy).Contents (Elt F) → (⟨S1, .f32⟩ : BufTy).Contents (Elt F)) (after ops V (main_v136 : DevRef τ sig)) :=
  stage_unary ops_ordered 241 (show nth? (ops : List (HloOp τ sig (Elt F))) 241 = some (StableHlo.unary main_v136 main_v147 (broadcastInDim S1 ![] bcast_S_S1 : (⟨S_, .f32⟩ : BufTy).Contents (Elt F) → (⟨S1, .f32⟩ : BufTy).Contents (Elt F))) by chain_rfl) rfl (by decide) V

theorem at_main_v148 (V : Valuation τ sig (Elt F)) :
    after ops V (main_v148 : DevRef τ sig) = (broadcastInDim S1 ![] bcast_S_S1 : (⟨S_, .f32⟩ : BufTy).Contents (Elt F) → (⟨S1, .f32⟩ : BufTy).Contents (Elt F)) (after ops V (main_v141 : DevRef τ sig)) :=
  stage_unary ops_ordered 242 (show nth? (ops : List (HloOp τ sig (Elt F))) 242 = some (StableHlo.unary main_v141 main_v148 (broadcastInDim S1 ![] bcast_S_S1 : (⟨S_, .f32⟩ : BufTy).Contents (Elt F) → (⟨S1, .f32⟩ : BufTy).Contents (Elt F))) by chain_rfl) rfl (by decide) V

theorem at_main_v149 (V : Valuation τ sig (Elt F)) :
    after ops V (main_v149 : DevRef τ sig) = concatenate S7 0 [⟨S1, (after ops V (main_v142 : DevRef τ sig))⟩, ⟨S1, (after ops V (main_v143 : DevRef τ sig))⟩, ⟨S1, (after ops V (main_v144 : DevRef τ sig))⟩, ⟨S1, (after ops V (main_v145 : DevRef τ sig))⟩, ⟨S1, (after ops V (main_v146 : DevRef τ sig))⟩, ⟨S1, (after ops V (main_v147 : DevRef τ sig))⟩, ⟨S1, (after ops V (main_v148 : DevRef τ sig))⟩] concatenates_S1_S1_S1_S1_S1_S1_S1_S7_d0 :=
  stage_nary ops_ordered 243 (show nth? (ops : List (HloOp τ sig (Elt F))) 243 = some (StableHlo.nary ![main_v142, main_v143, main_v144, main_v145, main_v146, main_v147, main_v148] main_v149 (fun u => concatenate S7 0 [⟨S1, u 0⟩, ⟨S1, u 1⟩, ⟨S1, u 2⟩, ⟨S1, u 3⟩, ⟨S1, u 4⟩, ⟨S1, u 5⟩, ⟨S1, u 6⟩] concatenates_S1_S1_S1_S1_S1_S1_S1_S7_d0)) by chain_rfl) rfl (by decide) V

end Cert.ReferenceIdeal.HRun

end
-- ==== Proof.RefStage.lean ====
/- The step equations of all four windows of the reference's @main. -/
import proofs.«176581_j38010460570140_2_alg».proof.Proof.RefStage0
import proofs.«176581_j38010460570140_2_alg».proof.Proof.RefStage1
import proofs.«176581_j38010460570140_2_alg».proof.Proof.RefStage2
import proofs.«176581_j38010460570140_2_alg».proof.Proof.RefStage3
-- ==== Proof.RefValLib.lean ====
/- Readings at an index of the host operations the reference uses, at the program's literal shapes: sums over the
   index set of a one-axis array as sums over its coordinate, a gather of one element of the node array by a (row, column)
   pair of words, an accumulating scatter into the nodes by one word per edge, the float reductions as sums, and the
   layout operations (slice, reshape, broadcast, concatenate) read at an index. -/
import proofs.«176581_j38010460570140_2_alg».proof.Proof.Gen.ReferenceIdeal
import proofs.«176581_j38010460570140_2_alg».proof.Proof.LossSpec
import Idealize.ShloMosaic.Lib.IdealHost
import Idealize.ShloMosaic.Lib.Pipeline.Value

set_option maxRecDepth 4096

noncomputable section

open scoped BigOperators

namespace Cert.ReferenceIdeal.HRun

open Cert.ReferenceIdeal Cert.ReferenceIdeal.Gen Idealize.ShloMosaic Idealize.ShloMosaic.ValueIdx

/-! ## Sums over a one-axis index set -/

/-- The indices of a one-axis array are its coordinates. -/
def idxEquiv1 {n : Nat} : Fin n ≃ (⟨1, ![n]⟩ : Shape).Idx where
  toFun e := ix1 e
  invFun j := j 0
  left_inv _ := rfl
  right_inv j := (eq_ix1 j).symm

theorem sum_idx1 {M : Type*} [AddCommMonoid M] {n : Nat} (f : (⟨1, ![n]⟩ : Shape).Idx → M) :
    ∑ i, f i = ∑ e : Fin n, f (ix1 e) :=
  (Fintype.sum_equiv idxEquiv1 _ _ fun _ => rfl).symm

/-- A sum over the indices that satisfy P is the sum over the coordinates that do. -/
theorem sum_filter_idx1 {M : Type*} [AddCommMonoid M] {n : Nat} (P : (⟨1, ![n]⟩ : Shape).Idx → Prop) [DecidablePred P]
    (Q : Fin n → Prop) [DecidablePred Q] (f : (⟨1, ![n]⟩ : Shape).Idx → M) (hPQ : ∀ e, P (ix1 e) ↔ Q e) :
    ∑ j ∈ Finset.univ.filter P, f j = ∑ e ∈ Finset.univ.filter Q, f (ix1 e) := by
  rw [Finset.sum_filter, Finset.sum_filter, sum_idx1]
  exact Finset.sum_congr rfl fun e _ => by simp only [hPQ e]

/-- A select on a decided condition is the conditional. -/
theorem select_ofBool {α : Type} (b : Bool) (a c : α) : Scalar.select (BitVec.ofBool b) a c = if b then a else c := by
  cases b <;> rfl

/-! ## The gather of one node value -/

/-- The operand index a result index reads: the row and column words at that edge, read signed, a negative one as 0,
    capped at the last row and the last column. -/
theorem gather_operandIdx {w : Nat} (idx : IVec S6400000x2 w) (j : S6400000.Idx) :
    gather_S200000x4_S6400000x2_S6400000_n_01_n_n_01_1_11.operandIdx j idx
      = ix2 (⟨min (idx (ix2 (j 0) (0 : Fin 2))).toInt.toNat 199999, by omega⟩ : Fin 200000)
          (⟨min (idx (ix2 (j 0) (1 : Fin 2))).toInt.toNat 3, by omega⟩ : Fin 4) := by
  funext a
  refine Fin.ext ?_
  show gather_S200000x4_S6400000x2_S6400000_n_01_n_n_01_1_11.start j idx a
      + gather_S200000x4_S6400000x2_S6400000_n_01_n_n_01_1_11.batchCoord j a
      + gather_S200000x4_S6400000x2_S6400000_n_01_n_n_01_1_11.offCoord j a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_cons_self ..))]
    simp only [Nat.add_zero]
    unfold GatherDims.start
    rw [dif_pos (show (⟨0, h0⟩ : Fin S200000x4.rank) ∈ gather_S200000x4_S6400000x2_S6400000_n_01_n_n_01_1_11.startIndexMap
      from List.mem_cons_self ..)]
    have hsi : gather_S200000x4_S6400000x2_S6400000_n_01_n_n_01_1_11.siIdx j
        ⟨List.idxOf (⟨0, h0⟩ : Fin S200000x4.rank) gather_S200000x4_S6400000x2_S6400000_n_01_n_n_01_1_11.startIndexMap,
          List.idxOf_lt_length_iff.2 (List.mem_cons_self ..)⟩ = ix2 (j 0) (0 : Fin 2) := by
      funext b; refine Fin.ext ?_
      match b with
      | ⟨0, _⟩ => rfl
      | ⟨1, _⟩ => rfl
    rw [hsi]
    rfl
  | ⟨1, h1⟩ =>
    rw [GatherDims.offCoord_eq_zero _ _ _ (fun h => ((GatherDims.mem_sKept _ _).mp h).1
      (List.mem_cons_of_mem _ (List.mem_cons_self ..)))]
    simp only [Nat.add_zero]
    unfold GatherDims.start
    rw [dif_pos (show (⟨1, h1⟩ : Fin S200000x4.rank) ∈ gather_S200000x4_S6400000x2_S6400000_n_01_n_n_01_1_11.startIndexMap
      from List.mem_cons_of_mem _ (List.mem_cons_self ..))]
    have hsi : gather_S200000x4_S6400000x2_S6400000_n_01_n_n_01_1_11.siIdx j
        ⟨List.idxOf (⟨1, h1⟩ : Fin S200000x4.rank) gather_S200000x4_S6400000x2_S6400000_n_01_n_n_01_1_11.startIndexMap,
          List.idxOf_lt_length_iff.2 (List.mem_cons_of_mem _ (List.mem_cons_self ..))⟩ = ix2 (j 0) (1 : Fin 2) := by
      funext b; refine Fin.ext ?_
      match b with
      | ⟨0, _⟩ => rfl
      | ⟨1, _⟩ => rfl
    rw [hsi]
    rfl

/-- The gather read at an edge: the node array at the row its row word names — a negative word wrapped once by the
    number of nodes, as the index words are prepared — and at column c, when the column word reads as c. -/
theorem gather_apply {α : Type} (x : S200000x4.Idx → α) (idx : IVec S6400000x2 32) (j : S6400000.Idx)
    (wd : BitVec 32) (hrow : idx (ix2 (j 0) (0 : Fin 2)) = if wd.slt 0#32 then wd + 200000#32 else wd)
    (cw : BitVec 32) (c : Fin 4) (hcol : idx (ix2 (j 0) (1 : Fin 2)) = cw) (hc : min cw.toInt.toNat 3 = c.val) :
    Host.gather gather_S200000x4_S6400000x2_S6400000_n_01_n_n_01_1_11 x idx j = x (ix2 (LossSpec.row wd) c) := by
  show x (gather_S200000x4_S6400000x2_S6400000_n_01_n_n_01_1_11.operandIdx j idx) = _
  rw [gather_operandIdx]
  congr 1
  funext a
  refine Fin.ext ?_
  match a with
  | ⟨0, _⟩ =>
    show min (idx (ix2 (j 0) (0 : Fin 2))).toInt.toNat 199999 = (LossSpec.row wd).val
    rw [hrow]; rfl
  | ⟨1, _⟩ =>
    show min (idx (ix2 (j 0) (1 : Fin 2))).toInt.toNat 3 = c.val
    rw [hcol]; exact hc

/-! ## The accumulating scatter into the nodes -/

/-- An update lands on node i exactly when its index word, read signed, is i. -/
theorem scatter_resultIdx_iff {w : Nat} (idx : IVec S6400000x1 w) (j : S6400000.Idx) (i : S200000.Idx) :
    scatter_S200000_S6400000x1_S6400000_n_0_0_1.resultIdx? j idx = some i
      ↔ (idx (ix2 (j 0) (0 : Fin 1))).toInt = (((i 0).val : Nat) : Int) := by
  have hsi : scatter_S200000_S6400000x1_S6400000_n_0_0_1.siIdx j
      ⟨List.idxOf (0 : Fin S200000.rank) scatter_S200000_S6400000x1_S6400000_n_0_0_1.scatterDimsToOperandDims,
        List.idxOf_lt_length_iff.2 (List.mem_cons_self ..)⟩ = ix2 (j 0) (0 : Fin 1) := by
    funext b; refine Fin.ext ?_
    match b with
    | ⟨0, _⟩ => rfl
    | ⟨1, _⟩ => rfl
  have hst : ∀ a : Fin S200000.rank, scatter_S200000_S6400000x1_S6400000_n_0_0_1.start j idx a
      + (scatter_S200000_S6400000x1_S6400000_n_0_0_1.window j a : Int) = (idx (ix2 (j 0) (0 : Fin 1))).toInt := by
    intro a
    obtain rfl : a = 0 := Subsingleton.elim _ _
    have hw : scatter_S200000_S6400000x1_S6400000_n_0_0_1.window j 0 = 0 := by
      unfold ScatterDims.window
      rw [dif_neg (by decide)]
    rw [hw]
    unfold ScatterDims.start
    rw [dif_pos (show (0 : Fin S200000.rank) ∈ scatter_S200000_S6400000x1_S6400000_n_0_0_1.scatterDimsToOperandDims
      from List.mem_cons_self ..), hsi]
    simp
  unfold ScatterDims.resultIdx?
  split
  · next h =>
    rw [Option.some.injEq]
    constructor
    · intro e
      have h0 := h 0
      rw [hst 0] at h0
      have := congrArg (fun f => ((f 0).val : Nat)) e
      simp only [hst 0] at this
      omega
    · intro e
      funext a
      obtain rfl : a = 0 := Subsingleton.elim _ _
      refine Fin.ext ?_
      simp only [hst 0]
      omega
  · next h =>
    constructor
    · intro e; cases e
    · intro e
      exfalso; apply h
      intro a
      obtain rfl : a = 0 := Subsingleton.elim _ _
      rw [hst 0, e]
      have := (i 0).isLt
      exact ⟨by omega, by exact_mod_cast this⟩

/-- The accumulating scatter read at a node: what was there plus the updates of the edges whose word names the node. -/
theorem scatterAdd_apply (x : S200000.Idx → EReal) (idx : IVec S6400000x1 32) (upd : S6400000.Idx → EReal)
    (n : Fin 200000) :
    Host.scatterAdd (F := Ideal) (φ := .f32) scatter_S200000_S6400000x1_S6400000_n_0_0_1 x idx upd (ix1 n)
      = x (ix1 n) + ∑ e ∈ Finset.univ.filter (fun e : Fin 6400000 => LossSpec.lands (idx (ix2 e (0 : Fin 1))) n), upd (ix1 e) := by
  unfold Host.scatterAdd
  rw [Ideal.hostScatterAdd_def]
  unfold Ideal.hostScatterAdd
  exact congrArg (fun s => x (ix1 n) + s) (sum_filter_idx1 _ _ _ fun e => scatter_resultIdx_iff idx (ix1 e) (ix1 n))

/-! ## The float reductions as sums -/

/-- The initial value of a reduction is read at the one index of a rank-0 array. -/
theorem first_ix0 (hu : 0 < (⟨0, ![]⟩ : Shape).numel) : Shape.Idx.first hu = ix0 := eq_ix0 _

/-- A one-axis array reduced to a scalar: the initial value plus the sum over the coordinate. -/
theorem reduce_total1 {n : Nat} (x : (⟨1, ![n]⟩ : Shape).Idx → EReal) (init : S_.Idx → EReal)
    (h : (⟨1, ![n]⟩ : Shape).ReducesTo [0] S_) (hu : 0 < S_.numel) (j : S_.Idx) :
    Host.reduceAdd (F := Ideal) (φ := .f32) x init h hu j = init ix0 + ∑ e : Fin n, x (ix1 e) := by
  rw [hostReduceAdd_apply, Ideal.hostReduceAdd_total h (fun b => b.elim0), sum_idx1, first_ix0]

/-- A two-axis array reduced to a scalar: the initial value plus the double sum. -/
theorem reduce_total2 {n0 n1 : Nat} (x : (⟨2, ![n0, n1]⟩ : Shape).Idx → EReal) (init : S_.Idx → EReal)
    (h : (⟨2, ![n0, n1]⟩ : Shape).ReducesTo [0, 1] S_) (hu : 0 < S_.numel) (j : S_.Idx) :
    Host.reduceAdd (F := Ideal) (φ := .f32) x init h hu j = init ix0 + ∑ a : Fin n0, ∑ b : Fin n1, x (ix2 a b) := by
  rw [hostReduceAdd_apply, Ideal.hostReduceAdd_total h (fun b => b.elim0), sum_idx2, first_ix0]

/-- The edge-by-two array summed over the edges, at a column. -/
theorem reduce_axis0 (x : S6400000x2.Idx → EReal) (init : S_.Idx → EReal) (h : S6400000x2.ReducesTo [0] S2)
    (hu : 0 < S_.numel) (j : S2.Idx) :
    Host.reduceAdd (F := Ideal) (φ := .f32) x init h hu j = init ix0 + ∑ e : Fin 6400000, x (ix2 e (j 0)) := by
  have hr : S6400000x2.Reduces [0] S2 := by
    obtain ⟨h1, h2⟩ := h
    exact ⟨h1, by decide, h2⟩
  rw [hostReduceAdd_apply, Ideal.hostReduceAdd_single h hr, first_ix0]
  refine congrArg (fun s => init ix0 + s) (Finset.sum_congr rfl fun e _ => congrArg x ?_)
  funext c
  refine Fin.ext ?_
  match c with
  | ⟨0, _⟩ => rfl
  | ⟨1, _⟩ => rfl

/-! ## Layout operations read at an index -/

/-- Row r of a two-row array, read as a one-axis array. -/
theorem slice_row_apply {α : Type} (x : S2x6400000.Idx → α) (r : Fin 2) (off : Fin 2 → Nat) (hoff0 : off 0 = r.val)
    (hoff1 : off 1 = 0) (h : S2x6400000.Slices off S1x6400000) (h' : S1x6400000.ShapeCasts S6400000) (e : Fin 6400000) :
    shapeCast S6400000 (extractStridedSlice S1x6400000 off x h) h' (ix1 e) = x (ix2 r e) := by
  rw [shapeCast_apply _ h' (ix1 e) (ix2 (0 : Fin 1) e) (by
    rw [Shape.rowMajor_val_two, Shape.rowMajor_val_one]
    show (0 : Nat) * _ + e.val = e.val
    rw [Nat.zero_mul, Nat.zero_add])]
  exact extractStridedSlice_apply off x h (ix2 (0 : Fin 1) e) (ix2 r e) fun a => by
    match a with
    | ⟨0, _⟩ => show r.val = off 0 + 0; omega
    | ⟨1, _⟩ => show e.val = off 1 + e.val; omega

/-- Column c of an edge-by-two array, read as a one-axis array. -/
theorem slice_col_apply {α : Type} (x : S6400000x2.Idx → α) (c : Fin 2) (off : Fin 2 → Nat) (hoff0 : off 0 = 0)
    (hoff1 : off 1 = c.val) (h : S6400000x2.Slices off S6400000x1) (h' : S6400000x1.ShapeCasts S6400000)
    (e : Fin 6400000) :
    shapeCast S6400000 (extractStridedSlice S6400000x1 off x h) h' (ix1 e) = x (ix2 e c) := by
  rw [shapeCast_apply _ h' (ix1 e) (ix2 e (0 : Fin 1)) (by
    rw [Shape.rowMajor_val_two, Shape.rowMajor_val_one]
    show e.val * 1 + 0 = e.val
    omega)]
  exact extractStridedSlice_apply off x h (ix2 e (0 : Fin 1)) (ix2 e c) fun a => by
    match a with
    | ⟨0, _⟩ => show e.val = off 0 + e.val; omega
    | ⟨1, _⟩ => show c.val = off 1 + 0; omega

/-- A one-axis array as a column. -/
theorem bcast_edge_col {α : Type} (x : S6400000.Idx → α) (h : S6400000.BroadcastsInDim S6400000x1 ![0])
    (e : Fin 6400000) (z : Fin 1) : broadcastInDim S6400000x1 ![0] h x (ix2 e z) = x (ix1 e) :=
  broadcastInDim_apply _ h x _ (ix1 e) fun a => by
    match a with
    | ⟨0, _⟩ => rfl

/-- A column copied into both columns. -/
theorem bcast_col_pair {α : Type} (x : S6400000x1.Idx → α) (h : S6400000x1.BroadcastsInDim S6400000x2 ![0, 1])
    (e : Fin 6400000) (k : Fin 2) : broadcastInDim S6400000x2 ![0, 1] h x (ix2 e k) = x (ix2 e (0 : Fin 1)) :=
  broadcastInDim_apply _ h x _ (ix2 e (0 : Fin 1)) fun a => by
    match a with
    | ⟨0, _⟩ => rfl
    | ⟨1, _⟩ => rfl

/-- A pair as a one-row array. -/
theorem bcast_pair_row {α : Type} (x : S2.Idx → α) (h : S2.BroadcastsInDim S1x2 ![1]) (z : Fin 1) (k : Fin 2) :
    broadcastInDim S1x2 ![1] h x (ix2 z k) = x (ix1 k) :=
  broadcastInDim_apply _ h x _ (ix1 k) fun a => by
    match a with
    | ⟨0, _⟩ => rfl

/-- A one-row array copied into every row. -/
theorem bcast_row_all {α : Type} (x : S1x2.Idx → α) (h : S1x2.BroadcastsInDim S6400000x2 ![0, 1]) (e : Fin 6400000)
    (k : Fin 2) : broadcastInDim S6400000x2 ![0, 1] h x (ix2 e k) = x (ix2 (0 : Fin 1) k) :=
  broadcastInDim_apply _ h x _ (ix2 (0 : Fin 1) k) fun a => by
    match a with
    | ⟨0, _⟩ => rfl
    | ⟨1, _⟩ => rfl

/-- A one-element array copied along the edges. -/
theorem bcast_one_edge {α : Type} (x : S1.Idx → α) (h : S1.BroadcastsInDim S6400000 ![0]) (e : Fin 6400000) :
    broadcastInDim S6400000 ![0] h x (ix1 e) = x (ix1 (0 : Fin 1)) :=
  broadcastInDim_apply _ h x _ (ix1 (0 : Fin 1)) fun a => by
    match a with
    | ⟨0, _⟩ => rfl

/-- Two columns side by side: the first. -/
theorem concat_cols_left {α : Type} (x₁ x₂ : S6400000x1.Idx → α)
    (h : Shape.Concatenates [S6400000x1, S6400000x1] S6400000x2 1) (e : Fin 6400000) :
    concatenate S6400000x2 1 [⟨S6400000x1, x₁⟩, ⟨S6400000x1, x₂⟩] h (ix2 e (0 : Fin 2)) = x₁ (ix2 e (0 : Fin 1)) :=
  concatenate_pair_apply_left 1 x₁ x₂ h _ rfl (ix2 e (0 : Fin 1)) fun b => by
    match b with
    | ⟨0, _⟩ => rfl
    | ⟨1, _⟩ => rfl

/-- Two columns side by side: the second. -/
theorem concat_cols_right {α : Type} (x₁ x₂ : S6400000x1.Idx → α)
    (h : Shape.Concatenates [S6400000x1, S6400000x1] S6400000x2 1) (e : Fin 6400000) :
    concatenate S6400000x2 1 [⟨S6400000x1, x₁⟩, ⟨S6400000x1, x₂⟩] h (ix2 e (1 : Fin 2)) = x₂ (ix2 e (0 : Fin 1)) :=
  concatenate_pair_apply_right 1 x₁ x₂ h _ rfl rfl (ix2 e (0 : Fin 1))
    (fun b hb => by
      match b with
      | ⟨0, _⟩ => rfl
      | ⟨1, _⟩ => exact absurd rfl hb)
    rfl

/-- Seven one-element arrays end to end, read at entry k. -/
theorem concat7_apply {α : Type} (x0 x1 x2 x3 x4 x5 x6 : S1.Idx → α)
    (h : Shape.Concatenates [S1, S1, S1, S1, S1, S1, S1] S7 0) (k : Fin 7) :
    concatenate S7 0 [⟨S1, x0⟩, ⟨S1, x1⟩, ⟨S1, x2⟩, ⟨S1, x3⟩, ⟨S1, x4⟩, ⟨S1, x5⟩, ⟨S1, x6⟩] h (ix1 k)
      = (![x0, x1, x2, x3, x4, x5, x6] k) (ix1 (0 : Fin 1)) := by
  have key : ∀ (n : Nat) (hn : n < 7) (xn : S1.Idx → α),
      ([⟨S1, x0⟩, ⟨S1, x1⟩, ⟨S1, x2⟩, ⟨S1, x3⟩, ⟨S1, x4⟩, ⟨S1, x5⟩, ⟨S1, x6⟩] : List ((s : Shape) × (s.Idx → α)))[n]'hn
        = ⟨S1, xn⟩ →
      concatenate S7 0 [⟨S1, x0⟩, ⟨S1, x1⟩, ⟨S1, x2⟩, ⟨S1, x3⟩, ⟨S1, x4⟩, ⟨S1, x5⟩, ⟨S1, x6⟩] h (ix1 (⟨n, hn⟩ : Fin 7))
        = xn (ix1 (0 : Fin 1)) := by
    intro n hn xn hx
    refine concatenate_apply_piece 0
      ([⟨S1, x0⟩, ⟨S1, x1⟩, ⟨S1, x2⟩, ⟨S1, x3⟩, ⟨S1, x4⟩, ⟨S1, x5⟩, ⟨S1, x6⟩] : List ((s : Shape) × (s.Idx → α)))
      h (ix1 (⟨n, hn⟩ : Fin 7)) n hn S1 xn hx rfl n ?_ (ix1 (0 : Fin 1))
      (fun b hb => absurd (Subsingleton.elim _ _) hb) rfl
    interval_cases n <;> rfl
  fin_cases k
  · exact key 0 (by omega) x0 rfl
  · exact key 1 (by omega) x1 rfl
  · exact key 2 (by omega) x2 rfl
  · exact key 3 (by omega) x3 rfl
  · exact key 4 (by omega) x4 rfl
  · exact key 5 (by omega) x5 rfl
  · exact key 6 (by omega) x6 rfl

/-! ## Host operations at an index, at the ideal values -/

section Apply
variable {s : Shape} {φ : FTy}
theorem hostNegf_apply (a : FVec Ideal s φ) (i : s.Idx) : Host.negf a i = -(a i) := rfl
theorem hostExp_apply (a : FVec Ideal s φ) (i : s.Idx) : Host.exp a i = Ideal.exp (a i) := rfl
theorem hostLog1p_apply (a : FVec Ideal s φ) (i : s.Idx) : Host.log1p a i = Ideal.log1p (a i) := rfl
theorem hostAbsf_apply (a : FVec Ideal s φ) (i : s.Idx) : Host.absf a i = max (a i) (-(a i)) := rfl
theorem hostSqrt_apply (a : FVec Ideal s φ) (i : s.Idx) : Host.sqrt a i = Ideal.sqrt (a i) := rfl
theorem constantI_apply {w : Nat} (b : BitVec w) (i : s.Idx) : constantI s w b i = b := rfl
theorem cmpi_apply {w : Nat} (p : CmpIPredicate) (a b : IVec s w) (i : s.Idx) :
    cmpi p a b i = IntOp.cmpi p (a i) (b i) := rfl
theorem addi_apply {w : Nat} (a b : IVec s w) (i : s.Idx) : addi a b i = a i + b i := rfl
end Apply

/-! ## Scalar facts -/

/-- The test for a value that is not a number fails at every extended real. -/
theorem cmp_une_self (y : EReal) : FloatOps.cmpf (F := Ideal) (φ := .f32) .une y y = 0#1 := by
  show Ideal.cmp .une y y = 0#1
  simp [Ideal.cmp]

/-- The softplus as the program computes it (the test for not-a-number failing, the subtraction and addition of zero
    dropping out) is the formula's. -/
theorem softplus_sel (y : EReal) :
    Scalar.select (FloatOps.cmpf (F := Ideal) (φ := .f32) .une (y - 0) (y - 0)) (y + 0)
        (max y 0 + Ideal.log1p (Ideal.exp (-(max (y - 0) (-(y - 0))))))
      = LossSpec.softplus y := by
  rw [cmp_une_self, select_zero, sub_zero]
  rfl

/-- The wrapped index word: the signed comparison with zero selects the word plus the number of nodes. -/
theorem wrap_sel (wd : BitVec 32) :
    Scalar.select (IntOp.cmpi .slt wd 0#32) (wd + 200000#32) wd = if wd.slt 0#32 then wd + 200000#32 else wd :=
  select_ofBool _ _ _

end Cert.ReferenceIdeal.HRun

end
-- ==== Proof.RefValEdge.lean ====
/- The reference's per-edge values, read out of the buffers its operations leave: the two node words of an edge, its
   weight, resistance and reactance, the two logarithmic terms and the cross-entropy, the squared parameter error, the
   four node values and their two differences, the voltage drop, the current, and the two weighted quantities. Each buffer
   is read at an edge through the step equations of the operations that made it. -/
import proofs.«176581_j38010460570140_2_alg».proof.Proof.RefStage
import proofs.«176581_j38010460570140_2_alg».proof.Proof.RefValLib

set_option maxRecDepth 4096

noncomputable section

open scoped BigOperators

namespace Cert.ReferenceIdeal.HRun

open Cert.ReferenceIdeal Cert.ReferenceIdeal.Gen Idealize.ShloMosaic Idealize.ShloMosaic.TcCoe Idealize.SL.Sem
  Idealize.ShloMosaic.StableHlo Idealize.ShloMosaic.ValueIdx

variable (V : Valuation τ sig (Elt Ideal))

/-- The six argument arrays of the device's buffer contents. -/
abbrev argsOf : LossSpec.Args :=
  ⟨V (main_arg0 : DevRef τ sig), V (main_arg1 : DevRef τ sig), V (main_arg2 : DevRef τ sig),
    V (main_arg3 : DevRef τ sig), V (main_arg4 : DevRef τ sig), V (main_arg5 : DevRef τ sig)⟩

local notation "W[" b "]" => after (ops (F := Ideal)) V (Proc.devRef (τ := τ) Proc.tc b)
set_option quotPrecheck false in
local notation "Wn[" b "]" => after (ops (F := Ideal)) V (no_index (Proc.devRef (τ := τ) Proc.tc b))
local notation "A" => argsOf V

/-! ## The broadcasts read at an index -/

theorem bcast_scalar_ni {T : Shape} {α : Type} (h : S_.BroadcastsInDim T ![]) (x : S_.Idx → α) (j : T.Idx) :
    @broadcastInDim (no_index S_) α T (no_index ![]) h x j = x ix0 := broadcastInDim_scalar_apply h x j
theorem bcast_edge_col_ni {α : Type} (x : S6400000.Idx → α) (h : S6400000.BroadcastsInDim S6400000x1 ![0])
    (e : Fin 6400000) (z : Fin 1) : @broadcastInDim (no_index S6400000) α S6400000x1 (no_index ![0]) h x (ix2 e z) = x (ix1 e) :=
  bcast_edge_col x h e z
theorem bcast_col_pair_ni {α : Type} (x : S6400000x1.Idx → α) (h : S6400000x1.BroadcastsInDim S6400000x2 ![0, 1])
    (e : Fin 6400000) (k : Fin 2) :
    @broadcastInDim (no_index S6400000x1) α S6400000x2 (no_index ![0, 1]) h x (ix2 e k) = x (ix2 e (0 : Fin 1)) :=
  bcast_col_pair x h e k
theorem bcast_pair_row_ni {α : Type} (x : S2.Idx → α) (h : S2.BroadcastsInDim S1x2 ![1]) (z : Fin 1) (k : Fin 2) :
    @broadcastInDim (no_index S2) α S1x2 (no_index ![1]) h x (ix2 z k) = x (ix1 k) := bcast_pair_row x h z k
theorem bcast_row_all_ni {α : Type} (x : S1x2.Idx → α) (h : S1x2.BroadcastsInDim S6400000x2 ![0, 1]) (e : Fin 6400000)
    (k : Fin 2) : @broadcastInDim (no_index S1x2) α S6400000x2 (no_index ![0, 1]) h x (ix2 e k) = x (ix2 (0 : Fin 1) k) :=
  bcast_row_all x h e k
theorem bcast_one_edge_ni {α : Type} (x : S1.Idx → α) (h : S1.BroadcastsInDim S6400000 ![0]) (e : Fin 6400000) :
    @broadcastInDim (no_index S1) α S6400000 (no_index ![0]) h x (ix1 e) = x (ix1 (0 : Fin 1)) := bcast_one_edge x h e

/-! ## The node words -/

theorem v1_at (e : Fin 6400000) : Wn[main_v1] (ix1 e) = LossSpec.src A e := by
  rw [at_main_v1, at_main_v0, arg5_kept]
  exact slice_row_apply _ (0 : Fin 2) ![0, 0] rfl rfl _ _ e

theorem v3_at (e : Fin 6400000) : Wn[main_v3] (ix1 e) = LossSpec.dst A e := by
  rw [at_main_v3, at_main_v2, arg5_kept]
  exact slice_row_apply _ (1 : Fin 2) ![1, 0] rfl rfl _ _ e

/-! ## Weight, resistance, reactance -/

theorem v9_at (e : Fin 6400000) : Wn[main_v9] (ix1 e) = LossSpec.p A e := by
  rw [at_main_v9, at_main_v8, at_main_v7, at_main_v6, at_main_v5, at_main_v4, at_main_cst, at_main_cst_0, arg1_kept]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, Ideal.ofBits_one_f32]

theorem v11_at (e : Fin 6400000) : Wn[main_v11] (ix1 e) = LossSpec.R A e := by
  rw [at_main_v11, at_main_v10, arg2_kept]
  exact slice_col_apply _ (0 : Fin 2) ![0, 0] rfl rfl _ _ e

theorem v13_at (e : Fin 6400000) : Wn[main_v13] (ix1 e) = LossSpec.X A e := by
  rw [at_main_v13, at_main_v12, arg2_kept]
  exact slice_col_apply _ (1 : Fin 2) ![0, 1] rfl rfl _ _ e

/-! ## The logarithmic terms and the cross-entropy -/

theorem v14_at (e : Fin 6400000) : Wn[main_v14] (ix1 e) = LossSpec.lsig (LossSpec.x A e) := by
  rw [at_main_v14, at_main_call0_v1, at_main_call0_call0_v11, at_main_call0_call0_v10, at_main_call0_call0_v9, at_main_call0_call0_v8, at_main_call0_call0_v7, at_main_call0_call0_v6, at_main_call0_call0_v5, at_main_call0_call0_v4,
    at_main_call0_call0_v3, at_main_call0_call0_v2, at_main_call0_call0_v1, at_main_call0_call0_v0, at_main_call0_call0_cst, at_main_call0_v0, arg1_kept]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, Ideal.ofBits_zero_f32]
  exact congrArg (fun t : EReal => -t) (softplus_sel _)

theorem v19_at (e : Fin 6400000) : Wn[main_v19] (ix1 e) = LossSpec.lsig (-(LossSpec.x A e)) := by
  rw [at_main_v19, at_main_call1_v1, at_main_call1_call0_v11, at_main_call1_call0_v10, at_main_call1_call0_v9, at_main_call1_call0_v8, at_main_call1_call0_v7, at_main_call1_call0_v6, at_main_call1_call0_v5, at_main_call1_call0_v4,
    at_main_call1_call0_v3, at_main_call1_call0_v2, at_main_call1_call0_v1, at_main_call1_call0_v0, at_main_call1_call0_cst, at_main_call1_v0, at_main_v18, arg1_kept]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, Ideal.ofBits_zero_f32]
  exact congrArg (fun t : EReal => -t) (softplus_sel _)

theorem v22_at (e : Fin 6400000) : Wn[main_v22] (ix1 e) = LossSpec.bce ((argsOf V).lb (ix1 e)) (LossSpec.x A e) := by
  rw [at_main_v22, at_main_v21, at_main_v20, at_main_v17, at_main_v16, at_main_cst_1, at_main_v15, arg3_kept]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v14_at, v19_at]

/-! ## The squared parameter error -/

theorem v27_at (e : Fin 6400000) (k : Fin 2) :
    Wn[main_v27] (ix2 e k) = ((argsOf V).ep (ix2 e k) - (argsOf V).tp (ix2 e k)) * ((argsOf V).ep (ix2 e k) - (argsOf V).tp (ix2 e k)) := by
  rw [at_main_v27, at_main_v26, arg2_kept, arg4_kept]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic]

/-! ## The four node values -/

theorem v35_at (e : Fin 6400000) :
    Wn[main_v35] (ix1 e) = (if (LossSpec.src A e).slt 0#32 then LossSpec.src A e + 200000#32 else LossSpec.src A e) := by
  rw [at_main_v35, at_main_v32, at_main_v34, at_main_v33, at_main_v31, at_main_c, at_main_c_8]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v1_at]
  exact wrap_sel _

theorem v40_row (e : Fin 6400000) :
    Wn[main_v40] (ix2 e (0 : Fin 2)) = (if (LossSpec.src A e).slt 0#32 then LossSpec.src A e + 200000#32 else LossSpec.src A e) := by
  rw [at_main_v40, at_main_v38]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, concat_cols_left, bcast_edge_col_ni, v35_at]

theorem v40_col (e : Fin 6400000) : Wn[main_v40] (ix2 e (1 : Fin 2)) = 0#32 := by
  rw [at_main_v40, at_main_v39, at_main_v37, at_main_v36, at_main_c_9]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, concat_cols_right, bcast_edge_col_ni]

theorem v41_at (e : Fin 6400000) :
    Wn[main_v41] (ix1 e) = (argsOf V).nf (ix2 (LossSpec.row (LossSpec.src A e)) (0 : Fin 4)) := by
  rw [at_main_v41, arg0_kept]
  exact gather_apply _ _ (ix1 e) (LossSpec.src A e) (v40_row V e) 0#32 (0 : Fin 4) (v40_col V e) (by decide)

theorem v46_at (e : Fin 6400000) :
    Wn[main_v46] (ix1 e) = (if (LossSpec.dst A e).slt 0#32 then LossSpec.dst A e + 200000#32 else LossSpec.dst A e) := by
  rw [at_main_v46, at_main_v43, at_main_v45, at_main_v44, at_main_v42, at_main_c_10, at_main_c_11]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v3_at]
  exact wrap_sel _

theorem v51_row (e : Fin 6400000) :
    Wn[main_v51] (ix2 e (0 : Fin 2)) = (if (LossSpec.dst A e).slt 0#32 then LossSpec.dst A e + 200000#32 else LossSpec.dst A e) := by
  rw [at_main_v51, at_main_v49]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, concat_cols_left, bcast_edge_col_ni, v46_at]

theorem v51_col (e : Fin 6400000) : Wn[main_v51] (ix2 e (1 : Fin 2)) = 0#32 := by
  rw [at_main_v51, at_main_v50, at_main_v48, at_main_v47, at_main_c_12]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, concat_cols_right, bcast_edge_col_ni]

theorem v52_at (e : Fin 6400000) :
    Wn[main_v52] (ix1 e) = (argsOf V).nf (ix2 (LossSpec.row (LossSpec.dst A e)) (0 : Fin 4)) := by
  rw [at_main_v52, arg0_kept]
  exact gather_apply _ _ (ix1 e) (LossSpec.dst A e) (v51_row V e) 0#32 (0 : Fin 4) (v51_col V e) (by decide)

theorem v58_at (e : Fin 6400000) :
    Wn[main_v58] (ix1 e) = (if (LossSpec.src A e).slt 0#32 then LossSpec.src A e + 200000#32 else LossSpec.src A e) := by
  rw [at_main_v58, at_main_v55, at_main_v57, at_main_v56, at_main_v54, at_main_c_13, at_main_c_14]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v1_at]
  exact wrap_sel _

theorem v63_row (e : Fin 6400000) :
    Wn[main_v63] (ix2 e (0 : Fin 2)) = (if (LossSpec.src A e).slt 0#32 then LossSpec.src A e + 200000#32 else LossSpec.src A e) := by
  rw [at_main_v63, at_main_v61]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, concat_cols_left, bcast_edge_col_ni, v58_at]

theorem v63_col (e : Fin 6400000) : Wn[main_v63] (ix2 e (1 : Fin 2)) = 1#32 := by
  rw [at_main_v63, at_main_v62, at_main_v60, at_main_v59, at_main_c_15]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, concat_cols_right, bcast_edge_col_ni]

theorem v64_at (e : Fin 6400000) :
    Wn[main_v64] (ix1 e) = (argsOf V).nf (ix2 (LossSpec.row (LossSpec.src A e)) (1 : Fin 4)) := by
  rw [at_main_v64, arg0_kept]
  exact gather_apply _ _ (ix1 e) (LossSpec.src A e) (v63_row V e) 1#32 (1 : Fin 4) (v63_col V e) (by decide)

theorem v69_at (e : Fin 6400000) :
    Wn[main_v69] (ix1 e) = (if (LossSpec.dst A e).slt 0#32 then LossSpec.dst A e + 200000#32 else LossSpec.dst A e) := by
  rw [at_main_v69, at_main_v66, at_main_v68, at_main_v67, at_main_v65, at_main_c_16, at_main_c_17]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v3_at]
  exact wrap_sel _

theorem v74_row (e : Fin 6400000) :
    Wn[main_v74] (ix2 e (0 : Fin 2)) = (if (LossSpec.dst A e).slt 0#32 then LossSpec.dst A e + 200000#32 else LossSpec.dst A e) := by
  rw [at_main_v74, at_main_v72]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, concat_cols_left, bcast_edge_col_ni, v69_at]

theorem v74_col (e : Fin 6400000) : Wn[main_v74] (ix2 e (1 : Fin 2)) = 1#32 := by
  rw [at_main_v74, at_main_v73, at_main_v71, at_main_v70, at_main_c_18]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, concat_cols_right, bcast_edge_col_ni]

theorem v75_at (e : Fin 6400000) :
    Wn[main_v75] (ix1 e) = (argsOf V).nf (ix2 (LossSpec.row (LossSpec.dst A e)) (1 : Fin 4)) := by
  rw [at_main_v75, arg0_kept]
  exact gather_apply _ _ (ix1 e) (LossSpec.dst A e) (v74_row V e) 1#32 (1 : Fin 4) (v74_col V e) (by decide)

/-! ## Differences, drop, current -/

theorem v53_at (e : Fin 6400000) : Wn[main_v53] (ix1 e) = LossSpec.da A e := by
  rw [at_main_v53]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v41_at, v52_at]

theorem v76_at (e : Fin 6400000) : Wn[main_v76] (ix1 e) = LossSpec.db A e := by
  rw [at_main_v76]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v64_at, v75_at]

theorem v80_at (e : Fin 6400000) : Wn[main_v80] (ix1 e) = LossSpec.dist (LossSpec.da A e) (LossSpec.db A e) := by
  rw [at_main_v80, at_main_v79, at_main_v78, at_main_v77]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v53_at, v76_at]

theorem v86_at (e : Fin 6400000) : Wn[main_v86] (ix1 e) = LossSpec.den (LossSpec.R A e) (LossSpec.X A e) := by
  rw [at_main_v86, at_main_v85, at_main_v84, at_main_v83, at_main_v82, at_main_v81, at_main_cst_19]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v11_at, v13_at]

theorem v88_at (e : Fin 6400000) : Wn[main_v88] (ix1 e) = LossSpec.c A e := by
  rw [at_main_v88, at_main_v87]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v80_at, v86_at, v9_at]

theorem v121_at (e : Fin 6400000) : Wn[main_v121] (ix1 e) = LossSpec.vd A e := by
  rw [at_main_v121, at_main_v120, at_main_v119, at_main_v118, at_main_v117]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, LossSpec.src, LossSpec.dst, LossSpec.x, LossSpec.p,
    LossSpec.R, LossSpec.X, LossSpec.lsig, LossSpec.bce, LossSpec.da, LossSpec.db, LossSpec.dist, LossSpec.den, LossSpec.cur,
    LossSpec.c, LossSpec.vd, LossSpec.lit, LossSpec.one, LossSpec.eps, LossSpec.Sbce, LossSpec.Ssq, LossSpec.Sp, LossSpec.mean1,
    LossSpec.kcl, LossSpec.kvl, LossSpec.radial, LossSpec.sparsity, LossSpec.total, LossSpec.devVar, LossSpec.nodeR,
    LossSpec.pcR, LossSpec.vcR, LossSpec.cE, LossSpec.c2E, LossSpec.cN, LossSpec.cNm1, LossSpec.c01, LossSpec.c001,
    LossSpec.two, argsOf, Ideal.logistic, v53_at, v76_at, v9_at]

end Cert.ReferenceIdeal.HRun

end
-- ==== Proof.LossConsts.lean ====
/-
  The float constants of the loss formulas as the real numbers their 32-bit patterns denote.  One module reads all
  of them, so the unfolding of the pattern reading happens in one place.
-/
import proofs.«176581_j38010460570140_2_alg».proof.Proof.LossSpec

noncomputable section

namespace LossSpec

open Idealize.ShloMosaic

/-- The pattern of 6400000.0 denotes the real 6400000. -/
theorem cE_eq : cE = ((6400000 : ℝ) : EReal) := by
  simp [Ideal.ofBits, Ideal.ieee, -EReal.coe_mul]; norm_num

/-- The pattern of 6399999.0 denotes the real 6399999. -/
theorem cEm1_eq : cEm1 = ((6399999 : ℝ) : EReal) := by
  simp [Ideal.ofBits, Ideal.ieee, -EReal.coe_mul]; norm_num

/-- The pattern of 1.0 denotes 1. -/
theorem one_eq : one = ((1 : ℝ) : EReal) := by
  simp [Ideal.ofBits, Ideal.ieee, -EReal.coe_mul]; norm_num

/-- The pattern of 2.0 denotes 2. -/
theorem two_eq : two = ((2 : ℝ) : EReal) := by
  simp [Ideal.ofBits, Ideal.ieee, -EReal.coe_mul]; norm_num

/-- The small constant denotes a nonnegative real. -/
theorem eps_real : ∃ r : ℝ, 0 ≤ r ∧ eps = (r : EReal) := by
  refine ⟨(2 ^ 23 + 407485 : ℕ) * (2 : ℝ) ^ (-43 : ℤ), by positivity, ?_⟩
  simp [Ideal.ofBits, Ideal.ieee, -EReal.coe_mul]

/-- 6400000 - 1 = 6399999 on the patterns' readings. -/
theorem cE_sub_one : cE - one = cEm1 := by
  rw [cE_eq, one_eq, cEm1_eq, ← EReal.coe_sub]; norm_num

end LossSpec

end
-- ==== Proof.RefValSums.lean ====
/- The reference's sums, read out of the buffers: the cross-entropy and parameter-error sums and their means, the node
   currents and the sum of their squares, the sum of the weights, the weighted deviations of resistance and reactance, and
   the variance of the weighted voltage drops. -/
import proofs.«176581_j38010460570140_2_alg».proof.Proof.RefValEdge
import proofs.«176581_j38010460570140_2_alg».proof.Proof.LossConsts

set_option maxRecDepth 4096

noncomputable section

open scoped BigOperators

namespace Cert.ReferenceIdeal.HRun

open Cert.ReferenceIdeal Cert.ReferenceIdeal.Gen Idealize.ShloMosaic Idealize.ShloMosaic.TcCoe Idealize.SL.Sem
  Idealize.ShloMosaic.StableHlo Idealize.ShloMosaic.ValueIdx

variable (V : Valuation τ sig (Elt Ideal))

local notation "W[" b "]" => after (ops (F := Ideal)) V (Proc.devRef (τ := τ) Proc.tc b)
set_option quotPrecheck false in
local notation "Wn[" b "]" => after (ops (F := Ideal)) V (no_index (Proc.devRef (τ := τ) Proc.tc b))
local notation "A" => argsOf V

/-! ## The two means -/

theorem v23_at (j : S_.Idx) : Wn[main_v23] j = LossSpec.Sbce A := by
  rw [at_main_v23]
  try dsimp only
  rw [reduce_total1, at_main_cst_2]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v22_at, LossSpec.Sbce]

theorem v25_at (j : S_.Idx) : Wn[main_v25] j = LossSpec.mean1 (LossSpec.Sbce A) LossSpec.cE := by
  rw [at_main_v25, at_main_v24, at_main_cst_4, at_main_cst_3]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v23_at, LossSpec.mean1]

theorem v28_at (j : S_.Idx) : Wn[main_v28] j = LossSpec.Ssq A := by
  rw [at_main_v28]
  try dsimp only
  rw [reduce_total2, at_main_cst_5]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v27_at, LossSpec.Ssq]

theorem v30_at (j : S_.Idx) : Wn[main_v30] j = LossSpec.mean1 (LossSpec.Ssq A) LossSpec.c2E := by
  rw [at_main_v30, at_main_v29, at_main_cst_7, at_main_cst_6]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v28_at, LossSpec.mean1]

/-! ## The node currents -/

theorem v90_at (e : Fin 6400000) (z : Fin 1) : Wn[main_v90] (ix2 e z) = LossSpec.dst A e := by
  rw [at_main_v90, bcast_edge_col, v3_at]

theorem v93_at (e : Fin 6400000) (z : Fin 1) : Wn[main_v93] (ix2 e z) = LossSpec.src A e := by
  rw [at_main_v93, bcast_edge_col, v1_at]

theorem v91_at (n : Fin 200000) :
    Wn[main_v91] (ix1 n) = ∑ e ∈ Finset.univ.filter (fun e => LossSpec.lands (LossSpec.dst A e) n), LossSpec.c A e := by
  rw [at_main_v91]
  try dsimp only
  rw [scatterAdd_apply, at_main_v89, at_main_cst_20]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v90_at, v88_at]

theorem v94_at (n : Fin 200000) :
    Wn[main_v94] (ix1 n) = ∑ e ∈ Finset.univ.filter (fun e => LossSpec.lands (LossSpec.src A e) n), LossSpec.c A e := by
  rw [at_main_v94]
  try dsimp only
  rw [scatterAdd_apply, at_main_v92, at_main_cst_21]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v93_at, v88_at]

theorem v95_at (n : Fin 200000) : Wn[main_v95] (ix1 n) = LossSpec.nodeR A n := by
  rw [at_main_v95, subf_apply, v91_at, v94_at]
  unfold LossSpec.nodeR
  with_reducible rfl

theorem v97_at (j : S_.Idx) : Wn[main_v97] j = ∑ n, LossSpec.nodeR A n * LossSpec.nodeR A n := by
  rw [at_main_v97]
  try dsimp only
  rw [reduce_total1, at_main_v96, at_main_cst_22, constant_apply, Ideal.ofBits_zero_f32, zero_add]
  exact Finset.sum_congr (M := EReal) rfl fun n _ => by rw [mulf_apply, v95_at]

theorem v99_at (j : S_.Idx) :
    Wn[main_v99] j = LossSpec.kcl (∑ n, LossSpec.nodeR A n * LossSpec.nodeR A n) := by
  rw [at_main_v99, at_main_v98, at_main_cst_23, at_main_cst_24]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v97_at, LossSpec.kcl]

/-! ## The sum of the weights, four times -/

theorem v104_at (j : S_.Idx) : Wn[main_v104] j = LossSpec.Sp A := by
  rw [at_main_v104]
  try dsimp only
  rw [reduce_total1, at_main_cst_26]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v9_at, LossSpec.Sp]

theorem v125_at (j : S_.Idx) : Wn[main_v125] j = LossSpec.Sp A := by
  rw [at_main_v125]
  try dsimp only
  rw [reduce_total1, at_main_cst_33]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v9_at, LossSpec.Sp]

theorem v129_at (j : S_.Idx) : Wn[main_v129] j = LossSpec.Sp A := by
  rw [at_main_v129]
  try dsimp only
  rw [reduce_total1, at_main_cst_36]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v9_at, LossSpec.Sp]

theorem v134_at (j : S_.Idx) : Wn[main_v134] j = LossSpec.Sp A := by
  rw [at_main_v134]
  try dsimp only
  rw [reduce_total1, at_main_cst_40]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v9_at, LossSpec.Sp]

/-! ## The weighted deviations of resistance and reactance -/

/-- A sum over the edges at a column. -/
theorem reduce_axis0' (x : S6400000x2.Idx → EReal) (init : S_.Idx → EReal) (h : S6400000x2.ReducesTo [0] S2)
    (hu : 0 < S_.numel) (k : Fin 2) :
    Host.reduceAdd (F := Ideal) (φ := .f32) x init h hu (ix1 k) = init ix0 + ∑ e : Fin 6400000, x (ix2 e k) :=
  reduce_axis0 x init h hu (ix1 k)

/-- The weight copied into both columns. -/
theorem v101_at (e : Fin 6400000) (k : Fin 2) : Wn[main_v101] (ix2 e k) = LossSpec.p A e := by
  rw [at_main_v101, bcast_col_pair, at_main_v100, bcast_edge_col, v9_at]

theorem v112_at (e : Fin 6400000) (k : Fin 2) : Wn[main_v112] (ix2 e k) = LossSpec.p A e := by
  rw [at_main_v112, bcast_col_pair, at_main_v100, bcast_edge_col, v9_at]

theorem v103_at (k : Fin 2) : Wn[main_v103] (ix1 k) = ∑ e, (argsOf V).ep (ix2 e k) * LossSpec.p A e := by
  rw [at_main_v103]
  try dsimp only
  rw [reduce_axis0', at_main_v102, at_main_cst_25, arg2_kept]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v101_at, argsOf]

/-- The weighted mean of column k of the edge parameters. -/
theorem v107_at (k : Fin 2) :
    Wn[main_v107] (ix1 k) = Ideal.div (∑ e, (argsOf V).ep (ix2 e k) * LossSpec.p A e) (LossSpec.Sp A + LossSpec.eps) := by
  rw [at_main_v107, at_main_v106, at_main_v105, at_main_cst_27, hostDivf_apply, broadcastInDim_scalar_apply, addf_apply,
    constant_apply, v103_at, v104_at]

theorem v109_at (e : Fin 6400000) (k : Fin 2) :
    Wn[main_v109] (ix2 e k) = Ideal.div (∑ e, (argsOf V).ep (ix2 e k) * LossSpec.p A e) (LossSpec.Sp A + LossSpec.eps) := by
  rw [at_main_v109, bcast_row_all, at_main_v108, bcast_pair_row, v107_at]

theorem v113_at (e : Fin 6400000) (k : Fin 2) :
    Wn[main_v113] (ix2 e k)
      = (((argsOf V).ep (ix2 e k) - Ideal.div (∑ e, (argsOf V).ep (ix2 e k) * LossSpec.p A e) (LossSpec.Sp A + LossSpec.eps))
            * ((argsOf V).ep (ix2 e k) - Ideal.div (∑ e, (argsOf V).ep (ix2 e k) * LossSpec.p A e) (LossSpec.Sp A + LossSpec.eps)))
          * LossSpec.p A e := by
  rw [at_main_v113, at_main_v111, at_main_v110, arg2_kept, mulf_apply, mulf_apply, subf_apply, v109_at, v112_at]

/-- The weighted squared deviation of column k from its weighted mean. -/
theorem v114_at (k : Fin 2) :
    Wn[main_v114] (ix1 k)
      = ∑ e, (((argsOf V).ep (ix2 e k) - Ideal.div (∑ e, (argsOf V).ep (ix2 e k) * LossSpec.p A e) (LossSpec.Sp A + LossSpec.eps))
            * ((argsOf V).ep (ix2 e k) - Ideal.div (∑ e, (argsOf V).ep (ix2 e k) * LossSpec.p A e) (LossSpec.Sp A + LossSpec.eps)))
          * LossSpec.p A e := by
  rw [at_main_v114]
  try dsimp only
  rw [reduce_axis0', at_main_cst_28, constant_apply, Ideal.ofBits_zero_f32, zero_add]
  show (_ : EReal) = _
  exact Finset.sum_congr rfl fun e _ => v113_at V e k

theorem v115_at (j : S_.Idx) : Wn[main_v115] j = LossSpec.devVar A (LossSpec.R A) + LossSpec.devVar A (LossSpec.X A) := by
  rw [at_main_v115]
  try dsimp only
  rw [reduce_total1, at_main_cst_29, constant_apply, Ideal.ofBits_zero_f32, zero_add]
  show (_ : EReal) = _
  rw [Fin.sum_univ_two, v114_at, v114_at]
  unfold LossSpec.devVar LossSpec.R LossSpec.X
  with_reducible rfl

theorem v116_at (j : S_.Idx) : Wn[main_v116] j = LossSpec.pcR A := by
  rw [at_main_v116, at_main_cst_30, hostDivf_apply, constant_apply, v115_at]
  unfold LossSpec.pcR
  with_reducible rfl/-! ## The variance of the weighted voltage drops -/

/-- The integer one converted is the float one. -/
theorem sitofp_one : FloatOps.sitofp (F := Ideal) .f32 (1#32 : BitVec 32) = Ideal.ofBits .f32 0x3F800000#32 := by
  rw [Ideal.ofBits_one_f32]
  show ((((1#32 : BitVec 32).toInt : ℤ) : ℝ) : EReal) = 1
  have h : (1#32 : BitVec 32).toInt = 1 := by decide
  rw [h]
  norm_num

/-- The number of edges less one is positive. -/
theorem cmp_ogt_cEm1 :
    FloatOps.cmpf (F := Ideal) (φ := .f32) .ogt (Ideal.ofBits .f32 0x4AC35000#32 - Ideal.ofBits .f32 0x3F800000#32) 0 = 1#1 := by
  have h0 : Ideal.ofBits .f32 0x4AC35000#32 - Ideal.ofBits .f32 0x3F800000#32 = ((6399999 : ℝ) : EReal) := by
    have h1 := LossSpec.cE_sub_one
    have h2 := LossSpec.cEm1_eq
    exact h1.trans h2
  rw [h0]
  have h : (0 : EReal) < ((6399999 : ℝ) : EReal) := EReal.coe_pos.mpr (by norm_num)
  show Ideal.cmp .ogt _ _ = 1#1
  unfold Ideal.cmp
  simp only [h, decide_true]
  rfl

theorem c2v0_at (j : S_.Idx) : Wn[main_call2_v0] j = ∑ e, LossSpec.vd A e := by
  rw [at_main_call2_v0]
  try dsimp only
  rw [reduce_total1, at_main_call2_cst]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v121_at]

/-- The mean of the weighted voltage drops. -/
theorem c2v3_at : Wn[main_call2_v3] (ix1 (0 : Fin 1)) = Ideal.div (∑ e, LossSpec.vd A e) LossSpec.cE := by
  rw [at_main_call2_v3, at_main_call2_v2, at_main_call2_v1, at_main_call2_cst_0]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, c2v0_at]

theorem c2v4_at (e : Fin 6400000) : Wn[main_call2_v4] (ix1 e) = Ideal.div (∑ e, LossSpec.vd A e) LossSpec.cE := by
  rw [at_main_call2_v4, bcast_one_edge, c2v3_at]

theorem c2v6_at (e : Fin 6400000) :
    Wn[main_call2_v6] (ix1 e) = (LossSpec.vd A e - Ideal.div (∑ e, LossSpec.vd A e) LossSpec.cE)
      * (LossSpec.vd A e - Ideal.div (∑ e, LossSpec.vd A e) LossSpec.cE) := by
  rw [at_main_call2_v6, at_main_call2_v5]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v121_at, c2v4_at]

theorem c2v9_at (j : S_.Idx) :
    Wn[main_call2_v9] j = ∑ e, (LossSpec.vd A e - Ideal.div (∑ e, LossSpec.vd A e) LossSpec.cE)
      * (LossSpec.vd A e - Ideal.div (∑ e, LossSpec.vd A e) LossSpec.cE) := by
  rw [at_main_call2_v9]
  try dsimp only
  rw [reduce_total1, at_main_call2_cst_2]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, c2v6_at]

theorem c2v8_at (j : S_.Idx) : Wn[main_call2_v8] j = LossSpec.cE - LossSpec.one := by
  rw [at_main_call2_v8, at_main_call2_cst_1, at_main_call2_v7, at_main_c_31]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, sitofp_one]

theorem v122_at (j : S_.Idx) : Wn[main_v122] j = LossSpec.vcR A := by
  rw [at_main_v122, at_main_call2_call0_v0, at_main_call2_cst_4, at_main_call2_v11, at_main_call2_cst_3, at_main_call2_v10]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, c2v8_at, c2v9_at, cmp_ogt_cEm1, select_one, LossSpec.vcR]

end Cert.ReferenceIdeal.HRun

end
-- ==== Proof.RefValue.lean ====
/- The reference's seven results, read out of the buffers: the six terms from the sums, their total, and the result
   array entry by entry. -/
import proofs.«176581_j38010460570140_2_alg».proof.Proof.RefValSums
import proofs.«176581_j38010460570140_2_alg».proof.Proof.LossPack

set_option maxRecDepth 4096

noncomputable section

open scoped BigOperators

namespace Cert.ReferenceIdeal.HRun

open Cert.ReferenceIdeal Cert.ReferenceIdeal.Gen Idealize.ShloMosaic Idealize.ShloMosaic.TcCoe Idealize.SL.Sem
  Idealize.ShloMosaic.StableHlo Idealize.ShloMosaic.ValueIdx

variable (V : Valuation τ sig (Elt Ideal))

local notation "W[" b "]" => after (ops (F := Ideal)) V (Proc.devRef (τ := τ) Proc.tc b)
set_option quotPrecheck false in
local notation "Wn[" b "]" => after (ops (F := Ideal)) V (no_index (Proc.devRef (τ := τ) Proc.tc b))
local notation "A" => argsOf V

/-! ## The six terms and their sum -/

theorem v124_at (j : S_.Idx) : Wn[main_v124] j = LossSpec.kvl (LossSpec.pcR A) (LossSpec.vcR A) := by
  rw [at_main_v124, at_main_v123, at_main_cst_32]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v116_at, v122_at, LossSpec.kvl]

theorem v133_at (j : S_.Idx) : Wn[main_v133] j = LossSpec.radial (LossSpec.Sp A) := by
  rw [at_main_v133, mulf_apply, at_main_cst_39, constant_apply, at_main_v132, addf_apply, at_main_v128, mulf_apply,
    at_main_cst_35, constant_apply, at_main_v127, mulf_apply, at_main_v126, subf_apply, v125_at, at_main_cst_34,
    constant_apply, at_main_v131, mulf_apply, at_main_cst_38, constant_apply, at_main_v130, hostDivf_apply, v129_at,
    at_main_cst_37, constant_apply]
  unfold LossSpec.radial
  with_reducible rfl

theorem v136_at (j : S_.Idx) : Wn[main_v136] j = LossSpec.sparsity (LossSpec.Sp A) := by
  rw [at_main_v136, at_main_v135, at_main_cst_41, at_main_cst_42]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v134_at, LossSpec.sparsity]

theorem v141_at (j : S_.Idx) :
    Wn[main_v141] j = LossSpec.total (LossSpec.mean1 (LossSpec.Sbce A) LossSpec.cE) (LossSpec.mean1 (LossSpec.Ssq A) LossSpec.c2E)
      (LossSpec.kcl (∑ n, LossSpec.nodeR A n * LossSpec.nodeR A n)) (LossSpec.kvl (LossSpec.pcR A) (LossSpec.vcR A))
      (LossSpec.radial (LossSpec.Sp A)) (LossSpec.sparsity (LossSpec.Sp A)) := by
  rw [at_main_v141, at_main_v140, at_main_v139, at_main_v138, at_main_v137]
  try dsimp only
  simp only [hostDivf_apply, addf_apply, subf_apply, mulf_apply, maximumf_apply, select_apply, cmpf_apply, cmpi_apply,
    addi_apply, sitofp_apply, hostNegf_apply, hostExp_apply, hostLog1p_apply, hostAbsf_apply, hostSqrt_apply,
    bcast_scalar_ni, constant_apply, constantI_apply, id_eq, Ideal.ofBits_zero_f32, zero_add, LossSpec.lit, LossSpec.one,
    LossSpec.eps, LossSpec.cE, LossSpec.c2E, LossSpec.cN, LossSpec.cNm1, LossSpec.c01, LossSpec.c001, LossSpec.two, v25_at, v30_at, v99_at, v124_at, v133_at, v136_at, LossSpec.total]

/-! ## The result array -/

/-- Entry k of a vector of seven functions applied at a point. -/
theorem vec7_apply {α β : Type} (x0 x1 x2 x3 x4 x5 x6 : α → β) (a : α) (k : Fin 7) :
    (![x0, x1, x2, x3, x4, x5, x6] k) a = ![x0 a, x1 a, x2 a, x3 a, x4 a, x5 a, x6 a] k := by
  fin_cases k <;> rfl

theorem e142_at : W[main_v142] (ix1 (0 : Fin 1)) = LossSpec.mean1 (LossSpec.Sbce A) LossSpec.cE := by
  rw [at_main_v142, broadcastInDim_scalar_apply, v25_at]
theorem e143_at : W[main_v143] (ix1 (0 : Fin 1)) = LossSpec.mean1 (LossSpec.Ssq A) LossSpec.c2E := by
  rw [at_main_v143, broadcastInDim_scalar_apply, v30_at]
theorem e144_at : W[main_v144] (ix1 (0 : Fin 1)) = LossSpec.kcl (∑ n, LossSpec.nodeR A n * LossSpec.nodeR A n) := by
  rw [at_main_v144, broadcastInDim_scalar_apply, v99_at]
theorem e145_at : W[main_v145] (ix1 (0 : Fin 1)) = LossSpec.kvl (LossSpec.pcR A) (LossSpec.vcR A) := by
  rw [at_main_v145, broadcastInDim_scalar_apply, v124_at]
theorem e146_at : W[main_v146] (ix1 (0 : Fin 1)) = LossSpec.radial (LossSpec.Sp A) := by
  rw [at_main_v146, broadcastInDim_scalar_apply, v133_at]
theorem e147_at : W[main_v147] (ix1 (0 : Fin 1)) = LossSpec.sparsity (LossSpec.Sp A) := by
  rw [at_main_v147, broadcastInDim_scalar_apply, v136_at]
theorem e148_at : W[main_v148] (ix1 (0 : Fin 1))
    = LossSpec.total (LossSpec.mean1 (LossSpec.Sbce A) LossSpec.cE) (LossSpec.mean1 (LossSpec.Ssq A) LossSpec.c2E)
        (LossSpec.kcl (∑ n, LossSpec.nodeR A n * LossSpec.nodeR A n)) (LossSpec.kvl (LossSpec.pcR A) (LossSpec.vcR A))
        (LossSpec.radial (LossSpec.Sp A)) (LossSpec.sparsity (LossSpec.Sp A)) := by
  rw [at_main_v148, broadcastInDim_scalar_apply, v141_at]

/-- Entry k of the result buffer is the k-th result of the formula through deviations. -/
theorem ref_entry (k : Fin 7) :
    after (ops (F := Ideal)) V (main_v149 : DevRef τ sig) (ix1 k) = LossSpec.formR (argsOf V) k := by
  rw [at_main_v149, concat7_apply, vec7_apply, e142_at, e143_at, e144_at, e145_at, e146_at, e147_at, e148_at]
  unfold LossSpec.formR LossSpec.seven
  with_reducible rfl

/-- The result buffer holds the seven results of the formula through deviations, entry by entry. -/
theorem ref_value : after (ops (F := Ideal)) V (main_v149 : DevRef τ sig) = LossSpec.pack7 (LossSpec.formR (argsOf V)) := by
  funext j
  rw [eq_ix1 j]
  exact ref_entry V (j 0)

end Cert.ReferenceIdeal.HRun

end
-- ==== Proof.LibRealClosure.lean ====
/-
  Extended reals that are reals, and the operations that keep them so.

  `IsReal x` says that the extended real `x` is the coercion of a real.  Sums, products, differences, finite sums,
  maxima, the exponential and a quotient by a nonzero real all stay inside the reals; so does a scaled dot product of
  two real vectors.
-/
import Idealize.ShloMosaic.PureOps.Ideal

noncomputable section

open scoped BigOperators

namespace RealClosure

open Idealize.ShloMosaic

/-- An extended real that is the coercion of a real. -/
def IsReal (x : EReal) : Prop := ∃ r : ℝ, x = (r : EReal)

/-- The coercion of a real is a real. -/
theorem IsReal.coe (r : ℝ) : IsReal (r : EReal) := ⟨r, rfl⟩

/-- Zero is a real. -/
theorem IsReal.zero : IsReal 0 := ⟨0, rfl⟩

/-- One is a real. -/
theorem IsReal.one : IsReal 1 := ⟨1, rfl⟩

/-- A real is not `⊤`. -/
theorem IsReal.ne_top {x : EReal} (hx : IsReal x) : x ≠ ⊤ := by
  obtain ⟨r, rfl⟩ := hx; exact EReal.coe_ne_top r

/-- A real is not `⊥`. -/
theorem IsReal.ne_bot {x : EReal} (hx : IsReal x) : x ≠ ⊥ := by
  obtain ⟨r, rfl⟩ := hx; exact EReal.coe_ne_bot r

/-- An extended real that is neither `⊤` nor `⊥` is a real. -/
theorem isReal_of_ne {x : EReal} (ht : x ≠ ⊤) (hb : x ≠ ⊥) : IsReal x := ⟨x.toReal, (EReal.coe_toReal ht hb).symm⟩

/-- Being a real is being neither `⊤` nor `⊥`. -/
theorem isReal_iff {x : EReal} : IsReal x ↔ x ≠ ⊤ ∧ x ≠ ⊥ :=
  ⟨fun h => ⟨h.ne_top, h.ne_bot⟩, fun h => isReal_of_ne h.1 h.2⟩

/-- A real is the coercion of its real part. -/
theorem IsReal.coe_toReal {x : EReal} (hx : IsReal x) : ((x.toReal : ℝ) : EReal) = x :=
  EReal.coe_toReal hx.ne_top hx.ne_bot

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a t ha ih =>
    rw [Finset.sum_insert ha]
    exact (h a (Finset.mem_insert_self a t)).add (ih fun i hi => h i (Finset.mem_insert_of_mem hi))

/-- A sum of reals over a whole finite type is a real. -/
theorem IsReal.sum_univ {ι : Type*} [Fintype ι] (f : ι → EReal) (h : ∀ i, IsReal (f i)) : IsReal (∑ i, f i) :=
  IsReal.sum _ f fun i _ => h i

/-- The larger of two reals is a real. -/
theorem IsReal.max {x y : EReal} (hx : IsReal x) (hy : IsReal y) : IsReal (max x y) := by
  rcases max_choice x y with h | h <;> rw [h] <;> assumption

/-- The smaller of two reals is a real. -/
theorem IsReal.min {x y : EReal} (hx : IsReal x) (hy : IsReal y) : IsReal (min x y) := by
  rcases min_choice x y with h | h <;> rw [h] <;> assumption

/-- The exponential of a real is a positive real. -/
theorem IsReal.exp_pos_real {x : EReal} (hx : IsReal x) : ∃ r : ℝ, 0 < r ∧ Ideal.exp x = (r : EReal) := by
  obtain ⟨a, rfl⟩ := hx; exact ⟨Real.exp a, Real.exp_pos a, Ideal.exp_coe a⟩

/-- The exponential of a real is a real. -/
theorem IsReal.exp {x : EReal} (hx : IsReal x) : IsReal (Ideal.exp x) := by
  obtain ⟨r, _, h⟩ := hx.exp_pos_real; exact ⟨r, h⟩

/-- The exponential of a real is positive. -/
theorem IsReal.exp_pos {x : EReal} (hx : IsReal x) : 0 < Ideal.exp x := by
  obtain ⟨r, hr, h⟩ := hx.exp_pos_real; rw [h]; exact_mod_cast hr

/-- The exponential of a real is not zero. -/
theorem IsReal.exp_ne_zero {x : EReal} (hx : IsReal x) : Ideal.exp x ≠ 0 := hx.exp_pos.ne'

/-- The quotient of a real by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a * (1 / b), by rw [Ideal.div_coe hb, ← EReal.coe_mul]⟩

/-- A scaled dot product of two real vectors is a real. -/
theorem IsReal.score {D : ℕ} (q k : Fin D → EReal) (c : EReal) (hq : ∀ d, IsReal (q d)) (hk : ∀ d, IsReal (k d))
    (hc : IsReal c) : IsReal ((∑ d, q d * k d) * c) :=
  (IsReal.sum_univ _ fun d => (hq d).mul (hk d)).mul hc

/-- The same with the scale folded into the first vector. -/
theorem IsReal.score_pre {D : ℕ} (q k : Fin D → EReal) (c : EReal) (hq : ∀ d, IsReal (q d)) (hk : ∀ d, IsReal (k d))
    (hc : IsReal c) : IsReal (∑ d, (q d * c) * k d) :=
  IsReal.sum_univ _ fun d => ((hq d).mul hc).mul (hk d)

end RealClosure

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.LossLaws.lean ====
/-
  Laws of sums of extended reals that are real numbers: a weighted second moment about a point, the sum of squared
  deviations from the mean, and a difference of two gathered sums against one sum of signed terms.
-/
import Idealize.ShloMosaic.PureOps.Ideal
import proofs.«176581_j38010460570140_2_alg».proof.Proof.LibRealClosure
import proofs.«176581_j38010460570140_2_alg».proof.Proof.LibRealSums

noncomputable section

open scoped BigOperators

namespace LossLaws

open Idealize.ShloMosaic RealClosure

variable {ι : Type*} [Fintype ι]

/-- The weighted second moment about a real point μ, expanded: Σ (R - μ)² p = Σ R² p - 2 μ Σ R p + μ² Σ p,
    for real R, p, μ (distributivity over the extended reals needs every term finite). -/
theorem wvar_expand (R p : ι → EReal) (μ two : EReal) (hR : ∀ e, IsReal (R e)) (hp : ∀ e, IsReal (p e))
    (hμ : IsReal μ) (h2 : two = ((2 : ℝ) : EReal)) :
    ∑ e, ((R e - μ) * (R e - μ)) * p e
      = ((∑ e, (R e * R e) * p e) - (two * μ) * (∑ e, R e * p e)) + (μ * μ) * (∑ e, p e) := by
  choose r hr using hR
  choose q hq using hp
  obtain ⟨m, rfl⟩ := hμ
  subst h2
  simp only [hr, hq, ← EReal.coe_mul, ← EReal.coe_sub, ← EReal.coe_add, ← RealSums.coe_sum_real]
  congr 1
  rw [Finset.mul_sum, Finset.mul_sum, ← Finset.sum_sub_distrib, ← Finset.sum_add_distrib]
  exact Finset.sum_congr rfl fun e _ => by ring

/-- The sum of squared deviations from the mean m = (Σ v) / n, n the number of terms:
    Σ (v - m)² = Σ v² - n m². -/
theorem var_expand (v : ι → EReal) (n m : EReal) (hv : ∀ e, IsReal (v e))
    (hn : n = ((Fintype.card ι : ℝ) : EReal)) (hcard : 0 < Fintype.card ι) (hm : m = Ideal.div (∑ e, v e) n) :
    ∑ e, (v e - m) * (v e - m) = (∑ e, v e * v e) - (n * m) * m := by
  choose r hr using hv
  have hc : (Fintype.card ι : ℝ) ≠ 0 := by exact_mod_cast hcard.ne'
  subst hn
  simp only [hr, ← RealSums.coe_sum_real] at hm ⊢
  rw [Ideal.div_coe hc, ← EReal.coe_mul] at hm
  subst hm
  simp only [← EReal.coe_mul, ← EReal.coe_sub, ← RealSums.coe_sum_real]
  congr 1
  generalize hM : (∑ e, r e) * (1 / (Fintype.card ι : ℝ)) = M
  have hS : ∑ e, r e = (Fintype.card ι : ℝ) * M := by rw [← hM]; field_simp
  have hsq : ∀ e, (r e - M) * (r e - M) = r e * r e - 2 * M * r e + M * M := fun e => by ring
  simp only [hsq]
  rw [Finset.sum_add_distrib, Finset.sum_sub_distrib, ← Finset.mul_sum, hS, Finset.sum_const, Finset.card_univ,
    nsmul_eq_mul]
  ring

/-- The sum of the negated terms is the negated sum, unless a ⊤ meets a ⊥ among the terms, and then both sums are ⊥. -/
theorem sum_neg_eq_or_bot (s : Finset ι) (c : ι → EReal) :
    (∑ e ∈ s, -(c e)) = -(∑ e ∈ s, c e) ∨ ((∑ e ∈ s, -(c e)) = ⊥ ∧ (∑ e ∈ s, c e) = ⊥) := by
  classical
  induction s using Finset.induction_on with
  | empty => left; simp
  | insert a t ha ih =>
    rw [Finset.sum_insert ha, Finset.sum_insert ha]
    rcases ih with h | ⟨h1, h2⟩
    · rw [h]
      by_cases k1 : c a = ⊥ ∧ (∑ e ∈ t, c e) = ⊤
      · right; rw [k1.1, k1.2]; simp
      · by_cases k2 : c a = ⊤ ∧ (∑ e ∈ t, c e) = ⊥
        · right; rw [k2.1, k2.2]; simp
        · left; rw [EReal.neg_add (by tauto) (by tauto), sub_eq_add_neg]
    · right; rw [h1, h2]; simp

/-- For ANY extended reals c e (infinite ones included): adding to A the sum of the negated terms, or subtracting
    from A the sum of the terms, gives numbers with the same square. When no ⊤ meets a ⊥ among the c e the two
    are equal; when one does, both sums are ⊥ and both squares are ⊤. -/
theorem sq_scatter (A : EReal) (s : Finset ι) (c : ι → EReal) :
    (A + ∑ e ∈ s, -(c e)) * (A + ∑ e ∈ s, -(c e)) = (A - ∑ e ∈ s, c e) * (A - ∑ e ∈ s, c e) := by
  rcases sum_neg_eq_or_bot s c with h | ⟨h1, h2⟩
  · rw [h, ← sub_eq_add_neg]
  · rw [h1, h2, EReal.add_bot, sub_eq_add_neg, EReal.neg_bot]
    induction A using EReal.rec <;> simp

/-- The logistic function of a real number is a positive real number. -/
theorem logistic_real_pos (x : EReal) (hx : IsReal x) : ∃ r : ℝ, 0 < r ∧ Ideal.logistic x = (r : EReal) := by
  obtain ⟨a, rfl⟩ := hx
  exact ⟨(1 + Real.exp (-a))⁻¹, by positivity, Ideal.logistic_coe a⟩

/-- The Euclidean length of a real pair is a real number. -/
theorem dist_real (a b : EReal) (ha : IsReal a) (hb : IsReal b) : IsReal (Ideal.sqrt (a * a + b * b)) := by
  obtain ⟨x, rfl⟩ := ha
  obtain ⟨y, rfl⟩ := hb
  rw [← EReal.coe_mul, ← EReal.coe_mul, ← EReal.coe_add, Ideal.sqrt_coe,
    if_neg (not_lt.mpr (add_nonneg (mul_self_nonneg x) (mul_self_nonneg y)))]
  exact ⟨_, rfl⟩

/-- A sum of positive reals over a nonempty index set, plus a nonnegative real, is a nonzero real. -/
theorem sum_pos_add_ne_zero [Nonempty ι] (p : ι → EReal) (eps : EReal) (hp : ∀ e, ∃ r : ℝ, 0 < r ∧ p e = (r : EReal))
    (he : ∃ r : ℝ, 0 ≤ r ∧ eps = (r : EReal)) : IsReal ((∑ e, p e) + eps) ∧ (∑ e, p e) + eps ≠ 0 := by
  choose r hr using hp
  obtain ⟨t, ht, rfl⟩ := he
  have hs : ∑ e, p e = ((∑ e, r e : ℝ) : EReal) := by
    rw [RealSums.coe_sum_real]; exact Finset.sum_congr rfl fun e _ => (hr e).2
  have hpos : 0 < (∑ e, r e) + t :=
    add_pos_of_pos_of_nonneg (Finset.sum_pos (fun e _ => (hr e).1) Finset.univ_nonempty) ht
  rw [hs, ← EReal.coe_add]
  exact ⟨⟨_, rfl⟩, by exact_mod_cast hpos.ne'⟩

end LossLaws

end
-- ==== Proof.LossBridge.lean ====
/-
  The two formulas of the loss agree when the node array, the logits and the edge parameters are real numbers.

  The weighted second moment about the weighted mean is expanded into the three moments, the sum of squared
  deviations of the weighted voltage drops from their mean into the two sums, and the square of a node's current
  does not depend on whether the outgoing currents are subtracted as one sum or added as negated terms (the
  currents themselves may be infinite).
-/
import proofs.«176581_j38010460570140_2_alg».proof.Proof.LossSpec
import proofs.«176581_j38010460570140_2_alg».proof.Proof.LossConsts
import proofs.«176581_j38010460570140_2_alg».proof.Proof.LossLaws
import proofs.«176581_j38010460570140_2_alg».proof.Proof.LibRealClosure
import proofs.«176581_j38010460570140_2_alg».proof.Proof.LibRealSums

noncomputable section

open scoped BigOperators

namespace LossSpec

open Idealize.ShloMosaic ValueIdx RealClosure

variable (A : Args)

/-- The weight of an edge with a real logit is a positive real. -/
theorem p_pos_real (hlg : ∀ i, IsReal (A.lg i)) (e : Fin 6400000) : ∃ r : ℝ, 0 < r ∧ p A e = (r : EReal) :=
  LossLaws.logistic_real_pos _ (hlg _)

/-- The weight of an edge with a real logit is a real. -/
theorem p_real (hlg : ∀ i, IsReal (A.lg i)) (e : Fin 6400000) : IsReal (p A e) := by
  obtain ⟨r, _, h⟩ := p_pos_real A hlg e; exact ⟨r, h⟩

theorem R_real (hep : ∀ i, IsReal (A.ep i)) (e : Fin 6400000) : IsReal (R A e) := hep _

theorem X_real (hep : ∀ i, IsReal (A.ep i)) (e : Fin 6400000) : IsReal (X A e) := hep _

theorem da_real (hnf : ∀ i, IsReal (A.nf i)) (e : Fin 6400000) : IsReal (da A e) := (hnf _).sub (hnf _)

theorem db_real (hnf : ∀ i, IsReal (A.nf i)) (e : Fin 6400000) : IsReal (db A e) := (hnf _).sub (hnf _)

/-- The weighted voltage drop of an edge is a real. -/
theorem vd_real (hnf : ∀ i, IsReal (A.nf i)) (hlg : ∀ i, IsReal (A.lg i)) (e : Fin 6400000) : IsReal (vd A e) :=
  (LossLaws.dist_real _ _ (da_real A hnf e) (db_real A hnf e)).mul (p_real A hlg e)

/-- The sum of the weights plus the small constant is a nonzero real. -/
theorem Sp_eps (hlg : ∀ i, IsReal (A.lg i)) : IsReal (Sp A + eps) ∧ Sp A + eps ≠ 0 := by
  haveI : Nonempty (Fin 6400000) := ⟨⟨0, by norm_num⟩⟩
  exact LossLaws.sum_pos_add_ne_zero (p A) eps (p_pos_real A hlg) eps_real

/-- The moment form of the weighted variance of a real quantity is its deviation form. -/
theorem momVar_eq_devVar (hlg : ∀ i, IsReal (A.lg i)) (P : Fin 6400000 → EReal) (hP : ∀ e, IsReal (P e)) :
    momVar (∑ e, (P e * P e) * p A e) (∑ e, P e * p A e) (Sp A) = devVar A P := by
  have hμ : IsReal (Ideal.div (∑ e, P e * p A e) (Sp A + eps)) :=
    IsReal.div (IsReal.sum_univ _ fun e => (hP e).mul (p_real A hlg e)) (Sp_eps A hlg).1 (Sp_eps A hlg).2
  have h := LossLaws.wvar_expand P (p A) _ two hP (p_real A hlg) hμ two_eq
  unfold momVar devVar
  exact h.symm

/-- The two forms of the variance of the weighted voltage drops agree. -/
theorem vcK_eq_vcR (hnf : ∀ i, IsReal (A.nf i)) (hlg : ∀ i, IsReal (A.lg i)) : vcK A = vcR A := by
  have hn : cE = ((Fintype.card (Fin 6400000) : ℝ) : EReal) := by rw [cE_eq, Fintype.card_fin]; norm_num
  have hc : 0 < Fintype.card (Fin 6400000) := by rw [Fintype.card_fin]; norm_num
  have h := LossLaws.var_expand (vd A) cE (Ideal.div (∑ e, vd A e) cE) (vd_real A hnf hlg) hn hc rfl
  unfold vcK vcR
  rw [cE_sub_one]
  exact congrArg (fun t => Ideal.div t cEm1) h.symm

/-- The square of a node's current is the same in both forms, whatever the currents are. -/
theorem node_sq (n : Fin 200000) : nodeK A n * nodeK A n = nodeR A n * nodeR A n := by
  unfold nodeK nodeR
  exact LossLaws.sq_scatter _ _ (c A)

/-- The two formulas of the seven results agree on real node values, logits and edge parameters. -/
theorem forms_eq (hnf : ∀ i, IsReal (A.nf i)) (hlg : ∀ i, IsReal (A.lg i)) (hep : ∀ i, IsReal (A.ep i)) :
    formK A = formR A := by
  have h1 : (∑ n, nodeK A n * nodeK A n) = ∑ n, nodeR A n * nodeR A n :=
    Finset.sum_congr rfl fun n _ => node_sq A n
  have h2 : pcK A = pcR A := by
    unfold pcK pcR
    rw [momVar_eq_devVar A hlg (R A) (R_real A hep), momVar_eq_devVar A hlg (X A) (X_real A hep)]
  unfold formK formR
  rw [h1, h2, vcK_eq_vcR A hnf hlg]

end LossSpec

end
-- ==== Proof.LibFiniteReal.lean ====
/-
  An array of extended reals every entry of which has absolute value below +∞ is an array of real numbers.

  A "finite inputs" precondition is printed, per float array, as: the absolute value entry by entry, compared (ordered
  less-than) against the broadcast word of +∞, and the comparison bits joined by `and` over all axes starting from 1.
  `real_of_abs_lt_inf` is the fact at one entry: an extended real `x` with `max x (-x) < ⊤` is neither `⊤` nor `⊥`, hence
  a real number.  `all_real` is the fact for one array of ANY shape: if that conjunction is 1, every entry is a real
  number (the entry is read at a symbolic index; nothing is evaluated over the index set).  Imports only the library.
-/
import Idealize.ShloMosaic.Lib.ValueIdx
import Idealize.ShloMosaic.Lib.ReduceAll
import Idealize.ShloMosaic.PureOps.Ideal.Laws

noncomputable section

namespace FiniteReal

open Idealize.ShloMosaic

/-- The rank-0 shape has exactly one index (a function out of the empty set of axes). -/
instance subsingleton_scalar_idx : Subsingleton (⟨0, ![]⟩ : Shape).Idx := ⟨fun _ _ => funext fun d => d.elim0⟩

/-- The word `0x7F800000` denotes `+∞` at f32. -/
theorem ofBits_inf : Ideal.ofBits .f32 0x7F800000#32 = (⊤ : EReal) := by simp [Ideal.ofBits, Ideal.ieee]

/-- A one-bit word built from a Boolean is 1 exactly when the Boolean is true. -/
theorem ofBool_eq_one (b : Bool) : BitVec.ofBool b = 1#1 ↔ b = true := by cases b <;> decide

/-- THE ELEMENT FACT: an extended real `x` with `|x| < +∞` (the comparison the predicate makes at one entry) is a
    real number: `x = ⊥` gives `|x| = max ⊥ ⊤ = ⊤`, `x = ⊤` gives `|x| = ⊤`, neither below `⊤`. -/
theorem real_of_abs_lt_inf (x : EReal)
    (hx : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  rw [ofBool_eq_one] at hx
  have hlt : max x (-x) < ⊤ := of_decide_eq_true hx
  rw [max_lt_iff] at hlt
  induction x using EReal.rec with
  | bot => exact absurd hlt.2 (by simp)
  | coe r => exact ⟨r, rfl⟩
  | top => exact absurd hlt.1 (by simp)

/-- ONE ARRAY: if the conjunction over all entries of `|a j| < +∞` (a reduction by `and` over all axes, from 1, of
    the entrywise comparison against the broadcast `+∞`) is 1, every entry of `a` is a real number. Generic in the
    array's shape: the entry is read at a symbolic index. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (a : FVec Ideal s .f32)
    (i : (⟨0, ![]⟩ : Shape).Idx)
    (e : Host.reduce IntOp.andi
        (cmpf .olt (Host.absf a)
          (broadcastInDim s ![] hb (constant (F := Ideal) (⟨0, ![]⟩ : Shape) .f32 0x7F800000#32)))
        (constantI (⟨0, ![]⟩ : Shape) 1 1#1) hr hu i = 1#1) :
    ∀ j, ∃ r : ℝ, a j = (r : EReal) := fun j =>
  real_of_abs_lt_inf (a j) (Host.reduce_andi_all _ _ hr hu i e j)

end FiniteReal

end
-- ==== Proof.PreReal.lean ====
/-
  The "finite inputs" precondition gives real entries: the node array, the logits and the edge parameters hold real
  numbers at every index.

  The predicate is a conjunction, over the five float arrays, of "every entry has absolute value below +∞".  Its value 1
  splits into the five conjuncts; each conjunct, a reduction by "and" of the entrywise comparison, gives the comparison
  at every entry; an extended real whose absolute value is below +∞ is a real number.
-/
import proofs.«176581_j38010460570140_2_alg».proof.Pre_finite_inputs
import proofs.«176581_j38010460570140_2_alg».proof.Proof.LibFiniteReal
import proofs.«176581_j38010460570140_2_alg».proof.Proof.LibRealClosure
import Idealize.ShloMosaic.Lib.Affine

noncomputable section

namespace Cert.Pre_finite_inputs.Real

open Idealize.ShloMosaic Idealize.ShloMosaic.ValueIdx Cert.Pre_finite_inputs Cert.Pre_finite_inputs.Facts

variable [Facts]

theorem real_of_pre (a0 : FVec Ideal S200000x4 .f32) (a1 : FVec Ideal S6400000 .f32) (a2 : FVec Ideal S6400000x2 .f32)
    (a3 : FVec Ideal S6400000 .f32) (a4 : FVec Ideal S6400000x2 .f32) (a5 : IVec S2x6400000 32)
    (h : fn (F := Ideal) a0 a1 a2 a3 a4 a5 = fun _ => 1#1) :
    (∀ j, RealClosure.IsReal (a0 j)) ∧ (∀ j, RealClosure.IsReal (a1 j)) ∧ (∀ j, RealClosure.IsReal (a2 j)) := by
  have h0 := congrFun h ix0
  dsimp only [fn, fn_part1] at h0
  have h4 := (IntOp.andi_eq_one.mp h0).1
  have h3 := (IntOp.andi_eq_one.mp h4).1
  have h2 := IntOp.andi_eq_one.mp h3
  have h1 := IntOp.andi_eq_one.mp h2.1
  exact ⟨FiniteReal.all_real _ _ _ a0 ix0 h1.1, FiniteReal.all_real _ _ _ a1 ix0 h1.2, FiniteReal.all_real _ _ _ a2 ix0 h2.2⟩

end Cert.Pre_finite_inputs.Real

end
-- ==== Proof.lean ====
/-
  The certificate: a kernel that computes a physics-constrained graph loss band by band, against the plain formula.

  Both programs return seven numbers: the mean binary cross-entropy of the edge logits, the mean squared difference of
  the edge parameters, a Kirchhoff current term (the mean squared net current per node), a Kirchhoff voltage term
  (the weighted variance of the edge parameters plus the unbiased variance of the voltage drops), a radiality term, a
  sparsity term, and their sum.  The kernel leaves the weighted currents and, per band of 2000 × 128 edges, nine
  partial sums; the host lines after it add the bands up and form the terms from the moments Σ p, Σ R p, Σ R² p, Σ vd,
  Σ vd²; the node currents come from one accumulating scatter of the currents and their negatives.  The reference forms
  the variances from the deviations about the means and the node currents as a difference of two scatters.  On real
  inputs the two are equal: a sum over all edges is the sum over the bands of the bands' sums, the second moment about
  the mean expands (every term finite), and the two spellings of a node's current have the same square even where an
  edge's current is infinite.

  The three frames are the runs with the results dropped; the idealization rewrote nothing.
-/
import proofs.«176581_j38010460570140_2_alg».proof.Defs
import proofs.«176581_j38010460570140_2_alg».proof.Proof.Gen.Kernel
import proofs.«176581_j38010460570140_2_alg».proof.Proof.Gen.KernelIdeal
import proofs.«176581_j38010460570140_2_alg».proof.Proof.Gen.ReferenceIdeal
import proofs.«176581_j38010460570140_2_alg».proof.Proof.Gen.Pre_finite_inputs
import proofs.«176581_j38010460570140_2_alg».proof.Proof.KFrame
import proofs.«176581_j38010460570140_2_alg».proof.Proof.KiFrame
import proofs.«176581_j38010460570140_2_alg».proof.Proof.KiValue8
import proofs.«176581_j38010460570140_2_alg».proof.Proof.KiValue9
import proofs.«176581_j38010460570140_2_alg».proof.Proof.KValue
import proofs.«176581_j38010460570140_2_alg».proof.Proof.RefRun
import proofs.«176581_j38010460570140_2_alg».proof.Proof.RefValue
import proofs.«176581_j38010460570140_2_alg».proof.Proof.LossBridge
import proofs.«176581_j38010460570140_2_alg».proof.Proof.PreReal

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.HF.frame m ρ

theorem frame_ki : Cert.frame_KernelIdeal (hKernelIdeal := Cert.KernelIdeal.Gen.facts) (hPre_finite_inputs := Cert.Pre_finite_inputs.Gen.facts) :=
  fun m ρ _ => Cert.KernelIdeal.HF.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.HRun.frame m ρ

/-- The kernel's two results are the weighted currents and the bands' partial sums of the argument arrays. -/
theorem kernel_results (m : (ℓ : Loc Cert.KernelIdeal.nD Cert.KernelIdeal.τ Cert.KernelIdeal.sig) → Buf (Elt Ideal) ℓ)
    (c : Dev Cert.KernelIdeal.nD) :
    (Cert.KernelIdeal.HF.dats m 0 c).arrAt 8 Cert.KernelIdeal.cfg0.N = KSpec.curp2 (Cert.KernelIdeal.HV.argsK m c)
      ∧ (Cert.KernelIdeal.HF.dats m 0 c).arrAt 9 Cert.KernelIdeal.cfg0.N = KSpec.sums3 (Cert.KernelIdeal.HV.argsK m c) :=
  ⟨Cert.KernelIdeal.HF.final8 m c _ (Cert.KernelIdeal.HV.V_v36 m c) (Cert.KernelIdeal.HV.V_v38 m c)
      (Cert.KernelIdeal.HV.V_v39 m c) (Cert.KernelIdeal.HV.V_v40 m c) (Cert.KernelIdeal.HV.V_v41 m c),
    Cert.KernelIdeal.HF.final9 m c _ (Cert.KernelIdeal.HV.V_v36 m c) (Cert.KernelIdeal.HV.V_v37 m c)
      (Cert.KernelIdeal.HV.V_v38 m c) (Cert.KernelIdeal.HV.V_v39 m c) (Cert.KernelIdeal.HV.V_v40 m c)
      (Cert.KernelIdeal.HV.V_v41 m c) (Cert.KernelIdeal.HV.V_v42 m c) (Cert.KernelIdeal.HV.V_v43 m c)⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => LossSpec.pack7 (LossSpec.formK (Cert.KernelIdeal.HV.argsK m c)),
    Cert.KernelIdeal.HV.kernel_run m ρ (fun c => (kernel_results m c).1) (fun c => (kernel_results m c).2), ?_⟩
  refine (θ_run Cert.ReferenceIdeal.defs _ _).mono (fun r h c => ?_) (Cert.ReferenceIdeal.HRun.run_main (F := Ideal) m' ρ')
  obtain ⟨e0, e1, e2, e3, e4, e5⟩ := hagree c
  have hreal := Cert.Pre_finite_inputs.Real.real_of_pre _ _ _ _ _ _ (hpre c)
  have hA : Cert.ReferenceIdeal.HRun.argsOf (StableHlo.launchContents m' c) = Cert.KernelIdeal.HV.argsK m c := by
    unfold Cert.ReferenceIdeal.HRun.argsOf Cert.KernelIdeal.HV.argsK Cert.KernelIdeal.HV.argsOfU
    exact congr (congr (congr (congr (congr (congrArg LossSpec.Args.mk e0) e1) e2) e3) e4) e5
  refine ⟨?_, ?_, ?_, ?_, ?_, ?_, ?_⟩
  · rw [h c Cert.ReferenceIdeal.main_v149, Cert.ReferenceIdeal.HRun.ref_value, hA]
    exact congrArg LossSpec.pack7 (LossSpec.forms_eq _ hreal.1 hreal.2.1 hreal.2.2).symm
  · exact (h c Cert.ReferenceIdeal.main_arg0).trans (Cert.ReferenceIdeal.HRun.arg0_kept _)
  · exact (h c Cert.ReferenceIdeal.main_arg1).trans (Cert.ReferenceIdeal.HRun.arg1_kept _)
  · exact (h c Cert.ReferenceIdeal.main_arg2).trans (Cert.ReferenceIdeal.HRun.arg2_kept _)
  · exact (h c Cert.ReferenceIdeal.main_arg3).trans (Cert.ReferenceIdeal.HRun.arg3_kept _)
  · exact (h c Cert.ReferenceIdeal.main_arg4).trans (Cert.ReferenceIdeal.HRun.arg4_kept _)
  · exact (h c Cert.ReferenceIdeal.main_arg5).trans (Cert.ReferenceIdeal.HRun.arg5_kept _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
